-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S256x128 : Shape := ⟨2, ![256, 128]⟩
abbrev S128x256 : Shape := ⟨2, ![128, 256]⟩
abbrev S256x512 : Shape := ⟨2, ![256, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  main_v38

def fn_part1 {F : FTy → Type} [FloatOps F] (main_arg4 : FVec F S256x128 .f32) (main_arg5 : FVec F S128x256 .f32) (main_arg6 : FVec F S256x512 .f32) (main_arg7 : FVec F S512x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_v33

def fn {F : FTy → Type} [FloatOps F] (main_arg0 : FVec F S4096x512 .f32) (main_arg1 : FVec F S4096x4096 .f32) (main_arg2 : FVec F S512x512 .f32) (main_arg3 : FVec F S512x256 .f32) (main_arg4 : FVec F S256x128 .f32) (main_arg5 : FVec F S128x256 .f32) (main_arg6 : FVec F S256x512 .f32) (main_arg7 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S256x128 : Shape := ⟨2, ![256, 128]⟩
abbrev S128x256 : Shape := ⟨2, ![128, 256]⟩
abbrev S256x512 : Shape := ⟨2, ![256, 512]⟩
abbrev S4096x128 : Shape := ⟨2, ![4096, 128]⟩
abbrev S256x4096 : Shape := ⟨2, ![256, 4096]⟩
abbrev S256x256 : Shape := ⟨2, ![256, 256]⟩
abbrev S4096x256 : Shape := ⟨2, ![4096, 256]⟩
abbrev S512x128 : Shape := ⟨2, ![512, 128]⟩
abbrev S512x4096 : Shape := ⟨2, ![512, 4096]⟩

abbrev nBuf : Space → Nat
  | .hbm => 17
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S256x128, .f32⟩
  | .hbm, ⟨5, _⟩ => ⟨S128x256, .f32⟩
  | .hbm, ⟨6, _⟩ => ⟨S256x512, .f32⟩
  | .hbm, ⟨7, _⟩ => ⟨S512x512, .f32⟩
  | .hbm, ⟨8, _⟩ => ⟨S512x512, .bf16⟩
  | .hbm, ⟨9, _⟩ => ⟨S512x256, .bf16⟩
  | .hbm, ⟨10, _⟩ => ⟨S256x128, .bf16⟩
  | .hbm, ⟨11, _⟩ => ⟨S128x256, .bf16⟩
  | .hbm, ⟨12, _⟩ => ⟨S256x512, .bf16⟩
  | .hbm, ⟨13, _⟩ => ⟨S512x512, .bf16⟩
  | .hbm, ⟨14, _⟩ => ⟨S4096x128, .f32⟩
  | .hbm, ⟨15, _⟩ => ⟨S4096x512, .f32⟩
  | .hbm, ⟨16, _⟩ => ⟨S4096x4096, .f32⟩
  | .local _ .vmem, ⟨0, _⟩ => ⟨S256x512, .f32⟩
  | .local _ .vmem, ⟨1, _⟩ => ⟨S256x512, .f32⟩
  | .local _ .vmem, ⟨2, _⟩ => ⟨S256x4096, .f32⟩
  | .local _ .vmem, ⟨3, _⟩ => ⟨S256x4096, .f32⟩
  | .local _ .vmem, ⟨4, _⟩ => ⟨S512x512, .bf16⟩
  | .local _ .vmem, ⟨5, _⟩ => ⟨S512x256, .bf16⟩
  | .local _ .vmem, ⟨6, _⟩ => ⟨S256x128, .bf16⟩
  | .local _ .vmem, ⟨7, _⟩ => ⟨S128x256, .bf16⟩
  | .local _ .vmem, ⟨8, _⟩ => ⟨S256x512, .bf16⟩
  | .local _ .vmem, ⟨9, _⟩ => ⟨S512x512, .bf16⟩
  | .local _ .vmem, ⟨10, _⟩ => ⟨S256x128, .f32⟩
  | .local _ .vmem, ⟨11, _⟩ => ⟨S256x128, .f32⟩
  | .local _ .vmem, ⟨12, _⟩ => ⟨S256x512, .f32⟩
  | .local _ .vmem, ⟨13, _⟩ => ⟨S256x512, .f32⟩
  | .local _ .vmem, ⟨14, _⟩ => ⟨S4096x4096, .bf16⟩
  | .local _ .vmem, ⟨15, _⟩ => ⟨S4096x512, .bf16⟩
  | .local _ .vmem, ⟨16, _⟩ => ⟨S4096x512, .bf16⟩
  | .local _ .vmem, ⟨17, _⟩ => ⟨S4096x128, .bf16⟩
  | .local _ .vmem, ⟨18, _⟩ => ⟨S512x128, .f32⟩
  | .local _ .vmem, ⟨19, _⟩ => ⟨S512x128, .f32⟩
  | .local _ .vmem, ⟨20, _⟩ => ⟨S4096x128, .f32⟩
  | .local _ .vmem, ⟨21, _⟩ => ⟨S512x512, .f32⟩
  | .local _ .vmem, ⟨22, _⟩ => ⟨S512x512, .f32⟩
  | .local _ .vmem, ⟨23, _⟩ => ⟨S4096x512, .f32⟩
  | .local _ .vmem, ⟨24, _⟩ => ⟨S512x4096, .f32⟩
  | .local _ .vmem, ⟨25, _⟩ => ⟨S512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![7, 16], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_10 : Index := 0#32
  ![v28.toNat, 0]
def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_1 : BitVec 32 := 0#32
  let v6 : BitVec 1 := Scalar.cmpi .ne v5 c0_i32_1
  v6

def k0_off2 (i : grid0.Coords) : Fin 2 → Nat :=
  let arg1 : BitVec 32 := BitVec.ofNat 32 (i 1).val
  let c256_i32 : BitVec 32 := 256#32
  let v0 : BitVec 32 := Scalar.muli arg1 c256_i32
  let v24 : Index := Scalar.indexCast v0
  let c0_8 : Index := 0#32
  ![v24.toNat, 0]
def k0_off3 (i : grid0.Coords) : Fin 2 → Nat :=
  let arg1 : BitVec 32 := BitVec.ofNat 32 (i 1).val
  let c256_i32 : BitVec 32 := 256#32
  let v0 : BitVec 32 := Scalar.muli arg1 c256_i32
  let v35 : Index := Scalar.indexCast v0
  let c0_14 : Index := 0#32
  ![v35.toNat, 0]
def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_2 : BitVec 32 := 0#32
  let v9 : BitVec 1 := Scalar.cmpi .ne v8 c0_i32_2
  v9

def k0_off4 (i : grid0.Coords) : Fin 2 → Nat :=
  let arg1 : BitVec 32 := BitVec.ofNat 32 (i 1).val
  let c256_i32 : BitVec 32 := 256#32
  let v0 : BitVec 32 := Scalar.muli arg1 c256_i32
  let v22 : Index := Scalar.indexCast v0
  let c0 : Index := 0#32
  ![v22.toNat, 0]
def k0_off5 (i : grid0.Coords) : Fin 2 → Nat :=
  let arg1 : BitVec 32 := BitVec.ofNat 32 (i 1).val
  let c256_i32 : BitVec 32 := 256#32
  let v0 : BitVec 32 := Scalar.muli arg1 c256_i32
  let v31 : Index := Scalar.indexCast v0
  let c0_12 : Index := 0#32
  ![v31.toNat, 0]
def k0_cond4 (i : grid0.Coords) : BitVec 1 :=
  let arg0 : BitVec 32 := BitVec.ofNat 32 (i 0).val
  let c3_i32 : BitVec 32 := 3#32
  let v10 : BitVec 1 := Scalar.cmpi .eq arg0 c3_i32
  let v11 : BitVec 32 := Scalar.extui v10
  let c0_i32_3 : BitVec 32 := 0#32
  let v12 : BitVec 1 := Scalar.cmpi .ne v11 c0_i32_3
  v12

def k0_off6 (i : grid0.Coords) : Fin 2 → Nat :=
  let arg1 : BitVec 32 := BitVec.ofNat 32 (i 1).val
  let c256_i32 : BitVec 32 := 256#32
  let v0 : BitVec 32 := Scalar.muli arg1 c256_i32
  let v22 : Index := Scalar.indexCast v0
  let c0 : Index := 0#32
  ![v22.toNat, 0]
def k0_off7 (i : grid0.Coords) : Fin 2 → Nat :=
  let arg1 : BitVec 32 := BitVec.ofNat 32 (i 1).val
  let c256_i32 : BitVec 32 := 256#32
  let v0 : BitVec 32 := Scalar.muli arg1 c256_i32
  let v28 : Index := Scalar.indexCast v0
  let c0_11 : Index := 0#32
  ![v28.toNat, 0]
def k0_cond5 (i : grid0.Coords) : BitVec 1 :=
  let arg0 : BitVec 32 := BitVec.ofNat 32 (i 0).val
  let c4_i32 : BitVec 32 := 4#32
  let v13 : BitVec 1 := Scalar.cmpi .eq arg0 c4_i32
  let v14 : BitVec 32 := Scalar.extui v13
  let c0_i32_4 : BitVec 32 := 0#32
  let v15 : BitVec 1 := Scalar.cmpi .ne v14 c0_i32_4
  v15

def k0_off8 (i : grid0.Coords) : Fin 2 → Nat :=
  let arg1 : BitVec 32 := BitVec.ofNat 32 (i 1).val
  let c256_i32 : BitVec 32 := 256#32
  let v0 : BitVec 32 := Scalar.muli arg1 c256_i32
  let v22 : Index := Scalar.indexCast v0
  let c0 : Index := 0#32
  ![v22.toNat, 0]
def k0_off9 (i : grid0.Coords) : Fin 2 → Nat :=
  let arg1 : BitVec 32 := BitVec.ofNat 32 (i 1).val
  let c256_i32 : BitVec 32 := 256#32
  let v0 : BitVec 32 := Scalar.muli arg1 c256_i32
  let v31 : Index := Scalar.indexCast v0
  let c0_12 : Index := 0#32
  ![v31.toNat, 0]
def k0_cond6 (i : grid0.Coords) : BitVec 1 :=
  let arg0 : BitVec 32 := BitVec.ofNat 32 (i 0).val
  let c5_i32 : BitVec 32 := 5#32
  let v16 : BitVec 1 := Scalar.cmpi .eq arg0 c5_i32
  let v17 : BitVec 32 := Scalar.extui v16
  let c0_i32_5 : BitVec 32 := 0#32
  let v18 : BitVec 1 := Scalar.cmpi .ne v17 c0_i32_5
  v18

def k0_off10 (i : grid0.Coords) : Fin 2 → Nat :=
  let arg1 : BitVec 32 := BitVec.ofNat 32 (i 1).val
  let c256_i32 : BitVec 32 := 256#32
  let v0 : BitVec 32 := Scalar.muli arg1 c256_i32
  let v22 : Index := Scalar.indexCast v0
  let c0 : Index := 0#32
  ![v22.toNat, 0]
def k0_off11 (i : grid0.Coords) : Fin 2 → Nat :=
  let arg1 : BitVec 32 := BitVec.ofNat 32 (i 1).val
  let c256_i32 : BitVec 32 := 256#32
  let v0 : BitVec 32 := Scalar.muli arg1 c256_i32
  let v35 : Index := Scalar.indexCast v0
  let c0_15 : Index := 0#32
  ![v35.toNat, 0]
def k0_cond7 (i : grid0.Coords) : BitVec 1 :=
  let arg0 : BitVec 32 := BitVec.ofNat 32 (i 0).val
  let c6_i32 : BitVec 32 := 6#32
  let v19 : BitVec 1 := Scalar.cmpi .eq arg0 c6_i32
  let v20 : BitVec 32 := Scalar.extui v19
  let c0_i32_6 : BitVec 32 := 0#32
  let v21 : BitVec 1 := Scalar.cmpi .ne v20 c0_i32_6
  v21

def k0_off12 (i : grid0.Coords) : Fin 2 → Nat :=
  let arg1 : BitVec 32 := BitVec.ofNat 32 (i 1).val
  let c256_i32 : BitVec 32 := 256#32
  let v0 : BitVec 32 := Scalar.muli arg1 c256_i32
  let v22 : Index := Scalar.indexCast v0
  let c0 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c15_i32 : BitVec 32 := 15#32
  let v1 : BitVec 32 := Scalar.select v0 arg1 c15_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c15_i32 : BitVec 32 := 15#32
  let v2 : BitVec 32 := Scalar.select v1 c0_i32 c15_i32
  let v3 : BitVec 32 := Scalar.select v0 arg1 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .eq arg0 c6_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S256x256 : 0 < S256x256.numel
  shapeCasts_S256x256_S256x256 : S256x256.ShapeCasts S256x256
  inb_S4096x512_S4096x256_0_0 : ∀ a, (![0, 0] : Fin 2 → Nat) a + S4096x256.size a ≤ S4096x512.size a
  h_S4096x256 : 0 < S4096x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4096x512_S4096x128_0_0 : ∀ a, (![0, 0] : Fin 2 → Nat) a + S4096x128.size a ≤ S4096x512.size a
  h_S4096x128 : 0 < S4096x128.numel
  inb_S4096x128_S4096x128_0_0 : ∀ a, (![0, 0] : Fin 2 → Nat) a + S4096x128.size a ≤ S4096x128.size a
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S4096x128_S4096x128 : S4096x128.ShapeCasts S4096x128
  shapeCasts_S4096x512_S4096x512 : S4096x512.ShapeCasts S4096x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x4096_S512x4096_0_0 : ∀ a, (![0, 0] : Fin 2 → Nat) a + S512x4096.size a ≤ S512x4096.size a
  h_S512x4096 : 0 < S512x4096.numel
  dot_S256x512_S512x512_S256x512_1_0_0_1_n_n_wf : DotDims.WF S256x512 S512x512 S256x512 [1] [0] [0] [1] [] []
  dot_S256x4096_S4096x512_S256x512_1_0_0_1_n_n_wf : DotDims.WF S256x4096 S4096x512 S256x512 [1] [0] [0] [1] [] []
  dot_S256x512_S512x256_S256x256_1_0_0_1_n_n_wf : DotDims.WF S256x512 S512x256 S256x256 [1] [0] [0] [1] [] []
  dot_S256x4096_S4096x256_S256x256_1_0_0_1_n_n_wf : DotDims.WF S256x4096 S4096x256 S256x256 [1] [0] [0] [1] [] []
  dot_S256x256_S256x128_S256x128_1_0_0_1_n_n_wf : DotDims.WF S256x256 S256x128 S256x128 [1] [0] [0] [1] [] []
  dot_S256x4096_S4096x128_S256x128_1_0_0_1_n_n_wf : DotDims.WF S256x4096 S4096x128 S256x128 [1] [0] [0] [1] [] []
  dot_S256x128_S128x256_S256x256_1_0_0_1_n_n_wf : DotDims.WF S256x128 S128x256 S256x256 [1] [0] [0] [1] [] []
  dot_S256x256_S256x512_S256x512_1_0_0_1_n_n_wf : DotDims.WF S256x256 S256x512 S256x512 [1] [0] [0] [1] [] []
  dot_S512x128_S4096x128_S512x4096_1_1_0_0_n_n_wf : DotDims.WF S512x128 S4096x128 S512x4096 [1] [1] [0] [0] [] []
  dot_S512x512_S4096x512_S512x4096_1_1_0_0_n_n_wf : DotDims.WF S512x512 S4096x512 S512x4096 [1] [1] [0] [0] [] []
  hrank0 : 0 < grid0.rank
  k0_off1_inb : ∀ i : grid0.Coords, ∀ (k0_h1 : k0_cond1 i = 1#1), ∀ a, (k0_off1 i) a + S256x512.size a ≤ S4096x512.size a
  k0_off1_packedbf16 : ∀ i : grid0.Coords, ∀ (k0_h1 : k0_cond1 i = 1#1), (Rect.unit (s := S4096x512) (k0_off1 i) S256x512.size (k0_off1_inb i k0_h1)).PackedRows (EltTy.packing .bf16)
  k0_off2_inb : ∀ i : grid0.Coords, ∀ (k0_h2 : k0_cond2 i = 1#1), ∀ a, (k0_off2 i) a + S256x4096.size a ≤ S4096x4096.size a
  k0_off2_packedbf16 : ∀ i : grid0.Coords, ∀ (k0_h2 : k0_cond2 i = 1#1), (Rect.unit (s := S4096x4096) (k0_off2 i) S256x4096.size (k0_off2_inb i k0_h2)).PackedRows (EltTy.packing .bf16)
  k0_off3_inb : ∀ i : grid0.Coords, ∀ (k0_h2 : k0_cond2 i = 1#1), ∀ a, (k0_off3 i) a + S256x256.size a ≤ S4096x512.size a
  k0_off3_packedbf16 : ∀ i : grid0.Coords, ∀ (k0_h2 : k0_cond2 i = 1#1), (Rect.unit (s := S4096x512) (k0_off3 i) S256x256.size (k0_off3_inb i k0_h2)).PackedRows (EltTy.packing .bf16)
  k0_off4_inb : ∀ i : grid0.Coords, ∀ (k0_h3 : k0_cond3 i = 1#1), ∀ a, (k0_off4 i) a + S256x4096.size a ≤ S4096x4096.size a
  k0_off5_inb : ∀ i : grid0.Coords, ∀ (k0_h3 : k0_cond3 i = 1#1), ∀ a, (k0_off5 i) a + S256x128.size a ≤ S4096x512.size a
  k0_off5_packedbf16 : ∀ i : grid0.Coords, ∀ (k0_h3 : k0_cond3 i = 1#1), (Rect.unit (s := S4096x512) (k0_off5 i) S256x128.size (k0_off5_inb i k0_h3)).PackedRows (EltTy.packing .bf16)
  k0_off6_inb : ∀ i : grid0.Coords, ∀ (k0_h4 : k0_cond4 i = 1#1), ∀ a, (k0_off6 i) a + S256x4096.size a ≤ S4096x4096.size a
  k0_off7_inb : ∀ i : grid0.Coords, ∀ (k0_h4 : k0_cond4 i = 1#1), ∀ a, (k0_off7 i) a + S256x128.size a ≤ S4096x128.size a
  k0_off7_packedbf16 : ∀ i : grid0.Coords, ∀ (k0_h4 : k0_cond4 i = 1#1), (Rect.unit (s := S4096x128) (k0_off7 i) S256x128.size (k0_off7_inb i k0_h4)).PackedRows (EltTy.packing .bf16)
  k0_off8_inb : ∀ i : grid0.Coords, ∀ (k0_h5 : k0_cond5 i = 1#1), ∀ a, (k0_off8 i) a + S256x4096.size a ≤ S4096x4096.size a
  k0_off9_inb : ∀ i : grid0.Coords, ∀ (k0_h5 : k0_cond5 i = 1#1), ∀ a, (k0_off9 i) a + S256x256.size a ≤ S4096x512.size a
  k0_off9_packedbf16 : ∀ i : grid0.Coords, ∀ (k0_h5 : k0_cond5 i = 1#1), (Rect.unit (s := S4096x512) (k0_off9 i) S256x256.size (k0_off9_inb i k0_h5)).PackedRows (EltTy.packing .bf16)
  k0_off10_inb : ∀ i : grid0.Coords, ∀ (k0_h6 : k0_cond6 i = 1#1), ∀ a, (k0_off10 i) a + S256x4096.size a ≤ S4096x4096.size a
  k0_off11_inb : ∀ i : grid0.Coords, ∀ (k0_h6 : k0_cond6 i = 1#1), ∀ a, (k0_off11 i) a + S256x512.size a ≤ S4096x512.size a
  k0_off11_packedbf16 : ∀ i : grid0.Coords, ∀ (k0_h6 : k0_cond6 i = 1#1), (Rect.unit (s := S4096x512) (k0_off11 i) S256x512.size (k0_off11_inb i k0_h6)).PackedRows (EltTy.packing .bf16)
  k0_off12_inb : ∀ i : grid0.Coords, ∀ (k0_h7 : k0_cond7 i = 1#1), ∀ a, (k0_off12 i) a + S256x4096.size a ≤ S4096x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S4096x128.size a
  hwx0_8 : ∀ i : grid0.Coords, EltTy.bits .f32 = 32 ∨ (Rect.block (s := S4096x128) S256x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S4096x512.size a
  hwx0_9 : ∀ i : grid0.Coords, EltTy.bits .f32 = 32 ∨ (Rect.block (s := S4096x512) S256x512.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x512.size a
  hwx1_2 : ∀ i : grid1.Coords, EltTy.bits .f32 = 32 ∨ (Rect.block (s := S4096x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .f32 = 32 ∨ (Rect.block (s := S4096x512) S4096x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S4096x4096.size a
  hwx1_4 : ∀ i : grid1.Coords, EltTy.bits .f32 = 32 ∨ (Rect.block (s := S4096x4096) S512x4096.size (cc1_transform_4 i) (hinb1_4 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S256x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S256x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | 9 => fun i => !(k0_cond7 i == 1#1) | ⟨_ + 10, h⟩ => absurd h (Nat.not_lt.2 (Nat.le_add_left _ _))

abbrev win1_0 : Pipeline.Window sig grid1 :=
  Pipeline.Window.ofSpec (Memref.whole main_v6_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S512x256 : Shape := ⟨2, ![512, 256]⟩
abbrev S256x128 : Shape := ⟨2, ![256, 128]⟩
abbrev S128x256 : Shape := ⟨2, ![128, 256]⟩
abbrev S256x512 : Shape := ⟨2, ![256, 512]⟩
abbrev S4096x256 : Shape := ⟨2, ![4096, 256]⟩
abbrev S4096x128 : Shape := ⟨2, ![4096, 128]⟩
abbrev S128x4096 : Shape := ⟨2, ![128, 4096]⟩
abbrev S_ : Shape := ⟨0, ![]⟩
abbrev S512x4096 : Shape := ⟨2, ![512, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S512x256, .f32⟩
  | .hbm, ⟨4, _⟩ => ⟨S256x128, .f32⟩
  | .hbm, ⟨5, _⟩ => ⟨S128x256, .f32⟩
  | .hbm, ⟨6, _⟩ => ⟨S256x512, .f32⟩
  | .hbm, ⟨7, _⟩ => ⟨S512x512, .f32⟩
  | .hbm, ⟨8, _⟩ => ⟨S4096x512, .f32⟩
  | .hbm, ⟨9, _⟩ => ⟨S4096x512, .f32⟩
  | .hbm, ⟨10, _⟩ => ⟨S4096x256, .f32⟩
  | .hbm, ⟨11, _⟩ => ⟨S4096x256, .f32⟩
  | .hbm, ⟨12, _⟩ => ⟨S4096x128, .f32⟩
  | .hbm, ⟨13, _⟩ => ⟨S4096x128, .f32⟩
  | .hbm, ⟨14, _⟩ => ⟨S128x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x256, .f32⟩
  | .hbm, ⟨25, _⟩ => ⟨S4096x256, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S512x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S4096x128_S128x4096_1_0 : S4096x128.Transposes [1, 0] S128x4096
  bcast_S_S4096x4096 : S_.BroadcastsInDim S4096x4096 (![] : Fin 0 → Fin S4096x4096.rank)
  transposes_S4096x512_S512x4096_1_0 : S4096x512.Transposes [1, 0] S512x4096
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x128_S128x4096_S4096x4096_1_0_0_1_n_n_wf : DotDims.WF S4096x128 S128x4096 S4096x4096 [1] [0] [0] [1] [] []
  dot_S4096x128_S128x256_S4096x256_1_0_0_1_n_n_wf : DotDims.WF S4096x128 S128x256 S4096x256 [1] [0] [0] [1] [] []
  dot_S4096x256_S256x512_S4096x512_1_0_0_1_n_n_wf : DotDims.WF S4096x256 S256x512 S4096x512 [1] [0] [0] [1] [] []
  dot_S4096x512_S512x4096_S4096x4096_1_0_0_1_n_n_wf : DotDims.WF S4096x512 S512x4096 S4096x4096 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.RefStages.lean ====
/-
  The reference read one operation at a time: its run as a list of host operations and the reading of each
  operation's result at an index are brought in here, so that the later modules can name each stage of the six
  propagation layers and of the two logistic outer products.
-/
import proofs.«146852_g64793876627462_cont_sun_c4_515_4_alg».proof.Defs
import proofs.«146852_g64793876627462_cont_sun_c4_515_4_alg».proof.Proof.Gen.ReferenceIdeal.Run
import proofs.«146852_g64793876627462_cont_sun_c4_515_4_alg».proof.Proof.Gen.ReferenceIdeal.Read
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.Logistic.lean ====
/-
  The logistic function in its two spellings.

  One program forms the logistic function of a real number `a` as `1 / (1 + exp (-a))`; the other as
  `1/2 * tanh (a / 2) + 1/2`, which costs one transcendental per entry.  Over the real numbers the two agree:
  writing `u = exp (a / 2)`, the hyperbolic tangent of `a / 2` is `(u - 1/u) / (u + 1/u)`, so
  `1/2 * tanh (a / 2) + 1/2 = u / (u + 1/u) = 1 / (1 + 1/u^2)`, and `1/u^2 = exp (-a)`.
  At the ideal reading a float is an extended real; on an argument that is a real number every operation
  involved returns the real result, so the identity carries over.  The two float words that occur, one half
  and one, denote exactly those numbers.
-/
import Idealize.ShloMosaic.PureOps.Ideal
import Mathlib.Analysis.SpecialFunctions.Trigonometric.DerivHyp

noncomputable section

open Idealize.ShloMosaic

namespace Cert.Logistic

/-- The float word of one half denotes the real number one half. -/
theorem ofBits_half : Ideal.ofBits .f32 0x3F000000#32 = ((1 / 2 : ℝ) : EReal) := by
  simp [Ideal.ofBits, Ideal.ieee, -EReal.coe_mul]; norm_num

/-- The float word of one denotes the real number one. -/
theorem ofBits_one : Ideal.ofBits .f32 0x3F800000#32 = ((1 : ℝ) : EReal) := by
  simp [Ideal.ofBits, Ideal.ieee, -EReal.coe_mul]; norm_num

/-- Over the real numbers, `1/2 * tanh (a/2) + 1/2 = 1 / (1 + exp (-a))`. -/
theorem half_tanh_half (a : ℝ) :
    1 / 2 * Real.tanh (1 / 2 * a) + 1 / 2 = 1 / (1 + Real.exp (-a)) := by
  have hu : 0 < Real.exp (1 / 2 * a) := Real.exp_pos _
  have h1 : Real.exp (-(1 / 2 * a)) = (Real.exp (1 / 2 * a))⁻¹ := Real.exp_neg _
  have h2 : Real.exp (-a) = (Real.exp (1 / 2 * a))⁻¹ * (Real.exp (1 / 2 * a))⁻¹ := by
    rw [← h1, ← Real.exp_add]; congr 1; ring
  rw [Real.tanh_eq_sinh_div_cosh, Real.sinh_eq, Real.cosh_eq, h1, h2]
  generalize Real.exp (1 / 2 * a) = u at hu
  have hu' : u ≠ 0 := ne_of_gt hu
  have hs : u + u⁻¹ ≠ 0 := ne_of_gt (add_pos hu (inv_pos.mpr hu))
  have hd : 1 + u⁻¹ * u⁻¹ ≠ 0 := ne_of_gt (add_pos one_pos (mul_pos (inv_pos.mpr hu) (inv_pos.mpr hu)))
  field_simp
  ring

/-- The same at the ideal reading, on an argument that is a real number: the total quotient of one by
    `1 + exp (-a)` is the half-angle form. -/
theorem logistic_forms (a : ℝ) :
    ((1 / 2 : ℝ) : EReal) * Ideal.tanh (((1 / 2 : ℝ) : EReal) * (a : EReal)) + ((1 / 2 : ℝ) : EReal)
      = Ideal.div ((1 : ℝ) : EReal) (((1 : ℝ) : EReal) + Ideal.exp (-(a : EReal))) := by
  have hpos : (1 + Real.exp (-a)) ≠ 0 := ne_of_gt (add_pos one_pos (Real.exp_pos _))
  have hexp : Ideal.exp (-(a : EReal)) = ((Real.exp (-a) : ℝ) : EReal) := by
    rw [← EReal.coe_neg]; rfl
  rw [hexp, ← EReal.coe_add, Ideal.div_coe hpos, ← EReal.coe_mul, ← EReal.coe_mul, Ideal.tanh_coe,
    ← EReal.coe_mul, ← EReal.coe_add, half_tanh_half]
  congr 1
  ring

end Cert.Logistic

end
-- ==== Proof.Spec.lean ====
/-
  The graph auto-encoder as a function of its eight argument matrices.

  Writing `A · B` for the matrix product, the encoder is
    z1 = adj · (x · W1),  z2 = adj · (z1 · W2),  zs = adj · (z2 · W3),
  the decoder
    z4 = adj · (zs · W4),  z5 = adj · (z4 · W5),  zh = adj · (z5 · W6),
  and the reconstructed adjacency has entry (p, q) equal to the logistic function of the inner product of rows
  p and q of zs plus the logistic function of the inner product of rows p and q of zh.

  One program computes the decoder with the products grouped the other way, `(adj · zs) · W4` and
  `(adj · z4) · W5`.  Matrix multiplication is associative over a ring, but the extended reals are not one:
  distributivity fails when infinities meet.  When every entry is a real number, both groupings are the
  coercion of the same real double sum, so they agree; and products of matrices with real entries have real
  entries, so the property propagates through the layers.
-/
import Idealize.ShloMosaic.Lib.ValueIdx
import Idealize.ShloMosaic.PureOps.Ideal
import proofs.«146852_g64793876627462_cont_sun_c4_515_4_alg».proof.Proof.LibRealSums
import proofs.«146852_g64793876627462_cont_sun_c4_515_4_alg».proof.Proof.Logistic

noncomputable section

open Idealize.ShloMosaic Idealize.ShloMosaic.ValueIdx
open Cert.RealSums
open scoped BigOperators

namespace Cert.Sgae

/-- A matrix with `a` rows and `b` columns of extended reals, indexed as the programs index their arrays. -/
abbrev Arr (a b : ℕ) : Type := (⟨2, ![a, b]⟩ : Shape).Idx → EReal

/-- The matrix product: entry (p, q) is the sum over t of `A (p, t) * B (t, q)`. -/
def mm {a k b : ℕ} (A : Arr a k) (B : Arr k b) : Arr a b :=
  fun i => ∑ t : Fin k, A (ix2 (i 0) t) * B (ix2 t (i 1))

/-- The Gram matrix `Z · Zᵀ`: entry (p, q) is the inner product of rows p and q. -/
def gram {a k : ℕ} (Z : Arr a k) : Arr a a :=
  fun i => ∑ t : Fin k, Z (ix2 (i 0) t) * Z (ix2 (i 1) t)

/-- Every entry is a real number. -/
def AllReal {a b : ℕ} (A : Arr a b) : Prop := ∀ i, IsReal (A i)

theorem AllReal.mm {a k b : ℕ} {A : Arr a k} {B : Arr k b} (hA : AllReal A) (hB : AllReal B) :
    AllReal (mm A B) :=
  fun _ => IsReal.sum _ _ fun _ _ => (hA _).mul (hB _)

theorem AllReal.gram {a k : ℕ} {Z : Arr a k} (hZ : AllReal Z) : AllReal (gram Z) :=
  fun _ => IsReal.sum _ _ fun _ _ => (hZ _).mul (hZ _)

/-- Over index types of any kind: a triple product of families of real numbers may be summed in either order. -/
theorem sum_assoc_real {K L : Type*} [Fintype K] [Fintype L] (u : K → EReal) (B : K → L → EReal) (w : L → EReal)
    (hu : ∀ k, IsReal (u k)) (hB : ∀ k l, IsReal (B k l)) (hw : ∀ l, IsReal (w l)) :
    ∑ l, (∑ k, u k * B k l) * w l = ∑ k, u k * ∑ l, B k l * w l := by
  choose u' hu' using hu
  choose B' hB' using hB
  choose w' hw' using hw
  have hL : ∑ l, (∑ k, u k * B k l) * w l = ((∑ l, (∑ k, u' k * B' k l) * w' l : ℝ) : EReal) := by
    rw [coe_sum]
    refine Finset.sum_congr rfl fun l _ => ?_
    rw [EReal.coe_mul, coe_sum, hw' l]
    congr 1
    refine Finset.sum_congr rfl fun k _ => ?_
    rw [EReal.coe_mul, hu' k, hB' k l]
  have hR : ∑ k, u k * ∑ l, B k l * w l = ((∑ k, u' k * ∑ l, B' k l * w' l : ℝ) : EReal) := by
    rw [coe_sum]
    refine Finset.sum_congr rfl fun k _ => ?_
    rw [EReal.coe_mul, coe_sum, hu' k]
    congr 1
    refine Finset.sum_congr rfl fun l _ => ?_
    rw [EReal.coe_mul, hB' k l, hw' l]
  rw [hL, hR]
  congr 1
  simp only [Finset.sum_mul, Finset.mul_sum]
  rw [Finset.sum_comm]
  refine Finset.sum_congr rfl fun k _ => Finset.sum_congr rfl fun l _ => ?_
  ring

/-- Matrix multiplication is associative on matrices with real entries. -/
theorem mm_assoc {a k l b : ℕ} (A : Arr a k) (B : Arr k l) (C : Arr l b)
    (hA : AllReal A) (hB : AllReal B) (hC : AllReal C) : mm (mm A B) C = mm A (mm B C) := by
  funext i
  show ∑ s : Fin l, (∑ t : Fin k, A (ix2 (i 0) t) * B (ix2 t s)) * C (ix2 s (i 1))
      = ∑ t : Fin k, A (ix2 (i 0) t) * ∑ s : Fin l, B (ix2 t s) * C (ix2 s (i 1))
  exact sum_assoc_real (fun t => A (ix2 (i 0) t)) (fun t s => B (ix2 t s)) (fun s => C (ix2 s (i 1)))
    (fun _ => hA _) (fun _ _ => hB _) (fun _ => hC _)

/-- The encoder's result. -/
def enc {n f0 f1 f2 f3 : ℕ} (x : Arr n f0) (adj : Arr n n) (W1 : Arr f0 f1) (W2 : Arr f1 f2) (W3 : Arr f2 f3) : Arr n f3 :=
  mm adj (mm (mm adj (mm (mm adj (mm x W1)) W2)) W3)

/-- The decoder's result, each layer `adj · (z · W)`. -/
def dec {n f3 f4 f5 f6 : ℕ} (adj : Arr n n) (zs : Arr n f3) (W4 : Arr f3 f4) (W5 : Arr f4 f5) (W6 : Arr f5 f6) : Arr n f6 :=
  mm adj (mm (mm adj (mm (mm adj (mm zs W4)) W5)) W6)

/-- The decoder with its first two layers grouped as `(adj · z) · W`. -/
def decRegrouped {n f3 f4 f5 f6 : ℕ} (adj : Arr n n) (zs : Arr n f3) (W4 : Arr f3 f4) (W5 : Arr f4 f5) (W6 : Arr f5 f6) : Arr n f6 :=
  mm adj (mm (mm (mm adj (mm (mm adj zs) W4)) W5) W6)

theorem enc_real {n f0 f1 f2 f3 : ℕ} {x : Arr n f0} {adj : Arr n n} {W1 : Arr f0 f1} {W2 : Arr f1 f2} {W3 : Arr f2 f3}
    (hx : AllReal x) (hadj : AllReal adj) (h1 : AllReal W1) (h2 : AllReal W2) (h3 : AllReal W3) :
    AllReal (enc x adj W1 W2 W3) :=
  hadj.mm ((hadj.mm ((hadj.mm (hx.mm h1)).mm h2)).mm h3)

/-- The two groupings of the decoder agree on matrices with real entries. -/
theorem decRegrouped_eq {n f3 f4 f5 f6 : ℕ} (adj : Arr n n) (zs : Arr n f3) (W4 : Arr f3 f4) (W5 : Arr f4 f5) (W6 : Arr f5 f6)
    (hadj : AllReal adj) (hzs : AllReal zs) (h4 : AllReal W4) (h5 : AllReal W5) :
    decRegrouped adj zs W4 W5 W6 = dec adj zs W4 W5 W6 := by
  unfold decRegrouped dec
  rw [mm_assoc adj zs W4 hadj hzs h4, mm_assoc adj (mm adj (mm zs W4)) W5 hadj (hadj.mm (hzs.mm h4)) h5]

theorem dec_real {n f3 f4 f5 f6 : ℕ} {adj : Arr n n} {zs : Arr n f3} {W4 : Arr f3 f4} {W5 : Arr f4 f5} {W6 : Arr f5 f6}
    (hadj : AllReal adj) (hzs : AllReal zs) (h4 : AllReal W4) (h5 : AllReal W5) (h6 : AllReal W6) :
    AllReal (dec adj zs W4 W5 W6) :=
  hadj.mm ((hadj.mm ((hadj.mm (hzs.mm h4)).mm h5)).mm h6)

/-- The logistic function spelt `1 / (1 + exp (-v))`, with the float word of one. -/
def sigQuot (v : EReal) : EReal :=
  Ideal.div (Ideal.ofBits .f32 0x3F800000#32) (Ideal.ofBits .f32 0x3F800000#32 + Ideal.exp (-v))

/-- The logistic function spelt `1/2 * tanh (1/2 * v) + 1/2`, with the float word of one half. -/
def sigTanh (v : EReal) : EReal :=
  Ideal.ofBits .f32 0x3F000000#32 * Ideal.tanh (Ideal.ofBits .f32 0x3F000000#32 * v) + Ideal.ofBits .f32 0x3F000000#32

/-- The two spellings agree on a real number. -/
theorem sigTanh_eq_sigQuot {v : EReal} (hv : IsReal v) : sigTanh v = sigQuot v := by
  obtain ⟨r, rfl⟩ := hv
  unfold sigTanh sigQuot
  rw [Cert.Logistic.ofBits_half, Cert.Logistic.ofBits_one]
  exact Cert.Logistic.logistic_forms r

/-- The reconstructed adjacency: the logistic function of `zs · zsᵀ` plus that of `zh · zhᵀ`, entry by entry. -/
def recon {n f g : ℕ} (sig : EReal → EReal) (zs : Arr n f) (zh : Arr n g) : Arr n n :=
  fun i => sig (gram zs i) + sig (gram zh i)

/-- On matrices with real entries the two spellings of the logistic function reconstruct the same adjacency. -/
theorem recon_sig_eq {n f g : ℕ} (zs : Arr n f) (zh : Arr n g) (hs : AllReal zs) (hh : AllReal zh) :
    recon sigTanh zs zh = recon sigQuot zs zh := by
  funext i
  unfold recon
  rw [sigTanh_eq_sigQuot (hs.gram i), sigTanh_eq_sigQuot (hh.gram i)]

end Cert.Sgae

end
-- ==== Proof.RefIsSpec.lean ====
/-
  The reference program computes the specification.

  Each matrix product of the reference is read at an index as a sum over the contracted coordinate; the two
  index functions of a product send (p, q) and t to (p, t) in the left operand and (t, q) in the right, which is
  the specification's matrix product.  A transposed right operand turns the product `Z · Zᵀ` into the Gram
  matrix.  Chaining the six layers gives the encoder and the decoder; the element-wise tail is the logistic
  function spelt `1 / (1 + exp (-a))`.
-/
import proofs.«146852_g64793876627462_cont_sun_c4_515_4_alg».proof.Proof.RefStages
import proofs.«146852_g64793876627462_cont_sun_c4_515_4_alg».proof.Proof.Spec

noncomputable section

open Idealize.ShloMosaic Idealize.ShloMosaic.ValueIdx
open Cert.ReferenceIdeal Cert.ReferenceIdeal.Read
open scoped BigOperators

namespace Cert.Sgae.Ref

/-- Two rank-2 indices with the same two coordinates are equal. -/
macro "idx2" : tactic => `(tactic| (funext a; match a with | ⟨0, _⟩ => rfl | ⟨1, _⟩ => rfl))

variable (x : (⟨S4096x512, .f32⟩ : BufTy).Contents (Elt Ideal)) (adj : (⟨S4096x4096, .f32⟩ : BufTy).Contents (Elt Ideal))
  (W1 : (⟨S512x512, .f32⟩ : BufTy).Contents (Elt Ideal)) (W2 : (⟨S512x256, .f32⟩ : BufTy).Contents (Elt Ideal))
  (W3 : (⟨S256x128, .f32⟩ : BufTy).Contents (Elt Ideal)) (W4 : (⟨S128x256, .f32⟩ : BufTy).Contents (Elt Ideal))
  (W5 : (⟨S256x512, .f32⟩ : BufTy).Contents (Elt Ideal)) (W6 : (⟨S512x512, .f32⟩ : BufTy).Contents (Elt Ideal))

/-! ## The encoder -/

/-- `x · W1`. -/
theorem v0_eq : val_main_v0 (F := Ideal) x W1 = mm (x : Arr 4096 512) (W1 : Arr 512 512) := by
  funext i
  rw [val_main_v0_apply]
  refine Finset.sum_congr rfl fun k _ => ?_
  rw [show lidx_main_v0 i k = ix2 (i 0) k from by idx2, show ridx_main_v0 i k = ix2 k (i 1) from by idx2]
  rfl

/-- `z1 = adj · (x · W1)`. -/
theorem v1_eq : val_main_v1 (F := Ideal) x adj W1 = mm (adj : Arr 4096 4096) (val_main_v0 (F := Ideal) x W1 : Arr 4096 512) := by
  funext i
  rw [val_main_v1_apply]
  refine Finset.sum_congr rfl fun k _ => ?_
  rw [show lidx_main_v1 i k = ix2 (i 0) k from by idx2, show ridx_main_v1 i k = ix2 k (i 1) from by idx2]
  rfl

/-- `z1 · W2`. -/
theorem v2_eq : val_main_v2 (F := Ideal) x adj W1 W2 = mm (val_main_v1 (F := Ideal) x adj W1 : Arr 4096 512) (W2 : Arr 512 256) := by
  funext i
  rw [val_main_v2_apply]
  refine Finset.sum_congr rfl fun k _ => ?_
  rw [show lidx_main_v2 i k = ix2 (i 0) k from by idx2, show ridx_main_v2 i k = ix2 k (i 1) from by idx2]
  rfl

/-- `z2 = adj · (z1 · W2)`. -/
theorem v3_eq : val_main_v3 (F := Ideal) x adj W1 W2 = mm (adj : Arr 4096 4096) (val_main_v2 (F := Ideal) x adj W1 W2 : Arr 4096 256) := by
  funext i
  rw [val_main_v3_apply]
  refine Finset.sum_congr rfl fun k _ => ?_
  rw [show lidx_main_v3 i k = ix2 (i 0) k from by idx2, show ridx_main_v3 i k = ix2 k (i 1) from by idx2]
  rfl

/-- `z2 · W3`. -/
theorem v4_eq : val_main_v4 (F := Ideal) x adj W1 W2 W3 = mm (val_main_v3 (F := Ideal) x adj W1 W2 : Arr 4096 256) (W3 : Arr 256 128) := by
  funext i
  rw [val_main_v4_apply]
  refine Finset.sum_congr rfl fun k _ => ?_
  rw [show lidx_main_v4 i k = ix2 (i 0) k from by idx2, show ridx_main_v4 i k = ix2 k (i 1) from by idx2]
  rfl

/-- `zs = adj · (z2 · W3)`. -/
theorem v5_eq : val_main_v5 (F := Ideal) x adj W1 W2 W3 = mm (adj : Arr 4096 4096) (val_main_v4 (F := Ideal) x adj W1 W2 W3 : Arr 4096 128) := by
  funext i
  rw [val_main_v5_apply]
  refine Finset.sum_congr rfl fun k _ => ?_
  rw [show lidx_main_v5 i k = ix2 (i 0) k from by idx2, show ridx_main_v5 i k = ix2 k (i 1) from by idx2]
  rfl

/-- The reference's first result is the encoder of the specification. -/
theorem zs_eq : val_main_v5 (F := Ideal) x adj W1 W2 W3
    = enc (x : Arr 4096 512) (adj : Arr 4096 4096) (W1 : Arr 512 512) (W2 : Arr 512 256) (W3 : Arr 256 128) := by
  rw [v5_eq, v4_eq, v3_eq, v2_eq, v1_eq, v0_eq]
  rfl

/-! ## The decoder -/

theorem v14_eq : val_main_v14 (F := Ideal) x adj W1 W2 W3 W4 = mm (val_main_v5 (F := Ideal) x adj W1 W2 W3 : Arr 4096 128) (W4 : Arr 128 256) := by
  funext i
  rw [val_main_v14_apply]
  refine Finset.sum_congr rfl fun k _ => ?_
  rw [show lidx_main_v14 i k = ix2 (i 0) k from by idx2, show ridx_main_v14 i k = ix2 k (i 1) from by idx2]
  rfl

theorem v15_eq : val_main_v15 (F := Ideal) x adj W1 W2 W3 W4 = mm (adj : Arr 4096 4096) (val_main_v14 (F := Ideal) x adj W1 W2 W3 W4 : Arr 4096 256) := by
  funext i
  rw [val_main_v15_apply]
  refine Finset.sum_congr rfl fun k _ => ?_
  rw [show lidx_main_v15 i k = ix2 (i 0) k from by idx2, show ridx_main_v15 i k = ix2 k (i 1) from by idx2]
  rfl

theorem v16_eq : val_main_v16 (F := Ideal) x adj W1 W2 W3 W4 W5 = mm (val_main_v15 (F := Ideal) x adj W1 W2 W3 W4 : Arr 4096 256) (W5 : Arr 256 512) := by
  funext i
  rw [val_main_v16_apply]
  refine Finset.sum_congr rfl fun k _ => ?_
  rw [show lidx_main_v16 i k = ix2 (i 0) k from by idx2, show ridx_main_v16 i k = ix2 k (i 1) from by idx2]
  rfl

theorem v17_eq : val_main_v17 (F := Ideal) x adj W1 W2 W3 W4 W5 = mm (adj : Arr 4096 4096) (val_main_v16 (F := Ideal) x adj W1 W2 W3 W4 W5 : Arr 4096 512) := by
  funext i
  rw [val_main_v17_apply]
  refine Finset.sum_congr rfl fun k _ => ?_
  rw [show lidx_main_v17 i k = ix2 (i 0) k from by idx2, show ridx_main_v17 i k = ix2 k (i 1) from by idx2]
  rfl

theorem v18_eq : val_main_v18 (F := Ideal) x adj W1 W2 W3 W4 W5 W6 = mm (val_main_v17 (F := Ideal) x adj W1 W2 W3 W4 W5 : Arr 4096 512) (W6 : Arr 512 512) := by
  funext i
  rw [val_main_v18_apply]
  refine Finset.sum_congr rfl fun k _ => ?_
  rw [show lidx_main_v18 i k = ix2 (i 0) k from by idx2, show ridx_main_v18 i k = ix2 k (i 1) from by idx2]
  rfl

theorem v19_eq : val_main_v19 (F := Ideal) x adj W1 W2 W3 W4 W5 W6 = mm (adj : Arr 4096 4096) (val_main_v18 (F := Ideal) x adj W1 W2 W3 W4 W5 W6 : Arr 4096 512) := by
  funext i
  rw [val_main_v19_apply]
  refine Finset.sum_congr rfl fun k _ => ?_
  rw [show lidx_main_v19 i k = ix2 (i 0) k from by idx2, show ridx_main_v19 i k = ix2 k (i 1) from by idx2]
  rfl

/-- The reference's second result is the decoder of the specification applied to its first. -/
theorem zh_eq : val_main_v19 (F := Ideal) x adj W1 W2 W3 W4 W5 W6
    = dec (adj : Arr 4096 4096) (val_main_v5 (F := Ideal) x adj W1 W2 W3 : Arr 4096 128) (W4 : Arr 128 256) (W5 : Arr 256 512) (W6 : Arr 512 512) := by
  rw [v19_eq, v18_eq, v17_eq, v16_eq, v15_eq, v14_eq]
  rfl

/-! ## The reconstructed adjacency -/

/-- `zs · zsᵀ`: the transposed right operand read back gives the Gram matrix. -/
theorem v7_eq : val_main_v7 (F := Ideal) x adj W1 W2 W3 = gram (val_main_v5 (F := Ideal) x adj W1 W2 W3 : Arr 4096 128) := by
  funext i
  rw [val_main_v7_apply]
  refine Finset.sum_congr rfl fun k _ => ?_
  rw [val_main_v6_apply, show lidx_main_v7 i k = ix2 (i 0) k from by idx2,
    show idx_main_v6 (ridx_main_v7 i k) = ix2 (i 1) k from by idx2]
  rfl

/-- `zh · zhᵀ`. -/
theorem v21_eq : val_main_v21 (F := Ideal) x adj W1 W2 W3 W4 W5 W6 = gram (val_main_v19 (F := Ideal) x adj W1 W2 W3 W4 W5 W6 : Arr 4096 512) := by
  funext i
  rw [val_main_v21_apply]
  refine Finset.sum_congr rfl fun k _ => ?_
  rw [val_main_v20_apply, show lidx_main_v21 i k = ix2 (i 0) k from by idx2,
    show idx_main_v20 (ridx_main_v21 i k) = ix2 (i 1) k from by idx2]
  rfl

/-- The element-wise tail after `zs · zsᵀ` is the logistic function, spelt as a quotient. -/
theorem v13_apply (i : S4096x4096.Idx) :
    val_main_v13 (F := Ideal) x adj W1 W2 W3 i = sigQuot (val_main_v7 (F := Ideal) x adj W1 W2 W3 i) := by
  rw [val_main_v13_apply, val_main_v12_apply, val_main_cst_0_apply, val_main_v11_apply, val_main_v10_apply,
    val_main_cst_apply, val_main_v9_apply, val_main_v8_apply]
  rfl

/-- The same after `zh · zhᵀ`. -/
theorem v27_apply (i : S4096x4096.Idx) :
    val_main_v27 (F := Ideal) x adj W1 W2 W3 W4 W5 W6 i = sigQuot (val_main_v21 (F := Ideal) x adj W1 W2 W3 W4 W5 W6 i) := by
  rw [val_main_v27_apply, val_main_v26_apply, val_main_cst_2_apply, val_main_v25_apply, val_main_v24_apply,
    val_main_cst_1_apply, val_main_v23_apply, val_main_v22_apply]
  rfl

/-- The reference's third result is the specification's reconstruction from its first two. -/
theorem ah_eq : val_main_v28 (F := Ideal) x adj W1 W2 W3 W4 W5 W6
    = recon sigQuot (val_main_v5 (F := Ideal) x adj W1 W2 W3 : Arr 4096 128) (val_main_v19 (F := Ideal) x adj W1 W2 W3 W4 W5 W6 : Arr 4096 512) := by
  funext i
  rw [val_main_v28_apply, v13_apply, v27_apply, v7_eq, v21_eq]
  rfl

end Cert.Sgae.Ref

end
-- ==== Proof.RefRun.lean ====
/-
  The reference program's run, stated through the specification.

  Every weakly fair execution of the reference terminates with its three results equal to the encoder, the decoder
  of the encoder's result, and the reconstruction (with the logistic function spelt as a quotient) of those two,
  all as functions of the eight argument matrices it was started from, and with those arguments unchanged.
  Dropping the results gives its frame.
-/
import proofs.«146852_g64793876627462_cont_sun_c4_515_4_alg».proof.Proof.RefIsSpec
import proofs.«146852_g64793876627462_cont_sun_c4_515_4_alg».proof.Proof.Gen.Pre_finite_inputs

noncomputable section

open Idealize.ShloMosaic Idealize.ShloMosaic.TcCoe Idealize.SL.Sem
open Cert.ReferenceIdeal Cert.ReferenceIdeal.Read

namespace Cert.Sgae.RefRun

variable (m : (ℓ : Loc nD τ sig) → Buf (Elt Ideal) ℓ)

/-- The reference's view of an argument on core `c`. -/
abbrev argOf (c : Dev nD) (r : Ref sig .tc) : Buf (Elt Ideal) ((c.tc : Thread nD τ).loc r) := m ((c.tc : Thread nD τ).loc r)

/-- The encoder's result of the reference's arguments on core `c`. -/
def zsOf (c : Dev nD) : Arr 4096 128 :=
  enc (argOf m c main_arg0 : Arr 4096 512) (argOf m c main_arg1 : Arr 4096 4096) (argOf m c main_arg2 : Arr 512 512)
    (argOf m c main_arg3 : Arr 512 256) (argOf m c main_arg4 : Arr 256 128)

/-- The decoder's result. -/
def zhOf (c : Dev nD) : Arr 4096 512 :=
  dec (argOf m c main_arg1 : Arr 4096 4096) (zsOf m c) (argOf m c main_arg5 : Arr 128 256) (argOf m c main_arg6 : Arr 256 512)
    (argOf m c main_arg7 : Arr 512 512)

/-- The reference's run: its three results are the specification's, its arguments unchanged. -/
theorem run_spec (ρ : Dev nD → PrngReg) :
    θ_run (Cert.ReferenceIdeal.defs (F := Ideal)) (onTc (τ := τ) (main (F := Ideal))) ⟨m, fun _ => 0, ρ⟩ fun r => ∀ c : Dev nD,
      (r.2.mem ((c.tc : Thread nD τ).loc main_v5) : Arr 4096 128) = zsOf m c
      ∧ (r.2.mem ((c.tc : Thread nD τ).loc main_v19) : Arr 4096 512) = zhOf m c
      ∧ (r.2.mem ((c.tc : Thread nD τ).loc main_v28) : Arr 4096 4096) = recon sigQuot (zsOf m c) (zhOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run Cert.ReferenceIdeal.defs _ _).mono (fun r h c => ?_) (Cert.ReferenceIdeal.Value.run (F := Ideal) m ρ)
  obtain ⟨h5, h19, h28, hargs⟩ := h c
  have e5 : (r.2.mem ((c.tc : Thread nD τ).loc main_v5) : Arr 4096 128) = zsOf m c :=
    h5.trans ((val_main_v5_eq _ _ _ _ _).trans (Cert.Sgae.Ref.zs_eq _ _ _ _ _))
  have e19 : (r.2.mem ((c.tc : Thread nD τ).loc main_v19) : Arr 4096 512) = zhOf m c :=
    h19.trans ((val_main_v19_eq _ _ _ _ _ _ _ _).trans ((Cert.Sgae.Ref.zh_eq _ _ _ _ _ _ _ _).trans
      (by unfold zhOf zsOf; rw [Cert.Sgae.Ref.zs_eq])))
  refine ⟨e5, e19, ?_, hargs⟩
  refine h28.trans ((val_main_v28_eq m c).trans ((Cert.Sgae.Ref.ah_eq _ _ _ _ _ _ _ _).trans ?_))
  rw [Cert.Sgae.Ref.zh_eq, Cert.Sgae.Ref.zs_eq]
  rfl

/-- The reference's frame: it runs to the end, faults nowhere and leaves its arguments as it found them. -/
theorem frame : Cert.frame_ReferenceIdeal := fun m ρ _ =>
  (θ_run Cert.ReferenceIdeal.defs _ _).mono (fun _ h c => (h c).2.2.2) (Cert.ReferenceIdeal.Value.run (F := Ideal) m ρ)

end Cert.Sgae.RefRun

end
-- ==== Proof.FiniteArgs.lean ====
/-
  Finite inputs are matrices of real numbers.

  The precondition says, of each of the eight arguments, that the absolute value of every entry is below plus
  infinity, and takes the conjunction over all entries and all arguments.  At the ideal reading an entry is an
  extended real; its absolute value `max v (-v)` is below plus infinity exactly when `v` is neither infinity,
  that is, when it is a real number.  So under the precondition every entry of every argument is a real number,
  which is what the associativity of the matrix product and the two spellings of the logistic function need.
-/
import proofs.«146852_g64793876627462_cont_sun_c4_515_4_alg».proof.Pre_finite_inputs
import Idealize.ShloMosaic.Lib.ReduceAll
import Idealize.ShloMosaic.Lib.ValueIdx
import Idealize.ShloMosaic.Lib.Affine
import Idealize.ShloMosaic.Lib.Pipeline.Value
import Idealize.ShloMosaic.PureOps.Ideal
import proofs.«146852_g64793876627462_cont_sun_c4_515_4_alg».proof.Proof.LibRealSums

noncomputable section

open Idealize.ShloMosaic Idealize.ShloMosaic.ValueIdx Cert.Pre_finite_inputs
open Cert.RealSums

namespace Cert.Sgae.Finite

/-- The shape with no axes has one index. -/
instance subsingleton_scalar_idx : Subsingleton S_.Idx := ⟨fun _ _ => funext fun d => d.elim0⟩

/-- The float word of plus infinity denotes plus infinity. -/
theorem ofBits_inf : Ideal.ofBits .f32 0x7F800000#32 = (⊤ : EReal) := by
  simp [Ideal.ofBits, Ideal.ieee]

/-- An extended real whose absolute value is below plus infinity is a real number. -/
theorem isReal_of_abs_lt_top (v : EReal) (h : max v (-v) < ⊤) : IsReal v := by
  induction v using EReal.rec with
  | bot => exact absurd h (by simp)
  | coe r => exact ⟨r, rfl⟩
  | top => exact absurd h (by simp)

/-- One entry: the comparison of its absolute value with the broadcast word of plus infinity being true makes it a
    real number. -/
theorem isReal_of_cmp {s : Shape} (x : FVec Ideal s .f32) (bc : S_.BroadcastsInDim s (![] : Fin 0 → Fin s.rank)) (i : s.Idx)
    (h : cmpf .olt (Host.absf x) (broadcastInDim s ![] bc (constant (F := Ideal) S_ .f32 0x7F800000#32)) i = 1#1) :
    IsReal (x i) := by
  have hb : broadcastInDim s ![] bc (constant (F := Ideal) S_ .f32 0x7F800000#32) i = Ideal.ofBits .f32 0x7F800000#32 :=
    broadcastInDim_apply _ bc _ i (fun a => a.elim0) (fun a => a.elim0)
  have h' : Ideal.cmp .olt (max (x i) (-(x i))) (broadcastInDim s ![] bc (constant (F := Ideal) S_ .f32 0x7F800000#32) i) = 1#1 := h
  rw [hb, ofBits_inf] at h'
  refine isReal_of_abs_lt_top _ ?_
  unfold Ideal.cmp at h'
  by_contra hn
  simp [hn] at h'

/-- The conjunction of two one-bit arrays is true at an index exactly when both are. -/
theorem andi_apply_eq_one {s : Shape} (a b : IVec s 1) (i : s.Idx) : andi a b i = 1#1 ↔ a i = 1#1 ∧ b i = 1#1 :=
  IntOp.andi_eq_one

/-- Under the precondition every entry of every argument is a real number. -/
theorem args_real [Cert.Pre_finite_inputs.Facts]
    (x0 : FVec Ideal S4096x512 .f32) (x1 : FVec Ideal S4096x4096 .f32) (x2 : FVec Ideal S512x512 .f32) (x3 : FVec Ideal S512x256 .f32)
    (x4 : FVec Ideal S256x128 .f32) (x5 : FVec Ideal S128x256 .f32) (x6 : FVec Ideal S256x512 .f32) (x7 : FVec Ideal S512x512 .f32)
    (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) ∧ (∀ i, IsReal (x6 i)) ∧ (∀ i, IsReal (x7 i)) := by
  have h0 := congrFun h ix0
  dsimp only [fn, fn_part1, fn_part2] at h0
  simp only [andi_apply_eq_one] at h0
  obtain ⟨⟨⟨⟨⟨⟨⟨e0, e1⟩, e2⟩, e3⟩, e4⟩, e5⟩, e6⟩, e7⟩ := h0
  exact ⟨fun i => isReal_of_cmp x0 _ i (Host.reduce_andi_all _ _ _ _ ix0 e0 i),
    fun i => isReal_of_cmp x1 _ i (Host.reduce_andi_all _ _ _ _ ix0 e1 i),
    fun i => isReal_of_cmp x2 _ i (Host.reduce_andi_all _ _ _ _ ix0 e2 i),
    fun i => isReal_of_cmp x3 _ i (Host.reduce_andi_all _ _ _ _ ix0 e3 i),
    fun i => isReal_of_cmp x4 _ i (Host.reduce_andi_all _ _ _ _ ix0 e4 i),
    fun i => isReal_of_cmp x5 _ i (Host.reduce_andi_all _ _ _ _ ix0 e5 i),
    fun i => isReal_of_cmp x6 _ i (Host.reduce_andi_all _ _ _ _ ix0 e6 i),
    fun i => isReal_of_cmp x7 _ i (Host.reduce_andi_all _ _ _ _ ix0 e7 i)⟩

end Cert.Sgae.Finite

end
-- ==== Proof.Bridge.lean ====
/-
  The two idealized programs agree, given what the kernel's run leaves.

  Suppose every weakly fair execution of the idealized kernel terminates with its three results equal to: the
  encoder `adj · ((adj · ((adj · (x · W1)) · W2)) · W3)`; the decoder with its first two layers grouped as
  `(adj · z) · W`; and the reconstruction of those two with the logistic function in its half-angle form —
  all as functions of the arguments it was started from, which it leaves unchanged.  (This is what the kernel's
  seven layers and its reconstruction call compute block by block; it needs no assumption on the inputs.)

  Then, from memories that agree on the eight arguments, all of them finite: the encoder is literally the
  reference's; the regrouped decoder equals the reference's because matrix multiplication is associative on
  real entries; and the half-angle logistic function equals the quotient form on the real entries of the two
  Gram matrices.  So the results agree entry by entry, which is the algebraic claim; dropping the results gives
  the idealized kernel's frame.
-/
import proofs.«146852_g64793876627462_cont_sun_c4_515_4_alg».proof.Proof.RefRun
import proofs.«146852_g64793876627462_cont_sun_c4_515_4_alg».proof.Proof.FiniteArgs
import proofs.«146852_g64793876627462_cont_sun_c4_515_4_alg».proof.Proof.Gen.KernelIdeal
import proofs.«146852_g64793876627462_cont_sun_c4_515_4_alg».proof.Proof.Gen.Pre_finite_inputs

noncomputable section

open Idealize.ShloMosaic Idealize.ShloMosaic.TcCoe Idealize.SL.Sem
open Cert.RealSums

namespace Cert.Sgae.Bridge

/-- The kernel's view of an argument on core `c`. -/
abbrev kArg (m : (ℓ : Loc Cert.KernelIdeal.nD Cert.KernelIdeal.τ Cert.KernelIdeal.sig) → Buf (Elt Ideal) ℓ)
    (c : Dev Cert.KernelIdeal.nD) (r : Ref Cert.KernelIdeal.sig .tc) :
    Buf (Elt Ideal) ((c.tc : Thread Cert.KernelIdeal.nD Cert.KernelIdeal.τ).loc r) :=
  m ((c.tc : Thread Cert.KernelIdeal.nD Cert.KernelIdeal.τ).loc r)

variable (m : (ℓ : Loc Cert.KernelIdeal.nD Cert.KernelIdeal.τ Cert.KernelIdeal.sig) → Buf (Elt Ideal) ℓ)

/-- The encoder's result of the kernel's arguments on core `c`. -/
def kzs (c : Dev Cert.KernelIdeal.nD) : Arr 4096 128 :=
  enc (kArg m c Cert.KernelIdeal.main_arg0 : Arr 4096 512) (kArg m c Cert.KernelIdeal.main_arg1 : Arr 4096 4096)
    (kArg m c Cert.KernelIdeal.main_arg2 : Arr 512 512) (kArg m c Cert.KernelIdeal.main_arg3 : Arr 512 256)
    (kArg m c Cert.KernelIdeal.main_arg4 : Arr 256 128)

/-- The decoder's result as the kernel groups it. -/
def kzh (c : Dev Cert.KernelIdeal.nD) : Arr 4096 512 :=
  decRegrouped (kArg m c Cert.KernelIdeal.main_arg1 : Arr 4096 4096) (kzs m c) (kArg m c Cert.KernelIdeal.main_arg5 : Arr 128 256)
    (kArg m c Cert.KernelIdeal.main_arg6 : Arr 256 512) (kArg m c Cert.KernelIdeal.main_arg7 : Arr 512 512)

/-- What the idealized kernel's run leaves: its three results as functions of its arguments, the arguments unchanged. -/
def KernelValueRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        (r.2.mem ((c.tc : Thread Cert.KernelIdeal.nD Cert.KernelIdeal.τ).loc Cert.KernelIdeal.main_v6_0) : Arr 4096 128) = kzs m c
        ∧ (r.2.mem ((c.tc : Thread Cert.KernelIdeal.nD Cert.KernelIdeal.τ).loc Cert.KernelIdeal.main_v6_1) : Arr 4096 512) = kzh m c
        ∧ (r.2.mem ((c.tc : Thread Cert.KernelIdeal.nD Cert.KernelIdeal.τ).loc Cert.KernelIdeal.main_v7) : Arr 4096 4096)
            = recon sigTanh (kzs m c) (kzh m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)

/-- The idealized kernel's frame from its run. -/
theorem frame_of_run (h : KernelValueRun) : Cert.frame_KernelIdeal := fun m ρ _ =>
  (θ_run Cert.KernelIdeal.defs _ _).mono (fun _ hr c => (hr c).2.2.2) (h m ρ)

/-- Under the precondition every argument of the kernel has real entries. -/
theorem kargs_real (hpre : Cert.Pre_KernelIdeal m) (c : Dev Cert.KernelIdeal.nD) :
    AllReal (kArg m c Cert.KernelIdeal.main_arg0 : Arr 4096 512) ∧ AllReal (kArg m c Cert.KernelIdeal.main_arg1 : Arr 4096 4096)
    ∧ AllReal (kArg m c Cert.KernelIdeal.main_arg2 : Arr 512 512) ∧ AllReal (kArg m c Cert.KernelIdeal.main_arg3 : Arr 512 256)
    ∧ AllReal (kArg m c Cert.KernelIdeal.main_arg4 : Arr 256 128) ∧ AllReal (kArg m c Cert.KernelIdeal.main_arg5 : Arr 128 256)
    ∧ AllReal (kArg m c Cert.KernelIdeal.main_arg6 : Arr 256 512) ∧ AllReal (kArg m c Cert.KernelIdeal.main_arg7 : Arr 512 512) :=
  Cert.Sgae.Finite.args_real _ _ _ _ _ _ _ _ (hpre c)

/-- The algebraic claim from the kernel's run. -/
theorem algebraic_of_run (h : KernelValueRun) : Cert.algebraic_KernelIdeal_ReferenceIdeal := by
  intro m ρ m' ρ' hpre hagree
  refine ⟨fun c => kzs m c, fun c => kzh m c, fun c => recon sigTanh (kzs m c) (kzh m c), h m ρ, ?_⟩
  refine (θ_run Cert.ReferenceIdeal.defs _ _).mono (fun r hr c => ?_) (Cert.Sgae.RefRun.run_spec m' ρ')
  obtain ⟨h5, h19, h28, hargs⟩ := hr c
  obtain ⟨a0, a1, a2, a3, a4, a5, a6, a7⟩ := hagree c
  obtain ⟨r0, r1, r2, r3, r4, r5, r6, r7⟩ := kargs_real m hpre c
  have ezs : Cert.Sgae.RefRun.zsOf m' c = kzs m c := by
    unfold Cert.Sgae.RefRun.zsOf kzs Cert.Sgae.RefRun.argOf kArg
    rw [a0, a1, a2, a3, a4]
  have hzs : AllReal (kzs m c) := enc_real r0 r1 r2 r3 r4
  have ezh : Cert.Sgae.RefRun.zhOf m' c = kzh m c := by
    unfold Cert.Sgae.RefRun.zhOf kzh
    rw [ezs, decRegrouped_eq _ _ _ _ _ r1 hzs r5 r6]
    unfold Cert.Sgae.RefRun.argOf kArg
    rw [a1, a5, a6, a7]
  have hzh : AllReal (kzh m c) := by
    unfold kzh; rw [decRegrouped_eq _ _ _ _ _ r1 hzs r5 r6]; exact dec_real r1 hzs r5 r6 r7
  refine ⟨h5.trans ezs, h19.trans ezh, ?_, hargs⟩
  refine h28.trans ?_
  rw [ezs, ezh]
  exact (recon_sig_eq _ _ hzs hzh).symm

end Cert.Sgae.Bridge

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibMatmulTIx.lean ====
/-
  A matrix product of an `[a, K]` array with a `[b, K]` array that contracts the columns of both, read at the entry
  `(p, q)`, at the ideal values: the sum over `k` of the left operand's `(p, k)` entry times the right operand's
  `(q, k)` entry — a row of the left operand against a ROW of the right one, which is the product with the right
  operand transposed. Stated for a kernel's product accumulated into the zero splat (`matmulT_zero_ix2`) and for the
  host's product (`dotGeneralT_ix2`), for any dimension numbers with the four coordinate facts `hl0 … hr1`, which a
  literal record proves by evaluation.
-/
import Idealize.ShloMosaic.Lib.ValueIdx
import Idealize.ShloMosaic.PureOps.Ideal.Laws

namespace MatmulTIx

open Idealize.ShloMosaic Idealize.ShloMosaic.ValueIdx

variable {a K b : ℕ} {φ₁ φ₂ : FTy}

/-- The contraction's sum re-indexed by the one contracted coordinate, which is the column of both operands. -/
theorem sum_contr (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (x : (⟨2, ![a, K]⟩ : Shape).Idx → EReal) (w : (⟨2, ![b, K]⟩ : Shape).Idx → EReal) (p : Fin a) (q : Fin b) :
    ∑ k : D.contr.Idx, x (D.lhsIdx (ix2 p q) k) * w (D.rhsIdx (ix2 p q) k) = ∑ k : Fin K, x (ix2 p k) * w (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 q k := funext fun c => Fin.ext (by
    match c with
    | ⟨0, _⟩ => exact hr0 _ _
    | ⟨1, _⟩ => exact (hr1 _ _).trans hk)
  rw [el, er]

/-- A kernel's product with the transposed right operand, into the zero splat, at `(p, q)`: row `p` of the left operand
    against row `q` of the right one. -/
theorem matmulT_zero_ix2 (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision)
    (x : FVec Ideal ⟨2, ![a, K]⟩ φ₁) (w : FVec Ideal ⟨2, ![b, K]⟩ φ₂) (p : Fin a) (q : Fin b) :
    matmul D prec x w (constant (F := Ideal) ⟨2, ![a, b]⟩ .f32 0x00000000#32) (ix2 p q)
      = ∑ k : Fin K, x (ix2 p k) * w (ix2 q k) :=
  (Ideal.matmul_constant_zero_apply D prec x w (ix2 p q)).trans (sum_contr D hr hs hl0 hl1 hr0 hr1 x w p q)

/-- The host's product with the transposed right operand at `(p, q)`: the same sum. -/
theorem dotGeneralT_ix2 (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision)
    (x : FVec Ideal ⟨2, ![a, K]⟩ φ₁) (w : FVec Ideal ⟨2, ![b, K]⟩ φ₂) (p : Fin a) (q : Fin b) :
    Host.dotGeneral D prec x w (ix2 p q) = ∑ k : Fin K, x (ix2 p k) * w (ix2 q k) :=
  (Ideal.dotGeneral_apply D prec .single x w (ix2 p q)).trans (sum_contr D hr hs hl0 hl1 hr0 hr1 x w p q)

end MatmulTIx
-- ==== Proof.KernelPayloads.lean ====
/-
  What the kernels' bodies compute, as matrices.

  Every value a body stores is a pure function of the values it loaded: one or more matrix products accumulated
  into the zero matrix, with changes of float format and same-shape casts in between, and for the reconstruction
  kernel the half-angle form of the logistic function applied entry by entry.  At the ideal reading a change of
  format is the identity and a same-shape cast does nothing, so each stored value is a composition of the
  specification's matrix product `mm` (or, for a product that contracts the columns of both operands, the
  inner products of rows), which is what the lemmas below say.
-/
import proofs.«146852_g64793876627462_cont_sun_c4_515_4_alg».proof.Proof.Gen.KernelIdeal.Skeleton
import proofs.«146852_g64793876627462_cont_sun_c4_515_4_alg».proof.Proof.LibMatmulIx
import proofs.«146852_g64793876627462_cont_sun_c4_515_4_alg».proof.Proof.LibMatmulTIx
import proofs.«146852_g64793876627462_cont_sun_c4_515_4_alg».proof.Proof.Spec
import Idealize.ShloMosaic.Lib.Pipeline.Value

noncomputable section

open Idealize.ShloMosaic Idealize.ShloMosaic.ValueIdx
open Cert.KernelIdeal Cert.KernelIdeal.Gen
open scoped BigOperators

namespace Cert.Sgae.Ker

variable {a K b : ℕ} {φ₁ φ₂ : FTy}

/-- A product of an `[a, K]` matrix with a `[K, b]` matrix accumulated into the zero matrix is the matrix product. -/
theorem matmul_eq_mm (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : FVec Ideal ⟨2, ![a, K]⟩ φ₁) (w : FVec Ideal ⟨2, ![K, b]⟩ φ₂) :
    matmul D none x w (constant (F := Ideal) ⟨2, ![a, b]⟩ .f32 0x00000000#32) = mm (x : Arr a K) (w : Arr K b) := by
  funext j
  obtain ⟨p, q, rfl⟩ : ∃ (p : Fin a) (q : Fin b), j = ix2 p q := ⟨j 0, j 1, eq_ix2 j⟩
  exact (MatmulIx.matmul_zero_ix2 D hr hs hl0 hl1 hr0 hr1 none x w p q).trans rfl

/-- The six coordinate facts of a literal record that contracts the left operand's columns with the right operand's rows. -/
macro "mm_of " D:term : term => `(matmul_eq_mm $D rfl rfl
  (fun i q => by unfold DotDims.lhsIdx; rw [dif_neg (by decide), dif_pos (by decide)]; rfl)
  (fun i q => DotDims.lhsIdx_val_of_single $D rfl i q)
  (fun i q => DotDims.rhsIdx_val_of_single $D rfl i q)
  (fun i q => by unfold DotDims.rhsIdx; rw [dif_neg (by decide), dif_pos (by decide)]; rfl))

/-- A product of an `[a, K]` matrix with a `[b, K]` matrix that contracts the columns of both: entry (p, q) is the
    inner product of row p of the first with row q of the second. -/
def rdot {a K b : ℕ} (X : Arr a K) (Z : Arr b K) : Arr a b :=
  fun i => ∑ t : Fin K, X (ix2 (i 0) t) * Z (ix2 (i 1) t)

/-- The Gram matrix is the row products of a matrix with itself. -/
theorem gram_eq_rdot {a K : ℕ} (Z : Arr a K) : gram Z = rdot Z Z := rfl

/-- Such a product accumulated into the zero matrix. -/
theorem matmulT_eq_rdot (D : DotDims ⟨2, ![a, K]⟩ ⟨2, ![b, K]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (x : FVec Ideal ⟨2, ![a, K]⟩ φ₁) (w : FVec Ideal ⟨2, ![b, K]⟩ φ₂) :
    matmul D none x w (constant (F := Ideal) ⟨2, ![a, b]⟩ .f32 0x00000000#32) = rdot (x : Arr a K) (w : Arr b K) := by
  funext j
  obtain ⟨p, q, rfl⟩ : ∃ (p : Fin a) (q : Fin b), j = ix2 p q := ⟨j 0, j 1, eq_ix2 j⟩
  exact (MatmulTIx.matmulT_zero_ix2 D hr hs hl0 hl1 hr0 hr1 none x w p q).trans rfl

/-- The coordinate facts of a literal record that contracts the columns of both operands. -/
macro "rdot_of " D:term : term => `(matmulT_eq_rdot $D rfl rfl
  (fun i q => by unfold DotDims.lhsIdx; rw [dif_neg (by decide), dif_pos (by decide)]; rfl)
  (fun i q => DotDims.lhsIdx_val_of_single $D rfl i q)
  (fun i q => by unfold DotDims.rhsIdx; rw [dif_neg (by decide), dif_pos (by decide)]; rfl)
  (fun i q => DotDims.rhsIdx_val_of_single $D rfl i q))

/-- At the ideal reading a change of float format leaves an array as it is. -/
theorem truncf_eq {s : Shape} {φ ψ : FTy} (v : FVec Ideal s φ) (h : ψ.bits < φ.bits) :
    (truncf ψ v h : s.Idx → EReal) = (v : s.Idx → EReal) := rfl

/-! ## The kernel's eight products, each accumulated into the zero matrix -/

theorem mm_x_w1 (x : FVec Ideal S256x512 .bf16) (w : FVec Ideal S512x512 .bf16) :
    matmul dot_S256x512_S512x512_S256x512_1_0_0_1_n_n none x w (constant (F := Ideal) S256x512 .f32 0x00000000#32)
      = mm (x : Arr 256 512) (w : Arr 512 512) := (mm_of dot_S256x512_S512x512_S256x512_1_0_0_1_n_n) x w
theorem mm_adj_512 (x : FVec Ideal S256x4096 .bf16) (w : FVec Ideal S4096x512 .bf16) :
    matmul dot_S256x4096_S4096x512_S256x512_1_0_0_1_n_n none x w (constant (F := Ideal) S256x512 .f32 0x00000000#32)
      = mm (x : Arr 256 4096) (w : Arr 4096 512) := (mm_of dot_S256x4096_S4096x512_S256x512_1_0_0_1_n_n) x w
theorem mm_w2 (x : FVec Ideal S256x512 .bf16) (w : FVec Ideal S512x256 .bf16) :
    matmul dot_S256x512_S512x256_S256x256_1_0_0_1_n_n none x w (constant (F := Ideal) S256x256 .f32 0x00000000#32)
      = mm (x : Arr 256 512) (w : Arr 512 256) := (mm_of dot_S256x512_S512x256_S256x256_1_0_0_1_n_n) x w
theorem mm_adj_256 (x : FVec Ideal S256x4096 .bf16) (w : FVec Ideal S4096x256 .bf16) :
    matmul dot_S256x4096_S4096x256_S256x256_1_0_0_1_n_n none x w (constant (F := Ideal) S256x256 .f32 0x00000000#32)
      = mm (x : Arr 256 4096) (w : Arr 4096 256) := (mm_of dot_S256x4096_S4096x256_S256x256_1_0_0_1_n_n) x w
theorem mm_w3 (x : FVec Ideal S256x256 .bf16) (w : FVec Ideal S256x128 .bf16) :
    matmul dot_S256x256_S256x128_S256x128_1_0_0_1_n_n none x w (constant (F := Ideal) S256x128 .f32 0x00000000#32)
      = mm (x : Arr 256 256) (w : Arr 256 128) := (mm_of dot_S256x256_S256x128_S256x128_1_0_0_1_n_n) x w
theorem mm_adj_128 (x : FVec Ideal S256x4096 .bf16) (w : FVec Ideal S4096x128 .bf16) :
    matmul dot_S256x4096_S4096x128_S256x128_1_0_0_1_n_n none x w (constant (F := Ideal) S256x128 .f32 0x00000000#32)
      = mm (x : Arr 256 4096) (w : Arr 4096 128) := (mm_of dot_S256x4096_S4096x128_S256x128_1_0_0_1_n_n) x w
theorem mm_w4 (x : FVec Ideal S256x128 .bf16) (w : FVec Ideal S128x256 .bf16) :
    matmul dot_S256x128_S128x256_S256x256_1_0_0_1_n_n none x w (constant (F := Ideal) S256x256 .f32 0x00000000#32)
      = mm (x : Arr 256 128) (w : Arr 128 256) := (mm_of dot_S256x128_S128x256_S256x256_1_0_0_1_n_n) x w
theorem mm_w5 (x : FVec Ideal S256x256 .bf16) (w : FVec Ideal S256x512 .bf16) :
    matmul dot_S256x256_S256x512_S256x512_1_0_0_1_n_n none x w (constant (F := Ideal) S256x512 .f32 0x00000000#32)
      = mm (x : Arr 256 256) (w : Arr 256 512) := (mm_of dot_S256x256_S256x512_S256x512_1_0_0_1_n_n) x w

/-! ## The seven layers' stores -/

/-- Layer 0: `x · W1` of a row block of `x`. -/
theorem pay1_eq (v22 : Vec Ideal S256x512 .f32) (v24 : Vec Ideal S512x512 .bf16) :
    (k0_pay1 (F := Ideal) v22 v24 : S256x512.Idx → EReal) = mm (v22 : Arr 256 512) (v24 : Arr 512 512) := by
  unfold k0_pay1
  simp only [shapeCast_self]
  rw [mm_x_w1]
  rfl

/-- Layer 1 keeps the adjacency's row block as it is (only its float format changes). -/
theorem pay3_eq (v22 : Vec Ideal S256x4096 .f32) : (k0_pay3 (F := Ideal) v22 : S256x4096.Idx → EReal) = v22 := by
  unfold k0_pay3 k0_pay2
  rw [shapeCast_self]
  rfl

/-- Layer 1: `(adj · t1) · W2` of a row block of `adj`. -/
theorem pay4_eq (v22 : Vec Ideal S256x4096 .f32) (v28 : Vec Ideal S4096x512 .bf16) (v31 : Vec Ideal S512x256 .bf16) :
    (k0_pay4 (F := Ideal) v22 v28 v31 : S256x256.Idx → EReal)
      = mm (mm (v22 : Arr 256 4096) (v28 : Arr 4096 512)) (v31 : Arr 512 256) := by
  unfold k0_pay4 k0_pay2
  simp only [shapeCast_self]
  rw [mm_w2, mm_adj_512]
  rfl

/-- Layer 2: `(adj · t2) · W3`. -/
theorem pay5_eq (v23 : Vec Ideal S256x4096 .bf16) (v24 : Vec Ideal S4096x256 .bf16) (v27 : Vec Ideal S256x128 .bf16) :
    (k0_pay5 (F := Ideal) v23 v24 v27 : S256x128.Idx → EReal)
      = mm (mm (v23 : Arr 256 4096) (v24 : Arr 4096 256)) (v27 : Arr 256 128) := by
  unfold k0_pay5
  simp only [shapeCast_self]
  rw [mm_w3, mm_adj_256]
  rfl

/-- Layer 3: `adj · t3`, the encoder's result, stored to the output and to the decoder's scratch copy. -/
theorem pay6_eq (v23 : Vec Ideal S256x4096 .bf16) (v24 : Vec Ideal S4096x128 .bf16) :
    (k0_pay6 (F := Ideal) v23 v24 : S256x128.Idx → EReal) = mm (v23 : Arr 256 4096) (v24 : Arr 4096 128) := by
  unfold k0_pay6
  exact mm_adj_128 v23 v24

theorem pay7_eq (v23 : Vec Ideal S256x4096 .bf16) (v24 : Vec Ideal S4096x128 .bf16) :
    (k0_pay7 (F := Ideal) v23 v24 : S256x128.Idx → EReal) = mm (v23 : Arr 256 4096) (v24 : Arr 4096 128) := by
  unfold k0_pay7
  simp only [shapeCast_self]
  exact pay6_eq v23 v24

/-- Layer 4: `(adj · zs) · W4`. -/
theorem pay8_eq (v23 : Vec Ideal S256x4096 .bf16) (v24 : Vec Ideal S4096x128 .bf16) (v27 : Vec Ideal S128x256 .bf16) :
    (k0_pay8 (F := Ideal) v23 v24 v27 : S256x256.Idx → EReal)
      = mm (mm (v23 : Arr 256 4096) (v24 : Arr 4096 128)) (v27 : Arr 128 256) := by
  unfold k0_pay8
  simp only [shapeCast_self]
  rw [mm_w4, mm_adj_128]
  rfl

/-- Layer 5: `((adj · z4) · W5) · W6`. -/
theorem pay9_eq (v23 : Vec Ideal S256x4096 .bf16) (v24 : Vec Ideal S4096x256 .bf16) (v27 : Vec Ideal S256x512 .bf16)
    (v31 : Vec Ideal S512x512 .bf16) :
    (k0_pay9 (F := Ideal) v23 v24 v27 v31 : S256x512.Idx → EReal)
      = mm (mm (mm (v23 : Arr 256 4096) (v24 : Arr 4096 256)) (v27 : Arr 256 512)) (v31 : Arr 512 512) := by
  unfold k0_pay9
  simp only [shapeCast_self]
  rw [mm_x_w1, mm_w5, mm_adj_256]
  rfl

/-- Layer 6: `adj · t6`, the decoder's result. -/
theorem pay10_eq (v23 : Vec Ideal S256x4096 .bf16) (v24 : Vec Ideal S4096x512 .bf16) :
    (k0_pay10 (F := Ideal) v23 v24 : S256x512.Idx → EReal) = mm (v23 : Arr 256 4096) (v24 : Arr 4096 512) := by
  unfold k0_pay10
  exact mm_adj_512 v23 v24

/-! ## The reconstruction kernel's store -/

/-- A slab of the reconstructed adjacency: the half-angle logistic function of the slab rows' inner products with
    every row of `zs`, plus the same for `zh`. -/
theorem k1_pay1_eq (v0 : Vec Ideal S4096x128 .f32) (v3 : Vec Ideal S4096x512 .f32) (v6 : Vec Ideal S512x128 .f32)
    (v10 : Vec Ideal S512x512 .f32) :
    k1_pay1 (F := Ideal) v0 v3 v6 v10
      = fun i => sigTanh (rdot (v6 : Arr 512 128) (v0 : Arr 4096 128) i) + sigTanh (rdot (v10 : Arr 512 512) (v3 : Arr 4096 512) i) := by
  unfold k1_pay1
  simp only [shapeCast_self]
  have e1 := (rdot_of dot_S512x128_S4096x128_S512x4096_1_1_0_0_n_n) (truncf .bf16 v6 bitsLt_bf16_f32) (truncf .bf16 v0 bitsLt_bf16_f32)
  have e2 := (rdot_of dot_S512x512_S4096x512_S512x4096_1_1_0_0_n_n) (truncf .bf16 v10 bitsLt_bf16_f32) (truncf .bf16 v3 bitsLt_bf16_f32)
  rw [e1, e2]
  rfl

end Cert.Sgae.Ker

end
-- ==== Proof.Blocks.lean ====
/-
  Matrix products taken a block of rows at a time.

  Row p of a product `A · B` is determined by row p of `A` alone.  So if a matrix with T·S rows is cut into T blocks
  of S rows, the product of block t with `B` is block t of the product, and a matrix all of whose row blocks are
  those products is the product itself.  The same holds for the row-by-row inner products `X · Zᵀ`: the slab of rows
  of `X` gives the slab of rows of the result.  This is what lets a computation that handles one block of rows per
  grid point be read as one whole-matrix product per layer.
-/
import proofs.«146852_g64793876627462_cont_sun_c4_515_4_alg».proof.Proof.Spec
import proofs.«146852_g64793876627462_cont_sun_c4_515_4_alg».proof.Proof.KernelPayloads

noncomputable section

open Idealize.ShloMosaic Idealize.ShloMosaic.ValueIdx
open scoped BigOperators

namespace Cert.Sgae

/-- Row `r` of block `t` is row `t * S + r` of the whole. -/
def rowOf {T S : ℕ} (t : Fin T) (r : Fin S) : Fin (T * S) :=
  ⟨t.val * S + r.val, by
    have h1 : t.val * S + r.val < t.val * S + S := Nat.add_lt_add_left r.isLt _
    have h2 : t.val * S + S = (t.val + 1) * S := by ring
    have h3 : (t.val + 1) * S ≤ T * S := Nat.mul_le_mul_right _ t.isLt
    omega⟩

/-- Block `t` of the rows of a matrix. -/
def rowBlock {T S k : ℕ} (t : Fin T) (A : Arr (T * S) k) : Arr S k :=
  fun i => A (ix2 (rowOf t (i 0)) (i 1))

/-- The product of a row block with `B` is the row block of the product. -/
theorem mm_rowBlock {T S k b : ℕ} (t : Fin T) (A : Arr (T * S) k) (B : Arr k b) :
    mm (rowBlock t A) B = rowBlock t (mm A B) := rfl

/-- The inner products of a slab of rows of `X` with the rows of `Z` are the slab of rows of `X · Zᵀ`. -/
theorem rdot_rowBlock {T S k b : ℕ} (t : Fin T) (X : Arr (T * S) k) (Z : Arr b k) :
    Cert.Sgae.Ker.rdot (rowBlock t X) Z = rowBlock t (Cert.Sgae.Ker.rdot X Z) := rfl

/-- Every row is a row of some block. -/
theorem exists_rowOf {T S : ℕ} (hS : 0 < S) (p : Fin (T * S)) : ∃ (t : Fin T) (r : Fin S), p = rowOf t r := by
  have hT : p.val / S < T := Nat.div_lt_of_lt_mul (lt_of_lt_of_eq p.isLt (Nat.mul_comm T S))
  refine ⟨⟨p.val / S, hT⟩, ⟨p.val % S, Nat.mod_lt _ hS⟩, Fin.ext ?_⟩
  exact (Nat.div_add_mod' p.val S).symm

/-- Two matrices with the same row blocks are equal. -/
theorem ext_rowBlock {T S k : ℕ} (hS : 0 < S) (M N : Arr (T * S) k) (h : ∀ t : Fin T, rowBlock t M = rowBlock t N) : M = N := by
  funext j
  obtain ⟨p, q, rfl⟩ : ∃ (p : Fin (T * S)) (q : Fin k), j = ix2 p q := ⟨j 0, j 1, eq_ix2 j⟩
  obtain ⟨t, r, rfl⟩ := exists_rowOf hS p
  exact congrFun (h t) (ix2 r q)

/-- A matrix whose every row block is the product of that block of `A` with `B` is `A · B`. -/
theorem eq_mm_of_blocks {T S k b : ℕ} (hS : 0 < S) (A : Arr (T * S) k) (B : Arr k b) (M : Arr (T * S) b)
    (h : ∀ t : Fin T, rowBlock t M = mm (rowBlock t A) B) : M = mm A B :=
  ext_rowBlock hS M (mm A B) fun t => (h t).trans (mm_rowBlock t A B)

/-- A matrix whose every slab of rows is the logistic reconstruction of the slab's inner products is the reconstruction. -/
theorem eq_recon_of_blocks {T S f g : ℕ} (hS : 0 < S) (sig : EReal → EReal) (zs : Arr (T * S) f) (zh : Arr (T * S) g)
    (M : Arr (T * S) (T * S))
    (h : ∀ t : Fin T, rowBlock t M
      = fun i => sig (Cert.Sgae.Ker.rdot (rowBlock t zs) zs i) + sig (Cert.Sgae.Ker.rdot (rowBlock t zh) zh i)) :
    M = recon sig zs zh :=
  ext_rowBlock hS M (recon sig zs zh) fun t => (h t).trans rfl

end Cert.Sgae

end
-- ==== Proof.Body0a.lean ====
/-
  The first call's body at the grid points of its first two layers.

  At each grid point the body does the work of one layer on one block of 256 rows: it loads what the layer reads — the
  point's input block, a weight, a block of rows of the adjacency scratch, a feature scratch —, forms the layer's
  products, and stores the result into the block's rows of a scratch buffer (or into an output's block).  Which layer
  it is, is decided by the first grid coordinate through seven conditions of which exactly one holds.  For each layer
  this module runs the body from buffers at given contents and records what it leaves: the buffers it only read, as
  they were; a buffer it stored into, with the stored pieces written over what it held.
-/
import proofs.«146852_g64793876627462_cont_sun_c4_515_4_alg».proof.Proof.Gen.KernelIdeal.Launch
import proofs.«146852_g64793876627462_cont_sun_c4_515_4_alg».proof.Proof.Gen.KernelIdeal.Skeleton
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 0 (the first grid row): the body loads the block of `x` and the first weight and stores their product into the block's rows of the first feature scratch, over what it held; nothing else is touched.  The pieces the scratch ends with are found by running the body. -/
noncomputable def run0 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (x0 : Vec F S256x512 .f32) (w1 : Vec F S512x512 .bf16) (xta : Vec F S4096x512 .bf16) :
    { L13 : List (View.Piece (Elt F) S4096x512 .bf16) //
      ∀ (E : Set ℕ) (K : PUnit → sProp 𝕄),
        iprop(owns (c : Thread nD τ) arg2 fullShare x0 ∗ owns (c : Thread nD τ) arg4 fullShare w1 ∗ owns (c : Thread nD τ) arg13 fullShare xta
            ∗ (iprop(owns (c : Thread nD τ) arg2 fullShare x0
                ∗ owns (c : Thread nD τ) arg4 fullShare w1
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg2, %hf_arg2, H_arg2⟩, ⟨%f_arg4, %hf_arg4, H_arg4⟩, ⟨%f_arg13, %hf_arg13, H_arg13⟩, Hk⟩
    obtain rfl := harg2.eq_unread hf_arg2; obtain rfl := harg4.eq_unread hf_arg4; obtain rfl := harg13.eq_unread hf_arg13
    sl_exec (disch := first | exact hc1 | exact hc2 | exact hc3 | exact hc4 | exact hc5 | exact hc6 | exact hc7)
    sl_step
    iapply Hk
    isplitl [H_arg2]
    · iexists _; isplitr; · ipureintro; exact harg2.read_unread _
      iexact H_arg2
    isplitl [H_arg4]
    · iexists _; isplitr; · ipureintro; exact harg4.read_unread _
      iexact H_arg4
    iexact H_arg13

set_option maxHeartbeats 4000000 in
/-- Layer 1: the body loads the block of `adj`, stores it into the block's rows of the adjacency scratch, loads the first feature scratch whole and the second weight, and stores `(block · t1) · W2` into the block's rows (left 256 columns) of the second feature scratch; both scratch buffers end as they were with the stored piece written. -/
noncomputable def run1 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (a0 : Vec F S256x4096 .f32) (w2 : Vec F S512x256 .bf16) (xadj : Vec F S4096x4096 .bf16) (xta : Vec F S4096x512 .bf16)
    (xtb : Vec F S4096x512 .bf16) :
    Σ' (L12 : List (View.Piece (Elt F) S4096x4096 .bf16)), { L14 : List (View.Piece (Elt F) S4096x512 .bf16) //
      ∀ (E : Set ℕ) (K : PUnit → sProp 𝕄),
        iprop(owns (c : Thread nD τ) arg3 fullShare a0 ∗ owns (c : Thread nD τ) arg5 fullShare w2 ∗ owns (c : Thread nD τ) arg13 fullShare xta ∗ owns (c : Thread nD τ) arg12 fullShare xadj ∗ owns (c : Thread nD τ) arg14 fullShare xtb
            ∗ (iprop(owns (c : Thread nD τ) arg3 fullShare a0
                ∗ owns (c : Thread nD τ) arg5 fullShare w2
                ∗ owns (c : Thread nD τ) arg13 fullShare xta
                ∗ (arg12.view.loc (c : Thread nD τ) ↦[arg12.view.set]{fullShare} arg12.view.writes (Elt F) (harg12.unread xadj) L12)
                ∗ (arg14.view.loc (c : Thread nD τ) ↦[arg14.view.set]{fullShare} arg14.view.writes (Elt F) (harg14.unread xtb) L14)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__mega_kernel_eq_skeleton]; unfold cc0__mega_kernel_skel
    unfold owns
    iintro ⟨⟨%f_arg3, %hf_arg3, H_arg3⟩, ⟨%f_arg5, %hf_arg5, H_arg5⟩, ⟨%f_arg13, %hf_arg13, H_arg13⟩, ⟨%f_arg12, %hf_arg12, H_arg12⟩, ⟨%f_arg14, %hf_arg14, H_arg14⟩, Hk⟩
    obtain rfl := harg3.eq_unread hf_arg3; obtain rfl := harg5.eq_unread hf_arg5; obtain rfl := harg13.eq_unread hf_arg13; obtain rfl := harg12.eq_unread hf_arg12; obtain rfl := harg14.eq_unread hf_arg14
    sl_exec (disch := first | exact hc1 | exact hc2 | exact hc3 | exact hc4 | exact hc5 | exact hc6 | exact hc7)
    sl_step
    iapply Hk
    isplitl [H_arg3]
    · iexists _; isplitr; · ipureintro; exact harg3.read_unread _
      iexact H_arg3
    isplitl [H_arg5]
    · iexists _; isplitr; · ipureintro; exact harg5.read_unread _
      iexact H_arg5
    isplitl [H_arg13]
    · iexists _; isplitr; · ipureintro; exact harg13.read_unread _
      iexact H_arg13
    isplitl [H_arg12]; · iexact H_arg12
    iexact H_arg14

end Cert.Sgae.Body

end
-- ==== Proof.Body0b.lean ====
/-
  The first call's body at the grid points of its layers 2 and 3 (see the module of layers 0 and 1 for what a
  run records).
-/
import proofs.«146852_g64793876627462_cont_sun_c4_515_4_alg».proof.Proof.Gen.KernelIdeal.Launch
import proofs.«146852_g64793876627462_cont_sun_c4_515_4_alg».proof.Proof.Gen.KernelIdeal.Skeleton
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 2: the body loads the block's rows of the adjacency scratch, the left 256 columns of the second feature scratch and the third weight, and stores `(block · t2) · W3` into the block's rows (left 128 columns) of the first feature scratch, over what it held. -/
noncomputable def run2 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1)
    (w3 : Vec F S256x128 .bf16) (xadj : Vec F S4096x4096 .bf16) (xtb : Vec F S4096x512 .bf16) (xta : Vec F S4096x512 .bf16) :
    { L13 : List (View.Piece (Elt F) S4096x512 .bf16) //
      ∀ (E : Set ℕ) (K : PUnit → sProp 𝕄),
        iprop(owns (c : Thread nD τ) arg6 fullShare w3 ∗ owns (c : Thread nD τ) arg12 fullShare xadj ∗ owns (c : Thread nD τ) arg14 fullShare xtb ∗ owns (c : Thread nD τ) arg13 fullShare xta
            ∗ (iprop(owns (c : Thread nD τ) arg6 fullShare w3
                ∗ owns (c : Thread nD τ) arg12 fullShare xadj
                ∗ owns (c : Thread nD τ) arg14 fullShare xtb
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg6, %hf_arg6, H_arg6⟩, ⟨%f_arg12, %hf_arg12, H_arg12⟩, ⟨%f_arg14, %hf_arg14, H_arg14⟩, ⟨%f_arg13, %hf_arg13, H_arg13⟩, Hk⟩
    obtain rfl := harg6.eq_unread hf_arg6; obtain rfl := harg12.eq_unread hf_arg12; obtain rfl := harg14.eq_unread hf_arg14; obtain rfl := harg13.eq_unread hf_arg13
    sl_exec (disch := first | exact hc1 | exact hc2 | exact hc3 | exact hc4 | exact hc5 | exact hc6 | exact hc7)
    sl_step
    iapply Hk
    isplitl [H_arg6]
    · iexists _; isplitr; · ipureintro; exact harg6.read_unread _
      iexact H_arg6
    isplitl [H_arg12]
    · iexists _; isplitr; · ipureintro; exact harg12.read_unread _
      iexact H_arg12
    isplitl [H_arg14]
    · iexists _; isplitr; · ipureintro; exact harg14.read_unread _
      iexact H_arg14
    iexact H_arg13

set_option maxHeartbeats 4000000 in
/-- Layer 3: the body loads the block's rows of the adjacency scratch and the left 128 columns of the first feature scratch, stores their product — a block of the encoder's result — whole into the first output's buffer, and stores it again into the block's rows of the decoder's scratch copy, over what that held. -/
noncomputable def run3 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (hc7 : ¬k0_cond7 i = 1#1)
    (xadj : Vec F S4096x4096 .bf16) (xta : Vec F S4096x512 .bf16) (xzs : Vec F S4096x128 .bf16) :
    Σ' (L10 : List (View.Piece (Elt F) S256x128 .f32)), { L15 : List (View.Piece (Elt F) S4096x128 .bf16) //
      ∀ (E : Set ℕ) (K : PUnit → sProp 𝕄),
        iprop(owns (c : Thread nD τ) arg12 fullShare xadj ∗ owns (c : Thread nD τ) arg13 fullShare xta ∗ (∃ d, owns (c : Thread nD τ) arg10 fullShare d) ∗ owns (c : Thread nD τ) arg15 fullShare xzs
            ∗ (iprop(owns (c : Thread nD τ) arg12 fullShare xadj
                ∗ owns (c : Thread nD τ) arg13 fullShare xta
                ∗ (∃ f, arg10.view.loc (c : Thread nD τ) ↦[arg10.view.set]{fullShare} arg10.view.writes (Elt F) f L10)
                ∗ (arg15.view.loc (c : Thread nD τ) ↦[arg15.view.set]{fullShare} arg15.view.writes (Elt F) (harg15.unread xzs) L15)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__mega_kernel_eq_skeleton]; unfold cc0__mega_kernel_skel
    unfold owns
    iintro ⟨⟨%f_arg12, %hf_arg12, H_arg12⟩, ⟨%f_arg13, %hf_arg13, H_arg13⟩, ⟨%d_arg10, %f_arg10, -, H_arg10⟩, ⟨%f_arg15, %hf_arg15, H_arg15⟩, Hk⟩
    obtain rfl := harg12.eq_unread hf_arg12; obtain rfl := harg13.eq_unread hf_arg13; obtain rfl := harg15.eq_unread hf_arg15
    sl_exec (disch := first | exact hc1 | exact hc2 | exact hc3 | exact hc4 | exact hc5 | exact hc6 | exact hc7)
    sl_step
    iapply Hk
    isplitl [H_arg12]
    · iexists _; isplitr; · ipureintro; exact harg12.read_unread _
      iexact H_arg12
    isplitl [H_arg13]
    · iexists _; isplitr; · ipureintro; exact harg13.read_unread _
      iexact H_arg13
    isplitl [H_arg10]; · iexists _; iexact H_arg10
    iexact H_arg15

end Cert.Sgae.Body

end
-- ==== Proof.Body0c.lean ====
/-
  The first call's body at the grid points of its layers 4, 5 and 6 (see the module of layers 0 and 1 for what a
  run records).
-/
import proofs.«146852_g64793876627462_cont_sun_c4_515_4_alg».proof.Proof.Gen.KernelIdeal.Launch
import proofs.«146852_g64793876627462_cont_sun_c4_515_4_alg».proof.Proof.Gen.KernelIdeal.Skeleton
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 4: the body loads the block's rows of the adjacency scratch, the decoder's scratch copy of the encoder's result whole and the fourth weight, and stores `(block · zs) · W4` into the block's rows (left 256 columns) of the second feature scratch, over what it held. -/
noncomputable def run4 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1) (hc7 : ¬k0_cond7 i = 1#1)
    (w4 : Vec F S128x256 .bf16) (xadj : Vec F S4096x4096 .bf16) (xzs : Vec F S4096x128 .bf16) (xtb : Vec F S4096x512 .bf16) :
    { L14 : List (View.Piece (Elt F) S4096x512 .bf16) //
      ∀ (E : Set ℕ) (K : PUnit → sProp 𝕄),
        iprop(owns (c : Thread nD τ) arg7 fullShare w4 ∗ owns (c : Thread nD τ) arg12 fullShare xadj ∗ owns (c : Thread nD τ) arg15 fullShare xzs ∗ owns (c : Thread nD τ) arg14 fullShare xtb
            ∗ (iprop(owns (c : Thread nD τ) arg7 fullShare w4
                ∗ owns (c : Thread nD τ) arg12 fullShare xadj
                ∗ owns (c : Thread nD τ) arg15 fullShare xzs
                ∗ (arg14.view.loc (c : Thread nD τ) ↦[arg14.view.set]{fullShare} arg14.view.writes (Elt F) (harg14.unread xtb) L14)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg7, %hf_arg7, H_arg7⟩, ⟨%f_arg12, %hf_arg12, H_arg12⟩, ⟨%f_arg15, %hf_arg15, H_arg15⟩, ⟨%f_arg14, %hf_arg14, H_arg14⟩, Hk⟩
    obtain rfl := harg7.eq_unread hf_arg7; obtain rfl := harg12.eq_unread hf_arg12; obtain rfl := harg15.eq_unread hf_arg15; obtain rfl := harg14.eq_unread hf_arg14
    sl_exec (disch := first | exact hc1 | exact hc2 | exact hc3 | exact hc4 | exact hc5 | exact hc6 | exact hc7)
    sl_step
    iapply Hk
    isplitl [H_arg7]
    · iexists _; isplitr; · ipureintro; exact harg7.read_unread _
      iexact H_arg7
    isplitl [H_arg12]
    · iexists _; isplitr; · ipureintro; exact harg12.read_unread _
      iexact H_arg12
    isplitl [H_arg15]
    · iexists _; isplitr; · ipureintro; exact harg15.read_unread _
      iexact H_arg15
    iexact H_arg14

set_option maxHeartbeats 4000000 in
/-- Layer 5: the body loads the block's rows of the adjacency scratch, the left 256 columns of the second feature scratch and the fifth and sixth weights, and stores `((block · z4) · W5) · W6` into the block's rows of the first feature scratch, over what it held. -/
noncomputable def run5 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1) (hc7 : ¬k0_cond7 i = 1#1)
    (w5 : Vec F S256x512 .bf16) (w6 : Vec F S512x512 .bf16) (xadj : Vec F S4096x4096 .bf16) (xtb : Vec F S4096x512 .bf16) (xta : Vec F S4096x512 .bf16) :
    { L13 : List (View.Piece (Elt F) S4096x512 .bf16) //
      ∀ (E : Set ℕ) (K : PUnit → sProp 𝕄),
        iprop(owns (c : Thread nD τ) arg8 fullShare w5 ∗ owns (c : Thread nD τ) arg9 fullShare w6 ∗ owns (c : Thread nD τ) arg12 fullShare xadj ∗ owns (c : Thread nD τ) arg14 fullShare xtb ∗ owns (c : Thread nD τ) arg13 fullShare xta
            ∗ (iprop(owns (c : Thread nD τ) arg8 fullShare w5
                ∗ owns (c : Thread nD τ) arg9 fullShare w6
                ∗ owns (c : Thread nD τ) arg12 fullShare xadj
                ∗ owns (c : Thread nD τ) arg14 fullShare xtb
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg8, %hf_arg8, H_arg8⟩, ⟨%f_arg9, %hf_arg9, H_arg9⟩, ⟨%f_arg12, %hf_arg12, H_arg12⟩, ⟨%f_arg14, %hf_arg14, H_arg14⟩, ⟨%f_arg13, %hf_arg13, H_arg13⟩, Hk⟩
    obtain rfl := harg8.eq_unread hf_arg8; obtain rfl := harg9.eq_unread hf_arg9; obtain rfl := harg12.eq_unread hf_arg12; obtain rfl := harg14.eq_unread hf_arg14; obtain rfl := harg13.eq_unread hf_arg13
    sl_exec (disch := first | exact hc1 | exact hc2 | exact hc3 | exact hc4 | exact hc5 | exact hc6 | exact hc7)
    sl_step
    iapply Hk
    isplitl [H_arg8]
    · iexists _; isplitr; · ipureintro; exact harg8.read_unread _
      iexact H_arg8
    isplitl [H_arg9]
    · iexists _; isplitr; · ipureintro; exact harg9.read_unread _
      iexact H_arg9
    isplitl [H_arg12]
    · iexists _; isplitr; · ipureintro; exact harg12.read_unread _
      iexact H_arg12
    isplitl [H_arg14]
    · iexists _; isplitr; · ipureintro; exact harg14.read_unread _
      iexact H_arg14
    iexact H_arg13

set_option maxHeartbeats 4000000 in
/-- Layer 6: the body loads the block's rows of the adjacency scratch and the first feature scratch whole, and stores their product — a block of the decoder's result — whole into the second output's buffer. -/
noncomputable def run6 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : k0_cond7 i = 1#1)
    (xadj : Vec F S4096x4096 .bf16) (xta : Vec F S4096x512 .bf16) :
    { L11 : List (View.Piece (Elt F) S256x512 .f32) //
      ∀ (E : Set ℕ) (K : PUnit → sProp 𝕄),
        iprop(owns (c : Thread nD τ) arg12 fullShare xadj ∗ owns (c : Thread nD τ) arg13 fullShare xta ∗ (∃ d, owns (c : Thread nD τ) arg11 fullShare d)
            ∗ (iprop(owns (c : Thread nD τ) arg12 fullShare xadj
                ∗ owns (c : Thread nD τ) arg13 fullShare xta
                ∗ (∃ f, arg11.view.loc (c : Thread nD τ) ↦[arg11.view.set]{fullShare} arg11.view.writes (Elt F) f L11)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg12, %hf_arg12, H_arg12⟩, ⟨%f_arg13, %hf_arg13, H_arg13⟩, ⟨%d_arg11, %f_arg11, -, H_arg11⟩, Hk⟩
    obtain rfl := harg12.eq_unread hf_arg12; obtain rfl := harg13.eq_unread hf_arg13
    sl_exec (disch := first | exact hc1 | exact hc2 | exact hc3 | exact hc4 | exact hc5 | exact hc6 | exact hc7)
    sl_step
    iapply Hk
    isplitl [H_arg12]
    · iexists _; isplitr; · ipureintro; exact harg12.read_unread _
      iexact H_arg12
    isplitl [H_arg13]
    · iexists _; isplitr; · ipureintro; exact harg13.read_unread _
      iexact H_arg13
    iexists _; iexact H_arg11

end Cert.Sgae.Body

end
-- ==== Proof.Body1.lean ====
/-
  The second call's body.

  At each of its eight grid points the reconstruction kernel loads a slab of 512 rows of the encoder's result and of
  the decoder's result and both results whole, forms the slab rows' inner products with every row, applies the
  logistic function in its half-angle form to each and adds the two, and stores the 512 × 4096 slab whole into the
  output's buffer.  This module runs the body from buffers at given contents: the four inputs come back as they were,
  the output's buffer with the one stored piece written.
-/
import proofs.«146852_g64793876627462_cont_sun_c4_515_4_alg».proof.Proof.Gen.KernelIdeal.Launch
import proofs.«146852_g64793876627462_cont_sun_c4_515_4_alg».proof.Proof.Gen.KernelIdeal.Skeleton
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- The reconstruction body at any grid point. -/
noncomputable def runRecon (c : Dev nD) (i : grid1.Coords)
    (arg1 : Memref sig .tc .vmem S512x128 .f32) (harg1 : arg1.IsWhole) (arg2 : Memref sig .tc .vmem S4096x128 .f32) (harg2 : arg2.IsWhole)
    (arg3 : Memref sig .tc .vmem S512x512 .f32) (harg3 : arg3.IsWhole) (arg4 : Memref sig .tc .vmem S4096x512 .f32) (harg4 : arg4.IsWhole)
    (arg5 : Memref sig .tc .vmem S512x4096 .f32) (harg5 : arg5.IsWhole)
    (zsi : Vec F S512x128 .f32) (zsall : Vec F S4096x128 .f32) (zhi : Vec F S512x512 .f32) (zhall : Vec F S4096x512 .f32) :
    { L5 : List (View.Piece (Elt F) S512x4096 .f32) //
      ∀ (E : Set ℕ) (K : PUnit → sProp 𝕄),
        iprop(owns (c : Thread nD τ) arg1 fullShare zsi ∗ owns (c : Thread nD τ) arg2 fullShare zsall ∗ owns (c : Thread nD τ) arg3 fullShare zhi ∗ owns (c : Thread nD τ) arg4 fullShare zhall
            ∗ (∃ d, owns (c : Thread nD τ) arg5 fullShare d)
            ∗ (iprop(owns (c : Thread nD τ) arg1 fullShare zsi ∗ owns (c : Thread nD τ) arg2 fullShare zsall ∗ owns (c : Thread nD τ) arg3 fullShare zhi ∗ owns (c : Thread nD τ) arg4 fullShare zhall
                ∗ (∃ f, arg5.view.loc (c : Thread nD τ) ↦[arg5.view.set]{fullShare} arg5.view.writes (Elt F) f L5)) -∗ K ⟨⟩))
          ⊢ wp frame (wpE (defs₀ (F := F)) Variants.none c none) E
              (cc1__recon_kernel i arg1 harg1 arg2 harg2 arg3 harg3 arg4 harg4 arg5 harg5) K } := by
  refine ⟨?_, fun E K => ?run⟩
  case run =>
    simp only [cc1__recon_kernel_eq_skeleton]; unfold cc1__recon_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1; obtain rfl := harg2.eq_unread hf2
    obtain rfl := harg3.eq_unread hf3; obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Sgae.Body

end
-- ==== Proof.Region1Body.lean ====
/-
  The second call's body with what it leaves stated outright.

  The reconstruction body stores one piece, the whole 512 × 4096 slab, into the output's buffer; the piece is the
  body's one payload of the four loaded arrays.  Since that piece covers the buffer, what the buffer holds afterwards
  does not depend on what it held before: it is the piece read back.
-/
import proofs.«146852_g64793876627462_cont_sun_c4_515_4_alg».proof.Proof.Gen.KernelIdeal.Launch
import proofs.«146852_g64793876627462_cont_sun_c4_515_4_alg».proof.Proof.Gen.KernelIdeal.Skeleton
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-- The whole of each buffer the body touches, as the rectangle its loads and its store name. -/
abbrev rZsAll : Rect S4096x128 := Rect.unit (s := S4096x128) ![0, 0] S4096x128.size inb_S4096x128_S4096x128_0_0
abbrev rZhAll : Rect S4096x512 := Rect.unit (s := S4096x512) ![0, 0] S4096x512.size inb_S4096x512_S4096x512_0_0
abbrev rZsi : Rect S512x128 := Rect.unit (s := S512x128) ![0, 0] S512x128.size inb_S512x128_S512x128_0_0
abbrev rZhi : Rect S512x512 := Rect.unit (s := S512x512) ![0, 0] S512x512.size inb_S512x512_S512x512_0_0
abbrev rOut : Rect S512x4096 := Rect.unit (s := S512x4096) ![0, 0] S512x4096.size inb_S512x4096_S512x4096_0_0

/-- What the output's buffer holds after the body: its one store read back. -/
def out4 (zsi : Vec F S512x128 .f32) (zsall : Vec F S4096x128 .f32) (zhi : Vec F S512x512 .f32) (zhall : Vec F S4096x512 .f32) :
    Vec F S512x4096 .f32 :=
  View.canon [⟨rOut, k1_pay1 (View.ld zsall rZsAll) (View.ld zhall rZhAll) (View.ld zsi rZsi) (View.ld zhi rZhi)⟩]

/-- The one store covers the buffer. -/
theorem cover4 (p0 : Vec F S512x4096 .f32) (y : S512x4096.Idx) :
    ∃ pc ∈ ([⟨rOut, p0⟩] : List (View.Piece (Elt F) S512x4096 .f32)), y ∈ pc.1.set :=
  View.cover_of_tiled [⟨rOut, p0⟩] S512x4096.size (by rfl) y

set_option maxHeartbeats 4000000 in
/-- The reconstruction body on whole buffers, the four inputs' at given contents and the output's at anything, runs to
    the continuation holding the inputs' as they were and the output's at `out4` of them. -/
theorem sound_kernel (c : Dev nD) (E : Set ℕ) (i : grid1.Coords)
    (arg1 : Memref sig .tc .vmem S512x128 .f32) (harg1 : arg1.IsWhole) (arg2 : Memref sig .tc .vmem S4096x128 .f32) (harg2 : arg2.IsWhole)
    (arg3 : Memref sig .tc .vmem S512x512 .f32) (harg3 : arg3.IsWhole) (arg4 : Memref sig .tc .vmem S4096x512 .f32) (harg4 : arg4.IsWhole)
    (arg5 : Memref sig .tc .vmem S512x4096 .f32) (harg5 : arg5.IsWhole)
    (zsi : Vec F S512x128 .f32) (zsall : Vec F S4096x128 .f32) (zhi : Vec F S512x512 .f32) (zhall : Vec F S4096x512 .f32)
    (K : PUnit → sProp 𝕄) :
    iprop(owns (c : Thread nD τ) arg1 fullShare zsi ∗ owns (c : Thread nD τ) arg2 fullShare zsall ∗ owns (c : Thread nD τ) arg3 fullShare zhi ∗ owns (c : Thread nD τ) arg4 fullShare zhall
        ∗ (∃ d, owns (c : Thread nD τ) arg5 fullShare d)
        ∗ (iprop(owns (c : Thread nD τ) arg1 fullShare zsi ∗ owns (c : Thread nD τ) arg2 fullShare zsall ∗ owns (c : Thread nD τ) arg3 fullShare zhi ∗ owns (c : Thread nD τ) arg4 fullShare zhall
            ∗ owns (c : Thread nD τ) arg5 fullShare (out4 zsi zsall zhi zhall)) -∗ K ⟨⟩))
      ⊢ wp frame (wpE (defs₀ (F := F)) Variants.none c none) E
          (cc1__recon_kernel i arg1 harg1 arg2 harg2 arg3 harg3 arg4 harg4 arg5 harg5) K := by
  simp only [cc1__recon_kernel_eq_skeleton]; unfold cc1__recon_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

end Cert.Sgae.Region1

end
-- ==== Proof.Region1Data.lean ====
/-
  The second call's proof data and body obligation.

  The reconstruction call has five windows over eight grid points: a slab of 512 rows of the encoder's result
  (fetched at every point), the encoder's result whole (fetched once), the same two for the decoder's result, and the
  output slab (written back at every point).  The two windows on the encoder's result share one array, and so do the
  two on the decoder's result; each such pair holds its array at the two halves of the full share.  After the body at
  a point every input's buffer still holds its block and the output's buffer holds the body's one store of the four
  input blocks.  Everything is stated for whatever contents `A1` the arrays have when the call is entered.
-/
import proofs.«146852_g64793876627462_cont_sun_c4_515_4_alg».proof.Proof.Region1Body
import Idealize.ShloMosaic.Lib.Pipeline.FrameBody
import Idealize.ShloMosaic.Lib.Ring
import Idealize.ShloMosaic.Lib.Tactic

set_option maxRecDepth 16384

noncomputable section

namespace Cert.Sgae.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A1 : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (A1 c (Pipeline.arrRef spec1 w))

/-- The proof data on core `c`. -/
def dat1 (c : Dev nD) : Dat τ (Elt F) Unit ℕ U ℕ cfg1 c where
  A w := A1 c (Pipeline.arrRef spec1 w)
  after w t := match w with
    | ⟨0, _⟩ => iblk A1 c 0 t
    | ⟨1, _⟩ => iblk A1 c 1 t
    | ⟨2, _⟩ => iblk A1 c 2 t
    | ⟨3, _⟩ => iblk A1 c 3 t
    | ⟨4, _⟩ => out4 (iblk A1 c 0 t) (iblk A1 c 1 t) (iblk A1 c 2 t) (iblk A1 c 3 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg1.W) : (dat1 (U := U) A1 c).A w = A1 c (Pipeline.arrRef spec1 w) := by
  dsimp only [dat1]

theorem after_0 (c : Dev nD) (t : Fin cfg1.N) : (dat1 (U := U) A1 c).after 0 t = iblk A1 c 0 t := by dsimp only [dat1]
theorem after_1 (c : Dev nD) (t : Fin cfg1.N) : (dat1 (U := U) A1 c).after 1 t = iblk A1 c 1 t := by dsimp only [dat1]
theorem after_2 (c : Dev nD) (t : Fin cfg1.N) : (dat1 (U := U) A1 c).after 2 t = iblk A1 c 2 t := by dsimp only [dat1]
theorem after_3 (c : Dev nD) (t : Fin cfg1.N) : (dat1 (U := U) A1 c).after 3 t = iblk A1 c 3 t := by dsimp only [dat1]
theorem after_4 (c : Dev nD) (t : Fin cfg1.N) :
    (dat1 (U := U) A1 c).after 4 t = out4 (iblk A1 c 0 t) (iblk A1 c 1 t) (iblk A1 c 2 t) (iblk A1 c 3 t) := by
  dsimp only [dat1]

/-- Each input's current buffer holds its block at every point, fetched there or not: an unfetched window's block index
    has not moved. -/
theorem before_0 (c : Dev nD) (t : Fin cfg1.N) (d) : (dat1 (U := U) A1 c).before 0 t d = iblk A1 c 0 t :=
  ((dat1 A1 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat1 (U := U) A1 c).before 1 t d = iblk A1 c 1 t :=
  ((dat1 A1 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat1 (U := U) A1 c).before 2 t d = iblk A1 c 2 t :=
  ((dat1 A1 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat1 (U := U) A1 c).before 3 t d = iblk A1 c 3 t :=
  ((dat1 A1 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The body at any point: the inputs' buffers hold their blocks, the body's run applies, the invariant and the core's
    dues pass through unread. -/
theorem sound_body (c : Dev nD) (t : Fin cfg1.N) :
    iprop((dat1 (U := U) A1 c).Φ t.castSucc ∗ (dat1 (U := U) A1 c).owesAt () t.castSucc
        ∗ (∃ d, owns (c : Thread nD τ) (st1_0 t) fullShare ((dat1 (U := U) A1 c).before 0 t d))
        ∗ (∃ d, owns (c : Thread nD τ) (st1_1 t) fullShare ((dat1 (U := U) A1 c).before 1 t d))
        ∗ (∃ d, owns (c : Thread nD τ) (st1_2 t) fullShare ((dat1 (U := U) A1 c).before 2 t d))
        ∗ (∃ d, owns (c : Thread nD τ) (st1_3 t) fullShare ((dat1 (U := U) A1 c).before 3 t d))
        ∗ (∃ d, owns (c : Thread nD τ) (st1_4 t) fullShare ((dat1 (U := U) A1 c).before 4 t d)))
      ⊢ wp frame (wpE (defs₀ (F := F)) Variants.none c none) Set.univ (bodyAt1 t) (fun _ =>
          iprop((dat1 (U := U) A1 c).Φ t.succ ∗ (dat1 (U := U) A1 c).owesAt () t.succ
            ∗ owns (c : Thread nD τ) (st1_0 t) fullShare ((dat1 (U := U) A1 c).after 0 t)
            ∗ owns (c : Thread nD τ) (st1_1 t) fullShare ((dat1 (U := U) A1 c).after 1 t)
            ∗ owns (c : Thread nD τ) (st1_2 t) fullShare ((dat1 (U := U) A1 c).after 2 t)
            ∗ owns (c : Thread nD τ) (st1_3 t) fullShare ((dat1 (U := U) A1 c).after 3 t)
            ∗ owns (c : Thread nD τ) (st1_4 t) fullShare ((dat1 (U := U) A1 c).after 4 t))) := by
  unfold bodyAt1
  simp only [before_0, before_1, before_2, before_3]
  rw [show (dat1 A1 c).Φ t.succ = (dat1 A1 c).Φ t.castSucc from rfl,
    show (dat1 A1 c).owesAt () t.succ = (dat1 A1 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk A1 c 0 t) (iblk A1 c 1 t) (iblk A1 c 2 t) (iblk A1 c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat1 (U := U) A1 c) (defs₀ (F := F)) Variants.none () Set.univ := fun t => by
  rw [bigSep_W1, bigSep_W1]
  exact sound_body A1 c t

end Cert.Sgae.Region1

end
-- ==== Proof.TwoRegions.lean ====
/-
  The kernel program's run, given the first call's proof data.

  The program is a stretch of six host operations (each weight's float format changed), the first call (seven layers
  over a 7 × 16 grid) and the second call (the reconstruction over 8 slabs).  This module runs it from the launch to the
  return over the library's rule for a program of several calls: the thread state between two items is "every
  unscoped buffer at named contents"; a call's record says how its arrays leave that state on entry and rejoin it on
  exit.  The second call's record is complete here: its five windows sit on three arrays — two of them read through
  two windows each, at the two halves of the full share, split on entry and rejoined on exit.  The first call's record
  is built from HYPOTHESES about its proof data: that the data's arrays are the buffers' contents at entry, that its
  body obligation holds at every grid point, and that its invariant starts and ends at "every scratch buffer at
  something".  The conclusion names the three results: what the first call's data leave in its two output arrays, and
  the second call's reconstruction of those.
-/
import proofs.«146852_g64793876627462_cont_sun_c4_515_4_alg».proof.Proof.Region1Data
import proofs.«146852_g64793876627462_cont_sun_c4_515_4_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Sgae.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the host stretch (the first call's entry). -/
abbrev Wh : Dev nD → Valuation τ sig (Elt F) := fun c => StableHlo.after hostOps0 (W0 m c)
abbrev Vh : (c : Dev nD) → (b : Ref sig .tc) → Buf (Elt F) ((c : Thread nD τ).loc b) := fun c b => Wh m c b

/-- The first call's proof data and what is assumed of them. -/
structure Call0 where
  dat : (c : Dev nD) → Dat τ (Elt F) Unit ℕ (Pipeline.UD sig nD τ) ℕ cfg0 c
  hA : ∀ c w, (dat c).A w = Vh m c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

variable (K0 : Call0 (F := F) m)

/-- At the first call's exit: its arrays at what the pipeline leaves, every other buffer as entered. -/
def W1 (c : Dev nD) : Valuation τ sig (Elt F) :=
  Pipeline.withArrays spec0 c (Wh m c) fun w => (K0.dat c).arrAt w cfg0.N
theorem W1_arr (c : Dev nD) (w : Fin cfg0.W) :
    W1 m K0 c (Proc.devRef .tc (Pipeline.arrRef spec0 w)) = (K0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m K0 c (Proc.devRef .tc b) = Wh m c (Proc.devRef .tc b) := by
  unfold W1; exact Pipeline.withArrays_of_ne spec0 c _ _ b hb
abbrev V1 : (c : Dev nD) → (b : Ref sig .tc) → Buf (Elt F) ((c : Thread nD τ).loc b) := fun c b => W1 m K0 c b
theorem hF0 (c : Dev nD) (w : Fin cfg0.W) : (K0.dat c).arrAt w cfg0.N = V1 m K0 c (Pipeline.arrRef spec0 w) :=
  (W1_arr m K0 c w).symm
theorem hrest0 (c : Dev nD) : ∀ b, b ∉ Finset.univ.image (Pipeline.arrRef spec0) → V1 m K0 c b = Vh m c b :=
  fun b hb => W1_of_ne m K0 c b fun w e => hb (Finset.mem_image.mpr ⟨w, Finset.mem_univ _, e⟩)

/-- At the second call's exit: its output array at what the pipeline leaves, every other buffer as entered. -/
def W2 (c : Dev nD) : Valuation τ sig (Elt F) :=
  Function.update (W1 m K0 c) main_v7 ((Cert.Sgae.Region1.dat1 (U := Pipeline.UD sig nD τ) (V1 m K0) c).arrAt 4 cfg1.N)
abbrev V2 : (c : Dev nD) → (b : Ref sig .tc) → Buf (Elt F) ((c : Thread nD τ).loc b) := fun c b => W2 m K0 c b

/-! ## The proof data family and what rides along -/

/-- Both calls' proof data. -/
def pdats : (p : Fin 2) → (c : Dev nD) → Dat τ (Elt F) Unit ℕ (Pipeline.UD sig nD τ) ℕ (Pipeline.pin (pcfgs (F := F)) adm p) c
  | ⟨0, _⟩ => fun c => K0.dat c
  | ⟨1, _⟩ => fun c => Cert.Sgae.Region1.dat1 (V1 m K0) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- The host stretch as a segment over the unscoped buffers. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first call as a segment -/

set_option backward.isDefEq.respectTransparency.types false in
/-- The first call over the thread state: entered from every unscoped buffer at the host stretch's results, left with its
    arrays at what its pipeline leaves.  The generator register goes into the invariant and comes back. -/
def reg0 : Pipeline.RegionSeg (pcfgs (F := F)) adm (pdats m K0) () defs₀ 𝒱₀ L lv 0 where
  win := launch0.win.to₀
  block_pos := launch0.block_pos
  stage_whole := launch0.stage_whole
  K := PEmpty
  osem k := k.elim
  ho := Pipeline.OwnSemFacts.none _
  hbody c := (K0.hbody c).loose
  hwaits := Pipeline.hwaits_of_owed_zero _ _ _ _ L lv 0 fun c t => K0.howed c t
  pre c := iprop(StableHlo.held (c : Thread nD τ) (Pipeline.ucRefs τ sig) (Wh m c) ∗ R c)
  post c := iprop(StableHlo.held (c : Thread nD τ) (Pipeline.ucRefs τ sig) (W1 m K0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vh m c)
  hentry c := by
    rw [Pipeline.ownSems0_none]
    have hsplit := Pipeline.arrays_of_unscopedBufs (p := 0) (pcfgs (F := F)) adm (pdats m K0) launch0.win launch0.arr_whole c
      ((pdats m K0 0 c).share_full (K0.hq c)) (Vh m c) (fun w => (K0.hA c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats m K0 0 c).recorded 0 = Set.univ from K0.hrec c 0]; trivial
      rw [show (pdats m K0 0 c).owed 0 = 0 from K0.howed c 0]
      iexact HO
    isplitl [Hp]; · iexact Hp
    iexact Hrest
  hin c := by
    refine BIBase.Entails.trans ?_ (K0.hin c)
    unfold Pipeline.ΦA
    iintro ⟨Hp, -, Hr⟩
    isplitl [Hr]; · iexact Hr
    iexact Hp
  hout c := by
    rw [Pipeline.ownSems0_none]
    refine BIBase.Entails.trans (K0.hout c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m K0) ((pdats m K0 0 c).share_full (K0.hq c))
      (Vh m c) (V1 m K0 c) ((pdats m K0 0 c).arrAt · cfg0.N) (hF0 m K0 c) (hrest0 m K0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m K0 0 c).owed (Fin.last _) = 0 from K0.howed c _]
    iexact HO

/-! ## The second call as a segment -/

variable (A1 : (c : Dev nD) → (b : Ref sig .tc) → Buf (Elt F) ((c : Thread nD τ).loc b))

/-- The second call's five windows sit on three arrays: the encoder's result (a slab window and a whole-array window, at the
    two halves of the full share), the decoder's result (the same), and the output (at the full share). -/
theorem arrays1_eq (c : Dev nD)
    (G : (w : Fin cfg1.W) → Buf (Elt F) ((cfg1.win w).arr.view.loc (c.tc : Thread nD τ))) :
    ((Cert.Sgae.Region1.dat1 (U := Pipeline.UD sig nD τ) A1 c).arrays G : sProp 𝕄)
      = iprop((((c : Thread nD τ).loc main_v6_0) ↦{fullShare.left} G 0) ∗ (((c : Thread nD τ).loc main_v6_0) ↦{fullShare.right} G 1)
          ∗ (((c : Thread nD τ).loc main_v6_1) ↦{fullShare.left} G 2) ∗ (((c : Thread nD τ).loc main_v6_1) ↦{fullShare.right} G 3)
          ∗ (((c : Thread nD τ).loc main_v7) ↦{fullShare} G 4)) := by
  unfold Dat.arrays
  rw [bigSep_W1, (arr_whole1 0).set_eq_univ, (arr_whole1 2).set_eq_univ, (arr_whole1 4).set_eq_univ]
  rfl

/-- The three distinct buffers behind them. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v6_0) ↦{fullShare} V main_v6_0) ∗ (((c : Thread nD τ).loc main_v6_1) ↦{fullShare} V main_v6_1)
          ∗ (((c : Thread nD τ).loc main_v7) ↦{fullShare} V main_v7)) := by
  unfold Pipeline.arrBufs
  exact bigSep_eq_bigSepL_of_eq [main_v6_0, main_v6_1, main_v7] (by decide) (by decide) _

theorem W2_of_ne (c : Dev nD) (b : Ref sig .tc) (hb : b ≠ main_v7) :
    W2 m K0 c (Proc.devRef .tc b) = W1 m K0 c (Proc.devRef .tc b) := by
  unfold W2
  exact Function.update_of_ne (StableHlo.devRef_ne_of_ne hb : (Proc.devRef .tc b : DevRef τ sig) ≠ Proc.devRef .tc main_v7) _ _
theorem W2_v7 (c : Dev nD) :
    W2 m K0 c (Proc.devRef .tc main_v7) = (Cert.Sgae.Region1.dat1 (U := Pipeline.UD sig nD τ) (V1 m K0) c).arrAt 4 cfg1.N := by
  unfold W2; exact Function.update_self _ _ _

/-- A core's unscoped buffers at a valuation: the three buffers behind the second call's arrays and the rest. -/
theorem held_split1 (c : Dev nD) (W : Valuation τ sig (Elt F)) :
    (StableHlo.held (c : Thread nD τ) (Pipeline.ucRefs τ sig) W : sProp 𝕄)
      = iprop(((((c : Thread nD τ).loc main_v6_0) ↦{fullShare} W main_v6_0) ∗ (((c : Thread nD τ).loc main_v6_1) ↦{fullShare} W main_v6_1)
            ∗ (((c : Thread nD τ).loc main_v7) ↦{fullShare} W main_v7))
          ∗ Pipeline.unscopedRest (Ix := Unit) (Name := ℕ) (U := Pipeline.UD sig nD τ) (Lvl := ℕ) spec1 c (fun b => W b)) := by
  rw [← Pipeline.unscopedBufs_held (Ix := Unit) (Name := ℕ) (U := Pipeline.UD sig nD τ) (Lvl := ℕ) c W,
    Pipeline.unscopedBufs_split₀ cfgs (p := (1 : Fin 2)) winFacts₀1.arr_unscoped c (fun b => W b)]
  show iprop((Pipeline.arrBufs (Ix := Unit) (Name := ℕ) (U := Pipeline.UD sig nD τ) (Lvl := ℕ) spec1 c (fun b => W b) : sProp 𝕄)
      ∗ Pipeline.unscopedRest (Ix := Unit) (Name := ℕ) (U := Pipeline.UD sig nD τ) (Lvl := ℕ) spec1 c (fun b => W b)) = _
  rw [arrBufs1_eq]

/-- The last thread state without the dues: every unscoped buffer at the last boundary's contents, the generator register at
    some state. -/
abbrev Tₙ (c : Dev nD) : sProp 𝕄 := iprop(StableHlo.held (c : Thread nD τ) (Pipeline.ucRefs τ sig) (W2 m K0 c) ∗ ∃ r, prngReg c r)

set_option backward.isDefEq.respectTransparency.types false in
/-- The second call over the thread state: entered from every unscoped buffer as the first call left it, left with its output
    array at what its pipeline leaves.  Each result array of the first call is read through two windows: its buffer is split
    into the two halves of the full share on entry and rejoined on exit. -/
def reg1 : Pipeline.RegionSeg (pcfgs (F := F)) adm (pdats m K0) () defs₀ 𝒱₀ L lv 1 where
  win := winFacts₀1
  block_pos := block_pos1
  stage_whole := stage_whole1
  K := PEmpty
  osem k := k.elim
  ho := Pipeline.OwnSemFacts.none _
  hbody c := (Cert.Sgae.Region1.body_obligation (V1 m K0) c).loose
  hwaits := Pipeline.hwaits_of_owed_zero _ _ _ _ L lv 1 fun _ _ => rfl
  pre c := iprop(StableHlo.held (c : Thread nD τ) (Pipeline.ucRefs τ sig) (W1 m K0 c) ∗ R c)
  post c := iprop(Tₙ m K0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m K0 c)
  hentry c := by
    rw [Pipeline.ownSems0_none, held_split1]
    show _ ⊢ |={Set.univ}=> iprop((Cert.Sgae.Region1.dat1 (U := Pipeline.UD sig nD τ) (V1 m K0) c).arrays
        ((Cert.Sgae.Region1.dat1 (U := Pipeline.UD sig nD τ) (V1 m K0) c).arrAt · 0) ∗ _ ∗ _ ∗ _ ∗ _)
    rw [arrays1_eq]
    iintro ⟨⟨⟨⟨H60, H61, H7⟩, Hrest⟩, Hp, HO⟩, -, -⟩
    ihave H60' := (pointsTo_share (PosShare.mem_left_op_right fullShare)).1 $$ H60
    icases H60' with ⟨H60l, H60r⟩
    ihave H61' := (pointsTo_share (PosShare.mem_left_op_right fullShare)).1 $$ H61
    icases H61' with ⟨H61l, H61r⟩
    imodintro
    isplitl [H60l H60r H61l H61r H7]
    · isplitl [H60l]; · iexact H60l
      isplitl [H60r]; · iexact H60r
      isplitl [H61l]; · iexact H61l
      isplitl [H61r]; · iexact H61r
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m K0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m K0 1 c).Φ (Fin.last _) = Pipeline.ΦA spec1 c from rfl]; unfold Pipeline.ΦA
    iintro ⟨Hr, Hp⟩
    isplitl [Hp]; · iexact Hp
    isplitr; · iempintro
    iexact Hr
  hexit c := by
    have hrestEq : (Pipeline.unscopedRest (Ix := Unit) (Name := ℕ) (U := Pipeline.UD sig nD τ) (Lvl := ℕ) spec1 c (fun b => W2 m K0 c b) : sProp 𝕄)
        = Pipeline.unscopedRest (Ix := Unit) (Name := ℕ) (U := Pipeline.UD sig nD τ) (Lvl := ℕ) spec1 c (V1 m K0 c) := by
      unfold Pipeline.unscopedRest
      refine bigSep_congr fun b hb => ?_
      show (((c : Thread nD τ).loc b) ↦{fullShare} W2 m K0 c (Proc.devRef .tc b) : sProp 𝕄) = _
      rw [show W2 m K0 c (Proc.devRef .tc b) = W1 m K0 c (Proc.devRef .tc b) from W2_of_ne m K0 c b fun e =>
        (Finset.mem_sdiff.mp hb).2 (e ▸ Finset.mem_image.mpr ⟨(4 : Fin 5), Finset.mem_univ _, rfl⟩)]
    have e0 : (Cert.Sgae.Region1.dat1 (U := Pipeline.UD sig nD τ) (V1 m K0) c).arrAt 0 cfg1.N = W2 m K0 c main_v6_0 :=
      ((Cert.Sgae.Region1.dat1 (V1 m K0) c).arrAt_in 0 rfl _).trans (W2_of_ne m K0 c main_v6_0 (by decide)).symm
    have e1 : (Cert.Sgae.Region1.dat1 (U := Pipeline.UD sig nD τ) (V1 m K0) c).arrAt 1 cfg1.N = W2 m K0 c main_v6_0 :=
      ((Cert.Sgae.Region1.dat1 (V1 m K0) c).arrAt_in 1 rfl _).trans (W2_of_ne m K0 c main_v6_0 (by decide)).symm
    have e2 : (Cert.Sgae.Region1.dat1 (U := Pipeline.UD sig nD τ) (V1 m K0) c).arrAt 2 cfg1.N = W2 m K0 c main_v6_1 :=
      ((Cert.Sgae.Region1.dat1 (V1 m K0) c).arrAt_in 2 rfl _).trans (W2_of_ne m K0 c main_v6_1 (by decide)).symm
    have e3 : (Cert.Sgae.Region1.dat1 (U := Pipeline.UD sig nD τ) (V1 m K0) c).arrAt 3 cfg1.N = W2 m K0 c main_v6_1 :=
      ((Cert.Sgae.Region1.dat1 (V1 m K0) c).arrAt_in 3 rfl _).trans (W2_of_ne m K0 c main_v6_1 (by decide)).symm
    have e4 : (Cert.Sgae.Region1.dat1 (U := Pipeline.UD sig nD τ) (V1 m K0) c).arrAt 4 cfg1.N = W2 m K0 c main_v7 :=
      (W2_v7 m K0 c).symm
    show iprop((Cert.Sgae.Region1.dat1 (U := Pipeline.UD sig nD τ) (V1 m K0) c).arrays
        ((Cert.Sgae.Region1.dat1 (U := Pipeline.UD sig nD τ) (V1 m K0) c).arrAt · cfg1.N) ∗ _ ∗ _ ∗ _) ⊢ _
    unfold Tₙ
    rw [arrays1_eq, held_split1, hrestEq]
    dsimp only
    rw [e0, e1, e2, e3, e4]
    iintro ⟨⟨H60l, H60r, H61l, H61r, H7⟩, HO, HY, Hrest⟩
    ihave H60 := (pointsTo_share (PosShare.mem_left_op_right fullShare)).2 $$ [H60l H60r]
    · isplitl [H60l] <;> iassumption
    ihave H61 := (pointsTo_share (PosShare.mem_left_op_right fullShare)).2 $$ [H61l H61r]
    · isplitl [H61l] <;> iassumption
    imodintro
    isplitl [H60 H61 H7 Hrest HY]
    · isplitl [H60 H61 H7 Hrest]
      · isplitl [H60 H61 H7]
        · isplitl [H60]; · iexact H60
          isplitl [H61]; · iexact H61
          iexact H7
        iexact Hrest
      iexact HY
    unfold Pipeline.Dat.owesAt Pipeline.owesWithin
    icases HO with ⟨%W, -, HO⟩; iexists W; iexact HO

/-! ## @main as segments, and the launch -/

/-- @main's three items in order: the host stretch, the first call, the second call. -/
abbrev segs : List (Pipeline.Seg (pcfgs (F := F)) adm (pdats m K0) () defs₀ 𝒱₀ L lv) :=
  [ .host (hseg m), .region (reg0 m K0), .region (reg1 m K0) ]

theorem main_run (c : Dev nD) : main (F := F) c = Pipeline.Seg.run (segs m K0) := (main_chain c).trans (by chain_rfl)

set_option backward.isDefEq.respectTransparency.types false in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m K0 c b) :=
  Pipeline.θ_run_regions_kit (pcfgs (F := F)) adm (pdats m K0) () cellOf_inj embL defs₀ 𝒱₀ L lv m ρ main (segs m K0)
    (fun c Q => by rw [main_run m K0 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m K0)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m K0 c b)
    (hfin := fun c s' => by
      iintro ⟨⟨Hh, -⟩, HSI⟩
      unfold StableHlo.held
      imodintro
      iapply (pointsTo_read_all (Pipeline.ucRefs τ sig) (fun b => (((c : Thread nD τ)).1, b)) (W2 m K0 c) s')
      isplitl [Hh] <;> iassumption)
    (hQ := fun s h c => h c)

/-! ## The last boundary's contents, buffer by buffer -/

theorem W2_main_v6_0 (c : Dev nD) : W2 m K0 c (Proc.devRef .tc main_v6_0) = (K0.dat c).arrAt 8 cfg0.N :=
  (W2_of_ne m K0 c main_v6_0 (by decide)).trans (W1_arr m K0 c 8)
theorem W2_main_v6_1 (c : Dev nD) : W2 m K0 c (Proc.devRef .tc main_v6_1) = (K0.dat c).arrAt 9 cfg0.N :=
  (W2_of_ne m K0 c main_v6_1 (by decide)).trans (W1_arr m K0 c 9)

/-- A buffer the host stretch does not write holds its launch contents after it. -/
theorem Wh_of (c : Dev nD) (r : Ref sig .tc) (h : r ∉ Cert.KernelIdeal.Gen.hostOps0_W) :
    Wh m c (Proc.devRef .tc r) = m ((c : Thread nD τ).loc r) :=
  Cert.KernelIdeal.Gen.V1_of m c r h

theorem W2_main_arg0 (c : Dev nD) : W2 m K0 c (Proc.devRef .tc main_arg0) = m ((c : Thread nD τ).loc main_arg0) :=
  (W2_of_ne m K0 c main_arg0 (by decide)).trans ((W1_arr m K0 c 0).trans (((K0.dat c).arrAt_in 0 rfl _).trans
    ((K0.hA c 0).trans (Wh_of m c main_arg0 (by decide)))))
theorem W2_main_arg1 (c : Dev nD) : W2 m K0 c (Proc.devRef .tc main_arg1) = m ((c : Thread nD τ).loc main_arg1) :=
  (W2_of_ne m K0 c main_arg1 (by decide)).trans ((W1_arr m K0 c 1).trans (((K0.dat c).arrAt_in 1 rfl _).trans
    ((K0.hA c 1).trans (Wh_of m c main_arg1 (by decide)))))
theorem W2_weight (c : Dev nD) (r : Ref sig .tc) (h7 : r ≠ main_v7) (h0 : ∀ w, Pipeline.arrRef spec0 w ≠ r)
    (hh : r ∉ Cert.KernelIdeal.Gen.hostOps0_W) : W2 m K0 c (Proc.devRef .tc r) = m ((c : Thread nD τ).loc r) :=
  (W2_of_ne m K0 c r h7).trans ((W1_of_ne m K0 c r h0).trans (Wh_of m c r hh))

/-- THE RUN WITH ITS RESULTS NAMED: the first call's two output arrays at what its proof data leave, the second call's at
    what its own leave of those, every argument as launched. -/
theorem run_named : θ_run defs (onTc (τ := τ) (main (F := F))) ⟨m, fun _ => 0, ρ⟩ (fun r => ∀ c : Dev nD,
      r.2.mem ((c.tc : Thread nD τ).loc main_v6_0) = (K0.dat c).arrAt 8 cfg0.N
      ∧ r.2.mem ((c.tc : Thread nD τ).loc main_v6_1) = (K0.dat c).arrAt 9 cfg0.N
      ∧ r.2.mem ((c.tc : Thread nD τ).loc main_v7) = (Cert.Sgae.Region1.dat1 (U := Pipeline.UD sig nD τ) (V1 m K0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v6_0 (by decide))).trans (W2_main_v6_0 m K0 c),
     (h c _ (mem_uc main_v6_1 (by decide))).trans (W2_main_v6_1 m K0 c),
     (h c _ (mem_uc main_v7 (by decide))).trans (W2_v7 m K0 c),
     (h c _ (mem_uc main_arg0 (by decide))).trans (W2_main_arg0 m K0 c),
     (h c _ (mem_uc main_arg1 (by decide))).trans (W2_main_arg1 m K0 c),
     (h c _ (mem_uc main_arg2 (by decide))).trans (W2_weight m K0 c main_arg2 (by decide) (by decide) (by decide)),
     (h c _ (mem_uc main_arg3 (by decide))).trans (W2_weight m K0 c main_arg3 (by decide) (by decide) (by decide)),
     (h c _ (mem_uc main_arg4 (by decide))).trans (W2_weight m K0 c main_arg4 (by decide) (by decide) (by decide)),
     (h c _ (mem_uc main_arg5 (by decide))).trans (W2_weight m K0 c main_arg5 (by decide) (by decide) (by decide)),
     (h c _ (mem_uc main_arg6 (by decide))).trans (W2_weight m K0 c main_arg6 (by decide) (by decide) (by decide)),
     (h c _ (mem_uc main_arg7 (by decide))).trans (W2_weight m K0 c main_arg7 (by decide) (by decide) (by decide))⟩)
    (run_all m ρ K0)

end Cert.Sgae.Run

end
-- ==== Proof.Region1Value.lean ====
/-
  What the second call leaves in its output array.

  At grid point t the reconstruction body stores, into the output's buffer, the half-angle logistic function of the
  inner products of the rows of slab t of the encoder's result with all its rows, plus the same for the decoder's
  result; the pipeline writes that buffer back as slab t of the output array.  Row r of slab t is row 512·t + r of
  the whole, so what point t writes back is slab t of the whole reconstruction; the eight slabs tile the array; so
  after the call the array holds the reconstruction of whatever the two result arrays held when the call was entered.
-/
import proofs.«146852_g64793876627462_cont_sun_c4_515_4_alg».proof.Proof.Region1Data
import proofs.«146852_g64793876627462_cont_sun_c4_515_4_alg».proof.Proof.KernelPayloads
import Idealize.ShloMosaic.Lib.Pipeline.Value

set_option maxRecDepth 16384

noncomputable section

namespace Cert.Sgae.Region1

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open Cert.Sgae.Ker
open scoped BigOperators

variable {U : Type} [URA U]
variable (A1 : (c : Dev nD) → (b : Ref sig .tc) → Buf (Elt Ideal) ((c : Thread nD τ).loc b))

theorem hz : (![0, 0] : Fin 2 → Nat) = fun _ => 0 := funext fun a => by fin_cases a <;> rfl

/-- The output's buffer after the body, as a function of the four input blocks. -/
theorem out4_eq (zsi : Vec Ideal S512x128 .f32) (zsall : Vec Ideal S4096x128 .f32) (zhi : Vec Ideal S512x512 .f32)
    (zhall : Vec Ideal S4096x512 .f32) :
    out4 (F := Ideal) zsi zsall zhi zhall
      = fun i => sigTanh (rdot (zsi : Arr 512 128) (zsall : Arr 4096 128) i) + sigTanh (rdot (zhi : Arr 512 512) (zhall : Arr 4096 512) i) := by
  unfold out4
  rw [View.canon_unit_zero hz]
  simp only [View.ld_unit_zero (S := S4096x128) hz, View.ld_unit_zero (S := S4096x512) hz,
    View.ld_unit_zero (S := S512x128) hz, View.ld_unit_zero (S := S512x512) hz]
  exact k1_pay1_eq _ _ _ _

/-- The printed index maps, decided over the grid: the two slab windows move with the output's slab, the two whole-array
    windows stay put, and the output's slab index runs over 0 … 7. -/
theorem idx_facts : ∀ t : Fin cfg1.N, win1_0.index t (0 : Fin 2) = win1_4.index t (0 : Fin 2)
    ∧ win1_0.index t (1 : Fin 2) = 0 ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 7 :=
  (by decide +kernel : ∀ t : Fin grid1.N, _)

/-- Every slab is some point's. -/
theorem idx_onto : ∀ q0 : Fin 8, ∃ t : Fin cfg1.N, win1_4.index t = ![q0.val, 0] :=
  (by decide +kernel : ∀ q0 : Fin 8, ∃ t : Fin grid1.N, win1_4.index t = ![q0.val, 0])

set_option maxHeartbeats 2000000 in
/-- Slab `t` of the reconstruction, entry by entry: the slab windows' rows are rows 512·t + r of the whole, the whole-array
    windows' rows are the rows themselves. -/
theorem slab_eq (zs : Arr 4096 128) (zh : Arr 4096 512) (t : Fin cfg1.N) (j : S512x4096.Idx) :
    sigTanh (∑ k : Fin 128, zs (((cfg1.win 0).blk t).view.emb (ix2 (j 0) k)) * zs (((cfg1.win 1).blk t).view.emb (ix2 (j 1) k)))
      + sigTanh (∑ k : Fin 512, zh (((cfg1.win 2).blk t).view.emb (ix2 (j 0) k)) * zh (((cfg1.win 3).blk t).view.emb (ix2 (j 1) k)))
    = recon sigTanh zs zh (((cfg1.win 4).blk t).view.emb j) := by
  obtain ⟨e0, e1, e2, e3, e4, e5, e6, e7, e8, e9⟩ := idx_facts t
  show _ = sigTanh (∑ k : Fin 128, zs (ix2 ((((cfg1.win 4).blk t).view.emb j) 0) k) * zs (ix2 ((((cfg1.win 4).blk t).view.emb j) 1) k))
      + sigTanh (∑ k : Fin 512, zh (ix2 ((((cfg1.win 4).blk t).view.emb j) 0) k) * zh (ix2 ((((cfg1.win 4).blk t).view.emb j) 1) k))
  have h0 : ∀ k : Fin 128, ((cfg1.win 0).blk t).view.emb (ix2 (j 0) k) = ix2 ((((cfg1.win 4).blk t).view.emb j) 0) k := fun k => by
    funext a; apply Fin.ext
    match a with
    | ⟨0, _⟩ => show win1_0.index t (0 : Fin 2) * 512 + 1 * (j 0).val = win1_4.index t (0 : Fin 2) * 512 + 1 * (j 0).val; omega
    | ⟨1, _⟩ => show win1_0.index t (1 : Fin 2) * 128 + 1 * k.val = k.val; omega
  have h1 : ∀ k : Fin 128, ((cfg1.win 1).blk t).view.emb (ix2 (j 1) k) = ix2 ((((cfg1.win 4).blk t).view.emb j) 1) k := fun k => by
    funext a; apply Fin.ext
    match a with
    | ⟨0, _⟩ => show win1_1.index t (0 : Fin 2) * 4096 + 1 * (j 1).val = win1_4.index t (1 : Fin 2) * 4096 + 1 * (j 1).val; omega
    | ⟨1, _⟩ => show win1_1.index t (1 : Fin 2) * 128 + 1 * k.val = k.val; omega
  have h2 : ∀ k : Fin 512, ((cfg1.win 2).blk t).view.emb (ix2 (j 0) k) = ix2 ((((cfg1.win 4).blk t).view.emb j) 0) k := fun k => by
    funext a; apply Fin.ext
    match a with
    | ⟨0, _⟩ => show win1_2.index t (0 : Fin 2) * 512 + 1 * (j 0).val = win1_4.index t (0 : Fin 2) * 512 + 1 * (j 0).val; omega
    | ⟨1, _⟩ => show win1_2.index t (1 : Fin 2) * 512 + 1 * k.val = k.val; omega
  have h3 : ∀ k : Fin 512, ((cfg1.win 3).blk t).view.emb (ix2 (j 1) k) = ix2 ((((cfg1.win 4).blk t).view.emb j) 1) k := fun k => by
    funext a; apply Fin.ext
    match a with
    | ⟨0, _⟩ => show win1_3.index t (0 : Fin 2) * 4096 + 1 * (j 1).val = win1_4.index t (1 : Fin 2) * 4096 + 1 * (j 1).val; omega
    | ⟨1, _⟩ => show win1_3.index t (1 : Fin 2) * 512 + 1 * k.val = k.val; omega
  simp only [h0, h1, h2, h3]
  rfl

set_option maxHeartbeats 2000000 in
/-- What point `t` writes back is slab `t` of the reconstruction of the two result arrays as the call finds them. -/
theorem flushed4_eq (c : Dev nD) (t : Fin cfg1.N) :
    (dat1 (U := U) A1 c).flushed 4 t
      = ((cfg1.win 4).blk t).view.read (Elt Ideal) (recon sigTanh (A1 c main_v6_0 : Arr 4096 128) (A1 c main_v6_1 : Arr 4096 512)) := by
  show (cfg1.win 4).cut (grid1.coords t) ((dat1 (U := U) A1 c).after 4 t) = _
  rw [after_4, out4_eq]
  funext j
  exact slab_eq (A1 c main_v6_0) (A1 c main_v6_1) t j

/-- An index of the output array is in point `t`'s slab iff each coordinate is in the slab's range on its axis. -/
theorem mem_blk4 (t : Fin cfg1.N) (i : S4096x4096.Idx) :
    i ∈ ((cfg1.win 4).blk t).view.set ↔ ∀ a : Fin 2, win1_4.index t a * S512x4096.size a ≤ (i a).val ∧ (i a).val < win1_4.index t a * S512x4096.size a + S512x4096.size a := by
  show i ∈ ((View.whole main_v7).slice (win1_4.rect t)).set ↔ _
  rw [View.set_slice_whole, Rect.mem_set_unit]
  exact Iff.rfl

/-- Every index of the output array is in some point's slab: row r is in slab r / 512. -/
theorem cover4' (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, ht⟩ := idx_onto ⟨(i 0).val / 512, by omega⟩
  have q0 : win1_4.index t (0 : Fin 2) = (i 0).val / 512 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 4096 ≤ (i 1).val ∧ (i 1).val < win1_4.index t (1 : Fin 2) * 4096 + 4096; omega

/-- The output array after the call: the reconstruction of the two result arrays as the call found them. -/
theorem final4 (c : Dev nD) :
    (dat1 (U := U) A1 c).arrAt 4 cfg1.N = recon sigTanh (A1 c main_v6_0 : Arr 4096 128) (A1 c main_v6_1 : Arr 4096 512) :=
  (dat1 (U := U) A1 c).arrAt_eq_of_cover 4 _ (fun t _ => flushed4_eq A1 c t) cover4'

end Cert.Sgae.Region1

end
-- ==== Proof.KernelRun.lean ====
/-
  The idealized kernel's run from the first call's proof data.

  Suppose that, for every launch memory, the first call has proof data meeting the hypotheses of the two-call run
  (its arrays are the buffers' contents at entry, its body obligation holds at every grid point, its invariant starts
  and ends at "every scratch buffer at something") whose two output arrays end at the encoder and at the regrouped
  decoder of the arguments.  Then the second call's output array ends at the half-angle reconstruction of those two,
  and the whole run is the one the bridge to the reference asks for.
-/
import proofs.«146852_g64793876627462_cont_sun_c4_515_4_alg».proof.Proof.TwoRegions
import proofs.«146852_g64793876627462_cont_sun_c4_515_4_alg».proof.Proof.Region1Value
import proofs.«146852_g64793876627462_cont_sun_c4_515_4_alg».proof.Proof.Bridge

noncomputable section

open Idealize.ShloMosaic Idealize.ShloMosaic.TcCoe Idealize.SL.Sem
open Cert.KernelIdeal Cert.KernelIdeal.Gen

namespace Cert.Sgae.KernelRun

/-- What is asked of the first call's proof data at the ideal reading. -/
def Call0Spec : Prop :=
  ∀ m : (ℓ : Loc nD τ sig) → Buf (Elt Ideal) ℓ, ∃ K0 : Cert.Sgae.Run.Call0 (F := Ideal) m, ∀ c : Dev nD,
    ((K0.dat c).arrAt 8 cfg0.N : Arr 4096 128) = Cert.Sgae.Bridge.kzs m c
    ∧ ((K0.dat c).arrAt 9 cfg0.N : Arr 4096 512) = Cert.Sgae.Bridge.kzh m c

theorem kernel_value_run (h : Call0Spec) : Cert.Sgae.Bridge.KernelValueRun := by
  intro m ρ
  obtain ⟨K0, hK⟩ := h m
  refine (θ_run Cert.KernelIdeal.defs _ _).mono (fun r hr c => ?_) (Cert.Sgae.Run.run_named m ρ K0)
  obtain ⟨h0, h1, h7, hargs⟩ := hr c
  obtain ⟨e8, e9⟩ := hK c
  refine ⟨h0.trans e8, h1.trans e9, ?_, hargs⟩
  refine h7.trans ((Cert.Sgae.Region1.final4 (Cert.Sgae.Run.V1 m K0) c).trans ?_)
  have a8 : Cert.Sgae.Run.V1 m K0 c main_v6_0 = (K0.dat c).arrAt 8 cfg0.N := Cert.Sgae.Run.W1_arr m K0 c 8
  have a9 : Cert.Sgae.Run.V1 m K0 c main_v6_1 = (K0.dat c).arrAt 9 cfg0.N := Cert.Sgae.Run.W1_arr m K0 c 9
  rw [a8, a9, e8, e9]

end Cert.Sgae.KernelRun

end
-- ==== Proof.Region0Facts.lean ====
/-
  The first call's grid, decided.

  The grid has 7 × 16 points, numbered row-major: point t is block t % 16 of layer t / 16.  Of the body's seven
  conditions exactly the one of the point's layer holds; every row offset the body computes is 256 times the block
  number; the first output's window (the encoder's result) is stored into only in layer 3 and written back after every
  point of that layer but the last, and after the very last point of the grid; the second output's window (the decoder's
  result) is stored into only in layer 6 and written back after each of its points.  All of this is finitely many
  evaluations over the 112 points.
-/
import proofs.«146852_g64793876627462_cont_sun_c4_515_4_alg».proof.Proof.Gen.KernelIdeal.Points
import proofs.«146852_g64793876627462_cont_sun_c4_515_4_alg».proof.Proof.Gen.KernelIdeal.Launch

set_option maxRecDepth 16384

namespace Cert.Sgae.Region0

open Cert.KernelIdeal Cert.KernelIdeal.Gen
open Idealize.ShloMosaic

/-! ## Which layer a point is in -/

theorem hcond1 : ∀ t : Fin cfg0.N, k0_cond1 (grid0.coords t) = 1#1 ↔ t.val / 16 = 0 :=
  (by decide +kernel : ∀ t : Fin grid0.N, k0_cond1 (grid0.coords t) = 1#1 ↔ t.val / 16 = 0)
theorem hcond2 : ∀ t : Fin cfg0.N, k0_cond2 (grid0.coords t) = 1#1 ↔ t.val / 16 = 1 :=
  (by decide +kernel : ∀ t : Fin grid0.N, k0_cond2 (grid0.coords t) = 1#1 ↔ t.val / 16 = 1)
theorem hcond3 : ∀ t : Fin cfg0.N, k0_cond3 (grid0.coords t) = 1#1 ↔ t.val / 16 = 2 :=
  (by decide +kernel : ∀ t : Fin grid0.N, k0_cond3 (grid0.coords t) = 1#1 ↔ t.val / 16 = 2)
theorem hcond4 : ∀ t : Fin cfg0.N, k0_cond4 (grid0.coords t) = 1#1 ↔ t.val / 16 = 3 :=
  (by decide +kernel : ∀ t : Fin grid0.N, k0_cond4 (grid0.coords t) = 1#1 ↔ t.val / 16 = 3)
theorem hcond5 : ∀ t : Fin cfg0.N, k0_cond5 (grid0.coords t) = 1#1 ↔ t.val / 16 = 4 :=
  (by decide +kernel : ∀ t : Fin grid0.N, k0_cond5 (grid0.coords t) = 1#1 ↔ t.val / 16 = 4)
theorem hcond6 : ∀ t : Fin cfg0.N, k0_cond6 (grid0.coords t) = 1#1 ↔ t.val / 16 = 5 :=
  (by decide +kernel : ∀ t : Fin grid0.N, k0_cond6 (grid0.coords t) = 1#1 ↔ t.val / 16 = 5)
theorem hcond7 : ∀ t : Fin cfg0.N, k0_cond7 (grid0.coords t) = 1#1 ↔ t.val / 16 = 6 :=
  (by decide +kernel : ∀ t : Fin grid0.N, k0_cond7 (grid0.coords t) = 1#1 ↔ t.val / 16 = 6)

/-! ## The row offsets: 256 times the block number -/

theorem hoff1 : ∀ t : Fin cfg0.N, k0_off1 (grid0.coords t) = ![256 * (t.val % 16), 0] :=
  (by decide +kernel : ∀ t : Fin grid0.N, k0_off1 (grid0.coords t) = ![256 * (t.val % 16), 0])
theorem hoff2 : ∀ t : Fin cfg0.N, k0_off2 (grid0.coords t) = ![256 * (t.val % 16), 0] :=
  (by decide +kernel : ∀ t : Fin grid0.N, k0_off2 (grid0.coords t) = ![256 * (t.val % 16), 0])
theorem hoff3 : ∀ t : Fin cfg0.N, k0_off3 (grid0.coords t) = ![256 * (t.val % 16), 0] :=
  (by decide +kernel : ∀ t : Fin grid0.N, k0_off3 (grid0.coords t) = ![256 * (t.val % 16), 0])
theorem hoff4 : ∀ t : Fin cfg0.N, k0_off4 (grid0.coords t) = ![256 * (t.val % 16), 0] :=
  (by decide +kernel : ∀ t : Fin grid0.N, k0_off4 (grid0.coords t) = ![256 * (t.val % 16), 0])
theorem hoff5 : ∀ t : Fin cfg0.N, k0_off5 (grid0.coords t) = ![256 * (t.val % 16), 0] :=
  (by decide +kernel : ∀ t : Fin grid0.N, k0_off5 (grid0.coords t) = ![256 * (t.val % 16), 0])
theorem hoff6 : ∀ t : Fin cfg0.N, k0_off6 (grid0.coords t) = ![256 * (t.val % 16), 0] :=
  (by decide +kernel : ∀ t : Fin grid0.N, k0_off6 (grid0.coords t) = ![256 * (t.val % 16), 0])
theorem hoff7 : ∀ t : Fin cfg0.N, k0_off7 (grid0.coords t) = ![256 * (t.val % 16), 0] :=
  (by decide +kernel : ∀ t : Fin grid0.N, k0_off7 (grid0.coords t) = ![256 * (t.val % 16), 0])
theorem hoff8 : ∀ t : Fin cfg0.N, k0_off8 (grid0.coords t) = ![256 * (t.val % 16), 0] :=
  (by decide +kernel : ∀ t : Fin grid0.N, k0_off8 (grid0.coords t) = ![256 * (t.val % 16), 0])
theorem hoff9 : ∀ t : Fin cfg0.N, k0_off9 (grid0.coords t) = ![256 * (t.val % 16), 0] :=
  (by decide +kernel : ∀ t : Fin grid0.N, k0_off9 (grid0.coords t) = ![256 * (t.val % 16), 0])
theorem hoff10 : ∀ t : Fin cfg0.N, k0_off10 (grid0.coords t) = ![256 * (t.val % 16), 0] :=
  (by decide +kernel : ∀ t : Fin grid0.N, k0_off10 (grid0.coords t) = ![256 * (t.val % 16), 0])
theorem hoff11 : ∀ t : Fin cfg0.N, k0_off11 (grid0.coords t) = ![256 * (t.val % 16), 0] :=
  (by decide +kernel : ∀ t : Fin grid0.N, k0_off11 (grid0.coords t) = ![256 * (t.val % 16), 0])
theorem hoff12 : ∀ t : Fin cfg0.N, k0_off12 (grid0.coords t) = ![256 * (t.val % 16), 0] :=
  (by decide +kernel : ∀ t : Fin grid0.N, k0_off12 (grid0.coords t) = ![256 * (t.val % 16), 0])

/-! ## Where the two outputs' windows are idle, and where they are written back -/

theorem idle8 : ∀ t : Fin cfg0.N, cfg0.idle 8 (grid0.coords t) = true ↔ t.val / 16 ≠ 3 :=
  (by decide +kernel : ∀ t : Fin grid0.N, idle0 8 (grid0.coords t) = true ↔ t.val / 16 ≠ 3)
theorem idle9 : ∀ t : Fin cfg0.N, cfg0.idle 9 (grid0.coords t) = true ↔ t.val / 16 ≠ 6 :=
  (by decide +kernel : ∀ t : Fin grid0.N, idle0 9 (grid0.coords t) = true ↔ t.val / 16 ≠ 6)
theorem flush8 : ∀ t : Fin cfg0.N, (cfg0.win 8).flush t = true ↔ (48 ≤ t.val ∧ t.val ≤ 62) ∨ t.val = 111 :=
  (by decide +kernel : ∀ t : Fin grid0.N, win0_8.flush t = true ↔ (48 ≤ t.val ∧ t.val ≤ 62) ∨ t.val = 111)
theorem flush9 : ∀ t : Fin cfg0.N, (cfg0.win 9).flush t = true ↔ 96 ≤ t.val :=
  (by decide +kernel : ∀ t : Fin grid0.N, win0_9.flush t = true ↔ 96 ≤ t.val)

/-- No input window is ever idle. -/
theorem live_in : ∀ (w : Fin 10), w.val < 8 → ∀ t : Fin cfg0.N, cfg0.idle w (grid0.coords t) = false :=
  (by decide +kernel : ∀ (w : Fin 10), w.val < 8 → ∀ t : Fin grid0.N, idle0 w (grid0.coords t) = false)

/-- The block index of each output's window: the point's block in its layer, block 0 before it, the last block after it
    (the encoder's), or block 0 until its layer (the decoder's). -/
theorem index8 : ∀ t : Fin cfg0.N, win0_8.index t = ![if t.val / 16 = 3 then t.val % 16 else if t.val / 16 < 3 then 0 else 15, 0] :=
  (by decide +kernel : ∀ t : Fin grid0.N, win0_8.index t = ![if t.val / 16 = 3 then t.val % 16 else if t.val / 16 < 3 then 0 else 15, 0])
theorem index9 : ∀ t : Fin cfg0.N, win0_9.index t = ![if t.val / 16 = 6 then t.val % 16 else 0, 0] :=
  (by decide +kernel : ∀ t : Fin grid0.N, win0_9.index t = ![if t.val / 16 = 6 then t.val % 16 else 0, 0])

end Cert.Sgae.Region0
-- ==== Proof.Slabs.lean ====
/-
  Slabs of rows of a rank-2 buffer.

  The first call's layers each store one slab of 256 rows (all columns, or a prefix of the columns) of a scratch buffer
  per grid point, and later layers load such slabs or a column prefix of all the rows.  Three facts are all that the
  bookkeeping of those buffers needs: a slab read back right after it was stored is what was stored; a slab of other
  rows is unaffected by the store; and a column prefix of all the rows, every one of whose slabs is known, is those
  slabs stacked.
-/
import Idealize.ShloMosaic.Lib.WritesUnit
import Idealize.ShloMosaic.Lib.Pipeline.Value
import Idealize.ShloMosaic.Lib.ValueIdx
import Idealize.ShloMosaic.Lib.Pipeline.Frame

namespace Cert.Sgae.Slab

open Idealize.ShloMosaic Idealize.ShloMosaic.ValueIdx

variable {sig : RefSig} {κ : Kind} {sp : Space} {s : Shape} {e : EltTy} {Val : EltTy → Type}

/-- A rectangle read back right after it was stored through holds what was stored. -/
theorem ld_read_writes_same (v : View sig κ sp s e) (f : v.ty.Contents Val) (r : Rect s) (w : r.shape.Idx → Val e)
    (L : List (View.Piece Val s e)) :
    View.ld (v.read Val (v.writes Val f (⟨r, w⟩ :: L))) r = w :=
  funext fun x => View.read_writes_cons_emb v f r w L x

/-- A unit-stride rectangle that misses the stored one on some axis reads what was there before the store. -/
theorem ld_read_writes_disjoint (v : View sig κ sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    View.ld (v.read Val (v.writes Val f (⟨Rect.unit off size inb, w⟩ :: L))) (Rect.unit off' size' inb')
      = View.ld (v.read Val (v.writes Val f L)) (Rect.unit off' size' inb') := by
  funext x
  show v.read Val (v.writes Val f (⟨Rect.unit off size inb, w⟩ :: L)) ((Rect.unit off' size' inb').emb x)
      = v.read Val (v.writes Val f L) ((Rect.unit off' size' inb').emb x)
  refine View.read_writes_cons_unit_of_not_mem v f inb w L _ rfl a ?_
  have hx : (((Rect.unit off' size' inb').emb x) a).val = off' a + 1 * (x a).val := rfl
  have hlt : (x a).val < size' a := (x a).isLt
  rw [hx]
  omega

/-- Sixteen blocks of 256 rows stacked: row r is row r % 256 of block r / 256. -/
def stack {C : ℕ} {α : Type} (B : Fin 16 → ((⟨2, ![256, C]⟩ : Shape).Idx → α)) : (⟨2, ![4096, C]⟩ : Shape).Idx → α :=
  fun y => B ⟨(y 0).val / 256, by have h : (y 0).val < 4096 := (y 0).isLt; omega⟩
    (ix2 ⟨(y 0).val % 256, Nat.mod_lt _ (by norm_num)⟩ (y 1))

/-- A column prefix of all the rows of a buffer, every one of whose sixteen slabs of 256 rows is known, is those slabs
    stacked. -/
theorem ld_prefix_eq_stack {C0 C : ℕ} (X : (⟨2, ![4096, C0]⟩ : Shape).Idx → Val e)
    (B : Fin 16 → ((⟨2, ![256, C]⟩ : Shape).Idx → Val e))
    (inbP : ∀ a, (![0, 0] : Fin 2 → ℕ) a + (![4096, C] : Fin 2 → ℕ) a ≤ (⟨2, ![4096, C0]⟩ : Shape).size a)
    (inbS : ∀ b : Fin 16, ∀ a, (![256 * b.val, 0] : Fin 2 → ℕ) a + (![256, C] : Fin 2 → ℕ) a ≤ (⟨2, ![4096, C0]⟩ : Shape).size a)
    (h : ∀ b : Fin 16, View.ld X (Rect.unit (s := ⟨2, ![4096, C0]⟩) ![256 * b.val, 0] ![256, C] (inbS b)) = B b) :
    View.ld X (Rect.unit (s := ⟨2, ![4096, C0]⟩) ![0, 0] ![4096, C] inbP) = stack B := by
  funext y
  have hy : (y 0).val < 4096 := (y 0).isLt
  unfold stack
  rw [← h ⟨(y 0).val / 256, by omega⟩]
  show X ((Rect.unit (s := ⟨2, ![4096, C0]⟩) ![0, 0] ![4096, C] inbP).emb y)
    = X ((Rect.unit (s := ⟨2, ![4096, C0]⟩) ![256 * ((y 0).val / 256), 0] ![256, C] (inbS ⟨(y 0).val / 256, by omega⟩)).emb
        (ix2 ⟨(y 0).val % 256, Nat.mod_lt _ (by norm_num)⟩ (y 1)))
  congr 1
  funext a
  apply Fin.ext
  match a with
  | ⟨0, _⟩ =>
    show 0 + 1 * (y 0).val = 256 * ((y 0).val / 256) + 1 * ((y 0).val % 256)
    omega
  | ⟨1, _⟩ => rfl

/-- One slab of 256 rows stored into a buffer of 4096 rows held whole at `x`: the slab reads back as stored, and a slab of
    any other 256 rows (of any column width) reads as it did in `x`. -/
theorem slab_store {C0 : ℕ} (M : Memref sig κ sp (⟨2, ![4096, C0]⟩ : Shape) e) (hM : M.IsWhole)
    (x : (⟨2, ![4096, C0]⟩ : Shape).Idx → Val e) (off : Fin 2 → ℕ) (C : ℕ)
    (inb : ∀ a, off a + (![256, C] : Fin 2 → ℕ) a ≤ (⟨2, ![4096, C0]⟩ : Shape).size a)
    (P : (Rect.unit (s := ⟨2, ![4096, C0]⟩) off ![256, C] inb).shape.Idx → Val e) (b0 : ℕ) (hoff : off = ![256 * b0, 0]) :
    (∀ inb', View.ld (M.view.read Val (M.view.writes Val (hM.unread x) [⟨Rect.unit (s := ⟨2, ![4096, C0]⟩) off ![256, C] inb, P⟩]))
        (Rect.unit (s := ⟨2, ![4096, C0]⟩) ![256 * b0, 0] ![256, C] inb') = P)
    ∧ ∀ (b C' : ℕ) (inb' : ∀ a, (![256 * b, 0] : Fin 2 → ℕ) a + (![256, C'] : Fin 2 → ℕ) a ≤ (⟨2, ![4096, C0]⟩ : Shape).size a), b ≠ b0 →
        View.ld (M.view.read Val (M.view.writes Val (hM.unread x) [⟨Rect.unit (s := ⟨2, ![4096, C0]⟩) off ![256, C] inb, P⟩]))
          (Rect.unit (s := ⟨2, ![4096, C0]⟩) ![256 * b, 0] ![256, C'] inb')
        = View.ld x (Rect.unit (s := ⟨2, ![4096, C0]⟩) ![256 * b, 0] ![256, C'] inb') := by
  subst hoff
  refine ⟨fun inb' => ld_read_writes_same M.view (hM.unread x) _ P [], fun b C' inb' hb => ?_⟩
  rw [ld_read_writes_disjoint M.view (hM.unread x) inb inb' P [] (0 : Fin 2) (by
    show 256 * b + 256 ≤ 256 * b0 ∨ 256 * b0 + 256 ≤ 256 * b
    omega)]
  rw [View.writes_nil, hM.read_unread]

end Cert.Sgae.Slab
-- ==== Proof.Region0Terms.lean ====
/-
  What the first call's scratch buffers and outputs are meant to hold, block by block.

  Write t = 16 · l + b for block b of layer l.  The layers' stores, each a function of the point's input blocks and of
  the buffers the earlier layers filled, define sixteen blocks per layer:
    layer 0   t1 block   = (x block) · W1
    layer 1   adj block  = the adjacency block (its float format changed);   t2 block = ((adj block) · t1) · W2
    layer 2   t3 block   = ((adj rows) · t2) · W3
    layer 3   zs block   = (adj rows) · t3      (to the first output, and again to the decoder's scratch copy)
    layer 4   t4 block   = ((adj rows) · zs) · W4
    layer 5   t6 block   = (((adj rows) · t4) · W5) · W6
    layer 6   zh block   = (adj rows) · t6      (to the second output)
  where t1, t2, t3, zs, t4, t6 are the sixteen blocks of the layer stacked.  The invariant on the four scratch buffers
  after n grid points says, for each of the seven families of stores, that every slab of 256 rows that family has stored
  so far — and that no later family has begun to overwrite — holds its block.
-/
import proofs.«146852_g64793876627462_cont_sun_c4_515_4_alg».proof.Proof.Region0Facts
import proofs.«146852_g64793876627462_cont_sun_c4_515_4_alg».proof.Proof.Slabs
import proofs.«146852_g64793876627462_cont_sun_c4_515_4_alg».proof.Proof.Gen.KernelIdeal.Skeleton

set_option maxRecDepth 16384

noncomputable section

namespace Cert.Sgae.Region0

open Cert.KernelIdeal Cert.KernelIdeal.Gen
open Idealize.ShloMosaic Idealize.ShloMosaic.TcCoe Idealize.ShloMosaic.ValueIdx
open Cert.Sgae.Slab

variable {F : FTy → Type} [FloatOps F]
variable (A0 : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (A0 c (Pipeline.arrRef spec0 w))

/-- The point of block `b` of layer `l`. -/
def pt (l : ℕ) (hl : l < 7) (b : Fin 16) : Fin cfg0.N :=
  ⟨16 * l + b.val, by show 16 * l + b.val < grid0.N; rw [N_0]; omega⟩

variable (c : Dev nD)

def T1blk (b : Fin 16) : Vec F S256x512 .bf16 := k0_pay1 (iblk A0 c 0 (pt 0 (by omega) b)) (iblk A0 c 2 (pt 0 (by omega) b))
def T1 : Vec F S4096x512 .bf16 := stack (T1blk A0 c)
def ADJblk (b : Fin 16) : Vec F S256x4096 .bf16 := k0_pay3 (iblk A0 c 1 (pt 1 (by omega) b))
def T2blk (b : Fin 16) : Vec F S256x256 .bf16 := k0_pay4 (iblk A0 c 1 (pt 1 (by omega) b)) (T1 A0 c) (iblk A0 c 3 (pt 1 (by omega) b))
def T2 : Vec F S4096x256 .bf16 := stack (T2blk A0 c)
def T3blk (b : Fin 16) : Vec F S256x128 .bf16 := k0_pay5 (ADJblk A0 c b) (T2 A0 c) (iblk A0 c 4 (pt 2 (by omega) b))
def T3 : Vec F S4096x128 .bf16 := stack (T3blk A0 c)
def O8blk (b : Fin 16) : Vec F S256x128 .f32 := k0_pay6 (ADJblk A0 c b) (T3 A0 c)
def ZSblk (b : Fin 16) : Vec F S256x128 .bf16 := k0_pay7 (ADJblk A0 c b) (T3 A0 c)
def ZSB : Vec F S4096x128 .bf16 := stack (ZSblk A0 c)
def T4blk (b : Fin 16) : Vec F S256x256 .bf16 := k0_pay8 (ADJblk A0 c b) (ZSB A0 c) (iblk A0 c 5 (pt 4 (by omega) b))
def T4 : Vec F S4096x256 .bf16 := stack (T4blk A0 c)
def T6blk (b : Fin 16) : Vec F S256x512 .bf16 := k0_pay9 (ADJblk A0 c b) (T4 A0 c) (iblk A0 c 6 (pt 5 (by omega) b)) (iblk A0 c 7 (pt 5 (by omega) b))
def T6 : Vec F S4096x512 .bf16 := stack (T6blk A0 c)
def O9blk (b : Fin 16) : Vec F S256x512 .f32 := k0_pay10 (ADJblk A0 c b) (T6 A0 c)

/-- The slab of rows 256·b … 256·b + 255, columns 0 … C − 1, of a buffer of 4096 rows and C0 columns. -/
def slab (C0 : ℕ) (b : Fin 16) (C : ℕ) (hC : C ≤ C0) : Rect (⟨2, ![4096, C0]⟩ : Shape) :=
  Rect.unit (s := ⟨2, ![4096, C0]⟩) ![256 * b.val, 0] ![256, C] (fun a => by
    match a with
    | ⟨0, _⟩ => show 256 * b.val + 256 ≤ 4096; omega
    | ⟨1, _⟩ => show 0 + C ≤ C0; omega)

/-- After `n` grid points: every slab a family of stores has written, and that no later family has begun to overwrite,
    holds its block. -/
structure Inv (n : ℕ) (xadj : Vec F S4096x4096 .bf16) (xta : Vec F S4096x512 .bf16) (xtb : Vec F S4096x512 .bf16)
    (xzs : Vec F S4096x128 .bf16) : Prop where
  adj : ∀ b : Fin 16, 16 + b.val < n → View.ld xadj (slab 4096 b 4096 (by omega)) = ADJblk A0 c b
  ta1 : n ≤ 32 → ∀ b : Fin 16, b.val < n → View.ld xta (slab 512 b 512 (by omega)) = T1blk A0 c b
  ta3 : n ≤ 80 → ∀ b : Fin 16, 32 + b.val < n → View.ld xta (slab 512 b 128 (by omega)) = T3blk A0 c b
  ta6 : ∀ b : Fin 16, 80 + b.val < n → View.ld xta (slab 512 b 512 (by omega)) = T6blk A0 c b
  tb2 : n ≤ 64 → ∀ b : Fin 16, 16 + b.val < n → View.ld xtb (slab 512 b 256 (by omega)) = T2blk A0 c b
  tb4 : ∀ b : Fin 16, 64 + b.val < n → View.ld xtb (slab 512 b 256 (by omega)) = T4blk A0 c b
  zs : ∀ b : Fin 16, 48 + b.val < n → View.ld xzs (slab 128 b 128 (by omega)) = ZSblk A0 c b

/-- Before the first point nothing is asked of the scratch buffers. -/
theorem Inv.zero (xadj : Vec F S4096x4096 .bf16) (xta xtb : Vec F S4096x512 .bf16) (xzs : Vec F S4096x128 .bf16) :
    Inv A0 c 0 xadj xta xtb xzs :=
  ⟨fun _ h => absurd h (by omega), fun _ _ h => absurd h (by omega), fun _ _ h => absurd h (by omega),
    fun _ h => absurd h (by omega), fun _ _ h => absurd h (by omega), fun _ h => absurd h (by omega), fun _ h => absurd h (by omega)⟩

end Cert.Sgae.Region0

end
-- ==== Proof.Region0Data.lean ====
/-
  The first call's proof data.

  The invariant between two grid points owns the four scratch buffers at contents of which the slab-by-slab invariant
  holds, the second call's staging buffers and the generator register at anything.  After the body at a point every
  input's buffer still holds its block; the first output's buffer holds the encoder's block of the point's layer-3 block
  (and, from the end of layer 3 on, the last block, which waits there until the grid's last point writes it back); the
  second output's buffer holds the decoder's block of the point's block.
-/
import proofs.«146852_g64793876627462_cont_sun_c4_515_4_alg».proof.Proof.Region0Terms
import proofs.«146852_g64793876627462_cont_sun_c4_515_4_alg».proof.Proof.Gen.KernelIdeal.Launch
import proofs.«146852_g64793876627462_cont_sun_c4_515_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Sgae.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- The four scratch operands: whole scoped buffers of the kernel's own. -/
abbrev scAdj : Memref sig .tc .vmem S4096x4096 .bf16 := Memref.whole cc0_scratch0
abbrev scTa : Memref sig .tc .vmem S4096x512 .bf16 := Memref.whole cc0_scratch1
abbrev scTb : Memref sig .tc .vmem S4096x512 .bf16 := Memref.whole cc0_scratch2
abbrev scZs : Memref sig .tc .vmem S4096x128 .bf16 := Memref.whole cc0_scratch3

/-- The second call's staging buffers, each at anything. -/
def Rest1 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before grid point `n`. -/
def PhiS (c : Dev nD) (n : ℕ) : sProp 𝕄 :=
  iprop((∃ (xadj : Vec F S4096x4096 .bf16) (xta : Vec F S4096x512 .bf16) (xtb : Vec F S4096x512 .bf16) (xzs : Vec F S4096x128 .bf16),
      ⌜Inv A0 c n xadj xta xtb xzs⌝ ∗ owns (c : Thread nD τ) scAdj fullShare xadj ∗ owns (c : Thread nD τ) scTa fullShare xta
        ∗ owns (c : Thread nD τ) scTb fullShare xtb ∗ owns (c : Thread nD τ) scZs fullShare xzs)
    ∗ Rest1 (F := F) (U := U) c ∗ ∃ r, prngReg c r)

/-- The class's invariant with the four scratch buffers and the rest named. -/
theorem PhiA_eq (c : Dev nD) :
    (Pipeline.ΦA spec0 c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
          ∗ Rest1 (F := F) (U := U) c) ∗ ∃ r, prngReg c r) := by
  unfold Pipeline.ΦA Rest1; rw [scopedRest0_eq]

/-- The encoder's block the first output's buffer holds after point `t`: the point's block in layer 3, the last block afterwards. -/
def blk8 (t : Fin cfg0.N) : Fin 16 :=
  if h : t.val / 16 = 3 then ⟨t.val % 16, Nat.mod_lt _ (by norm_num)⟩ else ⟨15, by norm_num⟩
/-- The point's block. -/
def blkOf (t : Fin cfg0.N) : Fin 16 := ⟨t.val % 16, Nat.mod_lt _ (by norm_num)⟩

/-- The proof data on core `c`. -/
def dat0 (c : Dev nD) : Dat τ (Elt F) Unit ℕ U ℕ cfg0 c where
  A w := A0 c (Pipeline.arrRef spec0 w)
  after w t := match w with
    | ⟨0, _⟩ => iblk A0 c 0 t
    | ⟨1, _⟩ => iblk A0 c 1 t
    | ⟨2, _⟩ => iblk A0 c 2 t
    | ⟨3, _⟩ => iblk A0 c 3 t
    | ⟨4, _⟩ => iblk A0 c 4 t
    | ⟨5, _⟩ => iblk A0 c 5 t
    | ⟨6, _⟩ => iblk A0 c 6 t
    | ⟨7, _⟩ => iblk A0 c 7 t
    | ⟨8, _⟩ => O8blk A0 c (blk8 t)
    | ⟨9, _⟩ => O9blk A0 c (blkOf t)
  Φ t := PhiS A0 c t.val
  q _ := fullShare
  owed _ := 0

theorem A_eq (c : Dev nD) (w : Fin cfg0.W) : (dat0 (U := U) A0 c).A w = A0 c (Pipeline.arrRef spec0 w) := by
  dsimp only [dat0]

theorem after_0 (c : Dev nD) (t : Fin cfg0.N) : (dat0 (U := U) A0 c).after 0 t = iblk A0 c 0 t := by dsimp only [dat0]
theorem after_1 (c : Dev nD) (t : Fin cfg0.N) : (dat0 (U := U) A0 c).after 1 t = iblk A0 c 1 t := by dsimp only [dat0]
theorem after_2 (c : Dev nD) (t : Fin cfg0.N) : (dat0 (U := U) A0 c).after 2 t = iblk A0 c 2 t := by dsimp only [dat0]
theorem after_3 (c : Dev nD) (t : Fin cfg0.N) : (dat0 (U := U) A0 c).after 3 t = iblk A0 c 3 t := by dsimp only [dat0]
theorem after_4 (c : Dev nD) (t : Fin cfg0.N) : (dat0 (U := U) A0 c).after 4 t = iblk A0 c 4 t := by dsimp only [dat0]
theorem after_5 (c : Dev nD) (t : Fin cfg0.N) : (dat0 (U := U) A0 c).after 5 t = iblk A0 c 5 t := by dsimp only [dat0]
theorem after_6 (c : Dev nD) (t : Fin cfg0.N) : (dat0 (U := U) A0 c).after 6 t = iblk A0 c 6 t := by dsimp only [dat0]
theorem after_7 (c : Dev nD) (t : Fin cfg0.N) : (dat0 (U := U) A0 c).after 7 t = iblk A0 c 7 t := by dsimp only [dat0]
theorem after_8 (c : Dev nD) (t : Fin cfg0.N) : (dat0 (U := U) A0 c).after 8 t = O8blk A0 c (blk8 t) := by dsimp only [dat0]
theorem after_9 (c : Dev nD) (t : Fin cfg0.N) : (dat0 (U := U) A0 c).after 9 t = O9blk A0 c (blkOf t) := by dsimp only [dat0]

/-! Each input's current buffer holds its block at every point, fetched there or not. -/
theorem before_0 (c : Dev nD) (t : Fin cfg0.N) (d) : (dat0 (U := U) A0 c).before 0 t d = iblk A0 c 0 t :=
  ((dat0 A0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 (U := U) A0 c).before 1 t d = iblk A0 c 1 t :=
  ((dat0 A0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 (U := U) A0 c).before 2 t d = iblk A0 c 2 t :=
  ((dat0 A0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 (U := U) A0 c).before 3 t d = iblk A0 c 3 t :=
  ((dat0 A0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 (U := U) A0 c).before 4 t d = iblk A0 c 4 t :=
  ((dat0 A0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat0 (U := U) A0 c).before 5 t d = iblk A0 c 5 t :=
  ((dat0 A0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat0 (U := U) A0 c).before 6 t d = iblk A0 c 6 t :=
  ((dat0 A0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat0 (U := U) A0 c).before 7 t d = iblk A0 c 7 t :=
  ((dat0 A0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the launch hands the call is the invariant before the first point. -/
theorem hin (c : Dev nD) : (Pipeline.ΦA spec0 c : sProp 𝕄) ⊢ (dat0 (U := U) A0 c).Φ 0 := by
  rw [show (dat0 (U := U) A0 c).Φ 0 = PhiS A0 c 0 from rfl, PhiA_eq]
  unfold PhiS
  iintro ⟨⟨⟨%f0, H0⟩, ⟨%f1, H1⟩, ⟨%f2, H2⟩, ⟨%f3, H3⟩, Hrest⟩, Hg⟩
  isplitl [H0 H1 H2 H3]
  · iexists f0, f1, f2, f3
    isplitr; · ipureintro; exact Inv.zero A0 c f0 f1 f2 f3
    simp only [owns_whole]
    isplitl [H0]; · iexact H0
    isplitl [H1]; · iexact H1
    isplitl [H2]; · iexact H2
    iexact H3
  isplitl [Hrest]; · iexact Hrest
  iexact Hg

/-- After the last point the invariant gives it back: what the scratch buffers hold is forgotten. -/
theorem hout (c : Dev nD) : (dat0 (U := U) A0 c).Φ (Fin.last cfg0.N) ⊢ (Pipeline.ΦA spec0 c : sProp 𝕄) := by
  rw [show (dat0 (U := U) A0 c).Φ (Fin.last cfg0.N) = PhiS A0 c (Fin.last cfg0.N).val from rfl, PhiA_eq]
  unfold PhiS
  simp only [owns_whole]
  iintro ⟨⟨%xadj, %xta, %xtb, %xzs, -, H0, H1, H2, H3⟩, Hrest, Hg⟩
  isplitl [H0 H1 H2 H3 Hrest]
  · isplitl [H0]; · iexists _; iexact H0
    isplitl [H1]; · iexists _; iexact H1
    isplitl [H2]; · iexists _; iexact H2
    isplitl [H3]; · iexists _; iexact H3
    iexact Hrest
  iexact Hg

end Cert.Sgae.Region0

end
-- ==== Proof.Region0Out.lean ====
/-
  The first call's two output windows through the grid.

  The encoder's window is stored into at the sixteen points of layer 3 and written back after each of them but the last;
  the last block stays in its buffer — the window is idle at every later point, and its block index stays at the last
  block — until the grid's last point, where it is written back.  So from point 64 on that buffer holds the encoder's last
  block.  The decoder's window is stored into and written back at the sixteen points of layer 6 and idle before.
  What the body owes for each window at a point is accordingly: the buffer as found (idle, not written back), the
  buffer at the block just stored (the window's layer), or, at the last point for the encoder's window, the buffer at
  the last block, which is what it was found holding.
-/
import proofs.«146852_g64793876627462_cont_sun_c4_515_4_alg».proof.Proof.Region0Data
import Idealize.ShloMosaic.Lib.Pipeline.Frame

set_option maxRecDepth 16384

noncomputable section

namespace Cert.Sgae.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

theorem hN : cfg0.N = 112 := N_0

/-- An uncut window's buffer, kept, is what the body left in it. -/
theorem kept8_eq (c : Dev nD) (t : Fin cfg0.N) (d) : (dat0 (U := U) A0 c).kept 8 t d = (dat0 (U := U) A0 c).after 8 t := by
  unfold Dat.kept
  rw [Pipeline.fill_of_clip_none 8 _ (fun _ => rfl) d ((dat0 (U := U) A0 c).after 8 t), Window.fill_cut]

/-- From point 64 on the encoder's window's buffer holds the encoder's last block, whatever it held at the start. -/
theorem before8_late (c : Dev nD) : ∀ (n : ℕ) (hn : n < cfg0.N), 64 ≤ n → ∀ d,
    (dat0 (U := U) A0 c).before 8 ⟨n, hn⟩ d = O8blk A0 c ⟨15, by norm_num⟩ := by
  intro n
  induction n with
  | zero => intro _ h; omega
  | succ k ih =>
    intro hn h64 d
    have hk : k < cfg0.N := Nat.lt_of_succ_lt hn
    have hk112 : k + 1 < 112 := lt_of_lt_of_eq hn hN
    have hf : (cfg0.win 8).fetch ⟨k + 1, hn⟩ = false := (cfg0.win 8).fetch_out rfl _
    rw [(dat0 (U := U) A0 c).before_of_pos 8 ⟨k + 1, hn⟩ (Nat.succ_ne_zero k) hf d]
    show (if (cfg0.win 8).flush ⟨k, _⟩ = true then d else (dat0 (U := U) A0 c).left 8 ⟨k, _⟩ d) = _
    have hfl : ¬ (cfg0.win 8).flush ⟨k, hk⟩ = true := fun h => by
      rcases (flush8 ⟨k, hk⟩).mp h with ⟨_, h2⟩ | h3
      · have : k ≤ 62 := h2; omega
      · have : k = 111 := h3; omega
    rw [if_neg hfl]
    unfold Dat.left
    by_cases h63 : k = 63
    · subst h63
      have hid : cfg0.idle 8 (cfg0.grid.coords ⟨63, hk⟩) = false :=
        Bool.eq_false_iff.mpr fun h => ((idle8 ⟨63, hk⟩).mp h) (show (63 : ℕ) / 16 = 3 by norm_num)
      rw [hid]
      show (dat0 (U := U) A0 c).kept 8 ⟨63, hk⟩ d = _
      rw [kept8_eq, after_8]
      have hb : blk8 ⟨63, hk⟩ = ⟨15, by norm_num⟩ := by
        unfold blk8
        rw [dif_pos (show (63 : ℕ) / 16 = 3 by norm_num)]
        exact Fin.ext (show (63 : ℕ) % 16 = 15 by norm_num)
      rw [hb]
    · have hid : cfg0.idle 8 (cfg0.grid.coords ⟨k, hk⟩) = true := (idle8 ⟨k, hk⟩).mpr (by show k / 16 ≠ 3; omega)
      rw [hid]
      show (dat0 (U := U) A0 c).before 8 ⟨k, hk⟩ d = _
      exact ih hk (by omega) d

/-- An input window's buffer is owed back at its block. -/
theorem leaves_in (c : Dev nD) (w : Fin 10) (hw : w.val < 8) (t : Fin cfg0.N) :
    (dat0 (U := U) A0 c).leavesExact w t
      = owns (c : Thread nD τ) ((cfg0.win w).stage (cfg0.slots t w)) fullShare ((dat0 (U := U) A0 c).after w t) := by
  unfold Dat.leavesExact; rw [live_in w hw t]

/-- In layer 3 the encoder's window's buffer is owed at the block just stored. -/
theorem leaves8_live (c : Dev nD) (t : Fin cfg0.N) (hl : t.val / 16 = 3) :
    (dat0 (U := U) A0 c).leavesExact 8 t
      = owns (c : Thread nD τ) (st0_8 t) fullShare ((dat0 (U := U) A0 c).after 8 t) := by
  have hid : cfg0.idle 8 (cfg0.grid.coords t) = false := Bool.eq_false_iff.mpr fun h => ((idle8 t).mp h) hl
  unfold Dat.leavesExact; rw [hid]

/-- In layer 6 the decoder's window's buffer is owed at the block just stored. -/
theorem leaves9_live (c : Dev nD) (t : Fin cfg0.N) (hl : t.val / 16 = 6) :
    (dat0 (U := U) A0 c).leavesExact 9 t
      = owns (c : Thread nD τ) (st0_9 t) fullShare ((dat0 (U := U) A0 c).after 9 t) := by
  have hid : cfg0.idle 9 (cfg0.grid.coords t) = false := Bool.eq_false_iff.mpr fun h => ((idle9 t).mp h) hl
  unfold Dat.leavesExact; rw [hid]

/-- Outside layer 6 the decoder's window is idle and not written back: its buffer is owed as found. -/
theorem leaves9_idle (c : Dev nD) (t : Fin cfg0.N) (hl : t.val / 16 ≠ 6) :
    (dat0 (U := U) A0 c).leavesExact 9 t
      = iprop(∃ d, owns (c : Thread nD τ) (st0_9 t) fullShare ((dat0 (U := U) A0 c).before 9 t d)) := by
  have ht : t.val < 112 := lt_of_lt_of_eq t.isLt hN
  refine Dat.leavesExact_idle (dat0 (U := U) A0 c) 9 t ((idle9 t).mpr hl) (Bool.eq_false_iff.mpr fun h => ?_)
  have : 96 ≤ t.val := (flush9 t).mp h
  omega

/-- Outside layer 3 the encoder's window is idle: its buffer, as found, is what is owed — also at the grid's last point,
    where the block is written back: by then the buffer holds the encoder's last block. -/
theorem leaves8_idle (c : Dev nD) (t : Fin cfg0.N) (hl : t.val / 16 ≠ 3) :
    iprop(∃ d, owns (c : Thread nD τ) (st0_8 t) fullShare ((dat0 (U := U) A0 c).before 8 t d))
      ⊢ (dat0 (U := U) A0 c).leavesExact 8 t := by
  have ht : t.val < 112 := lt_of_lt_of_eq t.isLt hN
  have hi : cfg0.idle 8 (cfg0.grid.coords t) = true := (idle8 t).mpr hl
  by_cases hf : (cfg0.win 8).flush t = true
  · have h111 : t.val = 111 := by
      rcases (flush8 t).mp hf with ⟨h1, h2⟩ | h3
      · exfalso; omega
      · exact h3
    have hle : (dat0 (U := U) A0 c).leavesExact 8 t
        = owns (c : Thread nD τ) (st0_8 t) fullShare ((dat0 (U := U) A0 c).after 8 t) := by
      unfold Dat.leavesExact; rw [hi, hf]
    have hb : ∀ d, (dat0 (U := U) A0 c).before 8 t d = (dat0 (U := U) A0 c).after 8 t := fun d => by
      rw [after_8, show blk8 t = ⟨15, by norm_num⟩ from dif_neg hl]
      exact before8_late A0 c t.val t.isLt (by omega) d
    rw [hle]
    iintro ⟨%d, H⟩
    rw [hb d]
    iexact H
  · rw [Dat.leavesExact_idle (dat0 (U := U) A0 c) 8 t hi (Bool.eq_false_iff.mpr hf)]

end Cert.Sgae.Region0

end
-- ==== Proof.Region0Inv.lean ====
/-
  The slab invariant: what it gives each layer, and how each layer advances it.

  At point n = 16 · l + b the body of layer l loads slab b of the adjacency scratch and, whole or as a column prefix, the
  feature scratch the previous layers completed; the invariant identifies those loads with the stacked blocks.  It then
  stores slab b of one scratch buffer (two in layer 1, none in layer 6).  If the stored slab reads back as the layer's
  block and every other slab of that buffer reads as before, the invariant holds after the point: the family just
  written gained its block; the earlier families of the same buffer have left their windows or are not yet begun; the
  other buffers did not change and no slab of theirs completed at this point.
-/
import proofs.«146852_g64793876627462_cont_sun_c4_515_4_alg».proof.Proof.Region0Terms

set_option maxRecDepth 16384

noncomputable section

namespace Cert.Sgae.Region0

open Cert.KernelIdeal Cert.KernelIdeal.Gen
open Idealize.ShloMosaic Idealize.ShloMosaic.TcCoe Idealize.ShloMosaic.ValueIdx
open Cert.Sgae.Slab

variable {F : FTy → Type} [FloatOps F]
variable (A0 : (c : Dev nD) → (b : Ref sig .tc) → Buf (Elt F) ((c : Thread nD τ).loc b)) (c : Dev nD)
variable {n : ℕ} {xadj : Vec F S4096x4096 .bf16} {xta xtb : Vec F S4096x512 .bf16} {xzs : Vec F S4096x128 .bf16}

/-! ## What the loads are -/

/-- Slab `b` of the adjacency scratch, once layer 1 has stored it. -/
theorem Inv.adj_rows (hI : Inv A0 c n xadj xta xtb xzs) (b : Fin 16) (h : 16 + b.val < n) (off : Fin 2 → ℕ)
    (inb : ∀ a, off a + S256x4096.size a ≤ S4096x4096.size a) (hoff : off = ![256 * b.val, 0]) :
    View.ld xadj (Rect.unit (s := S4096x4096) off S256x4096.size inb) = ADJblk A0 c b := by
  subst hoff; exact hI.adj b h

/-- During layer 1 the first feature scratch, whole, is t1. -/
theorem Inv.ta_t1 (hI : Inv A0 c n xadj xta xtb xzs) (h16 : 16 ≤ n) (h32 : n ≤ 32)
    (inbP : ∀ a, (![0, 0] : Fin 2 → ℕ) a + S4096x512.size a ≤ S4096x512.size a) :
    View.ld xta (Rect.unit (s := S4096x512) ![0, 0] S4096x512.size inbP) = T1 A0 c :=
  ld_prefix_eq_stack xta (T1blk A0 c) inbP _ fun b => hI.ta1 h32 b (by have := b.isLt; omega)

/-- During layer 2 the left 256 columns of the second feature scratch are t2. -/
theorem Inv.tb_t2 (hI : Inv A0 c n xadj xta xtb xzs) (h32 : 32 ≤ n) (h64 : n ≤ 64)
    (inbP : ∀ a, (![0, 0] : Fin 2 → ℕ) a + S4096x256.size a ≤ S4096x512.size a) :
    View.ld xtb (Rect.unit (s := S4096x512) ![0, 0] S4096x256.size inbP) = T2 A0 c :=
  ld_prefix_eq_stack xtb (T2blk A0 c) inbP _ fun b => hI.tb2 h64 b (by have := b.isLt; omega)

/-- During layer 3 the left 128 columns of the first feature scratch are t3. -/
theorem Inv.ta_t3 (hI : Inv A0 c n xadj xta xtb xzs) (h48 : 48 ≤ n) (h80 : n ≤ 80)
    (inbP : ∀ a, (![0, 0] : Fin 2 → ℕ) a + S4096x128.size a ≤ S4096x512.size a) :
    View.ld xta (Rect.unit (s := S4096x512) ![0, 0] S4096x128.size inbP) = T3 A0 c :=
  ld_prefix_eq_stack xta (T3blk A0 c) inbP _ fun b => hI.ta3 h80 b (by have := b.isLt; omega)

/-- During layer 4 the decoder's scratch copy, whole, is the encoder's result. -/
theorem Inv.zs_all (hI : Inv A0 c n xadj xta xtb xzs) (h64 : 64 ≤ n)
    (inbP : ∀ a, (![0, 0] : Fin 2 → ℕ) a + S4096x128.size a ≤ S4096x128.size a) :
    View.ld xzs (Rect.unit (s := S4096x128) ![0, 0] S4096x128.size inbP) = ZSB A0 c :=
  ld_prefix_eq_stack xzs (ZSblk A0 c) inbP _ fun b => hI.zs b (by have := b.isLt; omega)

/-- During layer 5 the left 256 columns of the second feature scratch are t4. -/
theorem Inv.tb_t4 (hI : Inv A0 c n xadj xta xtb xzs) (h80 : 80 ≤ n)
    (inbP : ∀ a, (![0, 0] : Fin 2 → ℕ) a + S4096x256.size a ≤ S4096x512.size a) :
    View.ld xtb (Rect.unit (s := S4096x512) ![0, 0] S4096x256.size inbP) = T4 A0 c :=
  ld_prefix_eq_stack xtb (T4blk A0 c) inbP _ fun b => hI.tb4 b (by have := b.isLt; omega)

/-- During layer 6 the first feature scratch, whole, is t6. -/
theorem Inv.ta_t6 (hI : Inv A0 c n xadj xta xtb xzs) (h96 : 96 ≤ n)
    (inbP : ∀ a, (![0, 0] : Fin 2 → ℕ) a + S4096x512.size a ≤ S4096x512.size a) :
    View.ld xta (Rect.unit (s := S4096x512) ![0, 0] S4096x512.size inbP) = T6 A0 c :=
  ld_prefix_eq_stack xta (T6blk A0 c) inbP _ fun b => hI.ta6 b (by have := b.isLt; omega)

/-! ## One point further, layer by layer -/

/-- Layer 0 stores slab n of the first feature scratch. -/
theorem Inv.step0 (hI : Inv A0 c n xadj xta xtb xzs) (hn : n < 16) (xta' : Vec F S4096x512 .bf16)
    (hnew : View.ld xta' (slab 512 ⟨n, hn⟩ 512 (by omega)) = T1blk A0 c ⟨n, hn⟩)
    (hold : ∀ b : Fin 16, b.val ≠ n → View.ld xta' (slab 512 b 512 (by omega)) = View.ld xta (slab 512 b 512 (by omega))) :
    Inv A0 c (n + 1) xadj xta' xtb xzs where
  adj := fun b h => absurd h (by omega)
  ta1 := fun _ b h => by
    by_cases e : b.val = n
    · obtain rfl : b = ⟨n, hn⟩ := Fin.ext e
      exact hnew
    · exact (hold b e).trans (hI.ta1 (by omega) b (by omega))
  ta3 := fun _ b h => absurd h (by omega)
  ta6 := fun b h => absurd h (by omega)
  tb2 := fun _ b h => absurd h (by omega)
  tb4 := fun b h => absurd h (by omega)
  zs := fun b h => absurd h (by omega)

/-- Layer 1 stores slab n − 16 of the adjacency scratch and of the second feature scratch (left 256 columns). -/
theorem Inv.step1 (hI : Inv A0 c n xadj xta xtb xzs) (h16 : 16 ≤ n) (hn : n < 32)
    (xadj' : Vec F S4096x4096 .bf16) (xtb' : Vec F S4096x512 .bf16)
    (hnewA : View.ld xadj' (slab 4096 ⟨n - 16, by omega⟩ 4096 (by omega)) = ADJblk A0 c ⟨n - 16, by omega⟩)
    (holdA : ∀ b : Fin 16, b.val ≠ n - 16 → View.ld xadj' (slab 4096 b 4096 (by omega)) = View.ld xadj (slab 4096 b 4096 (by omega)))
    (hnewB : View.ld xtb' (slab 512 ⟨n - 16, by omega⟩ 256 (by omega)) = T2blk A0 c ⟨n - 16, by omega⟩)
    (holdB : ∀ b : Fin 16, b.val ≠ n - 16 → View.ld xtb' (slab 512 b 256 (by omega)) = View.ld xtb (slab 512 b 256 (by omega))) :
    Inv A0 c (n + 1) xadj' xta xtb' xzs where
  adj := fun b h => by
    by_cases e : b.val = n - 16
    · rw [show b = (⟨n - 16, by omega⟩ : Fin 16) from Fin.ext e]
      exact hnewA
    · exact (holdA b e).trans (hI.adj b (by omega))
  ta1 := fun _ b h => hI.ta1 (by omega) b (by have := b.isLt; omega)
  ta3 := fun _ b h => absurd h (by omega)
  ta6 := fun b h => absurd h (by omega)
  tb2 := fun _ b h => by
    by_cases e : b.val = n - 16
    · rw [show b = (⟨n - 16, by omega⟩ : Fin 16) from Fin.ext e]
      exact hnewB
    · exact (holdB b e).trans (hI.tb2 (by omega) b (by omega))
  tb4 := fun b h => absurd h (by omega)
  zs := fun b h => absurd h (by omega)

/-- Layer 2 stores slab n − 32 of the first feature scratch (left 128 columns). -/
theorem Inv.step2 (hI : Inv A0 c n xadj xta xtb xzs) (h32 : 32 ≤ n) (hn : n < 48) (xta' : Vec F S4096x512 .bf16)
    (hnew : View.ld xta' (slab 512 ⟨n - 32, by omega⟩ 128 (by omega)) = T3blk A0 c ⟨n - 32, by omega⟩)
    (hold : ∀ b : Fin 16, b.val ≠ n - 32 → View.ld xta' (slab 512 b 128 (by omega)) = View.ld xta (slab 512 b 128 (by omega))) :
    Inv A0 c (n + 1) xadj xta' xtb xzs where
  adj := fun b h => hI.adj b (by have := b.isLt; omega)
  ta1 := fun h _ _ => absurd h (by omega)
  ta3 := fun _ b h => by
    by_cases e : b.val = n - 32
    · rw [show b = (⟨n - 32, by omega⟩ : Fin 16) from Fin.ext e]
      exact hnew
    · exact (hold b e).trans (hI.ta3 (by omega) b (by omega))
  ta6 := fun b h => absurd h (by omega)
  tb2 := fun _ b h => hI.tb2 (by omega) b (by have := b.isLt; omega)
  tb4 := fun b h => absurd h (by omega)
  zs := fun b h => absurd h (by omega)

/-- Layer 3 stores slab n − 48 of the decoder's scratch copy. -/
theorem Inv.step3 (hI : Inv A0 c n xadj xta xtb xzs) (h48 : 48 ≤ n) (hn : n < 64) (xzs' : Vec F S4096x128 .bf16)
    (hnew : View.ld xzs' (slab 128 ⟨n - 48, by omega⟩ 128 (by omega)) = ZSblk A0 c ⟨n - 48, by omega⟩)
    (hold : ∀ b : Fin 16, b.val ≠ n - 48 → View.ld xzs' (slab 128 b 128 (by omega)) = View.ld xzs (slab 128 b 128 (by omega))) :
    Inv A0 c (n + 1) xadj xta xtb xzs' where
  adj := fun b h => hI.adj b (by have := b.isLt; omega)
  ta1 := fun h _ _ => absurd h (by omega)
  ta3 := fun _ b h => hI.ta3 (by omega) b (by have := b.isLt; omega)
  ta6 := fun b h => absurd h (by omega)
  tb2 := fun _ b h => hI.tb2 (by omega) b (by have := b.isLt; omega)
  tb4 := fun b h => absurd h (by omega)
  zs := fun b h => by
    by_cases e : b.val = n - 48
    · rw [show b = (⟨n - 48, by omega⟩ : Fin 16) from Fin.ext e]
      exact hnew
    · exact (hold b e).trans (hI.zs b (by omega))

/-- Layer 4 stores slab n − 64 of the second feature scratch (left 256 columns). -/
theorem Inv.step4 (hI : Inv A0 c n xadj xta xtb xzs) (h64 : 64 ≤ n) (hn : n < 80) (xtb' : Vec F S4096x512 .bf16)
    (hnew : View.ld xtb' (slab 512 ⟨n - 64, by omega⟩ 256 (by omega)) = T4blk A0 c ⟨n - 64, by omega⟩)
    (hold : ∀ b : Fin 16, b.val ≠ n - 64 → View.ld xtb' (slab 512 b 256 (by omega)) = View.ld xtb (slab 512 b 256 (by omega))) :
    Inv A0 c (n + 1) xadj xta xtb' xzs where
  adj := fun b h => hI.adj b (by have := b.isLt; omega)
  ta1 := fun h _ _ => absurd h (by omega)
  ta3 := fun _ b h => hI.ta3 (by omega) b (by have := b.isLt; omega)
  ta6 := fun b h => absurd h (by omega)
  tb2 := fun h _ _ => absurd h (by omega)
  tb4 := fun b h => by
    by_cases e : b.val = n - 64
    · rw [show b = (⟨n - 64, by omega⟩ : Fin 16) from Fin.ext e]
      exact hnew
    · exact (hold b e).trans (hI.tb4 b (by omega))
  zs := fun b h => hI.zs b (by have := b.isLt; omega)

/-- Layer 5 stores slab n − 80 of the first feature scratch. -/
theorem Inv.step5 (hI : Inv A0 c n xadj xta xtb xzs) (h80 : 80 ≤ n) (hn : n < 96) (xta' : Vec F S4096x512 .bf16)
    (hnew : View.ld xta' (slab 512 ⟨n - 80, by omega⟩ 512 (by omega)) = T6blk A0 c ⟨n - 80, by omega⟩)
    (hold : ∀ b : Fin 16, b.val ≠ n - 80 → View.ld xta' (slab 512 b 512 (by omega)) = View.ld xta (slab 512 b 512 (by omega))) :
    Inv A0 c (n + 1) xadj xta' xtb xzs where
  adj := fun b h => hI.adj b (by have := b.isLt; omega)
  ta1 := fun h _ _ => absurd h (by omega)
  ta3 := fun h _ _ => absurd h (by omega)
  ta6 := fun b h => by
    by_cases e : b.val = n - 80
    · rw [show b = (⟨n - 80, by omega⟩ : Fin 16) from Fin.ext e]
      exact hnew
    · exact (hold b e).trans (hI.ta6 b (by omega))
  tb2 := fun h _ _ => absurd h (by omega)
  tb4 := fun b h => hI.tb4 b (by have := b.isLt; omega)
  zs := fun b h => hI.zs b (by have := b.isLt; omega)

/-- Layer 6 stores into no scratch buffer. -/
theorem Inv.step6 (hI : Inv A0 c n xadj xta xtb xzs) (h96 : 96 ≤ n) : Inv A0 c (n + 1) xadj xta xtb xzs where
  adj := fun b h => hI.adj b (by have := b.isLt; omega)
  ta1 := fun h _ _ => absurd h (by omega)
  ta3 := fun h _ _ => absurd h (by omega)
  ta6 := fun b h => hI.ta6 b (by have := b.isLt; omega)
  tb2 := fun h _ _ => absurd h (by omega)
  tb4 := fun b h => hI.tb4 b (by have := b.isLt; omega)
  zs := fun b h => hI.zs b (by have := b.isLt; omega)

end Cert.Sgae.Region0

end
-- ==== Proof.Region0Body.lean ====
/-
  The first call's body obligation, layer by layer.

  At a point of layer l the invariant hands the body the four scratch buffers at contents of which the slab invariant
  holds; the inputs' buffers hold their blocks; the layer's run applies; its loads are the stacked blocks the invariant
  names, so its stores are the layer's blocks; the stored slab reads back as that block and the other slabs as before,
  so the invariant holds one point further; the windows the layer does not store into go back as they were found.
-/
import proofs.«146852_g64793876627462_cont_sun_c4_515_4_alg».proof.Proof.Region0Out
import proofs.«146852_g64793876627462_cont_sun_c4_515_4_alg».proof.Proof.Region0Inv
import proofs.«146852_g64793876627462_cont_sun_c4_515_4_alg».proof.Proof.Body0a
import proofs.«146852_g64793876627462_cont_sun_c4_515_4_alg».proof.Proof.Body0b
import proofs.«146852_g64793876627462_cont_sun_c4_515_4_alg».proof.Proof.Body0c

set_option maxRecDepth 16384

noncomputable section

namespace Cert.Sgae.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sgae.Body Cert.Sgae.Slab

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- Each window's current staging memref at point `t`, as the pipeline passes it to the body, and its wholeness. -/
abbrev ms0 (t : Fin cfg0.N) : Memref sig .tc .vmem S256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x512 .f32 := win0_9.stage (cfg0.slots t 9)
abbrev hs9 (t : Fin cfg0.N) : (ms9 t).IsWhole := hstage0_9 ((cfg0.slots t 9).cast nbuf0_9)

theorem hz : (![0, 0] : Fin 2 → Nat) = fun _ => 0 := funext fun a => by fin_cases a <;> rfl

/-- The point of its own layer and block. -/
theorem pt_self (t : Fin cfg0.N) (l : ℕ) (hl7 : l < 7) (hl : t.val / 16 = l) : pt l hl7 (blkOf t) = t :=
  Fin.ext (by show 16 * l + t.val % 16 = t.val; omega)

/-- What the body is called with at point `t`, the windows one by one, -/
def bodyPre (c : Dev nD) (t : Fin cfg0.N) : sProp 𝕄 :=
  iprop((dat0 (U := U) A0 c).Φ t.castSucc ∗ (dat0 (U := U) A0 c).owesAt () t.castSucc
    ∗ (∃ d, owns (c : Thread nD τ) (ms0 t) fullShare ((dat0 (U := U) A0 c).before 0 t d))
    ∗ (∃ d, owns (c : Thread nD τ) (ms1 t) fullShare ((dat0 (U := U) A0 c).before 1 t d))
    ∗ (∃ d, owns (c : Thread nD τ) (ms2 t) fullShare ((dat0 (U := U) A0 c).before 2 t d))
    ∗ (∃ d, owns (c : Thread nD τ) (ms3 t) fullShare ((dat0 (U := U) A0 c).before 3 t d))
    ∗ (∃ d, owns (c : Thread nD τ) (ms4 t) fullShare ((dat0 (U := U) A0 c).before 4 t d))
    ∗ (∃ d, owns (c : Thread nD τ) (ms5 t) fullShare ((dat0 (U := U) A0 c).before 5 t d))
    ∗ (∃ d, owns (c : Thread nD τ) (ms6 t) fullShare ((dat0 (U := U) A0 c).before 6 t d))
    ∗ (∃ d, owns (c : Thread nD τ) (ms7 t) fullShare ((dat0 (U := U) A0 c).before 7 t d))
    ∗ (∃ d, owns (c : Thread nD τ) (ms8 t) fullShare ((dat0 (U := U) A0 c).before 8 t d))
    ∗ (∃ d, owns (c : Thread nD τ) (ms9 t) fullShare ((dat0 (U := U) A0 c).before 9 t d)))

/-- and what it returns. -/
def bodyPost (c : Dev nD) (t : Fin cfg0.N) : sProp 𝕄 :=
  iprop((dat0 (U := U) A0 c).Φ t.succ ∗ (dat0 (U := U) A0 c).owesAt () t.succ
    ∗ (dat0 (U := U) A0 c).leavesExact 0 t
    ∗ (dat0 (U := U) A0 c).leavesExact 1 t
    ∗ (dat0 (U := U) A0 c).leavesExact 2 t
    ∗ (dat0 (U := U) A0 c).leavesExact 3 t
    ∗ (dat0 (U := U) A0 c).leavesExact 4 t
    ∗ (dat0 (U := U) A0 c).leavesExact 5 t
    ∗ (dat0 (U := U) A0 c).leavesExact 6 t
    ∗ (dat0 (U := U) A0 c).leavesExact 7 t
    ∗ (dat0 (U := U) A0 c).leavesExact 8 t
    ∗ (dat0 (U := U) A0 c).leavesExact 9 t)

/-! ## Layer 6 -/

/-- The block of the decoder's result the second output's buffer ends with. -/
theorem out9_eq (c : Dev nD) (t : Fin cfg0.N) (hl : t.val / 16 = 6) (xadj : Vec F S4096x4096 .bf16) (xta xtb : Vec F S4096x512 .bf16)
    (xzs : Vec F S4096x128 .bf16) (hI : Inv A0 c t.val xadj xta xtb xzs) (f : (ms9 t).view.ty.Contents (Elt F)) :
    (ms9 t).view.read (Elt F) ((ms9 t).view.writes (Elt F) f
      (run6 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((hcond7 t).mpr hl) xadj xta).1)
      = O9blk A0 c (blkOf t) := by
  have ht : t.val < 112 := lt_of_lt_of_eq t.isLt hN
  rw [View.read_writes_eq_canon _ _ _ (fun y => View.cover_of_tiledL _ S256x512.size (by sl_kernel_rfl) y)]
  unfold run6
  dsimp only
  rw [View.canon_unit_zero hz]
  simp only [View.readAt_eq_ld]
  show k0_pay10 _ _ = k0_pay10 (ADJblk A0 c (blkOf t)) (T6 A0 c)
  refine congrArg₂ k0_pay10 ?_ ?_
  · exact (congrArg (fun X => View.ld X _) (Memref.IsWhole.read_unread (Memref.isWhole_whole cc0_scratch0) xadj)).trans
      (hI.adj_rows A0 c (blkOf t) (by show 16 + t.val % 16 < t.val; omega) _ _ (hoff12 t))
  · exact (congrArg (fun X => View.ld X _) (Memref.IsWhole.read_unread (Memref.isWhole_whole cc0_scratch1) xta)).trans
      (hI.ta_t6 A0 c (by omega) _)

set_option maxHeartbeats 4000000 in
theorem sound6 (c : Dev nD) (t : Fin cfg0.N) (hl : t.val / 16 = 6) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_live A0 c t hl, after_9]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩⟩
  iapply ((run6 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((hcond7 t).mpr hl) xadj xta).2 Set.univ _)
  isplitl [Hadj]; · iexact Hadj
  isplitl [Hta]; · iexact Hta
  isplitl [H9]; · iexists _; iexact H9
  iintro ⟨Hadj, Hta, ⟨%f9, H9⟩⟩
  isplitl [Hadj Hta Htb Hzs Hrest Hg]
  · isplitl [Hadj Hta Htb Hzs]
    · iexists xadj, xta, xtb, xzs
      isplitr; · ipureintro; exact hI.step6 A0 c (by omega)
      isplitl [Hadj]; · iexact Hadj
      isplitl [Hta]; · iexact Hta
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  unfold owns; iexists _; isplitr
  swap; · iexact H9
  ipureintro; exact out9_eq A0 c t hl xadj xta xtb xzs hI _

/-! ## Layer 0 -/

/-- The piece layer 0 stores: slab t of the first feature scratch, the block `(x block) · W1`. -/
theorem piece0 (c : Dev nD) (t : Fin cfg0.N) (hl : t.val / 16 = 0) (hn : t.val < 16) (xta : Vec F S4096x512 .bf16) :
    (run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).1
      = [(⟨Rect.unit (s := S4096x512) (k0_off1 (grid0.coords t)) S256x512.size (k0_off1_inb (grid0.coords t) ((hcond1 t).mpr hl)),
          T1blk A0 c ⟨t.val, hn⟩⟩ : View.Piece (Elt F) S4096x512 .bf16)] := by
  unfold run0
  dsimp only
  refine congrArg (fun w => [(⟨_, w⟩ : View.Piece (Elt F) S4096x512 .bf16)]) ?_
  have hp : pt 0 (by omega) (⟨t.val, hn⟩ : Fin 16) = t := Fin.ext (by show 16 * 0 + t.val = t.val; omega)
  unfold T1blk
  rw [hp]
  simp only [View.readAt_eq_ld]
  refine congrArg₂ k0_pay1 ?_ ?_
  · exact (congrArg (fun X => View.ld X _) ((hs0 t).read_unread _)).trans (View.ld_unit_zero hz _ _)
  · exact (congrArg (fun X => View.ld X _) ((hs2 t).read_unread _)).trans (View.ld_unit_zero hz _ _)

/-- The first feature scratch after the body at a point of layer 0. -/
def ta0 (c : Dev nD) (t : Fin cfg0.N) (hl : t.val / 16 = 0) (xta : Vec F S4096x512 .bf16) : Vec F S4096x512 .bf16 :=
  (scTa).view.read (Elt F) ((scTa).view.writes (Elt F) ((Memref.isWhole_whole cc0_scratch1).unread xta)
    (run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).1)

theorem inv0 (c : Dev nD) (t : Fin cfg0.N) (hl : t.val / 16 = 0) (xadj : Vec F S4096x4096 .bf16) (xta xtb : Vec F S4096x512 .bf16)
    (xzs : Vec F S4096x128 .bf16) (hI : Inv A0 c t.val xadj xta xtb xzs) :
    Inv A0 c (t.val + 1) xadj (ta0 (U := U) A0 c t hl xta) xtb xzs := by
  have ht : t.val < 112 := lt_of_lt_of_eq t.isLt hN
  have hn : t.val < 16 := by omega
  unfold ta0
  rw [piece0 A0 c t hl hn xta]
  obtain ⟨hnew, hold⟩ := slab_store (Val := Elt F) scTa (Memref.isWhole_whole cc0_scratch1) xta (k0_off1 (grid0.coords t)) 512
    (k0_off1_inb (grid0.coords t) ((hcond1 t).mpr hl)) (T1blk A0 c ⟨t.val, hn⟩) t.val ((hoff1 t).trans (by rw [Nat.mod_eq_of_lt hn]))
  exact hI.step0 A0 c hn _ (hnew _) (fun b hb => hold b.val 512 _ hb)

set_option maxHeartbeats 4000000 in
theorem sound0 (c : Dev nD) (t : Fin cfg0.N) (hl : t.val / 16 = 0) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).2 Set.univ _)
  isplitl [H0]; · iexact H0
  isplitl [H2]; · iexact H2
  isplitl [Hta]; · iexact Hta
  iintro ⟨H0, H2, Hta⟩
  isplitl [Hadj Hta Htb Hzs Hrest Hg]
  · isplitl [Hadj Hta Htb Hzs]
    · iexists xadj, (ta0 (U := U) A0 c t hl xta), xtb, xzs
      isplitr; · ipureintro; exact inv0 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 2 -/

/-- The piece layer 2 stores: the point's slab, holding the layer's block. -/
theorem piece2 (c : Dev nD) (t : Fin cfg0.N) (hl : t.val / 16 = 2) (xadj : Vec F S4096x4096 .bf16) (xta xtb : Vec F S4096x512 .bf16)
    (xzs : Vec F S4096x128 .bf16) (hI : Inv A0 c t.val xadj xta xtb xzs) :
    (run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).1
      = [(⟨Rect.unit (s := S4096x512) (k0_off5 (grid0.coords t)) S256x128.size (k0_off5_inb (grid0.coords t) ((hcond3 t).mpr hl)),
          T3blk A0 c ⟨t.val - 32, by omega⟩⟩ : View.Piece (Elt F) S4096x512 .bf16)] := by
  have ht : t.val < 112 := lt_of_lt_of_eq t.isLt hN
  unfold run2
  dsimp only
  refine congrArg (fun w => [(⟨_, w⟩ : View.Piece (Elt F) S4096x512 .bf16)]) ?_
  have hp : pt 2 (by omega) (⟨t.val - 32, by omega⟩ : Fin 16) = t := Fin.ext (by show 16 * 2 + (t.val - 32) = t.val; omega)
  have hb : (⟨t.val - 32, by omega⟩ : Fin 16) = blkOf t := Fin.ext (by show t.val - 32 = t.val % 16; omega)
  unfold T3blk
  rw [hp]
  simp only [View.readAt_eq_ld]
  refine congr (congr (congrArg k0_pay5 ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff4 t))
  · exact (congrArg (fun X => View.ld X _) (Memref.IsWhole.read_unread (Memref.isWhole_whole cc0_scratch2) xtb)).trans (hI.tb_t2 A0 c (by omega) (by omega) _)
  · exact (congrArg (fun X => View.ld X _) ((hs4 t).read_unread _)).trans (View.ld_unit_zero hz _ _)

/-- The written scratch buffer after the body at a point of layer 2. -/
def ta2 (c : Dev nD) (t : Fin cfg0.N) (hl : t.val / 16 = 2) (xadj : Vec F S4096x4096 .bf16) (xtb xta : Vec F S4096x512 .bf16) : Vec F S4096x512 .bf16 :=
  (scTa).view.read (Elt F) ((scTa).view.writes (Elt F) ((Memref.isWhole_whole cc0_scratch1).unread xta)
    (run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).1)

theorem inv2 (c : Dev nD) (t : Fin cfg0.N) (hl : t.val / 16 = 2) (xadj : Vec F S4096x4096 .bf16) (xta xtb : Vec F S4096x512 .bf16)
    (xzs : Vec F S4096x128 .bf16) (hI : Inv A0 c t.val xadj xta xtb xzs) :
    Inv A0 c (t.val + 1) xadj (ta2 (U := U) A0 c t hl xadj xtb xta) xtb xzs := by
  have ht : t.val < 112 := lt_of_lt_of_eq t.isLt hN
  unfold ta2
  rw [piece2 A0 c t hl xadj xta xtb xzs hI]
  obtain ⟨hnew, hold⟩ := slab_store (Val := Elt F) scTa (Memref.isWhole_whole cc0_scratch1) xta (k0_off5 (grid0.coords t)) 128
    (k0_off5_inb (grid0.coords t) ((hcond3 t).mpr hl)) (T3blk A0 c ⟨t.val - 32, by omega⟩) (t.val - 32)
    ((hoff5 t).trans (by rw [show t.val % 16 = t.val - 32 from by omega]))
  exact hI.step2 A0 c (by omega) (by omega) _ (hnew _) (fun b hb => hold b.val 128 _ hb)

set_option maxHeartbeats 4000000 in
theorem sound2 (c : Dev nD) (t : Fin cfg0.N) (hl : t.val / 16 = 2) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).2 Set.univ _)
  isplitl [H4]; · iexact H4
  isplitl [Hadj]; · iexact Hadj
  isplitl [Htb]; · iexact Htb
  isplitl [Hta]; · iexact Hta
  iintro ⟨H4, Hadj, Htb, Hta⟩
  isplitl [Hadj Hta Htb Hzs Hrest Hg]
  · isplitl [Hadj Hta Htb Hzs]
    · iexists xadj, (ta2 (U := U) A0 c t hl xadj xtb xta), xtb, xzs
      isplitr; · ipureintro; exact inv2 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 4 -/

/-- The piece layer 4 stores: the point's slab, holding the layer's block. -/
theorem piece4 (c : Dev nD) (t : Fin cfg0.N) (hl : t.val / 16 = 4) (xadj : Vec F S4096x4096 .bf16) (xta xtb : Vec F S4096x512 .bf16)
    (xzs : Vec F S4096x128 .bf16) (hI : Inv A0 c t.val xadj xta xtb xzs) :
    (run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).1
      = [(⟨Rect.unit (s := S4096x512) (k0_off9 (grid0.coords t)) S256x256.size (k0_off9_inb (grid0.coords t) ((hcond5 t).mpr hl)),
          T4blk A0 c ⟨t.val - 64, by omega⟩⟩ : View.Piece (Elt F) S4096x512 .bf16)] := by
  have ht : t.val < 112 := lt_of_lt_of_eq t.isLt hN
  unfold run4
  dsimp only
  refine congrArg (fun w => [(⟨_, w⟩ : View.Piece (Elt F) S4096x512 .bf16)]) ?_
  have hp : pt 4 (by omega) (⟨t.val - 64, by omega⟩ : Fin 16) = t := Fin.ext (by show 16 * 4 + (t.val - 64) = t.val; omega)
  have hb : (⟨t.val - 64, by omega⟩ : Fin 16) = blkOf t := Fin.ext (by show t.val - 64 = t.val % 16; omega)
  unfold T4blk
  rw [hp]
  simp only [View.readAt_eq_ld]
  refine congr (congr (congrArg k0_pay8 ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff8 t))
  · exact (congrArg (fun X => View.ld X _) (Memref.IsWhole.read_unread (Memref.isWhole_whole cc0_scratch3) xzs)).trans (hI.zs_all A0 c (by omega) _)
  · exact (congrArg (fun X => View.ld X _) ((hs5 t).read_unread _)).trans (View.ld_unit_zero hz _ _)

/-- The written scratch buffer after the body at a point of layer 4. -/
def tb4 (c : Dev nD) (t : Fin cfg0.N) (hl : t.val / 16 = 4) (xadj : Vec F S4096x4096 .bf16) (xzs : Vec F S4096x128 .bf16) (xtb : Vec F S4096x512 .bf16) : Vec F S4096x512 .bf16 :=
  (scTb).view.read (Elt F) ((scTb).view.writes (Elt F) ((Memref.isWhole_whole cc0_scratch2).unread xtb)
    (run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).1)

theorem inv4 (c : Dev nD) (t : Fin cfg0.N) (hl : t.val / 16 = 4) (xadj : Vec F S4096x4096 .bf16) (xta xtb : Vec F S4096x512 .bf16)
    (xzs : Vec F S4096x128 .bf16) (hI : Inv A0 c t.val xadj xta xtb xzs) :
    Inv A0 c (t.val + 1) xadj xta (tb4 (U := U) A0 c t hl xadj xzs xtb) xzs := by
  have ht : t.val < 112 := lt_of_lt_of_eq t.isLt hN
  unfold tb4
  rw [piece4 A0 c t hl xadj xta xtb xzs hI]
  obtain ⟨hnew, hold⟩ := slab_store (Val := Elt F) scTb (Memref.isWhole_whole cc0_scratch2) xtb (k0_off9 (grid0.coords t)) 256
    (k0_off9_inb (grid0.coords t) ((hcond5 t).mpr hl)) (T4blk A0 c ⟨t.val - 64, by omega⟩) (t.val - 64)
    ((hoff9 t).trans (by rw [show t.val % 16 = t.val - 64 from by omega]))
  exact hI.step4 A0 c (by omega) (by omega) _ (hnew _) (fun b hb => hold b.val 256 _ hb)

set_option maxHeartbeats 4000000 in
theorem sound4 (c : Dev nD) (t : Fin cfg0.N) (hl : t.val / 16 = 4) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).2 Set.univ _)
  isplitl [H5]; · iexact H5
  isplitl [Hadj]; · iexact Hadj
  isplitl [Hzs]; · iexact Hzs
  isplitl [Htb]; · iexact Htb
  iintro ⟨H5, Hadj, Hzs, Htb⟩
  isplitl [Hadj Hta Htb Hzs Hrest Hg]
  · isplitl [Hadj Hta Htb Hzs]
    · iexists xadj, xta, (tb4 (U := U) A0 c t hl xadj xzs xtb), xzs
      isplitr; · ipureintro; exact inv4 A0 c t hl xadj xta xtb xzs hI
      isplitl [Hadj]; · iexact Hadj
      isplitl [Hta]; · iexact Hta
      isplitl [Htb]
      · unfold owns; iexists _; isplitr
        swap; · iexact Htb
        ipureintro; rfl
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 5 -/

/-- The piece layer 5 stores: the point's slab, holding the layer's block. -/
theorem piece5 (c : Dev nD) (t : Fin cfg0.N) (hl : t.val / 16 = 5) (xadj : Vec F S4096x4096 .bf16) (xta xtb : Vec F S4096x512 .bf16)
    (xzs : Vec F S4096x128 .bf16) (hI : Inv A0 c t.val xadj xta xtb xzs) :
    (run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).1
      = [(⟨Rect.unit (s := S4096x512) (k0_off11 (grid0.coords t)) S256x512.size (k0_off11_inb (grid0.coords t) ((hcond6 t).mpr hl)),
          T6blk A0 c ⟨t.val - 80, by omega⟩⟩ : View.Piece (Elt F) S4096x512 .bf16)] := by
  have ht : t.val < 112 := lt_of_lt_of_eq t.isLt hN
  unfold run5
  dsimp only
  refine congrArg (fun w => [(⟨_, w⟩ : View.Piece (Elt F) S4096x512 .bf16)]) ?_
  have hp : pt 5 (by omega) (⟨t.val - 80, by omega⟩ : Fin 16) = t := Fin.ext (by show 16 * 5 + (t.val - 80) = t.val; omega)
  have hb : (⟨t.val - 80, by omega⟩ : Fin 16) = blkOf t := Fin.ext (by show t.val - 80 = t.val % 16; omega)
  unfold T6blk
  rw [hp]
  simp only [View.readAt_eq_ld]
  refine congr (congr (congr (congrArg k0_pay9 ?_) ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff10 t))
  · exact (congrArg (fun X => View.ld X _) (Memref.IsWhole.read_unread (Memref.isWhole_whole cc0_scratch2) xtb)).trans (hI.tb_t4 A0 c (by omega) _)
  · exact (congrArg (fun X => View.ld X _) ((hs6 t).read_unread _)).trans (View.ld_unit_zero hz _ _)
  · exact (congrArg (fun X => View.ld X _) ((hs7 t).read_unread _)).trans (View.ld_unit_zero hz _ _)

/-- The written scratch buffer after the body at a point of layer 5. -/
def ta5 (c : Dev nD) (t : Fin cfg0.N) (hl : t.val / 16 = 5) (xadj : Vec F S4096x4096 .bf16) (xtb xta : Vec F S4096x512 .bf16) : Vec F S4096x512 .bf16 :=
  (scTa).view.read (Elt F) ((scTa).view.writes (Elt F) ((Memref.isWhole_whole cc0_scratch1).unread xta)
    (run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).1)

theorem inv5 (c : Dev nD) (t : Fin cfg0.N) (hl : t.val / 16 = 5) (xadj : Vec F S4096x4096 .bf16) (xta xtb : Vec F S4096x512 .bf16)
    (xzs : Vec F S4096x128 .bf16) (hI : Inv A0 c t.val xadj xta xtb xzs) :
    Inv A0 c (t.val + 1) xadj (ta5 (U := U) A0 c t hl xadj xtb xta) xtb xzs := by
  have ht : t.val < 112 := lt_of_lt_of_eq t.isLt hN
  unfold ta5
  rw [piece5 A0 c t hl xadj xta xtb xzs hI]
  obtain ⟨hnew, hold⟩ := slab_store (Val := Elt F) scTa (Memref.isWhole_whole cc0_scratch1) xta (k0_off11 (grid0.coords t)) 512
    (k0_off11_inb (grid0.coords t) ((hcond6 t).mpr hl)) (T6blk A0 c ⟨t.val - 80, by omega⟩) (t.val - 80)
    ((hoff11 t).trans (by rw [show t.val % 16 = t.val - 80 from by omega]))
  exact hI.step5 A0 c (by omega) (by omega) _ (hnew _) (fun b hb => hold b.val 512 _ hb)

set_option maxHeartbeats 4000000 in
theorem sound5 (c : Dev nD) (t : Fin cfg0.N) (hl : t.val / 16 = 5) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).2 Set.univ _)
  isplitl [H6]; · iexact H6
  isplitl [H7]; · iexact H7
  isplitl [Hadj]; · iexact Hadj
  isplitl [Htb]; · iexact Htb
  isplitl [Hta]; · iexact Hta
  iintro ⟨H6, H7, Hadj, Htb, Hta⟩
  isplitl [Hadj Hta Htb Hzs Hrest Hg]
  · isplitl [Hadj Hta Htb Hzs]
    · iexists xadj, (ta5 (U := U) A0 c t hl xadj xtb xta), xtb, xzs
      isplitr; · ipureintro; exact inv5 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 3 -/

/-- The piece layer 3 stores into the decoder's scratch copy: the point's slab, holding the encoder's block. -/
theorem piece3 (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) :
    (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.1
      = [(⟨Rect.unit (s := S4096x128) (k0_off7 (grid0.coords t)) S256x128.size (k0_off7_inb (grid0.coords t) ((hcond4 t).mpr hl)),
          ZSblk A0 c ⟨t.val - 48, by omega⟩⟩ : View.Piece (Elt F) S4096x128 .bf16)] := by
  have ht : t.val < 112 := lt_of_lt_of_eq t.isLt hN
  unfold run3
  dsimp only
  refine congrArg (fun w => [(⟨_, w⟩ : View.Piece (Elt F) S4096x128 .bf16)]) ?_
  have hb : (⟨t.val - 48, by omega⟩ : Fin 16) = blkOf t := Fin.ext (by show t.val - 48 = t.val % 16; omega)
  unfold ZSblk k0_pay7
  simp only [View.readAt_eq_ld]
  refine congrArg (fun X => shapeCast S256x128 (truncf .bf16 X bitsLt_bf16_f32) shapeCasts_S256x128_S256x128) ?_
  refine congrArg₂ k0_pay6 ?_ ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff6 t))
  · exact (congrArg (fun X => View.ld X _) (Memref.IsWhole.read_unread (Memref.isWhole_whole cc0_scratch1) xta)).trans (hI.ta_t3 A0 c (by omega) (by omega) _)

/-- The block of the encoder's result the first output's buffer ends with. -/
theorem out8_eq (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) (f : (ms8 t).view.ty.Contents (Elt F)) :
    (ms8 t).view.read (Elt F) ((ms8 t).view.writes (Elt F) f (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).1) = O8blk A0 c (blk8 t) := by
  have ht : t.val < 112 := lt_of_lt_of_eq t.isLt hN
  have hb8 : blk8 t = blkOf t := dif_pos hl
  have hb : blkOf t = blkOf t := rfl
  rw [View.read_writes_eq_canon _ _ _ (fun y => View.cover_of_tiledL _ S256x128.size (by sl_kernel_rfl) y)]
  unfold run3
  dsimp only
  rw [View.canon_unit_zero hz]
  simp only [View.readAt_eq_ld]
  rw [hb8]
  show k0_pay6 _ _ = k0_pay6 (ADJblk A0 c (blkOf t)) (T3 A0 c)
  refine congrArg₂ k0_pay6 ?_ ?_
  · exact (congrArg (fun X => View.ld X _) (Memref.IsWhole.read_unread (Memref.isWhole_whole cc0_scratch0) xadj)).trans
      (hI.adj_rows A0 c (blkOf t) (by show 16 + t.val % 16 < t.val; omega) _ _ (hoff6 t))
  · exact (congrArg (fun X => View.ld X _) (Memref.IsWhole.read_unread (Memref.isWhole_whole cc0_scratch1) xta)).trans (hI.ta_t3 A0 c (by omega) (by omega) _)

/-- The decoder's scratch copy after the body at a point of layer 3. -/
def zs3 (c : Dev nD) (t : Fin cfg0.N) (hl : t.val / 16 = 3) (xadj : Vec F S4096x4096 .bf16) (xta : Vec F S4096x512 .bf16)
    (xzs : Vec F S4096x128 .bf16) : Vec F S4096x128 .bf16 :=
  (scZs).view.read (Elt F) ((scZs).view.writes (Elt F) ((Memref.isWhole_whole cc0_scratch3).unread xzs) (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.1)

theorem inv3 (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) :
    Inv A0 c (t.val + 1) xadj xta xtb (zs3 (U := U) c t hl xadj xta xzs) := by
  have ht : t.val < 112 := lt_of_lt_of_eq t.isLt hN
  unfold zs3
  rw [piece3 A0 c t hl xadj xta xtb xzs hI]
  obtain ⟨hnew, hold⟩ := slab_store (Val := Elt F) scZs (Memref.isWhole_whole cc0_scratch3) xzs (k0_off7 (grid0.coords t)) 128
    (k0_off7_inb (grid0.coords t) ((hcond4 t).mpr hl)) (ZSblk A0 c ⟨t.val - 48, by omega⟩) (t.val - 48)
    ((hoff7 t).trans (by rw [show t.val % 16 = t.val - 48 from by omega]))
  exact hI.step3 A0 c (by omega) (by omega) _ (hnew _) (fun b hb => hold b.val 128 _ hb)

set_option maxHeartbeats 4000000 in
theorem sound3 (c : Dev nD) (t : Fin cfg0.N) (hl : t.val / 16 = 3) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega), leaves8_live A0 c t hl, after_8]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply ((run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.2 Set.univ _)
  isplitl [Hadj]; · iexact Hadj
  isplitl [Hta]; · iexact Hta
  isplitl [H8]; · iexists _; iexact H8
  isplitl [Hzs]; · iexact Hzs
  iintro ⟨Hadj, Hta, ⟨%f8, H8⟩, Hzs⟩
  isplitl [Hadj Hta Htb Hzs Hrest Hg]
  · isplitl [Hadj Hta Htb Hzs]
    · iexists xadj, xta, xtb, (zs3 (U := U) c t hl xadj xta xzs)
      isplitr; · ipureintro; exact inv3 A0 c t hl xadj xta xtb xzs hI
      isplitl [Hadj]; · iexact Hadj
      isplitl [Hta]; · iexact Hta
      isplitl [Htb]; · iexact Htb
      unfold owns; iexists _; isplitr
      swap; · iexact Hzs
      ipureintro; rfl
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact out8_eq A0 c t hl xadj xta xtb xzs hI _
  iexact H9

/-! ## Layer 1 -/

/-- The piece layer 1 stores into the adjacency scratch: the point's slab, holding the adjacency block. -/
theorem piece1a (c : Dev nD) (t : Fin cfg0.N) (hl : t.val / 16 = 1) (xadj : Vec F S4096x4096 .bf16) (xta xtb : Vec F S4096x512 .bf16) :
    (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).1
      = [(⟨Rect.unit (s := S4096x4096) (k0_off2 (grid0.coords t)) S256x4096.size (k0_off2_inb (grid0.coords t) ((hcond2 t).mpr hl)),
          ADJblk A0 c ⟨t.val - 16, by omega⟩⟩ : View.Piece (Elt F) S4096x4096 .bf16)] := by
  have ht : t.val < 112 := lt_of_lt_of_eq t.isLt hN
  unfold run1
  dsimp only
  refine congrArg (fun w => [(⟨_, w⟩ : View.Piece (Elt F) S4096x4096 .bf16)]) ?_
  have hp : pt 1 (by omega) (⟨t.val - 16, by omega⟩ : Fin 16) = t := Fin.ext (by show 16 * 1 + (t.val - 16) = t.val; omega)
  unfold ADJblk
  rw [hp]
  simp only [View.readAt_eq_ld]
  refine congrArg k0_pay3 ?_
  exact (congrArg (fun X => View.ld X _) ((hs1 t).read_unread _)).trans (View.ld_unit_zero hz _ _)

/-- The piece layer 1 stores into the second feature scratch: the point's slab (left 256 columns), holding `(adj block · t1) · W2`. -/
theorem piece1b (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) :
    (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.1
      = [(⟨Rect.unit (s := S4096x512) (k0_off3 (grid0.coords t)) S256x256.size (k0_off3_inb (grid0.coords t) ((hcond2 t).mpr hl)),
          T2blk A0 c ⟨t.val - 16, by omega⟩⟩ : View.Piece (Elt F) S4096x512 .bf16)] := by
  have ht : t.val < 112 := lt_of_lt_of_eq t.isLt hN
  unfold run1
  dsimp only
  refine congrArg (fun w => [(⟨_, w⟩ : View.Piece (Elt F) S4096x512 .bf16)]) ?_
  have hp : pt 1 (by omega) (⟨t.val - 16, by omega⟩ : Fin 16) = t := Fin.ext (by show 16 * 1 + (t.val - 16) = t.val; omega)
  unfold T2blk
  rw [hp]
  simp only [View.readAt_eq_ld]
  refine congr (congr (congrArg k0_pay4 ?_) ?_) ?_
  · exact (congrArg (fun X => View.ld X _) ((hs1 t).read_unread _)).trans (View.ld_unit_zero hz _ _)
  · exact (congrArg (fun X => View.ld X _) (Memref.IsWhole.read_unread (Memref.isWhole_whole cc0_scratch1) xta)).trans (hI.ta_t1 A0 c (by omega) (by omega) _)
  · exact (congrArg (fun X => View.ld X _) ((hs3 t).read_unread _)).trans (View.ld_unit_zero hz _ _)

/-- The adjacency scratch and the second feature scratch after the body at a point of layer 1. -/
def adj1 (c : Dev nD) (t : Fin cfg0.N) (hl : t.val / 16 = 1) (xadj : Vec F S4096x4096 .bf16) (xta xtb : Vec F S4096x512 .bf16) : Vec F S4096x4096 .bf16 :=
  (scAdj).view.read (Elt F) ((scAdj).view.writes (Elt F) ((Memref.isWhole_whole cc0_scratch0).unread xadj) (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).1)
def tb1 (c : Dev nD) (t : Fin cfg0.N) (hl : t.val / 16 = 1) (xadj : Vec F S4096x4096 .bf16) (xta xtb : Vec F S4096x512 .bf16) : Vec F S4096x512 .bf16 :=
  (scTb).view.read (Elt F) ((scTb).view.writes (Elt F) ((Memref.isWhole_whole cc0_scratch2).unread xtb) (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.1)

/-- The invariant one point further in layer 1, for any two piece lists that are the two slabs with their blocks. -/
theorem inv1_of (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) (ht : t.val < 112)
    (L12 : List (View.Piece (Elt F) S4096x4096 .bf16)) (L14 : List (View.Piece (Elt F) S4096x512 .bf16))
    (h12 : L12 = [(⟨Rect.unit (s := S4096x4096) (k0_off2 (grid0.coords t)) S256x4096.size (k0_off2_inb (grid0.coords t) ((hcond2 t).mpr hl)),
          ADJblk A0 c ⟨t.val - 16, by omega⟩⟩ : View.Piece (Elt F) S4096x4096 .bf16)])
    (h14 : L14 = [(⟨Rect.unit (s := S4096x512) (k0_off3 (grid0.coords t)) S256x256.size (k0_off3_inb (grid0.coords t) ((hcond2 t).mpr hl)),
          T2blk A0 c ⟨t.val - 16, by omega⟩⟩ : View.Piece (Elt F) S4096x512 .bf16)]) :
    Inv A0 c (t.val + 1) ((scAdj).view.read (Elt F) ((scAdj).view.writes (Elt F) ((Memref.isWhole_whole cc0_scratch0).unread xadj) L12)) xta
      ((scTb).view.read (Elt F) ((scTb).view.writes (Elt F) ((Memref.isWhole_whole cc0_scratch2).unread xtb) L14)) xzs := by
  subst h12 h14
  obtain ⟨hnewA, holdA⟩ := slab_store (Val := Elt F) scAdj (Memref.isWhole_whole cc0_scratch0) xadj (k0_off2 (grid0.coords t)) 4096
    (k0_off2_inb (grid0.coords t) ((hcond2 t).mpr hl)) (ADJblk A0 c ⟨t.val - 16, by omega⟩) (t.val - 16)
    ((hoff2 t).trans (by rw [show t.val % 16 = t.val - 16 from by omega]))
  obtain ⟨hnewB, holdB⟩ := slab_store (Val := Elt F) scTb (Memref.isWhole_whole cc0_scratch2) xtb (k0_off3 (grid0.coords t)) 256
    (k0_off3_inb (grid0.coords t) ((hcond2 t).mpr hl)) (T2blk A0 c ⟨t.val - 16, by omega⟩) (t.val - 16)
    ((hoff3 t).trans (by rw [show t.val % 16 = t.val - 16 from by omega]))
  exact hI.step1 A0 c (by omega) (by omega) _ _ (hnewA _) (fun b hb => holdA b.val 4096 _ hb) (hnewB _) (fun b hb => holdB b.val 256 _ hb)

theorem inv1 (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) :
    Inv A0 c (t.val + 1) (adj1 (U := U) A0 c t hl xadj xta xtb) xta (tb1 (U := U) A0 c t hl xadj xta xtb) xzs :=
  inv1_of A0 c t hl xadj xta xtb xzs hI (lt_of_lt_of_eq t.isLt hN) _ _ (piece1a (U := U) A0 c t hl xadj xta xtb)
    (piece1b (U := U) A0 c t hl xadj xta xtb xzs hI)

set_option maxHeartbeats 4000000 in
theorem sound1 (c : Dev nD) (t : Fin cfg0.N) (hl : t.val / 16 = 1) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.2 Set.univ _)
  isplitl [H1]; · iexact H1
  isplitl [H3]; · iexact H3
  isplitl [Hta]; · iexact Hta
  isplitl [Hadj]; · iexact Hadj
  isplitl [Htb]; · iexact Htb
  iintro ⟨H1, H3, Hta, Hadj, Htb⟩
  isplitl [Hadj Hta Htb Hzs Hrest Hg]
  · isplitl [Hadj Hta Htb Hzs]
    · iexists (adj1 (U := U) A0 c t hl xadj xta xtb), xta, (tb1 (U := U) A0 c t hl xadj xta xtb), xzs
      isplitr; · ipureintro; exact inv1 A0 c t hl xadj xta xtb xzs hI
      isplitl [Hadj]
      · unfold owns; iexists _; isplitr
        swap; · iexact Hadj
        ipureintro; rfl
      isplitl [Hta]; · iexact Hta
      isplitl [Htb]
      · unfold owns; iexists _; isplitr
        swap; · iexact Htb
        ipureintro; rfl
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

end Cert.Sgae.Region0

end
-- ==== Proof.Region0Call.lean ====
/-
  The first call's record.

  Every grid point lies in one of the seven layers, so the body obligation holds at every point; with the proof data's
  arrays the buffers' contents at entry and the invariant starting from and ending at "every scratch buffer at
  something", this is the record the two-call run asks of the first call.
-/
import proofs.«146852_g64793876627462_cont_sun_c4_515_4_alg».proof.Proof.Region0Body
import proofs.«146852_g64793876627462_cont_sun_c4_515_4_alg».proof.Proof.TwoRegions

set_option maxRecDepth 16384

noncomputable section

namespace Cert.Sgae.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- The body at any point: the point's layer decides which run applies. -/
theorem sound_body (c : Dev nD) (t : Fin cfg0.N) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  have h : t.val / 16 = 0 ∨ t.val / 16 = 1 ∨ t.val / 16 = 2 ∨ t.val / 16 = 3 ∨ t.val / 16 = 4 ∨ t.val / 16 = 5 ∨ t.val / 16 = 6 := by omega
  rcases h with h | h | h | h | h | h | h
  · exact sound0 A0 c t h
  · exact sound1 A0 c t h
  · exact sound2 A0 c t h
  · exact sound3 A0 c t h
  · exact sound4 A0 c t h
  · exact sound5 A0 c t h
  · exact sound6 A0 c t h

/-- The library's body obligation, at every point. -/
theorem body_obligation (c : Dev nD) : BodyObligation (dat0 (U := U) A0 c) (defs₀ (F := F)) Variants.none () Set.univ := fun t => by
  rw [bigSep_W0, bigSep_W0]
  exact sound_body A0 c t

/-- The first call's record, from the buffers' contents after the host stretch. -/
def call0 (m : (ℓ : Loc nD τ sig) → Buf (Elt F) ℓ) : Cert.Sgae.Run.Call0 (F := F) m where
  dat c := dat0 (U := Pipeline.UD sig nD τ) (Cert.Sgae.Run.Vh m) c
  hA c w := A_eq (Cert.Sgae.Run.Vh m) c w
  hq _ _ := rfl
  howed _ _ := rfl
  hrec _ _ := rfl
  hbody c := body_obligation (Cert.Sgae.Run.Vh m) c
  hin c := hin (Cert.Sgae.Run.Vh m) c
  hout c := hout (Cert.Sgae.Run.Vh m) c

end Cert.Sgae.Region0

end
-- ==== Proof.Stacks.lean ====
/-
  Stacked row blocks of matrix products.

  The sixteen blocks of 256 rows of a matrix with 4096 rows, stacked, are the matrix; the product of a block of rows
  with a matrix is the block of rows of the product; so sixteen products of row blocks, stacked, are the whole product.
-/
import proofs.«146852_g64793876627462_cont_sun_c4_515_4_alg».proof.Proof.Spec
import proofs.«146852_g64793876627462_cont_sun_c4_515_4_alg».proof.Proof.Slabs

noncomputable section

open Idealize.ShloMosaic Idealize.ShloMosaic.ValueIdx
open Cert.Sgae.Slab
open scoped BigOperators

namespace Cert.Sgae

/-- Rows 256·b … 256·b + 255 of a matrix with 4096 rows. -/
def rowsOf {k : ℕ} (A : Arr 4096 k) (b : Fin 16) : Arr 256 k :=
  fun i => A (ix2 ⟨256 * b.val + (i 0).val, by have h1 := b.isLt; have h2 : (i 0).val < 256 := (i 0).isLt; omega⟩ (i 1))

/-- The product of a block of rows with a matrix is the block of rows of the product. -/
theorem mm_rowsOf {k n : ℕ} (A : Arr 4096 k) (M : Arr k n) (b : Fin 16) : mm (rowsOf A b) M = rowsOf (mm A M) b := rfl

/-- The sixteen row blocks of a matrix, stacked, are the matrix. -/
theorem stack_rowsOf {k : ℕ} (A : Arr 4096 k) : stack (fun b => rowsOf A b) = A := by
  funext y
  have hy : (y 0).val < 4096 := (y 0).isLt
  show A (ix2 ⟨256 * ((y 0).val / 256) + (y 0).val % 256, _⟩ (y 1)) = A y
  congr 1
  funext a
  match a with
  | ⟨0, _⟩ => exact Fin.ext (by show 256 * ((y 0).val / 256) + (y 0).val % 256 = (y 0).val; omega)
  | ⟨1, _⟩ => rfl

/-- Sixteen products of row blocks with one matrix, stacked, are the whole product. -/
theorem stack_mm {k n : ℕ} (A : Arr 4096 k) (M : Arr k n) : stack (fun b => mm (rowsOf A b) M) = mm A M :=
  stack_rowsOf (mm A M)

/-- The same when each block is given up to equality. -/
theorem stack_eq_mm {k n : ℕ} (A : Arr 4096 k) (M : Arr k n) (B : Fin 16 → Arr 256 n) (h : ∀ b, B b = mm (rowsOf A b) M) :
    stack B = mm A M := by
  rw [show B = fun b => mm (rowsOf A b) M from funext h]; exact stack_mm A M

end Cert.Sgae

end
-- ==== Proof.Region0Value.lean ====
/-
  What the first call leaves in its two output arrays, at the ideal reading.

  At the ideal reading every layer's block is a matrix product of row blocks: the x and adjacency windows' blocks are
  rows 256·b … of their arrays, the weight windows' blocks are the weights.  Stacking sixteen products of row blocks
  gives the whole product, so the stacked blocks of the layers are
     t1 = x · W1,  t2 = (adj · t1) · W2,  t3 = (adj · t2) · W3,  zs = adj · t3,
     t4 = (adj · zs) · W4,  t6 = ((adj · t4) · W5) · W6,  zh = adj · t6,
  that is, zs is the encoder and zh the regrouped decoder of the specification.  What a point of layer 3 (or the last
  point) writes back of the encoder's window is then a block of rows of zs, those blocks tile the first output array,
  and likewise for layer 6 and the second.
-/
import proofs.«146852_g64793876627462_cont_sun_c4_515_4_alg».proof.Proof.Region0Data
import proofs.«146852_g64793876627462_cont_sun_c4_515_4_alg».proof.Proof.Stacks
import proofs.«146852_g64793876627462_cont_sun_c4_515_4_alg».proof.Proof.KernelPayloads
import Idealize.ShloMosaic.Lib.Pipeline.Value

set_option maxRecDepth 16384

noncomputable section

namespace Cert.Sgae.Region0

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)
open Cert.Sgae.Slab Cert.Sgae.Ker
open scoped BigOperators

variable {U : Type} [URA U]
variable (A0 : (c : Dev nD) → (b : Ref sig .tc) → Buf (Elt Ideal) ((c : Thread nD τ).loc b)) (c : Dev nD)

/-! ## The windows' block indices, decided -/

theorem idx0 : ∀ t : Fin cfg0.N, t.val / 16 = 0 → win0_0.index t = ![t.val % 16, 0] :=
  (by decide +kernel : ∀ t : Fin grid0.N, t.val / 16 = 0 → win0_0.index t = ![t.val % 16, 0])
theorem idx1 : ∀ t : Fin cfg0.N, t.val / 16 = 1 → win0_1.index t = ![t.val % 16, 0] :=
  (by decide +kernel : ∀ t : Fin grid0.N, t.val / 16 = 1 → win0_1.index t = ![t.val % 16, 0])
theorem idxW2 : ∀ t : Fin cfg0.N, win0_2.index t = ![0, 0] :=
  (by decide +kernel : ∀ t : Fin grid0.N, win0_2.index t = ![0, 0])
theorem idxW3 : ∀ t : Fin cfg0.N, win0_3.index t = ![0, 0] :=
  (by decide +kernel : ∀ t : Fin grid0.N, win0_3.index t = ![0, 0])
theorem idxW4 : ∀ t : Fin cfg0.N, win0_4.index t = ![0, 0] :=
  (by decide +kernel : ∀ t : Fin grid0.N, win0_4.index t = ![0, 0])
theorem idxW5 : ∀ t : Fin cfg0.N, win0_5.index t = ![0, 0] :=
  (by decide +kernel : ∀ t : Fin grid0.N, win0_5.index t = ![0, 0])
theorem idxW6 : ∀ t : Fin cfg0.N, win0_6.index t = ![0, 0] :=
  (by decide +kernel : ∀ t : Fin grid0.N, win0_6.index t = ![0, 0])
theorem idxW7 : ∀ t : Fin cfg0.N, win0_7.index t = ![0, 0] :=
  (by decide +kernel : ∀ t : Fin grid0.N, win0_7.index t = ![0, 0])

/-! ## The windows' blocks -/

/-- The arrays as matrices. -/
abbrev X : Arr 4096 512 := A0 c main_arg0
abbrev A : Arr 4096 4096 := A0 c main_arg1
abbrev V0 : Arr 512 512 := A0 c main_v0
abbrev V1 : Arr 512 256 := A0 c main_v1
abbrev V2 : Arr 256 128 := A0 c main_v2
abbrev V3 : Arr 128 256 := A0 c main_v3
abbrev V4 : Arr 256 512 := A0 c main_v4
abbrev V5 : Arr 512 512 := A0 c main_v5

theorem blk0 (b : Fin 16) : (iblk A0 c 0 (pt 0 (by omega) b) : Arr 256 512) = rowsOf (X A0 c) b := by
  obtain ⟨t, ht⟩ : ∃ t : Fin cfg0.N, t = pt 0 (by omega) b := ⟨_, rfl⟩
  have hv : t.val = 16 * 0 + b.val := by rw [ht]; rfl
  rw [← ht]
  have hb := b.isLt
  have hi := congrFun (idx0 t (by omega)) (0 : Fin 2)
  have hi1 := congrFun (idx0 t (by omega)) (1 : Fin 2)
  funext j
  show X A0 c (((cfg0.win 0).blk t).view.emb j) = X A0 c (ix2 _ (j 1))
  congr 1
  funext a
  apply Fin.ext
  match a with
  | ⟨0, _⟩ =>
    show win0_0.index t (0 : Fin 2) * 256 + 1 * (j 0).val = 256 * b.val + (j 0).val
    rw [hi]; show t.val % 16 * 256 + 1 * (j 0).val = _; omega
  | ⟨1, _⟩ =>
    show win0_0.index t (1 : Fin 2) * 512 + 1 * (j 1).val = (j 1).val
    rw [hi1]; show 0 * 512 + 1 * (j 1).val = _; omega

theorem blk1 (b : Fin 16) : (iblk A0 c 1 (pt 1 (by omega) b) : Arr 256 4096) = rowsOf (A A0 c) b := by
  obtain ⟨t, ht⟩ : ∃ t : Fin cfg0.N, t = pt 1 (by omega) b := ⟨_, rfl⟩
  have hv : t.val = 16 * 1 + b.val := by rw [ht]; rfl
  rw [← ht]
  have hb := b.isLt
  have hi := congrFun (idx1 t (by omega)) (0 : Fin 2)
  have hi1 := congrFun (idx1 t (by omega)) (1 : Fin 2)
  funext j
  show A A0 c (((cfg0.win 1).blk t).view.emb j) = A A0 c (ix2 _ (j 1))
  congr 1
  funext a
  apply Fin.ext
  match a with
  | ⟨0, _⟩ =>
    show win0_1.index t (0 : Fin 2) * 256 + 1 * (j 0).val = 256 * b.val + (j 0).val
    rw [hi]; show t.val % 16 * 256 + 1 * (j 0).val = _; omega
  | ⟨1, _⟩ =>
    show win0_1.index t (1 : Fin 2) * 4096 + 1 * (j 1).val = (j 1).val
    rw [hi1]; show 0 * 4096 + 1 * (j 1).val = _; omega

theorem blkW2 (t : Fin cfg0.N) : (iblk A0 c 2 t : Arr 512 512) = (A0 c main_v0 : Arr 512 512) := by
  have h0 := congrFun (idxW2 t) (0 : Fin 2)
  have h1 := congrFun (idxW2 t) (1 : Fin 2)
  funext j
  show (A0 c main_v0 : Arr 512 512) (((cfg0.win 2).blk t).view.emb j) = (A0 c main_v0 : Arr 512 512) j
  congr 1
  funext a
  apply Fin.ext
  match a with
  | ⟨0, _⟩ => show win0_2.index t (0 : Fin 2) * 512 + 1 * (j 0).val = (j 0).val; rw [h0]; show 0 * 512 + 1 * (j 0).val = _; omega
  | ⟨1, _⟩ => show win0_2.index t (1 : Fin 2) * 512 + 1 * (j 1).val = (j 1).val; rw [h1]; show 0 * 512 + 1 * (j 1).val = _; omega
theorem blkW3 (t : Fin cfg0.N) : (iblk A0 c 3 t : Arr 512 256) = (A0 c main_v1 : Arr 512 256) := by
  have h0 := congrFun (idxW3 t) (0 : Fin 2)
  have h1 := congrFun (idxW3 t) (1 : Fin 2)
  funext j
  show (A0 c main_v1 : Arr 512 256) (((cfg0.win 3).blk t).view.emb j) = (A0 c main_v1 : Arr 512 256) j
  congr 1
  funext a
  apply Fin.ext
  match a with
  | ⟨0, _⟩ => show win0_3.index t (0 : Fin 2) * 512 + 1 * (j 0).val = (j 0).val; rw [h0]; show 0 * 512 + 1 * (j 0).val = _; omega
  | ⟨1, _⟩ => show win0_3.index t (1 : Fin 2) * 256 + 1 * (j 1).val = (j 1).val; rw [h1]; show 0 * 256 + 1 * (j 1).val = _; omega
theorem blkW4 (t : Fin cfg0.N) : (iblk A0 c 4 t : Arr 256 128) = (A0 c main_v2 : Arr 256 128) := by
  have h0 := congrFun (idxW4 t) (0 : Fin 2)
  have h1 := congrFun (idxW4 t) (1 : Fin 2)
  funext j
  show (A0 c main_v2 : Arr 256 128) (((cfg0.win 4).blk t).view.emb j) = (A0 c main_v2 : Arr 256 128) j
  congr 1
  funext a
  apply Fin.ext
  match a with
  | ⟨0, _⟩ => show win0_4.index t (0 : Fin 2) * 256 + 1 * (j 0).val = (j 0).val; rw [h0]; show 0 * 256 + 1 * (j 0).val = _; omega
  | ⟨1, _⟩ => show win0_4.index t (1 : Fin 2) * 128 + 1 * (j 1).val = (j 1).val; rw [h1]; show 0 * 128 + 1 * (j 1).val = _; omega
theorem blkW5 (t : Fin cfg0.N) : (iblk A0 c 5 t : Arr 128 256) = (A0 c main_v3 : Arr 128 256) := by
  have h0 := congrFun (idxW5 t) (0 : Fin 2)
  have h1 := congrFun (idxW5 t) (1 : Fin 2)
  funext j
  show (A0 c main_v3 : Arr 128 256) (((cfg0.win 5).blk t).view.emb j) = (A0 c main_v3 : Arr 128 256) j
  congr 1
  funext a
  apply Fin.ext
  match a with
  | ⟨0, _⟩ => show win0_5.index t (0 : Fin 2) * 128 + 1 * (j 0).val = (j 0).val; rw [h0]; show 0 * 128 + 1 * (j 0).val = _; omega
  | ⟨1, _⟩ => show win0_5.index t (1 : Fin 2) * 256 + 1 * (j 1).val = (j 1).val; rw [h1]; show 0 * 256 + 1 * (j 1).val = _; omega
theorem blkW6 (t : Fin cfg0.N) : (iblk A0 c 6 t : Arr 256 512) = (A0 c main_v4 : Arr 256 512) := by
  have h0 := congrFun (idxW6 t) (0 : Fin 2)
  have h1 := congrFun (idxW6 t) (1 : Fin 2)
  funext j
  show (A0 c main_v4 : Arr 256 512) (((cfg0.win 6).blk t).view.emb j) = (A0 c main_v4 : Arr 256 512) j
  congr 1
  funext a
  apply Fin.ext
  match a with
  | ⟨0, _⟩ => show win0_6.index t (0 : Fin 2) * 256 + 1 * (j 0).val = (j 0).val; rw [h0]; show 0 * 256 + 1 * (j 0).val = _; omega
  | ⟨1, _⟩ => show win0_6.index t (1 : Fin 2) * 512 + 1 * (j 1).val = (j 1).val; rw [h1]; show 0 * 512 + 1 * (j 1).val = _; omega
theorem blkW7 (t : Fin cfg0.N) : (iblk A0 c 7 t : Arr 512 512) = (A0 c main_v5 : Arr 512 512) := by
  have h0 := congrFun (idxW7 t) (0 : Fin 2)
  have h1 := congrFun (idxW7 t) (1 : Fin 2)
  funext j
  show (A0 c main_v5 : Arr 512 512) (((cfg0.win 7).blk t).view.emb j) = (A0 c main_v5 : Arr 512 512) j
  congr 1
  funext a
  apply Fin.ext
  match a with
  | ⟨0, _⟩ => show win0_7.index t (0 : Fin 2) * 512 + 1 * (j 0).val = (j 0).val; rw [h0]; show 0 * 512 + 1 * (j 0).val = _; omega
  | ⟨1, _⟩ => show win0_7.index t (1 : Fin 2) * 512 + 1 * (j 1).val = (j 1).val; rw [h1]; show 0 * 512 + 1 * (j 1).val = _; omega

/-! ## The layers' stacked blocks as whole products -/

theorem T1_eq : (T1 A0 c : Arr 4096 512) = mm (X A0 c) (V0 A0 c) :=
  stack_eq_mm (X A0 c) (V0 A0 c) _ fun b => (pay1_eq _ _).trans (congrArg₂ mm (blk0 A0 c b) (blkW2 A0 c _))

theorem ADJblk_eq (b : Fin 16) : (ADJblk A0 c b : Arr 256 4096) = rowsOf (A A0 c) b :=
  (pay3_eq _).trans (blk1 A0 c b)

theorem T2_eq : (T2 A0 c : Arr 4096 256) = mm (mm (A A0 c) (mm (X A0 c) (V0 A0 c))) (V1 A0 c) :=
  stack_eq_mm (mm (A A0 c) (mm (X A0 c) (V0 A0 c))) (V1 A0 c) _ fun b =>
    (pay4_eq _ _ _).trans (congrArg₂ mm (congrArg₂ mm (blk1 A0 c b) (T1_eq A0 c)) (blkW3 A0 c _))

theorem T3_eq : (T3 A0 c : Arr 4096 128) = mm (mm (A A0 c) (mm (mm (A A0 c) (mm (X A0 c) (V0 A0 c))) (V1 A0 c))) (V2 A0 c) :=
  stack_eq_mm _ (V2 A0 c) _ fun b =>
    (pay5_eq _ _ _).trans (congrArg₂ mm (congrArg₂ mm (ADJblk_eq A0 c b) (T2_eq A0 c)) (blkW4 A0 c _))

/-- The encoder of the entry arrays. -/
abbrev ENC : Arr 4096 128 := enc (X A0 c) (A A0 c) (V0 A0 c) (V1 A0 c) (V2 A0 c)

theorem O8blk_eq (b : Fin 16) : (O8blk A0 c b : Arr 256 128) = rowsOf (ENC A0 c) b :=
  (pay6_eq _ _).trans (congrArg₂ mm (ADJblk_eq A0 c b) (T3_eq A0 c))

theorem ZSB_eq : (ZSB A0 c : Arr 4096 128) = ENC A0 c :=
  stack_eq_mm (A A0 c) _ _ fun b => (pay7_eq _ _).trans (congrArg₂ mm (ADJblk_eq A0 c b) (T3_eq A0 c))

theorem T4_eq : (T4 A0 c : Arr 4096 256) = mm (mm (A A0 c) (ENC A0 c)) (V3 A0 c) :=
  stack_eq_mm (mm (A A0 c) (ENC A0 c)) (V3 A0 c) _ fun b =>
    (pay8_eq _ _ _).trans (congrArg₂ mm (congrArg₂ mm (ADJblk_eq A0 c b) (ZSB_eq A0 c)) (blkW5 A0 c _))

theorem T6_eq : (T6 A0 c : Arr 4096 512) = mm (mm (mm (A A0 c) (mm (mm (A A0 c) (ENC A0 c)) (V3 A0 c))) (V4 A0 c)) (V5 A0 c) :=
  stack_eq_mm _ (V5 A0 c) _ fun b =>
    (pay9_eq _ _ _ _).trans (congrArg₂ mm (congrArg₂ mm (congrArg₂ mm (ADJblk_eq A0 c b) (T4_eq A0 c)) (blkW6 A0 c _)) (blkW7 A0 c _))

/-- The regrouped decoder of the encoder's result. -/
abbrev ZH : Arr 4096 512 := decRegrouped (A A0 c) (ENC A0 c) (V3 A0 c) (V4 A0 c) (V5 A0 c)

theorem O9blk_eq (b : Fin 16) : (O9blk A0 c b : Arr 256 512) = rowsOf (ZH A0 c) b :=
  (pay10_eq _ _).trans (congrArg₂ mm (ADJblk_eq A0 c b) (T6_eq A0 c))

/-! ## What is written back, and the two arrays at the end -/

theorem hN' : cfg0.N = 112 := N_0

/-- At the points that write the encoder's window back its block index is the block its buffer holds. -/
theorem idx8_flush (t : Fin cfg0.N) (hf : (cfg0.win 8).flush t = true) : win0_8.index t = ![(blk8 t).val, 0] := by
  have ht : t.val < 112 := lt_of_lt_of_eq t.isLt hN'
  rw [index8 t]
  unfold blk8
  rcases (flush8 t).mp hf with ⟨h1, h2⟩ | h3
  · have hl : t.val / 16 = 3 := by omega
    rw [if_pos hl, dif_pos hl]
  · have hl : ¬ t.val / 16 = 3 := by omega
    have hl2 : ¬ t.val / 16 < 3 := by omega
    rw [if_neg hl, if_neg hl2, dif_neg hl]

/-- What a point writes back of the encoder's window is its block of rows of the encoder. -/
theorem flushed8_eq (t : Fin cfg0.N) (hf : (cfg0.win 8).flush t = true) :
    (dat0 (U := U) A0 c).flushed 8 t = ((cfg0.win 8).blk t).view.read (Elt Ideal) (ENC A0 c) := by
  show (cfg0.win 8).cut (grid0.coords t) ((dat0 (U := U) A0 c).after 8 t) = _
  rw [after_8]
  have h0 := congrFun (idx8_flush t hf) (0 : Fin 2)
  have h1 := congrFun (idx8_flush t hf) (1 : Fin 2)
  have hO := O8blk_eq A0 c (blk8 t)
  funext j
  show (O8blk A0 c (blk8 t) : Arr 256 128) j = ENC A0 c (((cfg0.win 8).blk t).view.emb j)
  rw [hO]
  show ENC A0 c (ix2 _ (j 1)) = ENC A0 c (((cfg0.win 8).blk t).view.emb j)
  congr 1
  funext a
  apply Fin.ext
  match a with
  | ⟨0, _⟩ =>
    show 256 * (blk8 t).val + (j 0).val = win0_8.index t (0 : Fin 2) * 256 + 1 * (j 0).val
    rw [h0]; show _ = (blk8 t).val * 256 + 1 * (j 0).val; omega
  | ⟨1, _⟩ =>
    show (j 1).val = win0_8.index t (1 : Fin 2) * 128 + 1 * (j 1).val
    rw [h1]; show _ = 0 * 128 + 1 * (j 1).val; omega

theorem mem_blk8 (t : Fin cfg0.N) (i : S4096x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v6_0).slice (win0_8.rect t)).set ↔ _
  rw [View.set_slice_whole, Rect.mem_set_unit]
  exact Iff.rfl

/-- Every row of the first output array is in some written-back block: block b < 15 after point 48 + b, the last after the last point. -/
theorem cover8 (i : S4096x128.Idx) : ∃ t : Fin cfg0.N, (cfg0.win 8).flush t = true ∧ i ∈ ((cfg0.win 8).blk t).view.set := by
  have hi0 : (i 0).val < 4096 := (i 0).isLt
  have hi1 : (i 1).val < 128 := (i 1).isLt
  by_cases hb : (i 0).val / 256 ≤ 14
  · have htN : 48 + (i 0).val / 256 < cfg0.N := by rw [hN']; omega
    refine ⟨⟨48 + (i 0).val / 256, htN⟩, (flush8 _).mpr (Or.inl ⟨by show 48 ≤ 48 + (i 0).val / 256; omega, by show 48 + (i 0).val / 256 ≤ 62; omega⟩), ?_⟩
    have hx := index8 ⟨48 + (i 0).val / 256, htN⟩
    have hl : (48 + (i 0).val / 256) / 16 = 3 := by omega
    rw [mem_blk8]
    intro a
    match a with
    | ⟨0, _⟩ =>
      show win0_8.index ⟨48 + (i 0).val / 256, htN⟩ (0 : Fin 2) * 256 ≤ (i 0).val ∧ (i 0).val < win0_8.index ⟨48 + (i 0).val / 256, htN⟩ (0 : Fin 2) * 256 + 256
      have h0 : win0_8.index ⟨48 + (i 0).val / 256, htN⟩ (0 : Fin 2) = (48 + (i 0).val / 256) % 16 :=
        (congrFun hx (0 : Fin 2)).trans (if_pos hl)
      rw [h0]; omega
    | ⟨1, _⟩ =>
      show win0_8.index ⟨48 + (i 0).val / 256, htN⟩ (1 : Fin 2) * 128 ≤ (i 1).val ∧ (i 1).val < win0_8.index ⟨48 + (i 0).val / 256, htN⟩ (1 : Fin 2) * 128 + 128
      rw [congrFun hx (1 : Fin 2)]; show 0 * 128 ≤ (i 1).val ∧ (i 1).val < 0 * 128 + 128; omega
  · have htN : 111 < cfg0.N := by rw [hN']; omega
    refine ⟨⟨111, htN⟩, (flush8 _).mpr (Or.inr rfl), ?_⟩
    have hx := index8 ⟨111, htN⟩
    rw [mem_blk8]
    intro a
    match a with
    | ⟨0, _⟩ =>
      show win0_8.index ⟨111, htN⟩ (0 : Fin 2) * 256 ≤ (i 0).val ∧ (i 0).val < win0_8.index ⟨111, htN⟩ (0 : Fin 2) * 256 + 256
      have h0 : win0_8.index ⟨111, htN⟩ (0 : Fin 2) = 15 :=
        (congrFun hx (0 : Fin 2)).trans ((if_neg (show ¬ (111 : ℕ) / 16 = 3 by norm_num)).trans (if_neg (show ¬ (111 : ℕ) / 16 < 3 by norm_num)))
      rw [h0]; omega
    | ⟨1, _⟩ =>
      show win0_8.index ⟨111, htN⟩ (1 : Fin 2) * 128 ≤ (i 1).val ∧ (i 1).val < win0_8.index ⟨111, htN⟩ (1 : Fin 2) * 128 + 128
      rw [congrFun hx (1 : Fin 2)]; show 0 * 128 ≤ (i 1).val ∧ (i 1).val < 0 * 128 + 128; omega

/-- The first output array after the call: the encoder of the entry arrays. -/
theorem final8 : (dat0 (U := U) A0 c).arrAt 8 cfg0.N = ENC A0 c :=
  (dat0 (U := U) A0 c).arrAt_eq_of_cover 8 _ (fun t hf => flushed8_eq A0 c t hf) (cover8)

/-- At the points that write the decoder's window back its block index is the point's block. -/
theorem idx9_flush (t : Fin cfg0.N) (hf : (cfg0.win 9).flush t = true) : win0_9.index t = ![(blkOf t).val, 0] := by
  have ht : t.val < 112 := lt_of_lt_of_eq t.isLt hN'
  have h96 : 96 ≤ t.val := (flush9 t).mp hf
  rw [index9 t, if_pos (by omega)]
  rfl

theorem flushed9_eq (t : Fin cfg0.N) (hf : (cfg0.win 9).flush t = true) :
    (dat0 (U := U) A0 c).flushed 9 t = ((cfg0.win 9).blk t).view.read (Elt Ideal) (ZH A0 c) := by
  show (cfg0.win 9).cut (grid0.coords t) ((dat0 (U := U) A0 c).after 9 t) = _
  rw [after_9]
  have h0 := congrFun (idx9_flush t hf) (0 : Fin 2)
  have h1 := congrFun (idx9_flush t hf) (1 : Fin 2)
  have hO := O9blk_eq A0 c (blkOf t)
  funext j
  show (O9blk A0 c (blkOf t) : Arr 256 512) j = ZH A0 c (((cfg0.win 9).blk t).view.emb j)
  rw [hO]
  show ZH A0 c (ix2 _ (j 1)) = ZH A0 c (((cfg0.win 9).blk t).view.emb j)
  congr 1
  funext a
  apply Fin.ext
  match a with
  | ⟨0, _⟩ =>
    show 256 * (blkOf t).val + (j 0).val = win0_9.index t (0 : Fin 2) * 256 + 1 * (j 0).val
    rw [h0]; show _ = (blkOf t).val * 256 + 1 * (j 0).val; omega
  | ⟨1, _⟩ =>
    show (j 1).val = win0_9.index t (1 : Fin 2) * 512 + 1 * (j 1).val
    rw [h1]; show _ = 0 * 512 + 1 * (j 1).val; omega

theorem mem_blk9 (t : Fin cfg0.N) (i : S4096x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v6_1).slice (win0_9.rect t)).set ↔ _
  rw [View.set_slice_whole, Rect.mem_set_unit]
  exact Iff.rfl

theorem cover9 (i : S4096x512.Idx) : ∃ t : Fin cfg0.N, (cfg0.win 9).flush t = true ∧ i ∈ ((cfg0.win 9).blk t).view.set := by
  have hi0 : (i 0).val < 4096 := (i 0).isLt
  have hi1 : (i 1).val < 512 := (i 1).isLt
  have htN : 96 + (i 0).val / 256 < cfg0.N := by rw [hN']; omega
  refine ⟨⟨96 + (i 0).val / 256, htN⟩, (flush9 _).mpr (by show 96 ≤ 96 + (i 0).val / 256; omega), ?_⟩
  have hx := index9 ⟨96 + (i 0).val / 256, htN⟩
  have hl : (96 + (i 0).val / 256) / 16 = 6 := by omega
  rw [mem_blk9]
  intro a
  match a with
  | ⟨0, _⟩ =>
    show win0_9.index ⟨96 + (i 0).val / 256, htN⟩ (0 : Fin 2) * 256 ≤ (i 0).val ∧ (i 0).val < win0_9.index ⟨96 + (i 0).val / 256, htN⟩ (0 : Fin 2) * 256 + 256
    have h0 : win0_9.index ⟨96 + (i 0).val / 256, htN⟩ (0 : Fin 2) = (96 + (i 0).val / 256) % 16 :=
      (congrFun hx (0 : Fin 2)).trans (if_pos hl)
    rw [h0]; omega
  | ⟨1, _⟩ =>
    show win0_9.index ⟨96 + (i 0).val / 256, htN⟩ (1 : Fin 2) * 512 ≤ (i 1).val ∧ (i 1).val < win0_9.index ⟨96 + (i 0).val / 256, htN⟩ (1 : Fin 2) * 512 + 512
    rw [congrFun hx (1 : Fin 2)]; show 0 * 512 ≤ (i 1).val ∧ (i 1).val < 0 * 512 + 512; omega

/-- The second output array after the call: the regrouped decoder of the encoder. -/
theorem final9 : (dat0 (U := U) A0 c).arrAt 9 cfg0.N = ZH A0 c :=
  (dat0 (U := U) A0 c).arrAt_eq_of_cover 9 _ (fun t hf => flushed9_eq A0 c t hf) (cover9)

end Cert.Sgae.Region0

end
-- ==== Proof.KernelFinal.lean ====
/-
  The first call's record at the ideal reading meets what the bridge asks.

  The host stretch before the first call only changes each weight's float format, which at the ideal reading changes
  nothing; it writes none of x, adj.  So the arrays the first call is entered with are the launch arguments, its
  encoder and regrouped decoder of them are the bridge's, and the record built from the seven layers' runs is the one
  asked for.
-/
import proofs.«146852_g64793876627462_cont_sun_c4_515_4_alg».proof.Proof.Region0Call
import proofs.«146852_g64793876627462_cont_sun_c4_515_4_alg».proof.Proof.Region0Value
import proofs.«146852_g64793876627462_cont_sun_c4_515_4_alg».proof.Proof.KernelRun

set_option maxRecDepth 16384

noncomputable section

namespace Cert.Sgae.Final

open Cert.KernelIdeal Cert.KernelIdeal.Gen
open Idealize.ShloMosaic Idealize.ShloMosaic.TcCoe Idealize.ShloMosaic.ValueIdx
open Idealize.SL Idealize.SL.RA Idealize.SL.Sem

variable (m : (ℓ : Loc nD τ sig) → Buf (Elt Ideal) ℓ) (c : Dev nD)

theorem Vh_arg0 : Cert.Sgae.Run.Vh m c main_arg0 = m ((c : Thread nD τ).loc main_arg0) := Cert.Sgae.Run.Wh_of m c main_arg0 (by decide)
theorem Vh_arg1 : Cert.Sgae.Run.Vh m c main_arg1 = m ((c : Thread nD τ).loc main_arg1) := Cert.Sgae.Run.Wh_of m c main_arg1 (by decide)

/-- Each converted weight, at the ideal reading, is the weight. -/
theorem Vh_v0 : (Cert.Sgae.Run.Vh m c main_v0 : Arr 512 512) = (m ((c : Thread nD τ).loc main_arg2) : Arr 512 512) := by
  show StableHlo.after hostOps0 (fun b => m ((c : Dev nD), b)) (Proc.devRef .tc main_v0) = _
  after_results_simp
  rfl
theorem Vh_v1 : (Cert.Sgae.Run.Vh m c main_v1 : Arr 512 256) = (m ((c : Thread nD τ).loc main_arg3) : Arr 512 256) := by
  show StableHlo.after hostOps0 (fun b => m ((c : Dev nD), b)) (Proc.devRef .tc main_v1) = _
  after_results_simp
  rfl
theorem Vh_v2 : (Cert.Sgae.Run.Vh m c main_v2 : Arr 256 128) = (m ((c : Thread nD τ).loc main_arg4) : Arr 256 128) := by
  show StableHlo.after hostOps0 (fun b => m ((c : Dev nD), b)) (Proc.devRef .tc main_v2) = _
  after_results_simp
  rfl
theorem Vh_v3 : (Cert.Sgae.Run.Vh m c main_v3 : Arr 128 256) = (m ((c : Thread nD τ).loc main_arg5) : Arr 128 256) := by
  show StableHlo.after hostOps0 (fun b => m ((c : Dev nD), b)) (Proc.devRef .tc main_v3) = _
  after_results_simp
  rfl
theorem Vh_v4 : (Cert.Sgae.Run.Vh m c main_v4 : Arr 256 512) = (m ((c : Thread nD τ).loc main_arg6) : Arr 256 512) := by
  show StableHlo.after hostOps0 (fun b => m ((c : Dev nD), b)) (Proc.devRef .tc main_v4) = _
  after_results_simp
  rfl
theorem Vh_v5 : (Cert.Sgae.Run.Vh m c main_v5 : Arr 512 512) = (m ((c : Thread nD τ).loc main_arg7) : Arr 512 512) := by
  show StableHlo.after hostOps0 (fun b => m ((c : Dev nD), b)) (Proc.devRef .tc main_v5) = _
  after_results_simp
  rfl

/-- The first call's encoder of its entry arrays is the bridge's encoder of the arguments. -/
theorem ENC_eq : Cert.Sgae.Region0.ENC (Cert.Sgae.Run.Vh m) c = Cert.Sgae.Bridge.kzs m c := by
  unfold Cert.Sgae.Region0.ENC Cert.Sgae.Region0.X Cert.Sgae.Region0.A Cert.Sgae.Region0.V0 Cert.Sgae.Region0.V1 Cert.Sgae.Region0.V2
    Cert.Sgae.Bridge.kzs Cert.Sgae.Bridge.kArg
  rw [Vh_arg0, Vh_arg1, Vh_v0, Vh_v1, Vh_v2]

/-- And its regrouped decoder is the bridge's. -/
theorem ZH_eq : Cert.Sgae.Region0.ZH (Cert.Sgae.Run.Vh m) c = Cert.Sgae.Bridge.kzh m c := by
  unfold Cert.Sgae.Region0.ZH Cert.Sgae.Bridge.kzh
  rw [ENC_eq]
  unfold Cert.Sgae.Region0.A Cert.Sgae.Region0.V3 Cert.Sgae.Region0.V4 Cert.Sgae.Region0.V5 Cert.Sgae.Bridge.kArg
  rw [Vh_arg1, Vh_v3, Vh_v4, Vh_v5]

/-- The first call's record, with its two output arrays ending at the encoder and the regrouped decoder of the arguments. -/
theorem call0_spec : Cert.Sgae.KernelRun.Call0Spec := fun m =>
  ⟨Cert.Sgae.Region0.call0 m, fun c =>
    ⟨(Cert.Sgae.Region0.final8 (U := Pipeline.UD sig nD τ) (Cert.Sgae.Run.Vh m) c).trans (ENC_eq m c),
     (Cert.Sgae.Region0.final9 (U := Pipeline.UD sig nD τ) (Cert.Sgae.Run.Vh m) c).trans (ZH_eq m c)⟩⟩

end Cert.Sgae.Final

end
-- ==== Proof.WRegion1Body.lean ====
/-
  (The same statements and proofs for the program as printed at the word level; only the program's name differs.)

  The second call's body with what it leaves stated outright.

  The reconstruction body stores one piece, the whole 512 × 4096 slab, into the output's buffer; the piece is the
  body's one payload of the four loaded arrays.  Since that piece covers the buffer, what the buffer holds afterwards
  does not depend on what it held before: it is the piece read back.
-/
import proofs.«146852_g64793876627462_cont_sun_c4_515_4_alg».proof.Proof.Gen.Kernel.Launch
import proofs.«146852_g64793876627462_cont_sun_c4_515_4_alg».proof.Proof.Gen.Kernel.Skeleton
import proofs.«146852_g64793876627462_cont_sun_c4_515_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Sgae.WRegion1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

/-- The whole of each buffer the body touches, as the rectangle its loads and its store name. -/
abbrev rZsAll : Rect S4096x128 := Rect.unit (s := S4096x128) ![0, 0] S4096x128.size inb_S4096x128_S4096x128_0_0
abbrev rZhAll : Rect S4096x512 := Rect.unit (s := S4096x512) ![0, 0] S4096x512.size inb_S4096x512_S4096x512_0_0
abbrev rZsi : Rect S512x128 := Rect.unit (s := S512x128) ![0, 0] S512x128.size inb_S512x128_S512x128_0_0
abbrev rZhi : Rect S512x512 := Rect.unit (s := S512x512) ![0, 0] S512x512.size inb_S512x512_S512x512_0_0
abbrev rOut : Rect S512x4096 := Rect.unit (s := S512x4096) ![0, 0] S512x4096.size inb_S512x4096_S512x4096_0_0

/-- What the output's buffer holds after the body: its one store read back. -/
def out4 (zsi : Vec F S512x128 .f32) (zsall : Vec F S4096x128 .f32) (zhi : Vec F S512x512 .f32) (zhall : Vec F S4096x512 .f32) :
    Vec F S512x4096 .f32 :=
  View.canon [⟨rOut, k1_pay1 (View.ld zsall rZsAll) (View.ld zhall rZhAll) (View.ld zsi rZsi) (View.ld zhi rZhi)⟩]

/-- The one store covers the buffer. -/
theorem cover4 (p0 : Vec F S512x4096 .f32) (y : S512x4096.Idx) :
    ∃ pc ∈ ([⟨rOut, p0⟩] : List (View.Piece (Elt F) S512x4096 .f32)), y ∈ pc.1.set :=
  View.cover_of_tiled [⟨rOut, p0⟩] S512x4096.size (by rfl) y

set_option maxHeartbeats 4000000 in
/-- The reconstruction body on whole buffers, the four inputs' at given contents and the output's at anything, runs to
    the continuation holding the inputs' as they were and the output's at `out4` of them. -/
theorem sound_kernel (c : Dev nD) (E : Set ℕ) (i : grid1.Coords)
    (arg1 : Memref sig .tc .vmem S512x128 .f32) (harg1 : arg1.IsWhole) (arg2 : Memref sig .tc .vmem S4096x128 .f32) (harg2 : arg2.IsWhole)
    (arg3 : Memref sig .tc .vmem S512x512 .f32) (harg3 : arg3.IsWhole) (arg4 : Memref sig .tc .vmem S4096x512 .f32) (harg4 : arg4.IsWhole)
    (arg5 : Memref sig .tc .vmem S512x4096 .f32) (harg5 : arg5.IsWhole)
    (zsi : Vec F S512x128 .f32) (zsall : Vec F S4096x128 .f32) (zhi : Vec F S512x512 .f32) (zhall : Vec F S4096x512 .f32)
    (K : PUnit → sProp 𝕄) :
    iprop(owns (c : Thread nD τ) arg1 fullShare zsi ∗ owns (c : Thread nD τ) arg2 fullShare zsall ∗ owns (c : Thread nD τ) arg3 fullShare zhi ∗ owns (c : Thread nD τ) arg4 fullShare zhall
        ∗ (∃ d, owns (c : Thread nD τ) arg5 fullShare d)
        ∗ (iprop(owns (c : Thread nD τ) arg1 fullShare zsi ∗ owns (c : Thread nD τ) arg2 fullShare zsall ∗ owns (c : Thread nD τ) arg3 fullShare zhi ∗ owns (c : Thread nD τ) arg4 fullShare zhall
            ∗ owns (c : Thread nD τ) arg5 fullShare (out4 zsi zsall zhi zhall)) -∗ K ⟨⟩))
      ⊢ wp frame (wpE (defs₀ (F := F)) Variants.none c none) E
          (cc1__recon_kernel i arg1 harg1 arg2 harg2 arg3 harg3 arg4 harg4 arg5 harg5) K := by
  simp only [cc1__recon_kernel_eq_skeleton]; unfold cc1__recon_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

end Cert.Sgae.WRegion1

end
-- ==== Proof.WRegion1Data.lean ====
/-
  (The same statements and proofs for the program as printed at the word level; only the program's name differs.)

  The second call's proof data and body obligation.

  The reconstruction call has five windows over eight grid points: a slab of 512 rows of the encoder's result
  (fetched at every point), the encoder's result whole (fetched once), the same two for the decoder's result, and the
  output slab (written back at every point).  The two windows on the encoder's result share one array, and so do the
  two on the decoder's result; each such pair holds its array at the two halves of the full share.  After the body at
  a point every input's buffer still holds its block and the output's buffer holds the body's one store of the four
  input blocks.  Everything is stated for whatever contents `A1` the arrays have when the call is entered.
-/
import proofs.«146852_g64793876627462_cont_sun_c4_515_4_alg».proof.Proof.WRegion1Body
import Idealize.ShloMosaic.Lib.Pipeline.FrameBody
import Idealize.ShloMosaic.Lib.Ring
import Idealize.ShloMosaic.Lib.Tactic

set_option maxRecDepth 16384

noncomputable section

namespace Cert.Sgae.WRegion1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A1 : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (A1 c (Pipeline.arrRef spec1 w))

/-- The proof data on core `c`. -/
def dat1 (c : Dev nD) : Dat τ (Elt F) Unit ℕ U ℕ cfg1 c where
  A w := A1 c (Pipeline.arrRef spec1 w)
  after w t := match w with
    | ⟨0, _⟩ => iblk A1 c 0 t
    | ⟨1, _⟩ => iblk A1 c 1 t
    | ⟨2, _⟩ => iblk A1 c 2 t
    | ⟨3, _⟩ => iblk A1 c 3 t
    | ⟨4, _⟩ => out4 (iblk A1 c 0 t) (iblk A1 c 1 t) (iblk A1 c 2 t) (iblk A1 c 3 t)
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg1.W) : (dat1 (U := U) A1 c).A w = A1 c (Pipeline.arrRef spec1 w) := by
  dsimp only [dat1]

theorem after_0 (c : Dev nD) (t : Fin cfg1.N) : (dat1 (U := U) A1 c).after 0 t = iblk A1 c 0 t := by dsimp only [dat1]
theorem after_1 (c : Dev nD) (t : Fin cfg1.N) : (dat1 (U := U) A1 c).after 1 t = iblk A1 c 1 t := by dsimp only [dat1]
theorem after_2 (c : Dev nD) (t : Fin cfg1.N) : (dat1 (U := U) A1 c).after 2 t = iblk A1 c 2 t := by dsimp only [dat1]
theorem after_3 (c : Dev nD) (t : Fin cfg1.N) : (dat1 (U := U) A1 c).after 3 t = iblk A1 c 3 t := by dsimp only [dat1]
theorem after_4 (c : Dev nD) (t : Fin cfg1.N) :
    (dat1 (U := U) A1 c).after 4 t = out4 (iblk A1 c 0 t) (iblk A1 c 1 t) (iblk A1 c 2 t) (iblk A1 c 3 t) := by
  dsimp only [dat1]

/-- Each input's current buffer holds its block at every point, fetched there or not: an unfetched window's block index
    has not moved. -/
theorem before_0 (c : Dev nD) (t : Fin cfg1.N) (d) : (dat1 (U := U) A1 c).before 0 t d = iblk A1 c 0 t :=
  ((dat1 A1 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat1 (U := U) A1 c).before 1 t d = iblk A1 c 1 t :=
  ((dat1 A1 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat1 (U := U) A1 c).before 2 t d = iblk A1 c 2 t :=
  ((dat1 A1 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dat1 (U := U) A1 c).before 3 t d = iblk A1 c 3 t :=
  ((dat1 A1 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The body at any point: the inputs' buffers hold their blocks, the body's run applies, the invariant and the core's
    dues pass through unread. -/
theorem sound_body (c : Dev nD) (t : Fin cfg1.N) :
    iprop((dat1 (U := U) A1 c).Φ t.castSucc ∗ (dat1 (U := U) A1 c).owesAt () t.castSucc
        ∗ (∃ d, owns (c : Thread nD τ) (st1_0 t) fullShare ((dat1 (U := U) A1 c).before 0 t d))
        ∗ (∃ d, owns (c : Thread nD τ) (st1_1 t) fullShare ((dat1 (U := U) A1 c).before 1 t d))
        ∗ (∃ d, owns (c : Thread nD τ) (st1_2 t) fullShare ((dat1 (U := U) A1 c).before 2 t d))
        ∗ (∃ d, owns (c : Thread nD τ) (st1_3 t) fullShare ((dat1 (U := U) A1 c).before 3 t d))
        ∗ (∃ d, owns (c : Thread nD τ) (st1_4 t) fullShare ((dat1 (U := U) A1 c).before 4 t d)))
      ⊢ wp frame (wpE (defs₀ (F := F)) Variants.none c none) Set.univ (bodyAt1 t) (fun _ =>
          iprop((dat1 (U := U) A1 c).Φ t.succ ∗ (dat1 (U := U) A1 c).owesAt () t.succ
            ∗ owns (c : Thread nD τ) (st1_0 t) fullShare ((dat1 (U := U) A1 c).after 0 t)
            ∗ owns (c : Thread nD τ) (st1_1 t) fullShare ((dat1 (U := U) A1 c).after 1 t)
            ∗ owns (c : Thread nD τ) (st1_2 t) fullShare ((dat1 (U := U) A1 c).after 2 t)
            ∗ owns (c : Thread nD τ) (st1_3 t) fullShare ((dat1 (U := U) A1 c).after 3 t)
            ∗ owns (c : Thread nD τ) (st1_4 t) fullShare ((dat1 (U := U) A1 c).after 4 t))) := by
  unfold bodyAt1
  simp only [before_0, before_1, before_2, before_3]
  rw [show (dat1 A1 c).Φ t.succ = (dat1 A1 c).Φ t.castSucc from rfl,
    show (dat1 A1 c).owesAt () t.succ = (dat1 A1 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk A1 c 0 t) (iblk A1 c 1 t) (iblk A1 c 2 t) (iblk A1 c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) :
    BodyObligation (dat1 (U := U) A1 c) (defs₀ (F := F)) Variants.none () Set.univ := fun t => by
  rw [bigSep_W1, bigSep_W1]
  exact sound_body A1 c t

end Cert.Sgae.WRegion1

end
-- ==== Proof.WTwoRegions.lean ====
/-
  (The same statements and proofs for the program as printed at the word level; only the program's name differs.)

  The kernel program's run, given the first call's proof data.

  The program is a stretch of six host operations (each weight's float format changed), the first call (seven layers
  over a 7 × 16 grid) and the second call (the reconstruction over 8 slabs).  This module runs it from the launch to the
  return over the library's rule for a program of several calls: the thread state between two items is "every
  unscoped buffer at named contents"; a call's record says how its arrays leave that state on entry and rejoin it on
  exit.  The second call's record is complete here: its five windows sit on three arrays — two of them read through
  two windows each, at the two halves of the full share, split on entry and rejoined on exit.  The first call's record
  is built from HYPOTHESES about its proof data: that the data's arrays are the buffers' contents at entry, that its
  body obligation holds at every grid point, and that its invariant starts and ends at "every scratch buffer at
  something".  The conclusion names the three results: what the first call's data leave in its two output arrays, and
  the second call's reconstruction of those.
-/
import proofs.«146852_g64793876627462_cont_sun_c4_515_4_alg».proof.Proof.WRegion1Data
import proofs.«146852_g64793876627462_cont_sun_c4_515_4_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Sgae.WRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the host stretch (the first call's entry). -/
abbrev Wh : Dev nD → Valuation τ sig (Elt F) := fun c => StableHlo.after hostOps0 (W0 m c)
abbrev Vh : (c : Dev nD) → (b : Ref sig .tc) → Buf (Elt F) ((c : Thread nD τ).loc b) := fun c b => Wh m c b

/-- The first call's proof data and what is assumed of them. -/
structure Call0 where
  dat : (c : Dev nD) → Dat τ (Elt F) Unit ℕ (Pipeline.UD sig nD τ) ℕ cfg0 c
  hA : ∀ c w, (dat c).A w = Vh m c (Pipeline.arrRef spec0 w)
  hq : ∀ c w, (dat c).q w = fullShare
  howed : ∀ c t, (dat c).owed t = 0
  hrec : ∀ c t, (dat c).recorded t = Set.univ
  hbody : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

variable (K0 : Call0 (F := F) m)

/-- At the first call's exit: its arrays at what the pipeline leaves, every other buffer as entered. -/
def W1 (c : Dev nD) : Valuation τ sig (Elt F) :=
  Pipeline.withArrays spec0 c (Wh m c) fun w => (K0.dat c).arrAt w cfg0.N
theorem W1_arr (c : Dev nD) (w : Fin cfg0.W) :
    W1 m K0 c (Proc.devRef .tc (Pipeline.arrRef spec0 w)) = (K0.dat c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m K0 c (Proc.devRef .tc b) = Wh m c (Proc.devRef .tc b) := by
  unfold W1; exact Pipeline.withArrays_of_ne spec0 c _ _ b hb
abbrev V1 : (c : Dev nD) → (b : Ref sig .tc) → Buf (Elt F) ((c : Thread nD τ).loc b) := fun c b => W1 m K0 c b
theorem hF0 (c : Dev nD) (w : Fin cfg0.W) : (K0.dat c).arrAt w cfg0.N = V1 m K0 c (Pipeline.arrRef spec0 w) :=
  (W1_arr m K0 c w).symm
theorem hrest0 (c : Dev nD) : ∀ b, b ∉ Finset.univ.image (Pipeline.arrRef spec0) → V1 m K0 c b = Vh m c b :=
  fun b hb => W1_of_ne m K0 c b fun w e => hb (Finset.mem_image.mpr ⟨w, Finset.mem_univ _, e⟩)

/-- At the second call's exit: its output array at what the pipeline leaves, every other buffer as entered. -/
def W2 (c : Dev nD) : Valuation τ sig (Elt F) :=
  Function.update (W1 m K0 c) main_v7 ((Cert.Sgae.WRegion1.dat1 (U := Pipeline.UD sig nD τ) (V1 m K0) c).arrAt 4 cfg1.N)
abbrev V2 : (c : Dev nD) → (b : Ref sig .tc) → Buf (Elt F) ((c : Thread nD τ).loc b) := fun c b => W2 m K0 c b

/-! ## The proof data family and what rides along -/

/-- Both calls' proof data. -/
def pdats : (p : Fin 2) → (c : Dev nD) → Dat τ (Elt F) Unit ℕ (Pipeline.UD sig nD τ) ℕ (Pipeline.pin (pcfgs (F := F)) adm p) c
  | ⟨0, _⟩ => fun c => K0.dat c
  | ⟨1, _⟩ => fun c => Cert.Sgae.WRegion1.dat1 (V1 m K0) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- The host stretch as a segment over the unscoped buffers. -/
abbrev hseg : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first call as a segment -/

set_option backward.isDefEq.respectTransparency.types false in
/-- The first call over the thread state: entered from every unscoped buffer at the host stretch's results, left with its
    arrays at what its pipeline leaves.  The generator register goes into the invariant and comes back. -/
def reg0 : Pipeline.RegionSeg (pcfgs (F := F)) adm (pdats m K0) () defs₀ 𝒱₀ L lv 0 where
  win := launch0.win.to₀
  block_pos := launch0.block_pos
  stage_whole := launch0.stage_whole
  K := PEmpty
  osem k := k.elim
  ho := Pipeline.OwnSemFacts.none _
  hbody c := (K0.hbody c).loose
  hwaits := Pipeline.hwaits_of_owed_zero _ _ _ _ L lv 0 fun c t => K0.howed c t
  pre c := iprop(StableHlo.held (c : Thread nD τ) (Pipeline.ucRefs τ sig) (Wh m c) ∗ R c)
  post c := iprop(StableHlo.held (c : Thread nD τ) (Pipeline.ucRefs τ sig) (W1 m K0 c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vh m c)
  hentry c := by
    rw [Pipeline.ownSems0_none]
    have hsplit := Pipeline.arrays_of_unscopedBufs (p := 0) (pcfgs (F := F)) adm (pdats m K0) launch0.win launch0.arr_whole c
      ((pdats m K0 0 c).share_full (K0.hq c)) (Vh m c) (fun w => (K0.hA c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _; left
        rw [show (pdats m K0 0 c).recorded 0 = Set.univ from K0.hrec c 0]; trivial
      rw [show (pdats m K0 0 c).owed 0 = 0 from K0.howed c 0]
      iexact HO
    isplitl [Hp]; · iexact Hp
    iexact Hrest
  hin c := by
    refine BIBase.Entails.trans ?_ (K0.hin c)
    unfold Pipeline.ΦA
    iintro ⟨Hp, -, Hr⟩
    isplitl [Hr]; · iexact Hr
    iexact Hp
  hout c := by
    rw [Pipeline.ownSems0_none]
    refine BIBase.Entails.trans (K0.hout c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m K0) ((pdats m K0 0 c).share_full (K0.hq c))
      (Vh m c) (V1 m K0 c) ((pdats m K0 0 c).arrAt · cfg0.N) (hF0 m K0 c) (hrest0 m K0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m K0 0 c).owed (Fin.last _) = 0 from K0.howed c _]
    iexact HO

/-! ## The second call as a segment -/

variable (A1 : (c : Dev nD) → (b : Ref sig .tc) → Buf (Elt F) ((c : Thread nD τ).loc b))

/-- The second call's five windows sit on three arrays: the encoder's result (a slab window and a whole-array window, at the
    two halves of the full share), the decoder's result (the same), and the output (at the full share). -/
theorem arrays1_eq (c : Dev nD)
    (G : (w : Fin cfg1.W) → Buf (Elt F) ((cfg1.win w).arr.view.loc (c.tc : Thread nD τ))) :
    ((Cert.Sgae.WRegion1.dat1 (U := Pipeline.UD sig nD τ) A1 c).arrays G : sProp 𝕄)
      = iprop((((c : Thread nD τ).loc main_v6_0) ↦{fullShare.left} G 0) ∗ (((c : Thread nD τ).loc main_v6_0) ↦{fullShare.right} G 1)
          ∗ (((c : Thread nD τ).loc main_v6_1) ↦{fullShare.left} G 2) ∗ (((c : Thread nD τ).loc main_v6_1) ↦{fullShare.right} G 3)
          ∗ (((c : Thread nD τ).loc main_v7) ↦{fullShare} G 4)) := by
  unfold Dat.arrays
  rw [bigSep_W1, (arr_whole1 0).set_eq_univ, (arr_whole1 2).set_eq_univ, (arr_whole1 4).set_eq_univ]
  rfl

/-- The three distinct buffers behind them. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v6_0) ↦{fullShare} V main_v6_0) ∗ (((c : Thread nD τ).loc main_v6_1) ↦{fullShare} V main_v6_1)
          ∗ (((c : Thread nD τ).loc main_v7) ↦{fullShare} V main_v7)) := by
  unfold Pipeline.arrBufs
  exact bigSep_eq_bigSepL_of_eq [main_v6_0, main_v6_1, main_v7] (by decide) (by decide) _

theorem W2_of_ne (c : Dev nD) (b : Ref sig .tc) (hb : b ≠ main_v7) :
    W2 m K0 c (Proc.devRef .tc b) = W1 m K0 c (Proc.devRef .tc b) := by
  unfold W2
  exact Function.update_of_ne (StableHlo.devRef_ne_of_ne hb : (Proc.devRef .tc b : DevRef τ sig) ≠ Proc.devRef .tc main_v7) _ _
theorem W2_v7 (c : Dev nD) :
    W2 m K0 c (Proc.devRef .tc main_v7) = (Cert.Sgae.WRegion1.dat1 (U := Pipeline.UD sig nD τ) (V1 m K0) c).arrAt 4 cfg1.N := by
  unfold W2; exact Function.update_self _ _ _

/-- A core's unscoped buffers at a valuation: the three buffers behind the second call's arrays and the rest. -/
theorem held_split1 (c : Dev nD) (W : Valuation τ sig (Elt F)) :
    (StableHlo.held (c : Thread nD τ) (Pipeline.ucRefs τ sig) W : sProp 𝕄)
      = iprop(((((c : Thread nD τ).loc main_v6_0) ↦{fullShare} W main_v6_0) ∗ (((c : Thread nD τ).loc main_v6_1) ↦{fullShare} W main_v6_1)
            ∗ (((c : Thread nD τ).loc main_v7) ↦{fullShare} W main_v7))
          ∗ Pipeline.unscopedRest (Ix := Unit) (Name := ℕ) (U := Pipeline.UD sig nD τ) (Lvl := ℕ) spec1 c (fun b => W b)) := by
  rw [← Pipeline.unscopedBufs_held (Ix := Unit) (Name := ℕ) (U := Pipeline.UD sig nD τ) (Lvl := ℕ) c W,
    Pipeline.unscopedBufs_split₀ cfgs (p := (1 : Fin 2)) winFacts₀1.arr_unscoped c (fun b => W b)]
  show iprop((Pipeline.arrBufs (Ix := Unit) (Name := ℕ) (U := Pipeline.UD sig nD τ) (Lvl := ℕ) spec1 c (fun b => W b) : sProp 𝕄)
      ∗ Pipeline.unscopedRest (Ix := Unit) (Name := ℕ) (U := Pipeline.UD sig nD τ) (Lvl := ℕ) spec1 c (fun b => W b)) = _
  rw [arrBufs1_eq]

/-- The last thread state without the dues: every unscoped buffer at the last boundary's contents, the generator register at
    some state. -/
abbrev Tₙ (c : Dev nD) : sProp 𝕄 := iprop(StableHlo.held (c : Thread nD τ) (Pipeline.ucRefs τ sig) (W2 m K0 c) ∗ ∃ r, prngReg c r)

set_option backward.isDefEq.respectTransparency.types false in
/-- The second call over the thread state: entered from every unscoped buffer as the first call left it, left with its output
    array at what its pipeline leaves.  Each result array of the first call is read through two windows: its buffer is split
    into the two halves of the full share on entry and rejoined on exit. -/
def reg1 : Pipeline.RegionSeg (pcfgs (F := F)) adm (pdats m K0) () defs₀ 𝒱₀ L lv 1 where
  win := winFacts₀1
  block_pos := block_pos1
  stage_whole := stage_whole1
  K := PEmpty
  osem k := k.elim
  ho := Pipeline.OwnSemFacts.none _
  hbody c := (Cert.Sgae.WRegion1.body_obligation (V1 m K0) c).loose
  hwaits := Pipeline.hwaits_of_owed_zero _ _ _ _ L lv 1 fun _ _ => rfl
  pre c := iprop(StableHlo.held (c : Thread nD τ) (Pipeline.ucRefs τ sig) (W1 m K0 c) ∗ R c)
  post c := iprop(Tₙ m K0 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m K0 c)
  hentry c := by
    rw [Pipeline.ownSems0_none, held_split1]
    show _ ⊢ |={Set.univ}=> iprop((Cert.Sgae.WRegion1.dat1 (U := Pipeline.UD sig nD τ) (V1 m K0) c).arrays
        ((Cert.Sgae.WRegion1.dat1 (U := Pipeline.UD sig nD τ) (V1 m K0) c).arrAt · 0) ∗ _ ∗ _ ∗ _ ∗ _)
    rw [arrays1_eq]
    iintro ⟨⟨⟨⟨H60, H61, H7⟩, Hrest⟩, Hp, HO⟩, -, -⟩
    ihave H60' := (pointsTo_share (PosShare.mem_left_op_right fullShare)).1 $$ H60
    icases H60' with ⟨H60l, H60r⟩
    ihave H61' := (pointsTo_share (PosShare.mem_left_op_right fullShare)).1 $$ H61
    icases H61' with ⟨H61l, H61r⟩
    imodintro
    isplitl [H60l H60r H61l H61r H7]
    · isplitl [H60l]; · iexact H60l
      isplitl [H60r]; · iexact H60r
      isplitl [H61l]; · iexact H61l
      isplitl [H61r]; · iexact H61r
      iexact H7
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m K0 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m K0 1 c).Φ (Fin.last _) = Pipeline.ΦA spec1 c from rfl]; unfold Pipeline.ΦA
    iintro ⟨Hr, Hp⟩
    isplitl [Hp]; · iexact Hp
    isplitr; · iempintro
    iexact Hr
  hexit c := by
    have hrestEq : (Pipeline.unscopedRest (Ix := Unit) (Name := ℕ) (U := Pipeline.UD sig nD τ) (Lvl := ℕ) spec1 c (fun b => W2 m K0 c b) : sProp 𝕄)
        = Pipeline.unscopedRest (Ix := Unit) (Name := ℕ) (U := Pipeline.UD sig nD τ) (Lvl := ℕ) spec1 c (V1 m K0 c) := by
      unfold Pipeline.unscopedRest
      refine bigSep_congr fun b hb => ?_
      show (((c : Thread nD τ).loc b) ↦{fullShare} W2 m K0 c (Proc.devRef .tc b) : sProp 𝕄) = _
      rw [show W2 m K0 c (Proc.devRef .tc b) = W1 m K0 c (Proc.devRef .tc b) from W2_of_ne m K0 c b fun e =>
        (Finset.mem_sdiff.mp hb).2 (e ▸ Finset.mem_image.mpr ⟨(4 : Fin 5), Finset.mem_univ _, rfl⟩)]
    have e0 : (Cert.Sgae.WRegion1.dat1 (U := Pipeline.UD sig nD τ) (V1 m K0) c).arrAt 0 cfg1.N = W2 m K0 c main_v6_0 :=
      ((Cert.Sgae.WRegion1.dat1 (V1 m K0) c).arrAt_in 0 rfl _).trans (W2_of_ne m K0 c main_v6_0 (by decide)).symm
    have e1 : (Cert.Sgae.WRegion1.dat1 (U := Pipeline.UD sig nD τ) (V1 m K0) c).arrAt 1 cfg1.N = W2 m K0 c main_v6_0 :=
      ((Cert.Sgae.WRegion1.dat1 (V1 m K0) c).arrAt_in 1 rfl _).trans (W2_of_ne m K0 c main_v6_0 (by decide)).symm
    have e2 : (Cert.Sgae.WRegion1.dat1 (U := Pipeline.UD sig nD τ) (V1 m K0) c).arrAt 2 cfg1.N = W2 m K0 c main_v6_1 :=
      ((Cert.Sgae.WRegion1.dat1 (V1 m K0) c).arrAt_in 2 rfl _).trans (W2_of_ne m K0 c main_v6_1 (by decide)).symm
    have e3 : (Cert.Sgae.WRegion1.dat1 (U := Pipeline.UD sig nD τ) (V1 m K0) c).arrAt 3 cfg1.N = W2 m K0 c main_v6_1 :=
      ((Cert.Sgae.WRegion1.dat1 (V1 m K0) c).arrAt_in 3 rfl _).trans (W2_of_ne m K0 c main_v6_1 (by decide)).symm
    have e4 : (Cert.Sgae.WRegion1.dat1 (U := Pipeline.UD sig nD τ) (V1 m K0) c).arrAt 4 cfg1.N = W2 m K0 c main_v7 :=
      (W2_v7 m K0 c).symm
    show iprop((Cert.Sgae.WRegion1.dat1 (U := Pipeline.UD sig nD τ) (V1 m K0) c).arrays
        ((Cert.Sgae.WRegion1.dat1 (U := Pipeline.UD sig nD τ) (V1 m K0) c).arrAt · cfg1.N) ∗ _ ∗ _ ∗ _) ⊢ _
    unfold Tₙ
    rw [arrays1_eq, held_split1, hrestEq]
    dsimp only
    rw [e0, e1, e2, e3, e4]
    iintro ⟨⟨H60l, H60r, H61l, H61r, H7⟩, HO, HY, Hrest⟩
    ihave H60 := (pointsTo_share (PosShare.mem_left_op_right fullShare)).2 $$ [H60l H60r]
    · isplitl [H60l] <;> iassumption
    ihave H61 := (pointsTo_share (PosShare.mem_left_op_right fullShare)).2 $$ [H61l H61r]
    · isplitl [H61l] <;> iassumption
    imodintro
    isplitl [H60 H61 H7 Hrest HY]
    · isplitl [H60 H61 H7 Hrest]
      · isplitl [H60 H61 H7]
        · isplitl [H60]; · iexact H60
          isplitl [H61]; · iexact H61
          iexact H7
        iexact Hrest
      iexact HY
    unfold Pipeline.Dat.owesAt Pipeline.owesWithin
    icases HO with ⟨%W, -, HO⟩; iexists W; iexact HO

/-! ## @main as segments, and the launch -/

/-- @main's three items in order: the host stretch, the first call, the second call. -/
abbrev segs : List (Pipeline.Seg (pcfgs (F := F)) adm (pdats m K0) () defs₀ 𝒱₀ L lv) :=
  [ .host (hseg m), .region (reg0 m K0), .region (reg1 m K0) ]

theorem main_run (c : Dev nD) : main (F := F) c = Pipeline.Seg.run (segs m K0) := (main_chain c).trans (by chain_rfl)

set_option backward.isDefEq.respectTransparency.types false in
/-- At the compiled mesh, from any memory with zero counters, every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m K0 c b) :=
  Pipeline.θ_run_regions_kit (pcfgs (F := F)) adm (pdats m K0) () cellOf_inj embL defs₀ 𝒱₀ L lv m ρ main (segs m K0)
    (fun c Q => by rw [main_run m K0 c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m K0)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m K0 c b)
    (hfin := fun c s' => by
      iintro ⟨⟨Hh, -⟩, HSI⟩
      unfold StableHlo.held
      imodintro
      iapply (pointsTo_read_all (Pipeline.ucRefs τ sig) (fun b => (((c : Thread nD τ)).1, b)) (W2 m K0 c) s')
      isplitl [Hh] <;> iassumption)
    (hQ := fun s h c => h c)

/-! ## The last boundary's contents, buffer by buffer -/

theorem W2_main_v6_0 (c : Dev nD) : W2 m K0 c (Proc.devRef .tc main_v6_0) = (K0.dat c).arrAt 8 cfg0.N :=
  (W2_of_ne m K0 c main_v6_0 (by decide)).trans (W1_arr m K0 c 8)
theorem W2_main_v6_1 (c : Dev nD) : W2 m K0 c (Proc.devRef .tc main_v6_1) = (K0.dat c).arrAt 9 cfg0.N :=
  (W2_of_ne m K0 c main_v6_1 (by decide)).trans (W1_arr m K0 c 9)

/-- A buffer the host stretch does not write holds its launch contents after it. -/
theorem Wh_of (c : Dev nD) (r : Ref sig .tc) (h : r ∉ Cert.Kernel.Gen.hostOps0_W) :
    Wh m c (Proc.devRef .tc r) = m ((c : Thread nD τ).loc r) :=
  Cert.Kernel.Gen.V1_of m c r h

theorem W2_main_arg0 (c : Dev nD) : W2 m K0 c (Proc.devRef .tc main_arg0) = m ((c : Thread nD τ).loc main_arg0) :=
  (W2_of_ne m K0 c main_arg0 (by decide)).trans ((W1_arr m K0 c 0).trans (((K0.dat c).arrAt_in 0 rfl _).trans
    ((K0.hA c 0).trans (Wh_of m c main_arg0 (by decide)))))
theorem W2_main_arg1 (c : Dev nD) : W2 m K0 c (Proc.devRef .tc main_arg1) = m ((c : Thread nD τ).loc main_arg1) :=
  (W2_of_ne m K0 c main_arg1 (by decide)).trans ((W1_arr m K0 c 1).trans (((K0.dat c).arrAt_in 1 rfl _).trans
    ((K0.hA c 1).trans (Wh_of m c main_arg1 (by decide)))))
theorem W2_weight (c : Dev nD) (r : Ref sig .tc) (h7 : r ≠ main_v7) (h0 : ∀ w, Pipeline.arrRef spec0 w ≠ r)
    (hh : r ∉ Cert.Kernel.Gen.hostOps0_W) : W2 m K0 c (Proc.devRef .tc r) = m ((c : Thread nD τ).loc r) :=
  (W2_of_ne m K0 c r h7).trans ((W1_of_ne m K0 c r h0).trans (Wh_of m c r hh))

/-- THE RUN WITH ITS RESULTS NAMED: the first call's two output arrays at what its proof data leave, the second call's at
    what its own leave of those, every argument as launched. -/
theorem run_named : θ_run defs (onTc (τ := τ) (main (F := F))) ⟨m, fun _ => 0, ρ⟩ (fun r => ∀ c : Dev nD,
      r.2.mem ((c.tc : Thread nD τ).loc main_v6_0) = (K0.dat c).arrAt 8 cfg0.N
      ∧ r.2.mem ((c.tc : Thread nD τ).loc main_v6_1) = (K0.dat c).arrAt 9 cfg0.N
      ∧ r.2.mem ((c.tc : Thread nD τ).loc main_v7) = (Cert.Sgae.WRegion1.dat1 (U := Pipeline.UD sig nD τ) (V1 m K0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v6_0 (by decide))).trans (W2_main_v6_0 m K0 c),
     (h c _ (mem_uc main_v6_1 (by decide))).trans (W2_main_v6_1 m K0 c),
     (h c _ (mem_uc main_v7 (by decide))).trans (W2_v7 m K0 c),
     (h c _ (mem_uc main_arg0 (by decide))).trans (W2_main_arg0 m K0 c),
     (h c _ (mem_uc main_arg1 (by decide))).trans (W2_main_arg1 m K0 c),
     (h c _ (mem_uc main_arg2 (by decide))).trans (W2_weight m K0 c main_arg2 (by decide) (by decide) (by decide)),
     (h c _ (mem_uc main_arg3 (by decide))).trans (W2_weight m K0 c main_arg3 (by decide) (by decide) (by decide)),
     (h c _ (mem_uc main_arg4 (by decide))).trans (W2_weight m K0 c main_arg4 (by decide) (by decide) (by decide)),
     (h c _ (mem_uc main_arg5 (by decide))).trans (W2_weight m K0 c main_arg5 (by decide) (by decide) (by decide)),
     (h c _ (mem_uc main_arg6 (by decide))).trans (W2_weight m K0 c main_arg6 (by decide) (by decide) (by decide)),
     (h c _ (mem_uc main_arg7 (by decide))).trans (W2_weight m K0 c main_arg7 (by decide) (by decide) (by decide))⟩)
    (run_all m ρ K0)

end Cert.Sgae.WRun

end
-- ==== Proof.WRegion0Facts.lean ====
/-
  (The same statements and proofs for the program as printed at the word level; only the program's name differs.)

  The first call's grid, decided.

  The grid has 7 × 16 points, numbered row-major: point t is block t % 16 of layer t / 16.  Of the body's seven
  conditions exactly the one of the point's layer holds; every row offset the body computes is 256 times the block
  number; the first output's window (the encoder's result) is stored into only in layer 3 and written back after every
  point of that layer but the last, and after the very last point of the grid; the second output's window (the decoder's
  result) is stored into only in layer 6 and written back after each of its points.  All of this is finitely many
  evaluations over the 112 points.
-/
import proofs.«146852_g64793876627462_cont_sun_c4_515_4_alg».proof.Proof.Gen.Kernel.Points
import proofs.«146852_g64793876627462_cont_sun_c4_515_4_alg».proof.Proof.Gen.Kernel.Launch

set_option maxRecDepth 16384

namespace Cert.Sgae.WRegion0

open Cert.Kernel Cert.Kernel.Gen
open Idealize.ShloMosaic

/-! ## Which layer a point is in -/

theorem hcond1 : ∀ t : Fin cfg0.N, k0_cond1 (grid0.coords t) = 1#1 ↔ t.val / 16 = 0 :=
  (by decide +kernel : ∀ t : Fin grid0.N, k0_cond1 (grid0.coords t) = 1#1 ↔ t.val / 16 = 0)
theorem hcond2 : ∀ t : Fin cfg0.N, k0_cond2 (grid0.coords t) = 1#1 ↔ t.val / 16 = 1 :=
  (by decide +kernel : ∀ t : Fin grid0.N, k0_cond2 (grid0.coords t) = 1#1 ↔ t.val / 16 = 1)
theorem hcond3 : ∀ t : Fin cfg0.N, k0_cond3 (grid0.coords t) = 1#1 ↔ t.val / 16 = 2 :=
  (by decide +kernel : ∀ t : Fin grid0.N, k0_cond3 (grid0.coords t) = 1#1 ↔ t.val / 16 = 2)
theorem hcond4 : ∀ t : Fin cfg0.N, k0_cond4 (grid0.coords t) = 1#1 ↔ t.val / 16 = 3 :=
  (by decide +kernel : ∀ t : Fin grid0.N, k0_cond4 (grid0.coords t) = 1#1 ↔ t.val / 16 = 3)
theorem hcond5 : ∀ t : Fin cfg0.N, k0_cond5 (grid0.coords t) = 1#1 ↔ t.val / 16 = 4 :=
  (by decide +kernel : ∀ t : Fin grid0.N, k0_cond5 (grid0.coords t) = 1#1 ↔ t.val / 16 = 4)
theorem hcond6 : ∀ t : Fin cfg0.N, k0_cond6 (grid0.coords t) = 1#1 ↔ t.val / 16 = 5 :=
  (by decide +kernel : ∀ t : Fin grid0.N, k0_cond6 (grid0.coords t) = 1#1 ↔ t.val / 16 = 5)
theorem hcond7 : ∀ t : Fin cfg0.N, k0_cond7 (grid0.coords t) = 1#1 ↔ t.val / 16 = 6 :=
  (by decide +kernel : ∀ t : Fin grid0.N, k0_cond7 (grid0.coords t) = 1#1 ↔ t.val / 16 = 6)

/-! ## The row offsets: 256 times the block number -/

theorem hoff1 : ∀ t : Fin cfg0.N, k0_off1 (grid0.coords t) = ![256 * (t.val % 16), 0] :=
  (by decide +kernel : ∀ t : Fin grid0.N, k0_off1 (grid0.coords t) = ![256 * (t.val % 16), 0])
theorem hoff2 : ∀ t : Fin cfg0.N, k0_off2 (grid0.coords t) = ![256 * (t.val % 16), 0] :=
  (by decide +kernel : ∀ t : Fin grid0.N, k0_off2 (grid0.coords t) = ![256 * (t.val % 16), 0])
theorem hoff3 : ∀ t : Fin cfg0.N, k0_off3 (grid0.coords t) = ![256 * (t.val % 16), 0] :=
  (by decide +kernel : ∀ t : Fin grid0.N, k0_off3 (grid0.coords t) = ![256 * (t.val % 16), 0])
theorem hoff4 : ∀ t : Fin cfg0.N, k0_off4 (grid0.coords t) = ![256 * (t.val % 16), 0] :=
  (by decide +kernel : ∀ t : Fin grid0.N, k0_off4 (grid0.coords t) = ![256 * (t.val % 16), 0])
theorem hoff5 : ∀ t : Fin cfg0.N, k0_off5 (grid0.coords t) = ![256 * (t.val % 16), 0] :=
  (by decide +kernel : ∀ t : Fin grid0.N, k0_off5 (grid0.coords t) = ![256 * (t.val % 16), 0])
theorem hoff6 : ∀ t : Fin cfg0.N, k0_off6 (grid0.coords t) = ![256 * (t.val % 16), 0] :=
  (by decide +kernel : ∀ t : Fin grid0.N, k0_off6 (grid0.coords t) = ![256 * (t.val % 16), 0])
theorem hoff7 : ∀ t : Fin cfg0.N, k0_off7 (grid0.coords t) = ![256 * (t.val % 16), 0] :=
  (by decide +kernel : ∀ t : Fin grid0.N, k0_off7 (grid0.coords t) = ![256 * (t.val % 16), 0])
theorem hoff8 : ∀ t : Fin cfg0.N, k0_off8 (grid0.coords t) = ![256 * (t.val % 16), 0] :=
  (by decide +kernel : ∀ t : Fin grid0.N, k0_off8 (grid0.coords t) = ![256 * (t.val % 16), 0])
theorem hoff9 : ∀ t : Fin cfg0.N, k0_off9 (grid0.coords t) = ![256 * (t.val % 16), 0] :=
  (by decide +kernel : ∀ t : Fin grid0.N, k0_off9 (grid0.coords t) = ![256 * (t.val % 16), 0])
theorem hoff10 : ∀ t : Fin cfg0.N, k0_off10 (grid0.coords t) = ![256 * (t.val % 16), 0] :=
  (by decide +kernel : ∀ t : Fin grid0.N, k0_off10 (grid0.coords t) = ![256 * (t.val % 16), 0])
theorem hoff11 : ∀ t : Fin cfg0.N, k0_off11 (grid0.coords t) = ![256 * (t.val % 16), 0] :=
  (by decide +kernel : ∀ t : Fin grid0.N, k0_off11 (grid0.coords t) = ![256 * (t.val % 16), 0])
theorem hoff12 : ∀ t : Fin cfg0.N, k0_off12 (grid0.coords t) = ![256 * (t.val % 16), 0] :=
  (by decide +kernel : ∀ t : Fin grid0.N, k0_off12 (grid0.coords t) = ![256 * (t.val % 16), 0])

/-! ## Where the two outputs' windows are idle, and where they are written back -/

theorem idle8 : ∀ t : Fin cfg0.N, cfg0.idle 8 (grid0.coords t) = true ↔ t.val / 16 ≠ 3 :=
  (by decide +kernel : ∀ t : Fin grid0.N, idle0 8 (grid0.coords t) = true ↔ t.val / 16 ≠ 3)
theorem idle9 : ∀ t : Fin cfg0.N, cfg0.idle 9 (grid0.coords t) = true ↔ t.val / 16 ≠ 6 :=
  (by decide +kernel : ∀ t : Fin grid0.N, idle0 9 (grid0.coords t) = true ↔ t.val / 16 ≠ 6)
theorem flush8 : ∀ t : Fin cfg0.N, (cfg0.win 8).flush t = true ↔ (48 ≤ t.val ∧ t.val ≤ 62) ∨ t.val = 111 :=
  (by decide +kernel : ∀ t : Fin grid0.N, win0_8.flush t = true ↔ (48 ≤ t.val ∧ t.val ≤ 62) ∨ t.val = 111)
theorem flush9 : ∀ t : Fin cfg0.N, (cfg0.win 9).flush t = true ↔ 96 ≤ t.val :=
  (by decide +kernel : ∀ t : Fin grid0.N, win0_9.flush t = true ↔ 96 ≤ t.val)

/-- No input window is ever idle. -/
theorem live_in : ∀ (w : Fin 10), w.val < 8 → ∀ t : Fin cfg0.N, cfg0.idle w (grid0.coords t) = false :=
  (by decide +kernel : ∀ (w : Fin 10), w.val < 8 → ∀ t : Fin grid0.N, idle0 w (grid0.coords t) = false)

/-- The block index of each output's window: the point's block in its layer, block 0 before it, the last block after it
    (the encoder's), or block 0 until its layer (the decoder's). -/
theorem index8 : ∀ t : Fin cfg0.N, win0_8.index t = ![if t.val / 16 = 3 then t.val % 16 else if t.val / 16 < 3 then 0 else 15, 0] :=
  (by decide +kernel : ∀ t : Fin grid0.N, win0_8.index t = ![if t.val / 16 = 3 then t.val % 16 else if t.val / 16 < 3 then 0 else 15, 0])
theorem index9 : ∀ t : Fin cfg0.N, win0_9.index t = ![if t.val / 16 = 6 then t.val % 16 else 0, 0] :=
  (by decide +kernel : ∀ t : Fin grid0.N, win0_9.index t = ![if t.val / 16 = 6 then t.val % 16 else 0, 0])

end Cert.Sgae.WRegion0
-- ==== Proof.WRegion0Terms.lean ====
/-
  (The same statements and proofs for the program as printed at the word level; only the program's name differs.)

  What the first call's scratch buffers and outputs are meant to hold, block by block.

  Write t = 16 · l + b for block b of layer l.  The layers' stores, each a function of the point's input blocks and of
  the buffers the earlier layers filled, define sixteen blocks per layer:
    layer 0   t1 block   = (x block) · W1
    layer 1   adj block  = the adjacency block (its float format changed);   t2 block = ((adj block) · t1) · W2
    layer 2   t3 block   = ((adj rows) · t2) · W3
    layer 3   zs block   = (adj rows) · t3      (to the first output, and again to the decoder's scratch copy)
    layer 4   t4 block   = ((adj rows) · zs) · W4
    layer 5   t6 block   = (((adj rows) · t4) · W5) · W6
    layer 6   zh block   = (adj rows) · t6      (to the second output)
  where t1, t2, t3, zs, t4, t6 are the sixteen blocks of the layer stacked.  The invariant on the four scratch buffers
  after n grid points says, for each of the seven families of stores, that every slab of 256 rows that family has stored
  so far — and that no later family has begun to overwrite — holds its block.
-/
import proofs.«146852_g64793876627462_cont_sun_c4_515_4_alg».proof.Proof.WRegion0Facts
import proofs.«146852_g64793876627462_cont_sun_c4_515_4_alg».proof.Proof.Slabs
import proofs.«146852_g64793876627462_cont_sun_c4_515_4_alg».proof.Proof.Gen.Kernel.Skeleton

set_option maxRecDepth 16384

noncomputable section

namespace Cert.Sgae.WRegion0

open Cert.Kernel Cert.Kernel.Gen
open Idealize.ShloMosaic Idealize.ShloMosaic.TcCoe Idealize.ShloMosaic.ValueIdx
open Cert.Sgae.Slab

variable {F : FTy → Type} [FloatOps F]
variable (A0 : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (A0 c (Pipeline.arrRef spec0 w))

/-- The point of block `b` of layer `l`. -/
def pt (l : ℕ) (hl : l < 7) (b : Fin 16) : Fin cfg0.N :=
  ⟨16 * l + b.val, by show 16 * l + b.val < grid0.N; rw [N_0]; omega⟩

variable (c : Dev nD)

def T1blk (b : Fin 16) : Vec F S256x512 .bf16 := k0_pay1 (iblk A0 c 0 (pt 0 (by omega) b)) (iblk A0 c 2 (pt 0 (by omega) b))
def T1 : Vec F S4096x512 .bf16 := stack (T1blk A0 c)
def ADJblk (b : Fin 16) : Vec F S256x4096 .bf16 := k0_pay3 (iblk A0 c 1 (pt 1 (by omega) b))
def T2blk (b : Fin 16) : Vec F S256x256 .bf16 := k0_pay4 (iblk A0 c 1 (pt 1 (by omega) b)) (T1 A0 c) (iblk A0 c 3 (pt 1 (by omega) b))
def T2 : Vec F S4096x256 .bf16 := stack (T2blk A0 c)
def T3blk (b : Fin 16) : Vec F S256x128 .bf16 := k0_pay5 (ADJblk A0 c b) (T2 A0 c) (iblk A0 c 4 (pt 2 (by omega) b))
def T3 : Vec F S4096x128 .bf16 := stack (T3blk A0 c)
def O8blk (b : Fin 16) : Vec F S256x128 .f32 := k0_pay6 (ADJblk A0 c b) (T3 A0 c)
def ZSblk (b : Fin 16) : Vec F S256x128 .bf16 := k0_pay7 (ADJblk A0 c b) (T3 A0 c)
def ZSB : Vec F S4096x128 .bf16 := stack (ZSblk A0 c)
def T4blk (b : Fin 16) : Vec F S256x256 .bf16 := k0_pay8 (ADJblk A0 c b) (ZSB A0 c) (iblk A0 c 5 (pt 4 (by omega) b))
def T4 : Vec F S4096x256 .bf16 := stack (T4blk A0 c)
def T6blk (b : Fin 16) : Vec F S256x512 .bf16 := k0_pay9 (ADJblk A0 c b) (T4 A0 c) (iblk A0 c 6 (pt 5 (by omega) b)) (iblk A0 c 7 (pt 5 (by omega) b))
def T6 : Vec F S4096x512 .bf16 := stack (T6blk A0 c)
def O9blk (b : Fin 16) : Vec F S256x512 .f32 := k0_pay10 (ADJblk A0 c b) (T6 A0 c)

/-- The slab of rows 256·b … 256·b + 255, columns 0 … C − 1, of a buffer of 4096 rows and C0 columns. -/
def slab (C0 : ℕ) (b : Fin 16) (C : ℕ) (hC : C ≤ C0) : Rect (⟨2, ![4096, C0]⟩ : Shape) :=
  Rect.unit (s := ⟨2, ![4096, C0]⟩) ![256 * b.val, 0] ![256, C] (fun a => by
    match a with
    | ⟨0, _⟩ => show 256 * b.val + 256 ≤ 4096; omega
    | ⟨1, _⟩ => show 0 + C ≤ C0; omega)

/-- After `n` grid points: every slab a family of stores has written, and that no later family has begun to overwrite,
    holds its block. -/
structure Inv (n : ℕ) (xadj : Vec F S4096x4096 .bf16) (xta : Vec F S4096x512 .bf16) (xtb : Vec F S4096x512 .bf16)
    (xzs : Vec F S4096x128 .bf16) : Prop where
  adj : ∀ b : Fin 16, 16 + b.val < n → View.ld xadj (slab 4096 b 4096 (by omega)) = ADJblk A0 c b
  ta1 : n ≤ 32 → ∀ b : Fin 16, b.val < n → View.ld xta (slab 512 b 512 (by omega)) = T1blk A0 c b
  ta3 : n ≤ 80 → ∀ b : Fin 16, 32 + b.val < n → View.ld xta (slab 512 b 128 (by omega)) = T3blk A0 c b
  ta6 : ∀ b : Fin 16, 80 + b.val < n → View.ld xta (slab 512 b 512 (by omega)) = T6blk A0 c b
  tb2 : n ≤ 64 → ∀ b : Fin 16, 16 + b.val < n → View.ld xtb (slab 512 b 256 (by omega)) = T2blk A0 c b
  tb4 : ∀ b : Fin 16, 64 + b.val < n → View.ld xtb (slab 512 b 256 (by omega)) = T4blk A0 c b
  zs : ∀ b : Fin 16, 48 + b.val < n → View.ld xzs (slab 128 b 128 (by omega)) = ZSblk A0 c b

/-- Before the first point nothing is asked of the scratch buffers. -/
theorem Inv.zero (xadj : Vec F S4096x4096 .bf16) (xta xtb : Vec F S4096x512 .bf16) (xzs : Vec F S4096x128 .bf16) :
    Inv A0 c 0 xadj xta xtb xzs :=
  ⟨fun _ h => absurd h (by omega), fun _ _ h => absurd h (by omega), fun _ _ h => absurd h (by omega),
    fun _ h => absurd h (by omega), fun _ _ h => absurd h (by omega), fun _ h => absurd h (by omega), fun _ h => absurd h (by omega)⟩

end Cert.Sgae.WRegion0

end
-- ==== Proof.WRegion0Data.lean ====
/-
  (The same statements and proofs for the program as printed at the word level; only the program's name differs.)

  The first call's proof data.

  The invariant between two grid points owns the four scratch buffers at contents of which the slab-by-slab invariant
  holds, the second call's staging buffers and the generator register at anything.  After the body at a point every
  input's buffer still holds its block; the first output's buffer holds the encoder's block of the point's layer-3 block
  (and, from the end of layer 3 on, the last block, which waits there until the grid's last point writes it back); the
  second output's buffer holds the decoder's block of the point's block.
-/
import proofs.«146852_g64793876627462_cont_sun_c4_515_4_alg».proof.Proof.WRegion0Terms
import proofs.«146852_g64793876627462_cont_sun_c4_515_4_alg».proof.Proof.Gen.Kernel.Launch
import proofs.«146852_g64793876627462_cont_sun_c4_515_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Sgae.WRegion0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- The four scratch operands: whole scoped buffers of the kernel's own. -/
abbrev scAdj : Memref sig .tc .vmem S4096x4096 .bf16 := Memref.whole cc0_scratch0
abbrev scTa : Memref sig .tc .vmem S4096x512 .bf16 := Memref.whole cc0_scratch1
abbrev scTb : Memref sig .tc .vmem S4096x512 .bf16 := Memref.whole cc0_scratch2
abbrev scZs : Memref sig .tc .vmem S4096x128 .bf16 := Memref.whole cc0_scratch3

/-- The second call's staging buffers, each at anything. -/
def Rest1 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The invariant before grid point `n`. -/
def PhiS (c : Dev nD) (n : ℕ) : sProp 𝕄 :=
  iprop((∃ (xadj : Vec F S4096x4096 .bf16) (xta : Vec F S4096x512 .bf16) (xtb : Vec F S4096x512 .bf16) (xzs : Vec F S4096x128 .bf16),
      ⌜Inv A0 c n xadj xta xtb xzs⌝ ∗ owns (c : Thread nD τ) scAdj fullShare xadj ∗ owns (c : Thread nD τ) scTa fullShare xta
        ∗ owns (c : Thread nD τ) scTb fullShare xtb ∗ owns (c : Thread nD τ) scZs fullShare xzs)
    ∗ Rest1 (F := F) (U := U) c ∗ ∃ r, prngReg c r)

/-- The class's invariant with the four scratch buffers and the rest named. -/
theorem PhiA_eq (c : Dev nD) :
    (Pipeline.ΦA spec0 c : sProp 𝕄)
      = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
          ∗ Rest1 (F := F) (U := U) c) ∗ ∃ r, prngReg c r) := by
  unfold Pipeline.ΦA Rest1; rw [scopedRest0_eq]

/-- The encoder's block the first output's buffer holds after point `t`: the point's block in layer 3, the last block afterwards. -/
def blk8 (t : Fin cfg0.N) : Fin 16 :=
  if h : t.val / 16 = 3 then ⟨t.val % 16, Nat.mod_lt _ (by norm_num)⟩ else ⟨15, by norm_num⟩
/-- The point's block. -/
def blkOf (t : Fin cfg0.N) : Fin 16 := ⟨t.val % 16, Nat.mod_lt _ (by norm_num)⟩

/-- The proof data on core `c`. -/
def dat0 (c : Dev nD) : Dat τ (Elt F) Unit ℕ U ℕ cfg0 c where
  A w := A0 c (Pipeline.arrRef spec0 w)
  after w t := match w with
    | ⟨0, _⟩ => iblk A0 c 0 t
    | ⟨1, _⟩ => iblk A0 c 1 t
    | ⟨2, _⟩ => iblk A0 c 2 t
    | ⟨3, _⟩ => iblk A0 c 3 t
    | ⟨4, _⟩ => iblk A0 c 4 t
    | ⟨5, _⟩ => iblk A0 c 5 t
    | ⟨6, _⟩ => iblk A0 c 6 t
    | ⟨7, _⟩ => iblk A0 c 7 t
    | ⟨8, _⟩ => O8blk A0 c (blk8 t)
    | ⟨9, _⟩ => O9blk A0 c (blkOf t)
  Φ t := PhiS A0 c t.val
  q _ := fullShare
  owed _ := 0

theorem A_eq (c : Dev nD) (w : Fin cfg0.W) : (dat0 (U := U) A0 c).A w = A0 c (Pipeline.arrRef spec0 w) := by
  dsimp only [dat0]

theorem after_0 (c : Dev nD) (t : Fin cfg0.N) : (dat0 (U := U) A0 c).after 0 t = iblk A0 c 0 t := by dsimp only [dat0]
theorem after_1 (c : Dev nD) (t : Fin cfg0.N) : (dat0 (U := U) A0 c).after 1 t = iblk A0 c 1 t := by dsimp only [dat0]
theorem after_2 (c : Dev nD) (t : Fin cfg0.N) : (dat0 (U := U) A0 c).after 2 t = iblk A0 c 2 t := by dsimp only [dat0]
theorem after_3 (c : Dev nD) (t : Fin cfg0.N) : (dat0 (U := U) A0 c).after 3 t = iblk A0 c 3 t := by dsimp only [dat0]
theorem after_4 (c : Dev nD) (t : Fin cfg0.N) : (dat0 (U := U) A0 c).after 4 t = iblk A0 c 4 t := by dsimp only [dat0]
theorem after_5 (c : Dev nD) (t : Fin cfg0.N) : (dat0 (U := U) A0 c).after 5 t = iblk A0 c 5 t := by dsimp only [dat0]
theorem after_6 (c : Dev nD) (t : Fin cfg0.N) : (dat0 (U := U) A0 c).after 6 t = iblk A0 c 6 t := by dsimp only [dat0]
theorem after_7 (c : Dev nD) (t : Fin cfg0.N) : (dat0 (U := U) A0 c).after 7 t = iblk A0 c 7 t := by dsimp only [dat0]
theorem after_8 (c : Dev nD) (t : Fin cfg0.N) : (dat0 (U := U) A0 c).after 8 t = O8blk A0 c (blk8 t) := by dsimp only [dat0]
theorem after_9 (c : Dev nD) (t : Fin cfg0.N) : (dat0 (U := U) A0 c).after 9 t = O9blk A0 c (blkOf t) := by dsimp only [dat0]

/-! Each input's current buffer holds its block at every point, fetched there or not. -/
theorem before_0 (c : Dev nD) (t : Fin cfg0.N) (d) : (dat0 (U := U) A0 c).before 0 t d = iblk A0 c 0 t :=
  ((dat0 A0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 (U := U) A0 c).before 1 t d = iblk A0 c 1 t :=
  ((dat0 A0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 (U := U) A0 c).before 2 t d = iblk A0 c 2 t :=
  ((dat0 A0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 (U := U) A0 c).before 3 t d = iblk A0 c 3 t :=
  ((dat0 A0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dat0 (U := U) A0 c).before 4 t d = iblk A0 c 4 t :=
  ((dat0 A0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dat0 (U := U) A0 c).before 5 t d = iblk A0 c 5 t :=
  ((dat0 A0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dat0 (U := U) A0 c).before 6 t d = iblk A0 c 6 t :=
  ((dat0 A0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dat0 (U := U) A0 c).before 7 t d = iblk A0 c 7 t :=
  ((dat0 A0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What the launch hands the call is the invariant before the first point. -/
theorem hin (c : Dev nD) : (Pipeline.ΦA spec0 c : sProp 𝕄) ⊢ (dat0 (U := U) A0 c).Φ 0 := by
  rw [show (dat0 (U := U) A0 c).Φ 0 = PhiS A0 c 0 from rfl, PhiA_eq]
  unfold PhiS
  iintro ⟨⟨⟨%f0, H0⟩, ⟨%f1, H1⟩, ⟨%f2, H2⟩, ⟨%f3, H3⟩, Hrest⟩, Hg⟩
  isplitl [H0 H1 H2 H3]
  · iexists f0, f1, f2, f3
    isplitr; · ipureintro; exact Inv.zero A0 c f0 f1 f2 f3
    simp only [owns_whole]
    isplitl [H0]; · iexact H0
    isplitl [H1]; · iexact H1
    isplitl [H2]; · iexact H2
    iexact H3
  isplitl [Hrest]; · iexact Hrest
  iexact Hg

/-- After the last point the invariant gives it back: what the scratch buffers hold is forgotten. -/
theorem hout (c : Dev nD) : (dat0 (U := U) A0 c).Φ (Fin.last cfg0.N) ⊢ (Pipeline.ΦA spec0 c : sProp 𝕄) := by
  rw [show (dat0 (U := U) A0 c).Φ (Fin.last cfg0.N) = PhiS A0 c (Fin.last cfg0.N).val from rfl, PhiA_eq]
  unfold PhiS
  simp only [owns_whole]
  iintro ⟨⟨%xadj, %xta, %xtb, %xzs, -, H0, H1, H2, H3⟩, Hrest, Hg⟩
  isplitl [H0 H1 H2 H3 Hrest]
  · isplitl [H0]; · iexists _; iexact H0
    isplitl [H1]; · iexists _; iexact H1
    isplitl [H2]; · iexists _; iexact H2
    isplitl [H3]; · iexists _; iexact H3
    iexact Hrest
  iexact Hg

end Cert.Sgae.WRegion0

end
-- ==== Proof.WRegion0Out.lean ====
/-
  (The same statements and proofs for the program as printed at the word level; only the program's name differs.)

  The first call's two output windows through the grid.

  The encoder's window is stored into at the sixteen points of layer 3 and written back after each of them but the last;
  the last block stays in its buffer — the window is idle at every later point, and its block index stays at the last
  block — until the grid's last point, where it is written back.  So from point 64 on that buffer holds the encoder's last
  block.  The decoder's window is stored into and written back at the sixteen points of layer 6 and idle before.
  What the body owes for each window at a point is accordingly: the buffer as found (idle, not written back), the
  buffer at the block just stored (the window's layer), or, at the last point for the encoder's window, the buffer at
  the last block, which is what it was found holding.
-/
import proofs.«146852_g64793876627462_cont_sun_c4_515_4_alg».proof.Proof.WRegion0Data
import Idealize.ShloMosaic.Lib.Pipeline.Frame

set_option maxRecDepth 16384

noncomputable section

namespace Cert.Sgae.WRegion0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

theorem hN : cfg0.N = 112 := N_0

/-- An uncut window's buffer, kept, is what the body left in it. -/
theorem kept8_eq (c : Dev nD) (t : Fin cfg0.N) (d) : (dat0 (U := U) A0 c).kept 8 t d = (dat0 (U := U) A0 c).after 8 t := by
  unfold Dat.kept
  rw [Pipeline.fill_of_clip_none 8 _ (fun _ => rfl) d ((dat0 (U := U) A0 c).after 8 t), Window.fill_cut]

/-- From point 64 on the encoder's window's buffer holds the encoder's last block, whatever it held at the start. -/
theorem before8_late (c : Dev nD) : ∀ (n : ℕ) (hn : n < cfg0.N), 64 ≤ n → ∀ d,
    (dat0 (U := U) A0 c).before 8 ⟨n, hn⟩ d = O8blk A0 c ⟨15, by norm_num⟩ := by
  intro n
  induction n with
  | zero => intro _ h; omega
  | succ k ih =>
    intro hn h64 d
    have hk : k < cfg0.N := Nat.lt_of_succ_lt hn
    have hk112 : k + 1 < 112 := lt_of_lt_of_eq hn hN
    have hf : (cfg0.win 8).fetch ⟨k + 1, hn⟩ = false := (cfg0.win 8).fetch_out rfl _
    rw [(dat0 (U := U) A0 c).before_of_pos 8 ⟨k + 1, hn⟩ (Nat.succ_ne_zero k) hf d]
    show (if (cfg0.win 8).flush ⟨k, _⟩ = true then d else (dat0 (U := U) A0 c).left 8 ⟨k, _⟩ d) = _
    have hfl : ¬ (cfg0.win 8).flush ⟨k, hk⟩ = true := fun h => by
      rcases (flush8 ⟨k, hk⟩).mp h with ⟨_, h2⟩ | h3
      · have : k ≤ 62 := h2; omega
      · have : k = 111 := h3; omega
    rw [if_neg hfl]
    unfold Dat.left
    by_cases h63 : k = 63
    · subst h63
      have hid : cfg0.idle 8 (cfg0.grid.coords ⟨63, hk⟩) = false :=
        Bool.eq_false_iff.mpr fun h => ((idle8 ⟨63, hk⟩).mp h) (show (63 : ℕ) / 16 = 3 by norm_num)
      rw [hid]
      show (dat0 (U := U) A0 c).kept 8 ⟨63, hk⟩ d = _
      rw [kept8_eq, after_8]
      have hb : blk8 ⟨63, hk⟩ = ⟨15, by norm_num⟩ := by
        unfold blk8
        rw [dif_pos (show (63 : ℕ) / 16 = 3 by norm_num)]
        exact Fin.ext (show (63 : ℕ) % 16 = 15 by norm_num)
      rw [hb]
    · have hid : cfg0.idle 8 (cfg0.grid.coords ⟨k, hk⟩) = true := (idle8 ⟨k, hk⟩).mpr (by show k / 16 ≠ 3; omega)
      rw [hid]
      show (dat0 (U := U) A0 c).before 8 ⟨k, hk⟩ d = _
      exact ih hk (by omega) d

/-- An input window's buffer is owed back at its block. -/
theorem leaves_in (c : Dev nD) (w : Fin 10) (hw : w.val < 8) (t : Fin cfg0.N) :
    (dat0 (U := U) A0 c).leavesExact w t
      = owns (c : Thread nD τ) ((cfg0.win w).stage (cfg0.slots t w)) fullShare ((dat0 (U := U) A0 c).after w t) := by
  unfold Dat.leavesExact; rw [live_in w hw t]

/-- In layer 3 the encoder's window's buffer is owed at the block just stored. -/
theorem leaves8_live (c : Dev nD) (t : Fin cfg0.N) (hl : t.val / 16 = 3) :
    (dat0 (U := U) A0 c).leavesExact 8 t
      = owns (c : Thread nD τ) (st0_8 t) fullShare ((dat0 (U := U) A0 c).after 8 t) := by
  have hid : cfg0.idle 8 (cfg0.grid.coords t) = false := Bool.eq_false_iff.mpr fun h => ((idle8 t).mp h) hl
  unfold Dat.leavesExact; rw [hid]

/-- In layer 6 the decoder's window's buffer is owed at the block just stored. -/
theorem leaves9_live (c : Dev nD) (t : Fin cfg0.N) (hl : t.val / 16 = 6) :
    (dat0 (U := U) A0 c).leavesExact 9 t
      = owns (c : Thread nD τ) (st0_9 t) fullShare ((dat0 (U := U) A0 c).after 9 t) := by
  have hid : cfg0.idle 9 (cfg0.grid.coords t) = false := Bool.eq_false_iff.mpr fun h => ((idle9 t).mp h) hl
  unfold Dat.leavesExact; rw [hid]

/-- Outside layer 6 the decoder's window is idle and not written back: its buffer is owed as found. -/
theorem leaves9_idle (c : Dev nD) (t : Fin cfg0.N) (hl : t.val / 16 ≠ 6) :
    (dat0 (U := U) A0 c).leavesExact 9 t
      = iprop(∃ d, owns (c : Thread nD τ) (st0_9 t) fullShare ((dat0 (U := U) A0 c).before 9 t d)) := by
  have ht : t.val < 112 := lt_of_lt_of_eq t.isLt hN
  refine Dat.leavesExact_idle (dat0 (U := U) A0 c) 9 t ((idle9 t).mpr hl) (Bool.eq_false_iff.mpr fun h => ?_)
  have : 96 ≤ t.val := (flush9 t).mp h
  omega

/-- Outside layer 3 the encoder's window is idle: its buffer, as found, is what is owed — also at the grid's last point,
    where the block is written back: by then the buffer holds the encoder's last block. -/
theorem leaves8_idle (c : Dev nD) (t : Fin cfg0.N) (hl : t.val / 16 ≠ 3) :
    iprop(∃ d, owns (c : Thread nD τ) (st0_8 t) fullShare ((dat0 (U := U) A0 c).before 8 t d))
      ⊢ (dat0 (U := U) A0 c).leavesExact 8 t := by
  have ht : t.val < 112 := lt_of_lt_of_eq t.isLt hN
  have hi : cfg0.idle 8 (cfg0.grid.coords t) = true := (idle8 t).mpr hl
  by_cases hf : (cfg0.win 8).flush t = true
  · have h111 : t.val = 111 := by
      rcases (flush8 t).mp hf with ⟨h1, h2⟩ | h3
      · exfalso; omega
      · exact h3
    have hle : (dat0 (U := U) A0 c).leavesExact 8 t
        = owns (c : Thread nD τ) (st0_8 t) fullShare ((dat0 (U := U) A0 c).after 8 t) := by
      unfold Dat.leavesExact; rw [hi, hf]
    have hb : ∀ d, (dat0 (U := U) A0 c).before 8 t d = (dat0 (U := U) A0 c).after 8 t := fun d => by
      rw [after_8, show blk8 t = ⟨15, by norm_num⟩ from dif_neg hl]
      exact before8_late A0 c t.val t.isLt (by omega) d
    rw [hle]
    iintro ⟨%d, H⟩
    rw [hb d]
    iexact H
  · rw [Dat.leavesExact_idle (dat0 (U := U) A0 c) 8 t hi (Bool.eq_false_iff.mpr hf)]

end Cert.Sgae.WRegion0

end
-- ==== Proof.WRegion0Inv.lean ====
/-
  (The same statements and proofs for the program as printed at the word level; only the program's name differs.)

  The slab invariant: what it gives each layer, and how each layer advances it.

  At point n = 16 · l + b the body of layer l loads slab b of the adjacency scratch and, whole or as a column prefix, the
  feature scratch the previous layers completed; the invariant identifies those loads with the stacked blocks.  It then
  stores slab b of one scratch buffer (two in layer 1, none in layer 6).  If the stored slab reads back as the layer's
  block and every other slab of that buffer reads as before, the invariant holds after the point: the family just
  written gained its block; the earlier families of the same buffer have left their windows or are not yet begun; the
  other buffers did not change and no slab of theirs completed at this point.
-/
import proofs.«146852_g64793876627462_cont_sun_c4_515_4_alg».proof.Proof.WRegion0Terms

set_option maxRecDepth 16384

noncomputable section

namespace Cert.Sgae.WRegion0

open Cert.Kernel Cert.Kernel.Gen
open Idealize.ShloMosaic Idealize.ShloMosaic.TcCoe Idealize.ShloMosaic.ValueIdx
open Cert.Sgae.Slab

variable {F : FTy → Type} [FloatOps F]
variable (A0 : (c : Dev nD) → (b : Ref sig .tc) → Buf (Elt F) ((c : Thread nD τ).loc b)) (c : Dev nD)
variable {n : ℕ} {xadj : Vec F S4096x4096 .bf16} {xta xtb : Vec F S4096x512 .bf16} {xzs : Vec F S4096x128 .bf16}

/-! ## What the loads are -/

/-- Slab `b` of the adjacency scratch, once layer 1 has stored it. -/
theorem Inv.adj_rows (hI : Inv A0 c n xadj xta xtb xzs) (b : Fin 16) (h : 16 + b.val < n) (off : Fin 2 → ℕ)
    (inb : ∀ a, off a + S256x4096.size a ≤ S4096x4096.size a) (hoff : off = ![256 * b.val, 0]) :
    View.ld xadj (Rect.unit (s := S4096x4096) off S256x4096.size inb) = ADJblk A0 c b := by
  subst hoff; exact hI.adj b h

/-- During layer 1 the first feature scratch, whole, is t1. -/
theorem Inv.ta_t1 (hI : Inv A0 c n xadj xta xtb xzs) (h16 : 16 ≤ n) (h32 : n ≤ 32)
    (inbP : ∀ a, (![0, 0] : Fin 2 → ℕ) a + S4096x512.size a ≤ S4096x512.size a) :
    View.ld xta (Rect.unit (s := S4096x512) ![0, 0] S4096x512.size inbP) = T1 A0 c :=
  ld_prefix_eq_stack xta (T1blk A0 c) inbP _ fun b => hI.ta1 h32 b (by have := b.isLt; omega)

/-- During layer 2 the left 256 columns of the second feature scratch are t2. -/
theorem Inv.tb_t2 (hI : Inv A0 c n xadj xta xtb xzs) (h32 : 32 ≤ n) (h64 : n ≤ 64)
    (inbP : ∀ a, (![0, 0] : Fin 2 → ℕ) a + S4096x256.size a ≤ S4096x512.size a) :
    View.ld xtb (Rect.unit (s := S4096x512) ![0, 0] S4096x256.size inbP) = T2 A0 c :=
  ld_prefix_eq_stack xtb (T2blk A0 c) inbP _ fun b => hI.tb2 h64 b (by have := b.isLt; omega)

/-- During layer 3 the left 128 columns of the first feature scratch are t3. -/
theorem Inv.ta_t3 (hI : Inv A0 c n xadj xta xtb xzs) (h48 : 48 ≤ n) (h80 : n ≤ 80)
    (inbP : ∀ a, (![0, 0] : Fin 2 → ℕ) a + S4096x128.size a ≤ S4096x512.size a) :
    View.ld xta (Rect.unit (s := S4096x512) ![0, 0] S4096x128.size inbP) = T3 A0 c :=
  ld_prefix_eq_stack xta (T3blk A0 c) inbP _ fun b => hI.ta3 h80 b (by have := b.isLt; omega)

/-- During layer 4 the decoder's scratch copy, whole, is the encoder's result. -/
theorem Inv.zs_all (hI : Inv A0 c n xadj xta xtb xzs) (h64 : 64 ≤ n)
    (inbP : ∀ a, (![0, 0] : Fin 2 → ℕ) a + S4096x128.size a ≤ S4096x128.size a) :
    View.ld xzs (Rect.unit (s := S4096x128) ![0, 0] S4096x128.size inbP) = ZSB A0 c :=
  ld_prefix_eq_stack xzs (ZSblk A0 c) inbP _ fun b => hI.zs b (by have := b.isLt; omega)

/-- During layer 5 the left 256 columns of the second feature scratch are t4. -/
theorem Inv.tb_t4 (hI : Inv A0 c n xadj xta xtb xzs) (h80 : 80 ≤ n)
    (inbP : ∀ a, (![0, 0] : Fin 2 → ℕ) a + S4096x256.size a ≤ S4096x512.size a) :
    View.ld xtb (Rect.unit (s := S4096x512) ![0, 0] S4096x256.size inbP) = T4 A0 c :=
  ld_prefix_eq_stack xtb (T4blk A0 c) inbP _ fun b => hI.tb4 b (by have := b.isLt; omega)

/-- During layer 6 the first feature scratch, whole, is t6. -/
theorem Inv.ta_t6 (hI : Inv A0 c n xadj xta xtb xzs) (h96 : 96 ≤ n)
    (inbP : ∀ a, (![0, 0] : Fin 2 → ℕ) a + S4096x512.size a ≤ S4096x512.size a) :
    View.ld xta (Rect.unit (s := S4096x512) ![0, 0] S4096x512.size inbP) = T6 A0 c :=
  ld_prefix_eq_stack xta (T6blk A0 c) inbP _ fun b => hI.ta6 b (by have := b.isLt; omega)

/-! ## One point further, layer by layer -/

/-- Layer 0 stores slab n of the first feature scratch. -/
theorem Inv.step0 (hI : Inv A0 c n xadj xta xtb xzs) (hn : n < 16) (xta' : Vec F S4096x512 .bf16)
    (hnew : View.ld xta' (slab 512 ⟨n, hn⟩ 512 (by omega)) = T1blk A0 c ⟨n, hn⟩)
    (hold : ∀ b : Fin 16, b.val ≠ n → View.ld xta' (slab 512 b 512 (by omega)) = View.ld xta (slab 512 b 512 (by omega))) :
    Inv A0 c (n + 1) xadj xta' xtb xzs where
  adj := fun b h => absurd h (by omega)
  ta1 := fun _ b h => by
    by_cases e : b.val = n
    · obtain rfl : b = ⟨n, hn⟩ := Fin.ext e
      exact hnew
    · exact (hold b e).trans (hI.ta1 (by omega) b (by omega))
  ta3 := fun _ b h => absurd h (by omega)
  ta6 := fun b h => absurd h (by omega)
  tb2 := fun _ b h => absurd h (by omega)
  tb4 := fun b h => absurd h (by omega)
  zs := fun b h => absurd h (by omega)

/-- Layer 1 stores slab n − 16 of the adjacency scratch and of the second feature scratch (left 256 columns). -/
theorem Inv.step1 (hI : Inv A0 c n xadj xta xtb xzs) (h16 : 16 ≤ n) (hn : n < 32)
    (xadj' : Vec F S4096x4096 .bf16) (xtb' : Vec F S4096x512 .bf16)
    (hnewA : View.ld xadj' (slab 4096 ⟨n - 16, by omega⟩ 4096 (by omega)) = ADJblk A0 c ⟨n - 16, by omega⟩)
    (holdA : ∀ b : Fin 16, b.val ≠ n - 16 → View.ld xadj' (slab 4096 b 4096 (by omega)) = View.ld xadj (slab 4096 b 4096 (by omega)))
    (hnewB : View.ld xtb' (slab 512 ⟨n - 16, by omega⟩ 256 (by omega)) = T2blk A0 c ⟨n - 16, by omega⟩)
    (holdB : ∀ b : Fin 16, b.val ≠ n - 16 → View.ld xtb' (slab 512 b 256 (by omega)) = View.ld xtb (slab 512 b 256 (by omega))) :
    Inv A0 c (n + 1) xadj' xta xtb' xzs where
  adj := fun b h => by
    by_cases e : b.val = n - 16
    · rw [show b = (⟨n - 16, by omega⟩ : Fin 16) from Fin.ext e]
      exact hnewA
    · exact (holdA b e).trans (hI.adj b (by omega))
  ta1 := fun _ b h => hI.ta1 (by omega) b (by have := b.isLt; omega)
  ta3 := fun _ b h => absurd h (by omega)
  ta6 := fun b h => absurd h (by omega)
  tb2 := fun _ b h => by
    by_cases e : b.val = n - 16
    · rw [show b = (⟨n - 16, by omega⟩ : Fin 16) from Fin.ext e]
      exact hnewB
    · exact (holdB b e).trans (hI.tb2 (by omega) b (by omega))
  tb4 := fun b h => absurd h (by omega)
  zs := fun b h => absurd h (by omega)

/-- Layer 2 stores slab n − 32 of the first feature scratch (left 128 columns). -/
theorem Inv.step2 (hI : Inv A0 c n xadj xta xtb xzs) (h32 : 32 ≤ n) (hn : n < 48) (xta' : Vec F S4096x512 .bf16)
    (hnew : View.ld xta' (slab 512 ⟨n - 32, by omega⟩ 128 (by omega)) = T3blk A0 c ⟨n - 32, by omega⟩)
    (hold : ∀ b : Fin 16, b.val ≠ n - 32 → View.ld xta' (slab 512 b 128 (by omega)) = View.ld xta (slab 512 b 128 (by omega))) :
    Inv A0 c (n + 1) xadj xta' xtb xzs where
  adj := fun b h => hI.adj b (by have := b.isLt; omega)
  ta1 := fun h _ _ => absurd h (by omega)
  ta3 := fun _ b h => by
    by_cases e : b.val = n - 32
    · rw [show b = (⟨n - 32, by omega⟩ : Fin 16) from Fin.ext e]
      exact hnew
    · exact (hold b e).trans (hI.ta3 (by omega) b (by omega))
  ta6 := fun b h => absurd h (by omega)
  tb2 := fun _ b h => hI.tb2 (by omega) b (by have := b.isLt; omega)
  tb4 := fun b h => absurd h (by omega)
  zs := fun b h => absurd h (by omega)

/-- Layer 3 stores slab n − 48 of the decoder's scratch copy. -/
theorem Inv.step3 (hI : Inv A0 c n xadj xta xtb xzs) (h48 : 48 ≤ n) (hn : n < 64) (xzs' : Vec F S4096x128 .bf16)
    (hnew : View.ld xzs' (slab 128 ⟨n - 48, by omega⟩ 128 (by omega)) = ZSblk A0 c ⟨n - 48, by omega⟩)
    (hold : ∀ b : Fin 16, b.val ≠ n - 48 → View.ld xzs' (slab 128 b 128 (by omega)) = View.ld xzs (slab 128 b 128 (by omega))) :
    Inv A0 c (n + 1) xadj xta xtb xzs' where
  adj := fun b h => hI.adj b (by have := b.isLt; omega)
  ta1 := fun h _ _ => absurd h (by omega)
  ta3 := fun _ b h => hI.ta3 (by omega) b (by have := b.isLt; omega)
  ta6 := fun b h => absurd h (by omega)
  tb2 := fun _ b h => hI.tb2 (by omega) b (by have := b.isLt; omega)
  tb4 := fun b h => absurd h (by omega)
  zs := fun b h => by
    by_cases e : b.val = n - 48
    · rw [show b = (⟨n - 48, by omega⟩ : Fin 16) from Fin.ext e]
      exact hnew
    · exact (hold b e).trans (hI.zs b (by omega))

/-- Layer 4 stores slab n − 64 of the second feature scratch (left 256 columns). -/
theorem Inv.step4 (hI : Inv A0 c n xadj xta xtb xzs) (h64 : 64 ≤ n) (hn : n < 80) (xtb' : Vec F S4096x512 .bf16)
    (hnew : View.ld xtb' (slab 512 ⟨n - 64, by omega⟩ 256 (by omega)) = T4blk A0 c ⟨n - 64, by omega⟩)
    (hold : ∀ b : Fin 16, b.val ≠ n - 64 → View.ld xtb' (slab 512 b 256 (by omega)) = View.ld xtb (slab 512 b 256 (by omega))) :
    Inv A0 c (n + 1) xadj xta xtb' xzs where
  adj := fun b h => hI.adj b (by have := b.isLt; omega)
  ta1 := fun h _ _ => absurd h (by omega)
  ta3 := fun _ b h => hI.ta3 (by omega) b (by have := b.isLt; omega)
  ta6 := fun b h => absurd h (by omega)
  tb2 := fun h _ _ => absurd h (by omega)
  tb4 := fun b h => by
    by_cases e : b.val = n - 64
    · rw [show b = (⟨n - 64, by omega⟩ : Fin 16) from Fin.ext e]
      exact hnew
    · exact (hold b e).trans (hI.tb4 b (by omega))
  zs := fun b h => hI.zs b (by have := b.isLt; omega)

/-- Layer 5 stores slab n − 80 of the first feature scratch. -/
theorem Inv.step5 (hI : Inv A0 c n xadj xta xtb xzs) (h80 : 80 ≤ n) (hn : n < 96) (xta' : Vec F S4096x512 .bf16)
    (hnew : View.ld xta' (slab 512 ⟨n - 80, by omega⟩ 512 (by omega)) = T6blk A0 c ⟨n - 80, by omega⟩)
    (hold : ∀ b : Fin 16, b.val ≠ n - 80 → View.ld xta' (slab 512 b 512 (by omega)) = View.ld xta (slab 512 b 512 (by omega))) :
    Inv A0 c (n + 1) xadj xta' xtb xzs where
  adj := fun b h => hI.adj b (by have := b.isLt; omega)
  ta1 := fun h _ _ => absurd h (by omega)
  ta3 := fun h _ _ => absurd h (by omega)
  ta6 := fun b h => by
    by_cases e : b.val = n - 80
    · rw [show b = (⟨n - 80, by omega⟩ : Fin 16) from Fin.ext e]
      exact hnew
    · exact (hold b e).trans (hI.ta6 b (by omega))
  tb2 := fun h _ _ => absurd h (by omega)
  tb4 := fun b h => hI.tb4 b (by have := b.isLt; omega)
  zs := fun b h => hI.zs b (by have := b.isLt; omega)

/-- Layer 6 stores into no scratch buffer. -/
theorem Inv.step6 (hI : Inv A0 c n xadj xta xtb xzs) (h96 : 96 ≤ n) : Inv A0 c (n + 1) xadj xta xtb xzs where
  adj := fun b h => hI.adj b (by have := b.isLt; omega)
  ta1 := fun h _ _ => absurd h (by omega)
  ta3 := fun h _ _ => absurd h (by omega)
  ta6 := fun b h => hI.ta6 b (by have := b.isLt; omega)
  tb2 := fun h _ _ => absurd h (by omega)
  tb4 := fun b h => hI.tb4 b (by have := b.isLt; omega)
  zs := fun b h => hI.zs b (by have := b.isLt; omega)

end Cert.Sgae.WRegion0

end
-- ==== Proof.WBody0a.lean ====
/-
  (The same statements and proofs for the program as printed at the word level; only the program's name differs.)

  The first call's body at the grid points of its first two layers.

  At each grid point the body does the work of one layer on one block of 256 rows: it loads what the layer reads — the
  point's input block, a weight, a block of rows of the adjacency scratch, a feature scratch —, forms the layer's
  products, and stores the result into the block's rows of a scratch buffer (or into an output's block).  Which layer
  it is, is decided by the first grid coordinate through seven conditions of which exactly one holds.  For each layer
  this module runs the body from buffers at given contents and records what it leaves: the buffers it only read, as
  they were; a buffer it stored into, with the stored pieces written over what it held.
-/
import proofs.«146852_g64793876627462_cont_sun_c4_515_4_alg».proof.Proof.Gen.Kernel.Launch
import proofs.«146852_g64793876627462_cont_sun_c4_515_4_alg».proof.Proof.Gen.Kernel.Skeleton
import proofs.«146852_g64793876627462_cont_sun_c4_515_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Sgae.WBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 0 (the first grid row): the body loads the block of `x` and the first weight and stores their product into the block's rows of the first feature scratch, over what it held; nothing else is touched.  The pieces the scratch ends with are found by running the body. -/
noncomputable def run0 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (x0 : Vec F S256x512 .f32) (w1 : Vec F S512x512 .bf16) (xta : Vec F S4096x512 .bf16) :
    { L13 : List (View.Piece (Elt F) S4096x512 .bf16) //
      ∀ (E : Set ℕ) (K : PUnit → sProp 𝕄),
        iprop(owns (c : Thread nD τ) arg2 fullShare x0 ∗ owns (c : Thread nD τ) arg4 fullShare w1 ∗ owns (c : Thread nD τ) arg13 fullShare xta
            ∗ (iprop(owns (c : Thread nD τ) arg2 fullShare x0
                ∗ owns (c : Thread nD τ) arg4 fullShare w1
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg2, %hf_arg2, H_arg2⟩, ⟨%f_arg4, %hf_arg4, H_arg4⟩, ⟨%f_arg13, %hf_arg13, H_arg13⟩, Hk⟩
    obtain rfl := harg2.eq_unread hf_arg2; obtain rfl := harg4.eq_unread hf_arg4; obtain rfl := harg13.eq_unread hf_arg13
    sl_exec (disch := first | exact hc1 | exact hc2 | exact hc3 | exact hc4 | exact hc5 | exact hc6 | exact hc7)
    sl_step
    iapply Hk
    isplitl [H_arg2]
    · iexists _; isplitr; · ipureintro; exact harg2.read_unread _
      iexact H_arg2
    isplitl [H_arg4]
    · iexists _; isplitr; · ipureintro; exact harg4.read_unread _
      iexact H_arg4
    iexact H_arg13

set_option maxHeartbeats 4000000 in
/-- Layer 1: the body loads the block of `adj`, stores it into the block's rows of the adjacency scratch, loads the first feature scratch whole and the second weight, and stores `(block · t1) · W2` into the block's rows (left 256 columns) of the second feature scratch; both scratch buffers end as they were with the stored piece written. -/
noncomputable def run1 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1) (hc7 : ¬k0_cond7 i = 1#1)
    (a0 : Vec F S256x4096 .f32) (w2 : Vec F S512x256 .bf16) (xadj : Vec F S4096x4096 .bf16) (xta : Vec F S4096x512 .bf16)
    (xtb : Vec F S4096x512 .bf16) :
    Σ' (L12 : List (View.Piece (Elt F) S4096x4096 .bf16)), { L14 : List (View.Piece (Elt F) S4096x512 .bf16) //
      ∀ (E : Set ℕ) (K : PUnit → sProp 𝕄),
        iprop(owns (c : Thread nD τ) arg3 fullShare a0 ∗ owns (c : Thread nD τ) arg5 fullShare w2 ∗ owns (c : Thread nD τ) arg13 fullShare xta ∗ owns (c : Thread nD τ) arg12 fullShare xadj ∗ owns (c : Thread nD τ) arg14 fullShare xtb
            ∗ (iprop(owns (c : Thread nD τ) arg3 fullShare a0
                ∗ owns (c : Thread nD τ) arg5 fullShare w2
                ∗ owns (c : Thread nD τ) arg13 fullShare xta
                ∗ (arg12.view.loc (c : Thread nD τ) ↦[arg12.view.set]{fullShare} arg12.view.writes (Elt F) (harg12.unread xadj) L12)
                ∗ (arg14.view.loc (c : Thread nD τ) ↦[arg14.view.set]{fullShare} arg14.view.writes (Elt F) (harg14.unread xtb) L14)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__mega_kernel_eq_skeleton]; unfold cc0__mega_kernel_skel
    unfold owns
    iintro ⟨⟨%f_arg3, %hf_arg3, H_arg3⟩, ⟨%f_arg5, %hf_arg5, H_arg5⟩, ⟨%f_arg13, %hf_arg13, H_arg13⟩, ⟨%f_arg12, %hf_arg12, H_arg12⟩, ⟨%f_arg14, %hf_arg14, H_arg14⟩, Hk⟩
    obtain rfl := harg3.eq_unread hf_arg3; obtain rfl := harg5.eq_unread hf_arg5; obtain rfl := harg13.eq_unread hf_arg13; obtain rfl := harg12.eq_unread hf_arg12; obtain rfl := harg14.eq_unread hf_arg14
    sl_exec (disch := first | exact hc1 | exact hc2 | exact hc3 | exact hc4 | exact hc5 | exact hc6 | exact hc7)
    sl_step
    iapply Hk
    isplitl [H_arg3]
    · iexists _; isplitr; · ipureintro; exact harg3.read_unread _
      iexact H_arg3
    isplitl [H_arg5]
    · iexists _; isplitr; · ipureintro; exact harg5.read_unread _
      iexact H_arg5
    isplitl [H_arg13]
    · iexists _; isplitr; · ipureintro; exact harg13.read_unread _
      iexact H_arg13
    isplitl [H_arg12]; · iexact H_arg12
    iexact H_arg14

end Cert.Sgae.WBody

end
-- ==== Proof.WBody0b.lean ====
/-
  (The same statements and proofs for the program as printed at the word level; only the program's name differs.)

  The first call's body at the grid points of its layers 2 and 3 (see the module of layers 0 and 1 for what a
  run records).
-/
import proofs.«146852_g64793876627462_cont_sun_c4_515_4_alg».proof.Proof.Gen.Kernel.Launch
import proofs.«146852_g64793876627462_cont_sun_c4_515_4_alg».proof.Proof.Gen.Kernel.Skeleton
import proofs.«146852_g64793876627462_cont_sun_c4_515_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Sgae.WBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 2: the body loads the block's rows of the adjacency scratch, the left 256 columns of the second feature scratch and the third weight, and stores `(block · t2) · W3` into the block's rows (left 128 columns) of the first feature scratch, over what it held. -/
noncomputable def run2 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1) (hc7 : ¬k0_cond7 i = 1#1)
    (w3 : Vec F S256x128 .bf16) (xadj : Vec F S4096x4096 .bf16) (xtb : Vec F S4096x512 .bf16) (xta : Vec F S4096x512 .bf16) :
    { L13 : List (View.Piece (Elt F) S4096x512 .bf16) //
      ∀ (E : Set ℕ) (K : PUnit → sProp 𝕄),
        iprop(owns (c : Thread nD τ) arg6 fullShare w3 ∗ owns (c : Thread nD τ) arg12 fullShare xadj ∗ owns (c : Thread nD τ) arg14 fullShare xtb ∗ owns (c : Thread nD τ) arg13 fullShare xta
            ∗ (iprop(owns (c : Thread nD τ) arg6 fullShare w3
                ∗ owns (c : Thread nD τ) arg12 fullShare xadj
                ∗ owns (c : Thread nD τ) arg14 fullShare xtb
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg6, %hf_arg6, H_arg6⟩, ⟨%f_arg12, %hf_arg12, H_arg12⟩, ⟨%f_arg14, %hf_arg14, H_arg14⟩, ⟨%f_arg13, %hf_arg13, H_arg13⟩, Hk⟩
    obtain rfl := harg6.eq_unread hf_arg6; obtain rfl := harg12.eq_unread hf_arg12; obtain rfl := harg14.eq_unread hf_arg14; obtain rfl := harg13.eq_unread hf_arg13
    sl_exec (disch := first | exact hc1 | exact hc2 | exact hc3 | exact hc4 | exact hc5 | exact hc6 | exact hc7)
    sl_step
    iapply Hk
    isplitl [H_arg6]
    · iexists _; isplitr; · ipureintro; exact harg6.read_unread _
      iexact H_arg6
    isplitl [H_arg12]
    · iexists _; isplitr; · ipureintro; exact harg12.read_unread _
      iexact H_arg12
    isplitl [H_arg14]
    · iexists _; isplitr; · ipureintro; exact harg14.read_unread _
      iexact H_arg14
    iexact H_arg13

set_option maxHeartbeats 4000000 in
/-- Layer 3: the body loads the block's rows of the adjacency scratch and the left 128 columns of the first feature scratch, stores their product — a block of the encoder's result — whole into the first output's buffer, and stores it again into the block's rows of the decoder's scratch copy, over what that held. -/
noncomputable def run3 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1) (hc7 : ¬k0_cond7 i = 1#1)
    (xadj : Vec F S4096x4096 .bf16) (xta : Vec F S4096x512 .bf16) (xzs : Vec F S4096x128 .bf16) :
    Σ' (L10 : List (View.Piece (Elt F) S256x128 .f32)), { L15 : List (View.Piece (Elt F) S4096x128 .bf16) //
      ∀ (E : Set ℕ) (K : PUnit → sProp 𝕄),
        iprop(owns (c : Thread nD τ) arg12 fullShare xadj ∗ owns (c : Thread nD τ) arg13 fullShare xta ∗ (∃ d, owns (c : Thread nD τ) arg10 fullShare d) ∗ owns (c : Thread nD τ) arg15 fullShare xzs
            ∗ (iprop(owns (c : Thread nD τ) arg12 fullShare xadj
                ∗ owns (c : Thread nD τ) arg13 fullShare xta
                ∗ (∃ f, arg10.view.loc (c : Thread nD τ) ↦[arg10.view.set]{fullShare} arg10.view.writes (Elt F) f L10)
                ∗ (arg15.view.loc (c : Thread nD τ) ↦[arg15.view.set]{fullShare} arg15.view.writes (Elt F) (harg15.unread xzs) L15)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__mega_kernel_eq_skeleton]; unfold cc0__mega_kernel_skel
    unfold owns
    iintro ⟨⟨%f_arg12, %hf_arg12, H_arg12⟩, ⟨%f_arg13, %hf_arg13, H_arg13⟩, ⟨%d_arg10, %f_arg10, -, H_arg10⟩, ⟨%f_arg15, %hf_arg15, H_arg15⟩, Hk⟩
    obtain rfl := harg12.eq_unread hf_arg12; obtain rfl := harg13.eq_unread hf_arg13; obtain rfl := harg15.eq_unread hf_arg15
    sl_exec (disch := first | exact hc1 | exact hc2 | exact hc3 | exact hc4 | exact hc5 | exact hc6 | exact hc7)
    sl_step
    iapply Hk
    isplitl [H_arg12]
    · iexists _; isplitr; · ipureintro; exact harg12.read_unread _
      iexact H_arg12
    isplitl [H_arg13]
    · iexists _; isplitr; · ipureintro; exact harg13.read_unread _
      iexact H_arg13
    isplitl [H_arg10]; · iexists _; iexact H_arg10
    iexact H_arg15

end Cert.Sgae.WBody

end
-- ==== Proof.WBody0c.lean ====
/-
  (The same statements and proofs for the program as printed at the word level; only the program's name differs.)

  The first call's body at the grid points of its layers 4, 5 and 6 (see the module of layers 0 and 1 for what a
  run records).
-/
import proofs.«146852_g64793876627462_cont_sun_c4_515_4_alg».proof.Proof.Gen.Kernel.Launch
import proofs.«146852_g64793876627462_cont_sun_c4_515_4_alg».proof.Proof.Gen.Kernel.Skeleton
import proofs.«146852_g64793876627462_cont_sun_c4_515_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Sgae.WBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {U : Type} [URA U] {Lvl : Type} [Preorder Lvl]

local notation "𝕄" => MT nD τ sig Ix (Elt F) ℕ U Lvl

set_option maxHeartbeats 4000000 in
/-- Layer 4: the body loads the block's rows of the adjacency scratch, the decoder's scratch copy of the encoder's result whole and the fourth weight, and stores `(block · zs) · W4` into the block's rows (left 256 columns) of the second feature scratch, over what it held. -/
noncomputable def run4 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1) (hc7 : ¬k0_cond7 i = 1#1)
    (w4 : Vec F S128x256 .bf16) (xadj : Vec F S4096x4096 .bf16) (xzs : Vec F S4096x128 .bf16) (xtb : Vec F S4096x512 .bf16) :
    { L14 : List (View.Piece (Elt F) S4096x512 .bf16) //
      ∀ (E : Set ℕ) (K : PUnit → sProp 𝕄),
        iprop(owns (c : Thread nD τ) arg7 fullShare w4 ∗ owns (c : Thread nD τ) arg12 fullShare xadj ∗ owns (c : Thread nD τ) arg15 fullShare xzs ∗ owns (c : Thread nD τ) arg14 fullShare xtb
            ∗ (iprop(owns (c : Thread nD τ) arg7 fullShare w4
                ∗ owns (c : Thread nD τ) arg12 fullShare xadj
                ∗ owns (c : Thread nD τ) arg15 fullShare xzs
                ∗ (arg14.view.loc (c : Thread nD τ) ↦[arg14.view.set]{fullShare} arg14.view.writes (Elt F) (harg14.unread xtb) L14)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg7, %hf_arg7, H_arg7⟩, ⟨%f_arg12, %hf_arg12, H_arg12⟩, ⟨%f_arg15, %hf_arg15, H_arg15⟩, ⟨%f_arg14, %hf_arg14, H_arg14⟩, Hk⟩
    obtain rfl := harg7.eq_unread hf_arg7; obtain rfl := harg12.eq_unread hf_arg12; obtain rfl := harg15.eq_unread hf_arg15; obtain rfl := harg14.eq_unread hf_arg14
    sl_exec (disch := first | exact hc1 | exact hc2 | exact hc3 | exact hc4 | exact hc5 | exact hc6 | exact hc7)
    sl_step
    iapply Hk
    isplitl [H_arg7]
    · iexists _; isplitr; · ipureintro; exact harg7.read_unread _
      iexact H_arg7
    isplitl [H_arg12]
    · iexists _; isplitr; · ipureintro; exact harg12.read_unread _
      iexact H_arg12
    isplitl [H_arg15]
    · iexists _; isplitr; · ipureintro; exact harg15.read_unread _
      iexact H_arg15
    iexact H_arg14

set_option maxHeartbeats 4000000 in
/-- Layer 5: the body loads the block's rows of the adjacency scratch, the left 256 columns of the second feature scratch and the fifth and sixth weights, and stores `((block · z4) · W5) · W6` into the block's rows of the first feature scratch, over what it held. -/
noncomputable def run5 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1) (hc7 : ¬k0_cond7 i = 1#1)
    (w5 : Vec F S256x512 .bf16) (w6 : Vec F S512x512 .bf16) (xadj : Vec F S4096x4096 .bf16) (xtb : Vec F S4096x512 .bf16) (xta : Vec F S4096x512 .bf16) :
    { L13 : List (View.Piece (Elt F) S4096x512 .bf16) //
      ∀ (E : Set ℕ) (K : PUnit → sProp 𝕄),
        iprop(owns (c : Thread nD τ) arg8 fullShare w5 ∗ owns (c : Thread nD τ) arg9 fullShare w6 ∗ owns (c : Thread nD τ) arg12 fullShare xadj ∗ owns (c : Thread nD τ) arg14 fullShare xtb ∗ owns (c : Thread nD τ) arg13 fullShare xta
            ∗ (iprop(owns (c : Thread nD τ) arg8 fullShare w5
                ∗ owns (c : Thread nD τ) arg9 fullShare w6
                ∗ owns (c : Thread nD τ) arg12 fullShare xadj
                ∗ owns (c : Thread nD τ) arg14 fullShare xtb
                ∗ (arg13.view.loc (c : Thread nD τ) ↦[arg13.view.set]{fullShare} arg13.view.writes (Elt F) (harg13.unread xta) L13)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg8, %hf_arg8, H_arg8⟩, ⟨%f_arg9, %hf_arg9, H_arg9⟩, ⟨%f_arg12, %hf_arg12, H_arg12⟩, ⟨%f_arg14, %hf_arg14, H_arg14⟩, ⟨%f_arg13, %hf_arg13, H_arg13⟩, Hk⟩
    obtain rfl := harg8.eq_unread hf_arg8; obtain rfl := harg9.eq_unread hf_arg9; obtain rfl := harg12.eq_unread hf_arg12; obtain rfl := harg14.eq_unread hf_arg14; obtain rfl := harg13.eq_unread hf_arg13
    sl_exec (disch := first | exact hc1 | exact hc2 | exact hc3 | exact hc4 | exact hc5 | exact hc6 | exact hc7)
    sl_step
    iapply Hk
    isplitl [H_arg8]
    · iexists _; isplitr; · ipureintro; exact harg8.read_unread _
      iexact H_arg8
    isplitl [H_arg9]
    · iexists _; isplitr; · ipureintro; exact harg9.read_unread _
      iexact H_arg9
    isplitl [H_arg12]
    · iexists _; isplitr; · ipureintro; exact harg12.read_unread _
      iexact H_arg12
    isplitl [H_arg14]
    · iexists _; isplitr; · ipureintro; exact harg14.read_unread _
      iexact H_arg14
    iexact H_arg13

set_option maxHeartbeats 4000000 in
/-- Layer 6: the body loads the block's rows of the adjacency scratch and the first feature scratch whole, and stores their product — a block of the decoder's result — whole into the second output's buffer. -/
noncomputable def run6 (c : Dev nD) (i : grid0.Coords)
    (arg2 : Memref sig .tc .vmem S256x512 .f32) (harg2 : arg2.IsWhole) (arg3 : Memref sig .tc .vmem S256x4096 .f32) (harg3 : arg3.IsWhole)
    (arg4 : Memref sig .tc .vmem S512x512 .bf16) (harg4 : arg4.IsWhole) (arg5 : Memref sig .tc .vmem S512x256 .bf16) (harg5 : arg5.IsWhole)
    (arg6 : Memref sig .tc .vmem S256x128 .bf16) (harg6 : arg6.IsWhole) (arg7 : Memref sig .tc .vmem S128x256 .bf16) (harg7 : arg7.IsWhole)
    (arg8 : Memref sig .tc .vmem S256x512 .bf16) (harg8 : arg8.IsWhole) (arg9 : Memref sig .tc .vmem S512x512 .bf16) (harg9 : arg9.IsWhole)
    (arg10 : Memref sig .tc .vmem S256x128 .f32) (harg10 : arg10.IsWhole) (arg11 : Memref sig .tc .vmem S256x512 .f32) (harg11 : arg11.IsWhole)
    (arg12 : Memref sig .tc .vmem S4096x4096 .bf16) (harg12 : arg12.IsWhole) (arg13 : Memref sig .tc .vmem S4096x512 .bf16) (harg13 : arg13.IsWhole)
    (arg14 : Memref sig .tc .vmem S4096x512 .bf16) (harg14 : arg14.IsWhole) (arg15 : Memref sig .tc .vmem S4096x128 .bf16) (harg15 : arg15.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : ¬k0_cond6 i = 1#1) (hc7 : k0_cond7 i = 1#1)
    (xadj : Vec F S4096x4096 .bf16) (xta : Vec F S4096x512 .bf16) :
    { L11 : List (View.Piece (Elt F) S256x512 .f32) //
      ∀ (E : Set ℕ) (K : PUnit → sProp 𝕄),
        iprop(owns (c : Thread nD τ) arg12 fullShare xadj ∗ owns (c : Thread nD τ) arg13 fullShare xta ∗ (∃ d, owns (c : Thread nD τ) arg11 fullShare d)
            ∗ (iprop(owns (c : Thread nD τ) arg12 fullShare xadj
                ∗ owns (c : Thread nD τ) arg13 fullShare xta
                ∗ (∃ f, arg11.view.loc (c : Thread nD τ) ↦[arg11.view.set]{fullShare} arg11.view.writes (Elt F) f L11)) -∗ K ⟨⟩))
          ⊢ wp frame (wpE (defs₀ (F := F)) Variants.none c none) E
              (cc0__mega_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__mega_kernel_eq_skeleton]; unfold cc0__mega_kernel_skel
    unfold owns
    iintro ⟨⟨%f_arg12, %hf_arg12, H_arg12⟩, ⟨%f_arg13, %hf_arg13, H_arg13⟩, ⟨%d_arg11, %f_arg11, -, H_arg11⟩, Hk⟩
    obtain rfl := harg12.eq_unread hf_arg12; obtain rfl := harg13.eq_unread hf_arg13
    sl_exec (disch := first | exact hc1 | exact hc2 | exact hc3 | exact hc4 | exact hc5 | exact hc6 | exact hc7)
    sl_step
    iapply Hk
    isplitl [H_arg12]
    · iexists _; isplitr; · ipureintro; exact harg12.read_unread _
      iexact H_arg12
    isplitl [H_arg13]
    · iexists _; isplitr; · ipureintro; exact harg13.read_unread _
      iexact H_arg13
    iexists _; iexact H_arg11

end Cert.Sgae.WBody

end
-- ==== Proof.WRegion0Body.lean ====
/-
  (The same statements and proofs for the program as printed at the word level; only the program's name differs.)

  The first call's body obligation, layer by layer.

  At a point of layer l the invariant hands the body the four scratch buffers at contents of which the slab invariant
  holds; the inputs' buffers hold their blocks; the layer's run applies; its loads are the stacked blocks the invariant
  names, so its stores are the layer's blocks; the stored slab reads back as that block and the other slabs as before,
  so the invariant holds one point further; the windows the layer does not store into go back as they were found.
-/
import proofs.«146852_g64793876627462_cont_sun_c4_515_4_alg».proof.Proof.WRegion0Out
import proofs.«146852_g64793876627462_cont_sun_c4_515_4_alg».proof.Proof.WRegion0Inv
import proofs.«146852_g64793876627462_cont_sun_c4_515_4_alg».proof.Proof.WBody0a
import proofs.«146852_g64793876627462_cont_sun_c4_515_4_alg».proof.Proof.WBody0b
import proofs.«146852_g64793876627462_cont_sun_c4_515_4_alg».proof.Proof.WBody0c

set_option maxRecDepth 16384

noncomputable section

namespace Cert.Sgae.WRegion0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sgae.WBody Cert.Sgae.Slab

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- Each window's current staging memref at point `t`, as the pipeline passes it to the body, and its wholeness. -/
abbrev ms0 (t : Fin cfg0.N) : Memref sig .tc .vmem S256x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x512 .f32 := win0_9.stage (cfg0.slots t 9)
abbrev hs9 (t : Fin cfg0.N) : (ms9 t).IsWhole := hstage0_9 ((cfg0.slots t 9).cast nbuf0_9)

theorem hz : (![0, 0] : Fin 2 → Nat) = fun _ => 0 := funext fun a => by fin_cases a <;> rfl

/-- The point of its own layer and block. -/
theorem pt_self (t : Fin cfg0.N) (l : ℕ) (hl7 : l < 7) (hl : t.val / 16 = l) : pt l hl7 (blkOf t) = t :=
  Fin.ext (by show 16 * l + t.val % 16 = t.val; omega)

/-- What the body is called with at point `t`, the windows one by one, -/
def bodyPre (c : Dev nD) (t : Fin cfg0.N) : sProp 𝕄 :=
  iprop((dat0 (U := U) A0 c).Φ t.castSucc ∗ (dat0 (U := U) A0 c).owesAt () t.castSucc
    ∗ (∃ d, owns (c : Thread nD τ) (ms0 t) fullShare ((dat0 (U := U) A0 c).before 0 t d))
    ∗ (∃ d, owns (c : Thread nD τ) (ms1 t) fullShare ((dat0 (U := U) A0 c).before 1 t d))
    ∗ (∃ d, owns (c : Thread nD τ) (ms2 t) fullShare ((dat0 (U := U) A0 c).before 2 t d))
    ∗ (∃ d, owns (c : Thread nD τ) (ms3 t) fullShare ((dat0 (U := U) A0 c).before 3 t d))
    ∗ (∃ d, owns (c : Thread nD τ) (ms4 t) fullShare ((dat0 (U := U) A0 c).before 4 t d))
    ∗ (∃ d, owns (c : Thread nD τ) (ms5 t) fullShare ((dat0 (U := U) A0 c).before 5 t d))
    ∗ (∃ d, owns (c : Thread nD τ) (ms6 t) fullShare ((dat0 (U := U) A0 c).before 6 t d))
    ∗ (∃ d, owns (c : Thread nD τ) (ms7 t) fullShare ((dat0 (U := U) A0 c).before 7 t d))
    ∗ (∃ d, owns (c : Thread nD τ) (ms8 t) fullShare ((dat0 (U := U) A0 c).before 8 t d))
    ∗ (∃ d, owns (c : Thread nD τ) (ms9 t) fullShare ((dat0 (U := U) A0 c).before 9 t d)))

/-- and what it returns. -/
def bodyPost (c : Dev nD) (t : Fin cfg0.N) : sProp 𝕄 :=
  iprop((dat0 (U := U) A0 c).Φ t.succ ∗ (dat0 (U := U) A0 c).owesAt () t.succ
    ∗ (dat0 (U := U) A0 c).leavesExact 0 t
    ∗ (dat0 (U := U) A0 c).leavesExact 1 t
    ∗ (dat0 (U := U) A0 c).leavesExact 2 t
    ∗ (dat0 (U := U) A0 c).leavesExact 3 t
    ∗ (dat0 (U := U) A0 c).leavesExact 4 t
    ∗ (dat0 (U := U) A0 c).leavesExact 5 t
    ∗ (dat0 (U := U) A0 c).leavesExact 6 t
    ∗ (dat0 (U := U) A0 c).leavesExact 7 t
    ∗ (dat0 (U := U) A0 c).leavesExact 8 t
    ∗ (dat0 (U := U) A0 c).leavesExact 9 t)

/-! ## Layer 6 -/

/-- The block of the decoder's result the second output's buffer ends with. -/
theorem out9_eq (c : Dev nD) (t : Fin cfg0.N) (hl : t.val / 16 = 6) (xadj : Vec F S4096x4096 .bf16) (xta xtb : Vec F S4096x512 .bf16)
    (xzs : Vec F S4096x128 .bf16) (hI : Inv A0 c t.val xadj xta xtb xzs) (f : (ms9 t).view.ty.Contents (Elt F)) :
    (ms9 t).view.read (Elt F) ((ms9 t).view.writes (Elt F) f
      (run6 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((hcond7 t).mpr hl) xadj xta).1)
      = O9blk A0 c (blkOf t) := by
  have ht : t.val < 112 := lt_of_lt_of_eq t.isLt hN
  rw [View.read_writes_eq_canon _ _ _ (fun y => View.cover_of_tiledL _ S256x512.size (by sl_kernel_rfl) y)]
  unfold run6
  dsimp only
  rw [View.canon_unit_zero hz]
  simp only [View.readAt_eq_ld]
  show k0_pay10 _ _ = k0_pay10 (ADJblk A0 c (blkOf t)) (T6 A0 c)
  refine congrArg₂ k0_pay10 ?_ ?_
  · exact (congrArg (fun X => View.ld X _) (Memref.IsWhole.read_unread (Memref.isWhole_whole cc0_scratch0) xadj)).trans
      (hI.adj_rows A0 c (blkOf t) (by show 16 + t.val % 16 < t.val; omega) _ _ (hoff12 t))
  · exact (congrArg (fun X => View.ld X _) (Memref.IsWhole.read_unread (Memref.isWhole_whole cc0_scratch1) xta)).trans
      (hI.ta_t6 A0 c (by omega) _)

set_option maxHeartbeats 4000000 in
theorem sound6 (c : Dev nD) (t : Fin cfg0.N) (hl : t.val / 16 = 6) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_live A0 c t hl, after_9]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩⟩
  iapply ((run6 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) (fun h => by have := (hcond6 t).mp h; omega) ((hcond7 t).mpr hl) xadj xta).2 Set.univ _)
  isplitl [Hadj]; · iexact Hadj
  isplitl [Hta]; · iexact Hta
  isplitl [H9]; · iexists _; iexact H9
  iintro ⟨Hadj, Hta, ⟨%f9, H9⟩⟩
  isplitl [Hadj Hta Htb Hzs Hrest Hg]
  · isplitl [Hadj Hta Htb Hzs]
    · iexists xadj, xta, xtb, xzs
      isplitr; · ipureintro; exact hI.step6 A0 c (by omega)
      isplitl [Hadj]; · iexact Hadj
      isplitl [Hta]; · iexact Hta
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  unfold owns; iexists _; isplitr
  swap; · iexact H9
  ipureintro; exact out9_eq A0 c t hl xadj xta xtb xzs hI _

/-! ## Layer 0 -/

/-- The piece layer 0 stores: slab t of the first feature scratch, the block `(x block) · W1`. -/
theorem piece0 (c : Dev nD) (t : Fin cfg0.N) (hl : t.val / 16 = 0) (hn : t.val < 16) (xta : Vec F S4096x512 .bf16) :
    (run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).1
      = [(⟨Rect.unit (s := S4096x512) (k0_off1 (grid0.coords t)) S256x512.size (k0_off1_inb (grid0.coords t) ((hcond1 t).mpr hl)),
          T1blk A0 c ⟨t.val, hn⟩⟩ : View.Piece (Elt F) S4096x512 .bf16)] := by
  unfold run0
  dsimp only
  refine congrArg (fun w => [(⟨_, w⟩ : View.Piece (Elt F) S4096x512 .bf16)]) ?_
  have hp : pt 0 (by omega) (⟨t.val, hn⟩ : Fin 16) = t := Fin.ext (by show 16 * 0 + t.val = t.val; omega)
  unfold T1blk
  rw [hp]
  simp only [View.readAt_eq_ld]
  refine congrArg₂ k0_pay1 ?_ ?_
  · exact (congrArg (fun X => View.ld X _) ((hs0 t).read_unread _)).trans (View.ld_unit_zero hz _ _)
  · exact (congrArg (fun X => View.ld X _) ((hs2 t).read_unread _)).trans (View.ld_unit_zero hz _ _)

/-- The first feature scratch after the body at a point of layer 0. -/
def ta0 (c : Dev nD) (t : Fin cfg0.N) (hl : t.val / 16 = 0) (xta : Vec F S4096x512 .bf16) : Vec F S4096x512 .bf16 :=
  (scTa).view.read (Elt F) ((scTa).view.writes (Elt F) ((Memref.isWhole_whole cc0_scratch1).unread xta)
    (run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).1)

theorem inv0 (c : Dev nD) (t : Fin cfg0.N) (hl : t.val / 16 = 0) (xadj : Vec F S4096x4096 .bf16) (xta xtb : Vec F S4096x512 .bf16)
    (xzs : Vec F S4096x128 .bf16) (hI : Inv A0 c t.val xadj xta xtb xzs) :
    Inv A0 c (t.val + 1) xadj (ta0 (U := U) A0 c t hl xta) xtb xzs := by
  have ht : t.val < 112 := lt_of_lt_of_eq t.isLt hN
  have hn : t.val < 16 := by omega
  unfold ta0
  rw [piece0 A0 c t hl hn xta]
  obtain ⟨hnew, hold⟩ := slab_store (Val := Elt F) scTa (Memref.isWhole_whole cc0_scratch1) xta (k0_off1 (grid0.coords t)) 512
    (k0_off1_inb (grid0.coords t) ((hcond1 t).mpr hl)) (T1blk A0 c ⟨t.val, hn⟩) t.val ((hoff1 t).trans (by rw [Nat.mod_eq_of_lt hn]))
  exact hI.step0 A0 c hn _ (hnew _) (fun b hb => hold b.val 512 _ hb)

set_option maxHeartbeats 4000000 in
theorem sound0 (c : Dev nD) (t : Fin cfg0.N) (hl : t.val / 16 = 0) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run0 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) ((hcond1 t).mpr hl) (fun h => by have := (hcond2 t).mp h; omega) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 0 t) (iblk A0 c 2 t) xta).2 Set.univ _)
  isplitl [H0]; · iexact H0
  isplitl [H2]; · iexact H2
  isplitl [Hta]; · iexact Hta
  iintro ⟨H0, H2, Hta⟩
  isplitl [Hadj Hta Htb Hzs Hrest Hg]
  · isplitl [Hadj Hta Htb Hzs]
    · iexists xadj, (ta0 (U := U) A0 c t hl xta), xtb, xzs
      isplitr; · ipureintro; exact inv0 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 2 -/

/-- The piece layer 2 stores: the point's slab, holding the layer's block. -/
theorem piece2 (c : Dev nD) (t : Fin cfg0.N) (hl : t.val / 16 = 2) (xadj : Vec F S4096x4096 .bf16) (xta xtb : Vec F S4096x512 .bf16)
    (xzs : Vec F S4096x128 .bf16) (hI : Inv A0 c t.val xadj xta xtb xzs) :
    (run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).1
      = [(⟨Rect.unit (s := S4096x512) (k0_off5 (grid0.coords t)) S256x128.size (k0_off5_inb (grid0.coords t) ((hcond3 t).mpr hl)),
          T3blk A0 c ⟨t.val - 32, by omega⟩⟩ : View.Piece (Elt F) S4096x512 .bf16)] := by
  have ht : t.val < 112 := lt_of_lt_of_eq t.isLt hN
  unfold run2
  dsimp only
  refine congrArg (fun w => [(⟨_, w⟩ : View.Piece (Elt F) S4096x512 .bf16)]) ?_
  have hp : pt 2 (by omega) (⟨t.val - 32, by omega⟩ : Fin 16) = t := Fin.ext (by show 16 * 2 + (t.val - 32) = t.val; omega)
  have hb : (⟨t.val - 32, by omega⟩ : Fin 16) = blkOf t := Fin.ext (by show t.val - 32 = t.val % 16; omega)
  unfold T3blk
  rw [hp]
  simp only [View.readAt_eq_ld]
  refine congr (congr (congrArg k0_pay5 ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff4 t))
  · exact (congrArg (fun X => View.ld X _) (Memref.IsWhole.read_unread (Memref.isWhole_whole cc0_scratch2) xtb)).trans (hI.tb_t2 A0 c (by omega) (by omega) _)
  · exact (congrArg (fun X => View.ld X _) ((hs4 t).read_unread _)).trans (View.ld_unit_zero hz _ _)

/-- The written scratch buffer after the body at a point of layer 2. -/
def ta2 (c : Dev nD) (t : Fin cfg0.N) (hl : t.val / 16 = 2) (xadj : Vec F S4096x4096 .bf16) (xtb xta : Vec F S4096x512 .bf16) : Vec F S4096x512 .bf16 :=
  (scTa).view.read (Elt F) ((scTa).view.writes (Elt F) ((Memref.isWhole_whole cc0_scratch1).unread xta)
    (run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).1)

theorem inv2 (c : Dev nD) (t : Fin cfg0.N) (hl : t.val / 16 = 2) (xadj : Vec F S4096x4096 .bf16) (xta xtb : Vec F S4096x512 .bf16)
    (xzs : Vec F S4096x128 .bf16) (hI : Inv A0 c t.val xadj xta xtb xzs) :
    Inv A0 c (t.val + 1) xadj (ta2 (U := U) A0 c t hl xadj xtb xta) xtb xzs := by
  have ht : t.val < 112 := lt_of_lt_of_eq t.isLt hN
  unfold ta2
  rw [piece2 A0 c t hl xadj xta xtb xzs hI]
  obtain ⟨hnew, hold⟩ := slab_store (Val := Elt F) scTa (Memref.isWhole_whole cc0_scratch1) xta (k0_off5 (grid0.coords t)) 128
    (k0_off5_inb (grid0.coords t) ((hcond3 t).mpr hl)) (T3blk A0 c ⟨t.val - 32, by omega⟩) (t.val - 32)
    ((hoff5 t).trans (by rw [show t.val % 16 = t.val - 32 from by omega]))
  exact hI.step2 A0 c (by omega) (by omega) _ (hnew _) (fun b hb => hold b.val 128 _ hb)

set_option maxHeartbeats 4000000 in
theorem sound2 (c : Dev nD) (t : Fin cfg0.N) (hl : t.val / 16 = 2) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run2 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) ((hcond3 t).mpr hl) (fun h => by have := (hcond4 t).mp h; omega) (fun h => by have := (hcond5 t).mp h; omega) (fun h => by have := (hcond6 t).mp h; omega) (fun h => by have := (hcond7 t).mp h; omega) (iblk A0 c 4 t) xadj xtb xta).2 Set.univ _)
  isplitl [H4]; · iexact H4
  isplitl [Hadj]; · iexact Hadj
  isplitl [Htb]; · iexact Htb
  isplitl [Hta]; · iexact Hta
  iintro ⟨H4, Hadj, Htb, Hta⟩
  isplitl [Hadj Hta Htb Hzs Hrest Hg]
  · isplitl [Hadj Hta Htb Hzs]
    · iexists xadj, (ta2 (U := U) A0 c t hl xadj xtb xta), xtb, xzs
      isplitr; · ipureintro; exact inv2 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 4 -/

/-- The piece layer 4 stores: the point's slab, holding the layer's block. -/
theorem piece4 (c : Dev nD) (t : Fin cfg0.N) (hl : t.val / 16 = 4) (xadj : Vec F S4096x4096 .bf16) (xta xtb : Vec F S4096x512 .bf16)
    (xzs : Vec F S4096x128 .bf16) (hI : Inv A0 c t.val xadj xta xtb xzs) :
    (run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).1
      = [(⟨Rect.unit (s := S4096x512) (k0_off9 (grid0.coords t)) S256x256.size (k0_off9_inb (grid0.coords t) ((hcond5 t).mpr hl)),
          T4blk A0 c ⟨t.val - 64, by omega⟩⟩ : View.Piece (Elt F) S4096x512 .bf16)] := by
  have ht : t.val < 112 := lt_of_lt_of_eq t.isLt hN
  unfold run4
  dsimp only
  refine congrArg (fun w => [(⟨_, w⟩ : View.Piece (Elt F) S4096x512 .bf16)]) ?_
  have hp : pt 4 (by omega) (⟨t.val - 64, by omega⟩ : Fin 16) = t := Fin.ext (by show 16 * 4 + (t.val - 64) = t.val; omega)
  have hb : (⟨t.val - 64, by omega⟩ : Fin 16) = blkOf t := Fin.ext (by show t.val - 64 = t.val % 16; omega)
  unfold T4blk
  rw [hp]
  simp only [View.readAt_eq_ld]
  refine congr (congr (congrArg k0_pay8 ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff8 t))
  · exact (congrArg (fun X => View.ld X _) (Memref.IsWhole.read_unread (Memref.isWhole_whole cc0_scratch3) xzs)).trans (hI.zs_all A0 c (by omega) _)
  · exact (congrArg (fun X => View.ld X _) ((hs5 t).read_unread _)).trans (View.ld_unit_zero hz _ _)

/-- The written scratch buffer after the body at a point of layer 4. -/
def tb4 (c : Dev nD) (t : Fin cfg0.N) (hl : t.val / 16 = 4) (xadj : Vec F S4096x4096 .bf16) (xzs : Vec F S4096x128 .bf16) (xtb : Vec F S4096x512 .bf16) : Vec F S4096x512 .bf16 :=
  (scTb).view.read (Elt F) ((scTb).view.writes (Elt F) ((Memref.isWhole_whole cc0_scratch2).unread xtb)
    (run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).1)

theorem inv4 (c : Dev nD) (t : Fin cfg0.N) (hl : t.val / 16 = 4) (xadj : Vec F S4096x4096 .bf16) (xta xtb : Vec F S4096x512 .bf16)
    (xzs : Vec F S4096x128 .bf16) (hI : Inv A0 c t.val xadj xta xtb xzs) :
    Inv A0 c (t.val + 1) xadj xta (tb4 (U := U) A0 c t hl xadj xzs xtb) xzs := by
  have ht : t.val < 112 := lt_of_lt_of_eq t.isLt hN
  unfold tb4
  rw [piece4 A0 c t hl xadj xta xtb xzs hI]
  obtain ⟨hnew, hold⟩ := slab_store (Val := Elt F) scTb (Memref.isWhole_whole cc0_scratch2) xtb (k0_off9 (grid0.coords t)) 256
    (k0_off9_inb (grid0.coords t) ((hcond5 t).mpr hl)) (T4blk A0 c ⟨t.val - 64, by omega⟩) (t.val - 64)
    ((hoff9 t).trans (by rw [show t.val % 16 = t.val - 64 from by omega]))
  exact hI.step4 A0 c (by omega) (by omega) _ (hnew _) (fun b hb => hold b.val 256 _ hb)

set_option maxHeartbeats 4000000 in
theorem sound4 (c : Dev nD) (t : Fin cfg0.N) (hl : t.val / 16 = 4) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run4 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) ((hcond5 t).mpr hl) (fun h => by have := (hcond6 t).mp h; omega) (fun h => by have := (hcond7 t).mp h; omega) (iblk A0 c 5 t) xadj xzs xtb).2 Set.univ _)
  isplitl [H5]; · iexact H5
  isplitl [Hadj]; · iexact Hadj
  isplitl [Hzs]; · iexact Hzs
  isplitl [Htb]; · iexact Htb
  iintro ⟨H5, Hadj, Hzs, Htb⟩
  isplitl [Hadj Hta Htb Hzs Hrest Hg]
  · isplitl [Hadj Hta Htb Hzs]
    · iexists xadj, xta, (tb4 (U := U) A0 c t hl xadj xzs xtb), xzs
      isplitr; · ipureintro; exact inv4 A0 c t hl xadj xta xtb xzs hI
      isplitl [Hadj]; · iexact Hadj
      isplitl [Hta]; · iexact Hta
      isplitl [Htb]
      · unfold owns; iexists _; isplitr
        swap; · iexact Htb
        ipureintro; rfl
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 5 -/

/-- The piece layer 5 stores: the point's slab, holding the layer's block. -/
theorem piece5 (c : Dev nD) (t : Fin cfg0.N) (hl : t.val / 16 = 5) (xadj : Vec F S4096x4096 .bf16) (xta xtb : Vec F S4096x512 .bf16)
    (xzs : Vec F S4096x128 .bf16) (hI : Inv A0 c t.val xadj xta xtb xzs) :
    (run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).1
      = [(⟨Rect.unit (s := S4096x512) (k0_off11 (grid0.coords t)) S256x512.size (k0_off11_inb (grid0.coords t) ((hcond6 t).mpr hl)),
          T6blk A0 c ⟨t.val - 80, by omega⟩⟩ : View.Piece (Elt F) S4096x512 .bf16)] := by
  have ht : t.val < 112 := lt_of_lt_of_eq t.isLt hN
  unfold run5
  dsimp only
  refine congrArg (fun w => [(⟨_, w⟩ : View.Piece (Elt F) S4096x512 .bf16)]) ?_
  have hp : pt 5 (by omega) (⟨t.val - 80, by omega⟩ : Fin 16) = t := Fin.ext (by show 16 * 5 + (t.val - 80) = t.val; omega)
  have hb : (⟨t.val - 80, by omega⟩ : Fin 16) = blkOf t := Fin.ext (by show t.val - 80 = t.val % 16; omega)
  unfold T6blk
  rw [hp]
  simp only [View.readAt_eq_ld]
  refine congr (congr (congr (congrArg k0_pay9 ?_) ?_) ?_) ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff10 t))
  · exact (congrArg (fun X => View.ld X _) (Memref.IsWhole.read_unread (Memref.isWhole_whole cc0_scratch2) xtb)).trans (hI.tb_t4 A0 c (by omega) _)
  · exact (congrArg (fun X => View.ld X _) ((hs6 t).read_unread _)).trans (View.ld_unit_zero hz _ _)
  · exact (congrArg (fun X => View.ld X _) ((hs7 t).read_unread _)).trans (View.ld_unit_zero hz _ _)

/-- The written scratch buffer after the body at a point of layer 5. -/
def ta5 (c : Dev nD) (t : Fin cfg0.N) (hl : t.val / 16 = 5) (xadj : Vec F S4096x4096 .bf16) (xtb xta : Vec F S4096x512 .bf16) : Vec F S4096x512 .bf16 :=
  (scTa).view.read (Elt F) ((scTa).view.writes (Elt F) ((Memref.isWhole_whole cc0_scratch1).unread xta)
    (run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).1)

theorem inv5 (c : Dev nD) (t : Fin cfg0.N) (hl : t.val / 16 = 5) (xadj : Vec F S4096x4096 .bf16) (xta xtb : Vec F S4096x512 .bf16)
    (xzs : Vec F S4096x128 .bf16) (hI : Inv A0 c t.val xadj xta xtb xzs) :
    Inv A0 c (t.val + 1) xadj (ta5 (U := U) A0 c t hl xadj xtb xta) xtb xzs := by
  have ht : t.val < 112 := lt_of_lt_of_eq t.isLt hN
  unfold ta5
  rw [piece5 A0 c t hl xadj xta xtb xzs hI]
  obtain ⟨hnew, hold⟩ := slab_store (Val := Elt F) scTa (Memref.isWhole_whole cc0_scratch1) xta (k0_off11 (grid0.coords t)) 512
    (k0_off11_inb (grid0.coords t) ((hcond6 t).mpr hl)) (T6blk A0 c ⟨t.val - 80, by omega⟩) (t.val - 80)
    ((hoff11 t).trans (by rw [show t.val % 16 = t.val - 80 from by omega]))
  exact hI.step5 A0 c (by omega) (by omega) _ (hnew _) (fun b hb => hold b.val 512 _ hb)

set_option maxHeartbeats 4000000 in
theorem sound5 (c : Dev nD) (t : Fin cfg0.N) (hl : t.val / 16 = 5) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run5 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) (fun h => by have := (hcond4 t).mp h; omega) (fun h => by have := (hcond5 t).mp h; omega) ((hcond6 t).mpr hl) (fun h => by have := (hcond7 t).mp h; omega) (iblk A0 c 6 t) (iblk A0 c 7 t) xadj xtb xta).2 Set.univ _)
  isplitl [H6]; · iexact H6
  isplitl [H7]; · iexact H7
  isplitl [Hadj]; · iexact Hadj
  isplitl [Htb]; · iexact Htb
  isplitl [Hta]; · iexact Hta
  iintro ⟨H6, H7, Hadj, Htb, Hta⟩
  isplitl [Hadj Hta Htb Hzs Hrest Hg]
  · isplitl [Hadj Hta Htb Hzs]
    · iexists xadj, (ta5 (U := U) A0 c t hl xadj xtb xta), xtb, xzs
      isplitr; · ipureintro; exact inv5 A0 c t hl xadj xta xtb xzs hI
      isplitl [Hadj]; · iexact Hadj
      isplitl [Hta]
      · unfold owns; iexists _; isplitr
        swap; · iexact Hta
        ipureintro; rfl
      isplitl [Htb]; · iexact Htb
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

/-! ## Layer 3 -/

/-- The piece layer 3 stores into the decoder's scratch copy: the point's slab, holding the encoder's block. -/
theorem piece3 (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) :
    (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.1
      = [(⟨Rect.unit (s := S4096x128) (k0_off7 (grid0.coords t)) S256x128.size (k0_off7_inb (grid0.coords t) ((hcond4 t).mpr hl)),
          ZSblk A0 c ⟨t.val - 48, by omega⟩⟩ : View.Piece (Elt F) S4096x128 .bf16)] := by
  have ht : t.val < 112 := lt_of_lt_of_eq t.isLt hN
  unfold run3
  dsimp only
  refine congrArg (fun w => [(⟨_, w⟩ : View.Piece (Elt F) S4096x128 .bf16)]) ?_
  have hb : (⟨t.val - 48, by omega⟩ : Fin 16) = blkOf t := Fin.ext (by show t.val - 48 = t.val % 16; omega)
  unfold ZSblk k0_pay7
  simp only [View.readAt_eq_ld]
  refine congrArg (fun X => shapeCast S256x128 (truncf .bf16 X bitsLt_bf16_f32) shapeCasts_S256x128_S256x128) ?_
  refine congrArg₂ k0_pay6 ?_ ?_
  · exact (congrArg (fun X => View.ld X _) (Memref.IsWhole.read_unread (Memref.isWhole_whole cc0_scratch0) xadj)).trans
      (hb ▸ hI.adj_rows A0 c (blkOf t) (by show 16 + t.val % 16 < t.val; omega) _ _ (hoff6 t))
  · exact (congrArg (fun X => View.ld X _) (Memref.IsWhole.read_unread (Memref.isWhole_whole cc0_scratch1) xta)).trans (hI.ta_t3 A0 c (by omega) (by omega) _)

/-- The block of the encoder's result the first output's buffer ends with. -/
theorem out8_eq (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) (f : (ms8 t).view.ty.Contents (Elt F)) :
    (ms8 t).view.read (Elt F) ((ms8 t).view.writes (Elt F) f (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).1) = O8blk A0 c (blk8 t) := by
  have ht : t.val < 112 := lt_of_lt_of_eq t.isLt hN
  have hb8 : blk8 t = blkOf t := dif_pos hl
  have hb : blkOf t = blkOf t := rfl
  rw [View.read_writes_eq_canon _ _ _ (fun y => View.cover_of_tiledL _ S256x128.size (by sl_kernel_rfl) y)]
  unfold run3
  dsimp only
  rw [View.canon_unit_zero hz]
  simp only [View.readAt_eq_ld]
  rw [hb8]
  show k0_pay6 _ _ = k0_pay6 (ADJblk A0 c (blkOf t)) (T3 A0 c)
  refine congrArg₂ k0_pay6 ?_ ?_
  · exact (congrArg (fun X => View.ld X _) (Memref.IsWhole.read_unread (Memref.isWhole_whole cc0_scratch0) xadj)).trans
      (hI.adj_rows A0 c (blkOf t) (by show 16 + t.val % 16 < t.val; omega) _ _ (hoff6 t))
  · exact (congrArg (fun X => View.ld X _) (Memref.IsWhole.read_unread (Memref.isWhole_whole cc0_scratch1) xta)).trans (hI.ta_t3 A0 c (by omega) (by omega) _)

/-- The decoder's scratch copy after the body at a point of layer 3. -/
def zs3 (c : Dev nD) (t : Fin cfg0.N) (hl : t.val / 16 = 3) (xadj : Vec F S4096x4096 .bf16) (xta : Vec F S4096x512 .bf16)
    (xzs : Vec F S4096x128 .bf16) : Vec F S4096x128 .bf16 :=
  (scZs).view.read (Elt F) ((scZs).view.writes (Elt F) ((Memref.isWhole_whole cc0_scratch3).unread xzs) (run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.1)

theorem inv3 (c : Dev nD) (t : Fin cfg0.N) (hl : t.val / 16 = 3) (xadj : Vec F S4096x4096 .bf16) (xta xtb : Vec F S4096x512 .bf16)
    (xzs : Vec F S4096x128 .bf16) (hI : Inv A0 c t.val xadj xta xtb xzs) :
    Inv A0 c (t.val + 1) xadj xta xtb (zs3 (U := U) c t hl xadj xta xzs) := by
  have ht : t.val < 112 := lt_of_lt_of_eq t.isLt hN
  unfold zs3
  rw [piece3 A0 c t hl xadj xta xtb xzs hI]
  obtain ⟨hnew, hold⟩ := slab_store (Val := Elt F) scZs (Memref.isWhole_whole cc0_scratch3) xzs (k0_off7 (grid0.coords t)) 128
    (k0_off7_inb (grid0.coords t) ((hcond4 t).mpr hl)) (ZSblk A0 c ⟨t.val - 48, by omega⟩) (t.val - 48)
    ((hoff7 t).trans (by rw [show t.val % 16 = t.val - 48 from by omega]))
  exact hI.step3 A0 c (by omega) (by omega) _ (hnew _) (fun b hb => hold b.val 128 _ hb)

set_option maxHeartbeats 4000000 in
theorem sound3 (c : Dev nD) (t : Fin cfg0.N) (hl : t.val / 16 = 3) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega), leaves8_live A0 c t hl, after_8]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iapply ((run3 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) (fun h => by have := (hcond2 t).mp h; omega) (fun h => by have := (hcond3 t).mp h; omega) ((hcond4 t).mpr hl) (fun h => by have := (hcond5 t).mp h; omega) (fun h => by have := (hcond6 t).mp h; omega) (fun h => by have := (hcond7 t).mp h; omega) xadj xta xzs).2.2 Set.univ _)
  isplitl [Hadj]; · iexact Hadj
  isplitl [Hta]; · iexact Hta
  isplitl [H8]; · iexists _; iexact H8
  isplitl [Hzs]; · iexact Hzs
  iintro ⟨Hadj, Hta, ⟨%f8, H8⟩, Hzs⟩
  isplitl [Hadj Hta Htb Hzs Hrest Hg]
  · isplitl [Hadj Hta Htb Hzs]
    · iexists xadj, xta, xtb, (zs3 (U := U) c t hl xadj xta xzs)
      isplitr; · ipureintro; exact inv3 A0 c t hl xadj xta xtb xzs hI
      isplitl [Hadj]; · iexact Hadj
      isplitl [Hta]; · iexact Hta
      isplitl [Htb]; · iexact Htb
      unfold owns; iexists _; isplitr
      swap; · iexact Hzs
      ipureintro; rfl
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact out8_eq A0 c t hl xadj xta xtb xzs hI _
  iexact H9

/-! ## Layer 1 -/

/-- The piece layer 1 stores into the adjacency scratch: the point's slab, holding the adjacency block. -/
theorem piece1a (c : Dev nD) (t : Fin cfg0.N) (hl : t.val / 16 = 1) (xadj : Vec F S4096x4096 .bf16) (xta xtb : Vec F S4096x512 .bf16) :
    (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).1
      = [(⟨Rect.unit (s := S4096x4096) (k0_off2 (grid0.coords t)) S256x4096.size (k0_off2_inb (grid0.coords t) ((hcond2 t).mpr hl)),
          ADJblk A0 c ⟨t.val - 16, by omega⟩⟩ : View.Piece (Elt F) S4096x4096 .bf16)] := by
  have ht : t.val < 112 := lt_of_lt_of_eq t.isLt hN
  unfold run1
  dsimp only
  refine congrArg (fun w => [(⟨_, w⟩ : View.Piece (Elt F) S4096x4096 .bf16)]) ?_
  have hp : pt 1 (by omega) (⟨t.val - 16, by omega⟩ : Fin 16) = t := Fin.ext (by show 16 * 1 + (t.val - 16) = t.val; omega)
  unfold ADJblk
  rw [hp]
  simp only [View.readAt_eq_ld]
  refine congrArg k0_pay3 ?_
  exact (congrArg (fun X => View.ld X _) ((hs1 t).read_unread _)).trans (View.ld_unit_zero hz _ _)

/-- The piece layer 1 stores into the second feature scratch: the point's slab (left 256 columns), holding `(adj block · t1) · W2`. -/
theorem piece1b (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) :
    (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.1
      = [(⟨Rect.unit (s := S4096x512) (k0_off3 (grid0.coords t)) S256x256.size (k0_off3_inb (grid0.coords t) ((hcond2 t).mpr hl)),
          T2blk A0 c ⟨t.val - 16, by omega⟩⟩ : View.Piece (Elt F) S4096x512 .bf16)] := by
  have ht : t.val < 112 := lt_of_lt_of_eq t.isLt hN
  unfold run1
  dsimp only
  refine congrArg (fun w => [(⟨_, w⟩ : View.Piece (Elt F) S4096x512 .bf16)]) ?_
  have hp : pt 1 (by omega) (⟨t.val - 16, by omega⟩ : Fin 16) = t := Fin.ext (by show 16 * 1 + (t.val - 16) = t.val; omega)
  unfold T2blk
  rw [hp]
  simp only [View.readAt_eq_ld]
  refine congr (congr (congrArg k0_pay4 ?_) ?_) ?_
  · exact (congrArg (fun X => View.ld X _) ((hs1 t).read_unread _)).trans (View.ld_unit_zero hz _ _)
  · exact (congrArg (fun X => View.ld X _) (Memref.IsWhole.read_unread (Memref.isWhole_whole cc0_scratch1) xta)).trans (hI.ta_t1 A0 c (by omega) (by omega) _)
  · exact (congrArg (fun X => View.ld X _) ((hs3 t).read_unread _)).trans (View.ld_unit_zero hz _ _)

/-- The adjacency scratch and the second feature scratch after the body at a point of layer 1. -/
def adj1 (c : Dev nD) (t : Fin cfg0.N) (hl : t.val / 16 = 1) (xadj : Vec F S4096x4096 .bf16) (xta xtb : Vec F S4096x512 .bf16) : Vec F S4096x4096 .bf16 :=
  (scAdj).view.read (Elt F) ((scAdj).view.writes (Elt F) ((Memref.isWhole_whole cc0_scratch0).unread xadj) (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).1)
def tb1 (c : Dev nD) (t : Fin cfg0.N) (hl : t.val / 16 = 1) (xadj : Vec F S4096x4096 .bf16) (xta xtb : Vec F S4096x512 .bf16) : Vec F S4096x512 .bf16 :=
  (scTb).view.read (Elt F) ((scTb).view.writes (Elt F) ((Memref.isWhole_whole cc0_scratch2).unread xtb) (run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.1)

/-- The invariant one point further in layer 1, for any two piece lists that are the two slabs with their blocks. -/
theorem inv1_of (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) (ht : t.val < 112)
    (L12 : List (View.Piece (Elt F) S4096x4096 .bf16)) (L14 : List (View.Piece (Elt F) S4096x512 .bf16))
    (h12 : L12 = [(⟨Rect.unit (s := S4096x4096) (k0_off2 (grid0.coords t)) S256x4096.size (k0_off2_inb (grid0.coords t) ((hcond2 t).mpr hl)),
          ADJblk A0 c ⟨t.val - 16, by omega⟩⟩ : View.Piece (Elt F) S4096x4096 .bf16)])
    (h14 : L14 = [(⟨Rect.unit (s := S4096x512) (k0_off3 (grid0.coords t)) S256x256.size (k0_off3_inb (grid0.coords t) ((hcond2 t).mpr hl)),
          T2blk A0 c ⟨t.val - 16, by omega⟩⟩ : View.Piece (Elt F) S4096x512 .bf16)]) :
    Inv A0 c (t.val + 1) ((scAdj).view.read (Elt F) ((scAdj).view.writes (Elt F) ((Memref.isWhole_whole cc0_scratch0).unread xadj) L12)) xta
      ((scTb).view.read (Elt F) ((scTb).view.writes (Elt F) ((Memref.isWhole_whole cc0_scratch2).unread xtb) L14)) xzs := by
  subst h12 h14
  obtain ⟨hnewA, holdA⟩ := slab_store (Val := Elt F) scAdj (Memref.isWhole_whole cc0_scratch0) xadj (k0_off2 (grid0.coords t)) 4096
    (k0_off2_inb (grid0.coords t) ((hcond2 t).mpr hl)) (ADJblk A0 c ⟨t.val - 16, by omega⟩) (t.val - 16)
    ((hoff2 t).trans (by rw [show t.val % 16 = t.val - 16 from by omega]))
  obtain ⟨hnewB, holdB⟩ := slab_store (Val := Elt F) scTb (Memref.isWhole_whole cc0_scratch2) xtb (k0_off3 (grid0.coords t)) 256
    (k0_off3_inb (grid0.coords t) ((hcond2 t).mpr hl)) (T2blk A0 c ⟨t.val - 16, by omega⟩) (t.val - 16)
    ((hoff3 t).trans (by rw [show t.val % 16 = t.val - 16 from by omega]))
  exact hI.step1 A0 c (by omega) (by omega) _ _ (hnewA _) (fun b hb => holdA b.val 4096 _ hb) (hnewB _) (fun b hb => holdB b.val 256 _ hb)

theorem inv1 (c : Dev nD) (t : Fin cfg0.N) (hl : t.val / 16 = 1) (xadj : Vec F S4096x4096 .bf16) (xta xtb : Vec F S4096x512 .bf16)
    (xzs : Vec F S4096x128 .bf16) (hI : Inv A0 c t.val xadj xta xtb xzs) :
    Inv A0 c (t.val + 1) (adj1 (U := U) A0 c t hl xadj xta xtb) xta (tb1 (U := U) A0 c t hl xadj xta xtb) xzs :=
  inv1_of A0 c t hl xadj xta xtb xzs hI (lt_of_lt_of_eq t.isLt hN) _ _ (piece1a (U := U) A0 c t hl xadj xta xtb)
    (piece1b (U := U) A0 c t hl xadj xta xtb xzs hI)

set_option maxHeartbeats 4000000 in
theorem sound1 (c : Dev nD) (t : Fin cfg0.N) (hl : t.val / 16 = 1) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  unfold bodyPre bodyPost bodyAt0
  simp only [before_0, before_1, before_2, before_3, before_4, before_5, before_6, before_7]
  rw [leaves_in A0 c 0 (by decide) t, leaves_in A0 c 1 (by decide) t, leaves_in A0 c 2 (by decide) t, leaves_in A0 c 3 (by decide) t,
    leaves_in A0 c 4 (by decide) t, leaves_in A0 c 5 (by decide) t, leaves_in A0 c 6 (by decide) t, leaves_in A0 c 7 (by decide) t,
    after_0, after_1, after_2, after_3, after_4, after_5, after_6, after_7, leaves9_idle A0 c t (by omega)]
  rw [show (dat0 (U := U) A0 c).owesAt () t.succ = (dat0 (U := U) A0 c).owesAt () t.castSucc from rfl]
  rw [show (dat0 (U := U) A0 c).Φ t.castSucc = PhiS A0 c t.val from rfl, show (dat0 (U := U) A0 c).Φ t.succ = PhiS A0 c (t.val + 1) from rfl]
  unfold PhiS
  iintro ⟨⟨⟨%xadj, %xta, %xtb, %xzs, %hI, Hadj, Hta, Htb, Hzs⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  iapply ((run1 (Ix := Unit) (U := U) (Lvl := ℕ) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scAdj (Memref.isWhole_whole _) scTa (Memref.isWhole_whole _) scTb (Memref.isWhole_whole _) scZs (Memref.isWhole_whole _) (fun h => by have := (hcond1 t).mp h; omega) ((hcond2 t).mpr hl) (fun h => by have := (hcond3 t).mp h; omega) (fun h => by have := (hcond4 t).mp h; omega) (fun h => by have := (hcond5 t).mp h; omega) (fun h => by have := (hcond6 t).mp h; omega) (fun h => by have := (hcond7 t).mp h; omega) (iblk A0 c 1 t) (iblk A0 c 3 t) xadj xta xtb).2.2 Set.univ _)
  isplitl [H1]; · iexact H1
  isplitl [H3]; · iexact H3
  isplitl [Hta]; · iexact Hta
  isplitl [Hadj]; · iexact Hadj
  isplitl [Htb]; · iexact Htb
  iintro ⟨H1, H3, Hta, Hadj, Htb⟩
  isplitl [Hadj Hta Htb Hzs Hrest Hg]
  · isplitl [Hadj Hta Htb Hzs]
    · iexists (adj1 (U := U) A0 c t hl xadj xta xtb), xta, (tb1 (U := U) A0 c t hl xadj xta xtb), xzs
      isplitr; · ipureintro; exact inv1 A0 c t hl xadj xta xtb xzs hI
      isplitl [Hadj]
      · unfold owns; iexists _; isplitr
        swap; · iexact Hadj
        ipureintro; rfl
      isplitl [Hta]; · iexact Hta
      isplitl [Htb]
      · unfold owns; iexists _; isplitr
        swap; · iexact Htb
        ipureintro; rfl
      iexact Hzs
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8_idle A0 c t (by omega)); iexact H8
  iexact H9

end Cert.Sgae.WRegion0

end
-- ==== Proof.WRegion0Call.lean ====
/-
  (The same statements and proofs for the program as printed at the word level; only the program's name differs.)

  The first call's record.

  Every grid point lies in one of the seven layers, so the body obligation holds at every point; with the proof data's
  arrays the buffers' contents at entry and the invariant starting from and ending at "every scratch buffer at
  something", this is the record the two-call run asks of the first call.
-/
import proofs.«146852_g64793876627462_cont_sun_c4_515_4_alg».proof.Proof.WRegion0Body
import proofs.«146852_g64793876627462_cont_sun_c4_515_4_alg».proof.Proof.WTwoRegions

set_option maxRecDepth 16384

noncomputable section

namespace Cert.Sgae.WRegion0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {U : Type} [URA U]

local notation "𝕄" => MT nD τ sig Unit (Elt F) ℕ U ℕ

variable (A0 : (c : Dev nD) → (b : Ref sig .tc) → Buf (Elt F) ((c : Thread nD τ).loc b))

/-- The body at any point: the point's layer decides which run applies. -/
theorem sound_body (c : Dev nD) (t : Fin cfg0.N) :
    bodyPre (U := U) A0 c t ⊢ wp frame (wpE (defs₀ (F := F)) Variants.none c none) Set.univ (bodyAt0 t) (fun _ => bodyPost (U := U) A0 c t) := by
  have ht : t.val < 112 := lt_of_lt_of_eq t.isLt hN
  have h : t.val / 16 = 0 ∨ t.val / 16 = 1 ∨ t.val / 16 = 2 ∨ t.val / 16 = 3 ∨ t.val / 16 = 4 ∨ t.val / 16 = 5 ∨ t.val / 16 = 6 := by omega
  rcases h with h | h | h | h | h | h | h
  · exact sound0 A0 c t h
  · exact sound1 A0 c t h
  · exact sound2 A0 c t h
  · exact sound3 A0 c t h
  · exact sound4 A0 c t h
  · exact sound5 A0 c t h
  · exact sound6 A0 c t h

/-- The library's body obligation, at every point. -/
theorem body_obligation (c : Dev nD) : BodyObligation (dat0 (U := U) A0 c) (defs₀ (F := F)) Variants.none () Set.univ := fun t => by
  rw [bigSep_W0, bigSep_W0]
  exact sound_body A0 c t

/-- The first call's record, from the buffers' contents after the host stretch. -/
def call0 (m : (ℓ : Loc nD τ sig) → Buf (Elt F) ℓ) : Cert.Sgae.WRun.Call0 (F := F) m where
  dat c := dat0 (U := Pipeline.UD sig nD τ) (Cert.Sgae.WRun.Vh m) c
  hA c w := A_eq (Cert.Sgae.WRun.Vh m) c w
  hq _ _ := rfl
  howed _ _ := rfl
  hrec _ _ := rfl
  hbody c := body_obligation (Cert.Sgae.WRun.Vh m) c
  hin c := hin (Cert.Sgae.WRun.Vh m) c
  hout c := hout (Cert.Sgae.WRun.Vh m) c

end Cert.Sgae.WRegion0

end
-- ==== Proof.lean ====
/-
  The certificate of the six-layer graph auto-encoder kernel against its reference.

  The reference computes, from a feature matrix `x`, an adjacency matrix `adj` and six weight matrices, the
  encoder `zs = adj · ((adj · ((adj · (x · W1)) · W2)) · W3)`, the decoder `zh` of the same shape of three
  layers `adj · (z · W)` applied to `zs`, and the reconstructed adjacency whose entry (p, q) is the logistic
  function of the inner product of rows p and q of `zs` plus that of `zh`.  The kernel computes the same in two
  calls: one call runs the six propagation layers block of 256 rows by block, keeping the intermediate matrices
  and a copy of `adj` in on-chip scratch buffers, with the decoder's first two layers grouped as
  `(adj · z) · W`; a second call forms the reconstruction slab of 512 rows by slab, the logistic function in its
  half-angle form `1/2 * tanh (a / 2) + 1/2`.

  What is proved here, module by module:
  * `Spec`        the specification; associativity of the matrix product on real entries; the two groupings of
                  the decoder agree; the two spellings of the logistic function agree on real numbers (`Logistic`);
  * `RefIsSpec`, `RefRun`   the reference's run ends with the specification's three results, and its frame;
  * `FiniteArgs`  under the precondition every entry of every argument is a real number;
  * `KernelPayloads`  every value a kernel body stores is the specification's matrix product (or row inner
                  products and the half-angle logistic function) of the values it loaded;
  * `Bridge`      the algebraic claim and the idealized kernel's frame FROM the statement `KernelValueRun`: the
                  idealized kernel's run ends with the encoder, the regrouped decoder and the half-angle
                  reconstruction of its arguments.
  * `Body0a`, `Body0b`, `Body0c`, `Body1`  the first call's body run in each of its seven layers, and the second
                  call's body: from buffers at given contents, what each leaves (the stored pieces written);
  * `Region1Body`, `Region1Data`, `Region1Value`  the second call complete: its proof data (the two windows on each
                  result array at the two halves of the full share), its body obligation at every grid point, and
                  that its output array ends at the half-angle reconstruction of what the two result arrays held;
  * `TwoRegions`  the whole program's run over the rule for a program of several calls — the host stretch, the first
                  call, the second call, with the second call's record complete — FROM a record `Call0` of the first
                  call's proof data: their arrays are the buffers at entry, the body obligation holds at every grid
                  point, the invariant starts and ends at "every scratch buffer at something"; `KernelRun` reads the
                  result through the bridge.  `WRegion1Body`, `WRegion1Data`, `WTwoRegions` are the same for the
                  program as printed at the word level.
  * `Slabs`, `Region0Facts`, `Region0Terms`, `Region0Inv`  the first call's bookkeeping: the grid decided point by
                  point; the block each layer stores, as a function of the input blocks and the stacked earlier layers;
                  the invariant on the four scratch buffers (every slab of 256 rows a family of stores has written, and
                  no later family has begun to overwrite, holds its block); what the invariant gives each layer's loads
                  and how each layer advances it;
  * `Region0Data`, `Region0Out`, `Region0Body`, `Region0Call`  the first call's proof data, its two output windows through
                  the grid (the encoder's last block waits in its buffer through the 48 points of the last three layers
                  and is written back at the last point), the body obligation layer by layer, and the record;
  * `Stacks`, `Region0Value`, `KernelFinal`  at the ideal reading the stacked blocks are whole matrix products, so the
                  first call's two output arrays end at the encoder and the regrouped decoder of the arguments.
  The `W…` modules are the same statements and proofs for the program as printed at the word level, from which the
  word-level kernel's frame follows.
-/
import proofs.«146852_g64793876627462_cont_sun_c4_515_4_alg».proof.Defs
import proofs.«146852_g64793876627462_cont_sun_c4_515_4_alg».proof.Proof.Gen.Kernel
import proofs.«146852_g64793876627462_cont_sun_c4_515_4_alg».proof.Proof.Gen.Kernel.Skeleton
import proofs.«146852_g64793876627462_cont_sun_c4_515_4_alg».proof.Proof.Gen.Kernel.Launch
import proofs.«146852_g64793876627462_cont_sun_c4_515_4_alg».proof.Proof.Gen.Kernel.Regions
import proofs.«146852_g64793876627462_cont_sun_c4_515_4_alg».proof.Proof.Gen.Kernel.Points
import proofs.«146852_g64793876627462_cont_sun_c4_515_4_alg».proof.Proof.Gen.KernelIdeal
import proofs.«146852_g64793876627462_cont_sun_c4_515_4_alg».proof.Proof.Gen.KernelIdeal.Skeleton
import proofs.«146852_g64793876627462_cont_sun_c4_515_4_alg».proof.Proof.Gen.KernelIdeal.Launch
import proofs.«146852_g64793876627462_cont_sun_c4_515_4_alg».proof.Proof.Gen.KernelIdeal.Regions
import proofs.«146852_g64793876627462_cont_sun_c4_515_4_alg».proof.Proof.Gen.KernelIdeal.Points
import proofs.«146852_g64793876627462_cont_sun_c4_515_4_alg».proof.Proof.Gen.ReferenceIdeal
import proofs.«146852_g64793876627462_cont_sun_c4_515_4_alg».proof.Proof.Gen.Pre_finite_inputs
import proofs.«146852_g64793876627462_cont_sun_c4_515_4_alg».proof.Proof.Bridge
import proofs.«146852_g64793876627462_cont_sun_c4_515_4_alg».proof.Proof.KernelPayloads
import proofs.«146852_g64793876627462_cont_sun_c4_515_4_alg».proof.Proof.Blocks
import proofs.«146852_g64793876627462_cont_sun_c4_515_4_alg».proof.Proof.Body0a
import proofs.«146852_g64793876627462_cont_sun_c4_515_4_alg».proof.Proof.Body0b
import proofs.«146852_g64793876627462_cont_sun_c4_515_4_alg».proof.Proof.Body0c
import proofs.«146852_g64793876627462_cont_sun_c4_515_4_alg».proof.Proof.Body1
import proofs.«146852_g64793876627462_cont_sun_c4_515_4_alg».proof.Proof.KernelRun
import proofs.«146852_g64793876627462_cont_sun_c4_515_4_alg».proof.Proof.KernelFinal
import proofs.«146852_g64793876627462_cont_sun_c4_515_4_alg».proof.Proof.WTwoRegions
import proofs.«146852_g64793876627462_cont_sun_c4_515_4_alg».proof.Proof.WRegion0Call
import Idealize.ShloMosaic.Adequacy
import Idealize.ShloMosaic.Init

noncomputable section

namespace Cert.Proof

open Idealize.ShloMosaic Idealize.SL.Sem

/-- The first call's record at the word level. -/
theorem call0_word : ∀ m : (ℓ : Loc Cert.Kernel.nD Cert.Kernel.τ Cert.Kernel.sig) → Buf (Elt Bits) ℓ,
    Nonempty (Cert.Sgae.WRun.Call0 (F := Bits) m) := fun m => ⟨Cert.Sgae.WRegion0.call0 m⟩

/-- The first call's record at the ideal reading, whose two output arrays end at the encoder and at the regrouped
    decoder of the arguments. -/
theorem call0_ideal : Cert.Sgae.KernelRun.Call0Spec := Cert.Sgae.Final.call0_spec

/-- The word-level kernel runs to the end, faults nowhere and leaves its arguments unchanged. -/
theorem frame_kernel : Cert.frame_Kernel := fun m ρ _ => by
  obtain ⟨K0⟩ := call0_word m
  exact (θ_run Cert.Kernel.defs _ _).mono (fun _ h c => (h c).2.2.2) (Cert.Sgae.WRun.run_named m ρ K0)

/-- The idealized kernel's run ends with the encoder, the regrouped decoder and the half-angle reconstruction of its
    arguments, which it leaves unchanged. -/
theorem kernel_value_run : Cert.Sgae.Bridge.KernelValueRun := Cert.Sgae.KernelRun.kernel_value_run call0_ideal

theorem claim : Cert.Claim :=
  ⟨Cert.Kernel.Gen.facts, Cert.KernelIdeal.Gen.facts, Cert.ReferenceIdeal.Gen.facts, Cert.Pre_finite_inputs.Gen.facts,
    frame_kernel, Cert.Sgae.Bridge.frame_of_run kernel_value_run, Cert.Sgae.RefRun.frame, trivial,
    Cert.Sgae.Bridge.algebraic_of_run kernel_value_run⟩

end Cert.Proof

end
